-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)) (v5 : (c : Dev Cert.KernelIdeal.nD) → Buf (Elt Ideal) ((c.tc : Thread Cert.KernelIdeal.nD Cert.KernelIdeal.τ).loc Cert.KernelIdeal.main_v11)) (v6 : (c : Dev Cert.KernelIdeal.nD) → Buf (Elt Ideal) ((c.tc : Thread Cert.KernelIdeal.nD Cert.KernelIdeal.τ).loc Cert.KernelIdeal.main_v12)) (v7 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_v11) = v5 c
          ∧ r.2.mem ((c.tc : Thread Cert.KernelIdeal.nD Cert.KernelIdeal.τ).loc Cert.KernelIdeal.main_v12) = v6 c
          ∧ r.2.mem ((c.tc : Thread Cert.KernelIdeal.nD Cert.KernelIdeal.τ).loc Cert.KernelIdeal.main_v18) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_v8) = v3 c
          ∧ r.2.mem ((c.tc : Thread Cert.ReferenceIdeal.nD Cert.ReferenceIdeal.τ).loc Cert.ReferenceIdeal.main_v11) = v4 c
          ∧ r.2.mem ((c.tc : Thread Cert.ReferenceIdeal.nD Cert.ReferenceIdeal.τ).loc Cert.ReferenceIdeal.main_v17) = v5 c
          ∧ r.2.mem ((c.tc : Thread Cert.ReferenceIdeal.nD Cert.ReferenceIdeal.τ).loc Cert.ReferenceIdeal.main_v20) = v6 c
          ∧ r.2.mem ((c.tc : Thread Cert.ReferenceIdeal.nD Cert.ReferenceIdeal.τ).loc Cert.ReferenceIdeal.main_v26) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048 : Shape := ⟨2, ![1, 2048]⟩
abbrev S4096x2048 : Shape := ⟨2, ![4096, 2048]⟩
abbrev S4096x4096 : Shape := ⟨2, ![4096, 4096]⟩
abbrev S2048x4096 : Shape := ⟨2, ![2048, 4096]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S2048x4096 : S_.BroadcastsInDim S2048x4096 (![] : Fin 0 → Fin S2048x4096.rank)
  reducesTo_S2048x4096_S_d0_1 : S2048x4096.ReducesTo [0, 1] S_

variable [Facts]

def fn_part1 {F : FTy → Type} [FloatOps F] (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  main_v18

def fn {F : FTy → Type} [FloatOps F] (main_arg0 : FVec F S1x2048 .f32) (main_arg1 : FVec F S4096x2048 .f32) (main_arg2 : FVec F S4096x4096 .f32) (main_arg3 : FVec F S2048x4096 .f32) : IVec S_ 1 :=
  let main_v0 : FVec F S1x2048 .f32 := Host.absf main_arg0
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_v13 main_v16
-- ==== Kernel.lean ====
abbrev S1x2048 : Shape := ⟨2, ![1, 2048]⟩
abbrev S4096x2048 : Shape := ⟨2, ![4096, 2048]⟩
abbrev S4096x4096 : Shape := ⟨2, ![4096, 4096]⟩
abbrev S2048x4096 : Shape := ⟨2, ![2048, 4096]⟩
abbrev S1x4096 : Shape := ⟨2, ![1, 4096]⟩
abbrev S256x2048 : Shape := ⟨2, ![256, 2048]⟩
abbrev S1x256 : Shape := ⟨2, ![1, 256]⟩
abbrev S256x4096 : Shape := ⟨2, ![256, 4096]⟩
abbrev S4096x1 : Shape := ⟨2, ![4096, 1]⟩
abbrev S512x512 : Shape := ⟨2, ![512, 512]⟩
abbrev S1x512 : Shape := ⟨2, ![1, 512]⟩
abbrev S512x2048 : Shape := ⟨2, ![512, 2048]⟩
abbrev S2048x2048 : Shape := ⟨2, ![2048, 2048]⟩
abbrev S512x1 : Shape := ⟨2, ![512, 1]⟩
abbrev S2048x512 : Shape := ⟨2, ![2048, 512]⟩
abbrev S4096 : Shape := ⟨1, ![4096]⟩
abbrev S_ : Shape := ⟨0, ![]⟩

abbrev nBuf : Space → Nat
  | .hbm => 50
  | .vmem => 37
  | .smem => 0
  | _ => 0

abbrev bufTy : (tb : Table) → Fin (tcTables nBuf tb) → BufTy
  | .hbm, ⟨0, _⟩ => ⟨S1x2048, .f32⟩
  | .hbm, ⟨1, _⟩ => ⟨S4096x2048, .f32⟩
  | .hbm, ⟨2, _⟩ => ⟨S4096x4096, .f32⟩
  | .hbm, ⟨3, _⟩ => ⟨S2048x4096, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S1x2048, .f32⟩
  | .hbm, ⟨9, _⟩ => ⟨S4096x1, .f32⟩
  | .hbm, ⟨10, _⟩ => ⟨S4096x2048, .f32⟩
  | .hbm, ⟨11, _⟩ => ⟨S2048x2048, .f32⟩
  | .hbm, ⟨12, _⟩ => ⟨S2048x4096, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096x4096, .i32⟩
  | .hbm, ⟨17, _⟩ => ⟨S4096x4096, .i32⟩
  | .hbm, ⟨18, _⟩ => ⟨S_, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S4096x1, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096x4096, .i32⟩
  | .hbm, ⟨32, _⟩ => ⟨S4096x4096, .i32⟩
  | .hbm, ⟨33, _⟩ => ⟨S_, .i32⟩
  | .hbm, ⟨34, _⟩ => ⟨S4096x4096, .i32⟩
  | .hbm, ⟨35, _⟩ => ⟨S4096x4096, .i32⟩
  | .hbm, ⟨36, _⟩ => ⟨S4096x4096, .i1⟩
  | .hbm, ⟨37, _⟩ => ⟨S4096x1, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x2048, .f32⟩
  | .hbm, ⟨43, _⟩ => ⟨S2048x2048, .i32⟩
  | .hbm, ⟨44, _⟩ => ⟨S2048x2048, .i32⟩
  | .hbm, ⟨45, _⟩ => ⟨S_, .i32⟩
  | .hbm, ⟨46, _⟩ => ⟨S2048x2048, .i32⟩
  | .hbm, ⟨47, _⟩ => ⟨S2048x2048, .i32⟩
  | .hbm, ⟨48, _⟩ => ⟨S2048x2048, .i1⟩
  | .hbm, ⟨49, _⟩ => ⟨S2048x2048, .f32⟩
  | .local _ .vmem, ⟨0, _⟩ => ⟨S1x2048, .f32⟩
  | .local _ .vmem, ⟨1, _⟩ => ⟨S256x2048, .f32⟩
  | .local _ .vmem, ⟨2, _⟩ => ⟨S256x2048, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x4096, .f32⟩
  | .local _ .vmem, ⟨8, _⟩ => ⟨S256x4096, .f32⟩
  | .local _ .vmem, ⟨9, _⟩ => ⟨S256x4096, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x4096, .f32⟩
  | .local _ .vmem, ⟨15, _⟩ => ⟨S256x4096, .f32⟩
  | .local _ .vmem, ⟨16, _⟩ => ⟨S256x4096, .f32⟩
  | .local _ .vmem, ⟨17, _⟩ => ⟨S1x256, .f32⟩
  | .local _ .vmem, ⟨18, _⟩ => ⟨S1x256, .f32⟩
  | .local _ .vmem, ⟨19, _⟩ => ⟨S512x512, .f32⟩
  | .local _ .vmem, ⟨20, _⟩ => ⟨S512x512, .f32⟩
  | .local _ .vmem, ⟨21, _⟩ => ⟨S1x512, .f32⟩
  | .local _ .vmem, ⟨22, _⟩ => ⟨S1x512, .f32⟩
  | .local _ .vmem, ⟨23, _⟩ => ⟨S512x2048, .f32⟩
  | .local _ .vmem, ⟨24, _⟩ => ⟨S512x2048, .f32⟩
  | .local _ .vmem, ⟨25, _⟩ => ⟨S512x2048, .f32⟩
  | .local _ .vmem, ⟨26, _⟩ => ⟨S512x2048, .f32⟩
  | .local _ .vmem, ⟨27, _⟩ => ⟨S512x2048, .f32⟩
  | .local _ .vmem, ⟨28, _⟩ => ⟨S512x512, .f32⟩
  | .local _ .vmem, ⟨29, _⟩ => ⟨S512x512, .f32⟩
  | .local _ .vmem, ⟨30, _⟩ => ⟨S512x2048, .f32⟩
  | .local _ .vmem, ⟨31, _⟩ => ⟨S512x2048, .f32⟩
  | .local _ .vmem, ⟨32, _⟩ => ⟨S512x1, .f32⟩
  | .local _ .vmem, ⟨33, _⟩ => ⟨S512x1, .f32⟩
  | .local _ .vmem, ⟨34, _⟩ => ⟨S2048x512, .f32⟩
  | .local _ .vmem, ⟨35, _⟩ => ⟨S2048x512, .f32⟩
  | .local _ .vmem, ⟨36, _⟩ => ⟨S2048x512, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_c : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst_0 : Ref sig .tc := ⟨.hbm, 23, rfl⟩
abbrev main_call0_call0_v0 : Ref sig .tc := ⟨.hbm, 24, rfl⟩
abbrev main_call0_call0_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call1_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_c : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_cst_0 : Ref sig .tc := ⟨.hbm, 38, rfl⟩
abbrev main_call1_call0_v0 : Ref sig .tc := ⟨.hbm, 39, rfl⟩
abbrev main_call1_call0_v1 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_c : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc3_scratch0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_scratch0 : Ref sig .tc := ⟨.vmem, 36, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem3_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S256x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_10 : BitVec 32 := 0#32
  let v19 : BitVec 1 := Scalar.cmpi .ne v18 c0_i32_10
  v19

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S512x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![4, 8], ![false, false]⟩

def k4_cond2 (i : grid4.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_10 : BitVec 32 := 0#32
  let v20 : BitVec 1 := Scalar.cmpi .ne v19 c0_i32_10
  v20

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S512x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S512x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S2048x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

class Facts₀ : Prop where
  inb_S1x2048_S1x2048_0_0 : ∀ a, (![0, 0] : Fin 2 → Nat) a + S1x2048.size a ≤ S1x2048.size a
  h_S1x2048 : 0 < S1x2048.numel
  inb_S256x2048_S256x2048_0_0 : ∀ a, (![0, 0] : Fin 2 → Nat) a + S256x2048.size a ≤ S256x2048.size a
  h_S256x2048 : 0 < S256x2048.numel
  natLt_1_32 : 1 < 32
  inb_S1x256_S1x256_0_0 : ∀ a, (![0, 0] : Fin 2 → Nat) a + S1x256.size a ≤ S1x256.size a
  h_S1x256 : 0 < S1x256.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S256x4096_S256x4096_0_0 : ∀ a, (![0, 0] : Fin 2 → Nat) a + S256x4096.size a ≤ S256x4096.size a
  h_S256x4096 : 0 < S256x4096.numel
  shapeCasts_S1x4096_S4096x1 : S1x4096.ShapeCasts S4096x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  transposes_S4096x2048_S2048x4096_1_0 : S4096x2048.Transposes [1, 0] S2048x4096
  shapeCasts_S1x4096_S4096 : S1x4096.ShapeCasts S4096
  pads_S4096_S4096_000 : S4096.Pads (![0] : Fin 1 → Nat) ![0] ![0] S4096
  h_S_ : 0 < S_.numel
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  transposes_S4096x4096_S4096x4096_1_0 : S4096x4096.Transposes [1, 0] S4096x4096
  transposes_S2048x4096_S4096x2048_1_0 : S2048x4096.Transposes [1, 0] S4096x2048
  bcast_S_S2048x2048 : S_.BroadcastsInDim S2048x2048 (![] : Fin 0 → Fin S2048x2048.rank)
  dot_S1x2048_S256x2048_S1x256_1_1_0_0_n_n_wf : DotDims.WF S1x2048 S256x2048 S1x256 [1] [1] [0] [0] [] []
  dot_S1x4096_S256x4096_S1x256_1_1_0_0_n_n_wf : DotDims.WF S1x4096 S256x4096 S1x256 [1] [1] [0] [0] [] []
  dot_S512x512_S512x2048_S512x2048_1_0_0_1_n_n_wf : DotDims.WF S512x512 S512x2048 S512x2048 [1] [0] [0] [1] [] []
  dot_S512x2048_S512x512_S2048x512_0_1_1_0_n_n_wf : DotDims.WF S512x2048 S512x512 S2048x512 [0] [1] [1] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x2048.size a
  hwx0_0 : ∀ i : grid0.Coords, EltTy.bits .f32 = 32 ∨ (Rect.block (s := S1x2048) S1x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x4096.size a
  hwx1_0 : ∀ i : grid1.Coords, EltTy.bits .f32 = 32 ∨ (Rect.block (s := S1x4096) S1x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .f32 = 32 ∨ (Rect.block (s := S4096x4096) S256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x4096.size a
  hwx1_2 : ∀ i : grid1.Coords, EltTy.bits .f32 = 32 ∨ (Rect.block (s := S1x4096) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x4096.size a
  hwx1_3 : ∀ i : grid1.Coords, EltTy.bits .f32 = 32 ∨ (Rect.block (s := S1x4096) S1x256.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x4096.size a ≤ S1x4096.size a
  hwx2_0 : ∀ i : grid2.Coords, EltTy.bits .f32 = 32 ∨ (Rect.block (s := S1x4096) S1x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x4096.size a ≤ S2048x4096.size a
  hwx2_1 : ∀ i : grid2.Coords, EltTy.bits .f32 = 32 ∨ (Rect.block (s := S2048x4096) S256x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x2048.size a
  hwx2_2 : ∀ i : grid2.Coords, EltTy.bits .f32 = 32 ∨ (Rect.block (s := S1x2048) S1x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x512.size a ≤ S4096x4096.size a
  hwx3_0 : ∀ i : grid3.Coords, EltTy.bits .f32 = 32 ∨ (Rect.block (s := S4096x4096) S512x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x512.size a ≤ S1x4096.size a
  hwx3_1 : ∀ i : grid3.Coords, EltTy.bits .f32 = 32 ∨ (Rect.block (s := S1x4096) S1x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x2048.size a ≤ S4096x2048.size a
  hwx3_2 : ∀ i : grid3.Coords, EltTy.bits .f32 = 32 ∨ (Rect.block (s := S4096x2048) S512x2048.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x2048.size a ≤ S4096x2048.size a
  hwx3_3 : ∀ i : grid3.Coords, EltTy.bits .f32 = 32 ∨ (Rect.block (s := S4096x2048) S512x2048.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x512.size a ≤ S2048x4096.size a
  hwx4_0 : ∀ i : grid4.Coords, EltTy.bits .f32 = 32 ∨ (Rect.block (s := S2048x4096) S512x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x2048.size a ≤ S4096x2048.size a
  hwx4_1 : ∀ i : grid4.Coords, EltTy.bits .f32 = 32 ∨ (Rect.block (s := S4096x2048) S512x2048.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x1.size a ≤ S4096x1.size a
  hwx4_2 : ∀ i : grid4.Coords, EltTy.bits .f32 = 32 ∨ (Rect.block (s := S4096x1) S512x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x512.size a ≤ S2048x2048.size a
  hwx4_3 : ∀ i : grid4.Coords, EltTy.bits .f32 = 32 ∨ (Rect.block (s := S2048x2048) S2048x512.size (cc4_transform_3 i) (hinb4_3 i)).WholeWords (EltTy.packing .f32)

variable [Facts₀]

def dot_S1x2048_S256x2048_S1x256_1_1_0_0_n_n : DotDims S1x2048 S256x2048 S1x256 where
  lhsContracting := [1]
  rhsContracting := [1]
  lhsNonContracting := [0]
  rhsNonContracting := [0]
  lhsBatch := []
  rhsBatch := []
  wf := dot_S1x2048_S256x2048_S1x256_1_1_0_0_n_n_wf
def dot_S1x4096_S256x4096_S1x256_1_1_0_0_n_n : DotDims S1x4096 S256x4096 S1x256 where
  lhsContracting := [1]
  rhsContracting := [1]
  lhsNonContracting := [0]
  rhsNonContracting := [0]
  lhsBatch := []
  rhsBatch := []
  wf := dot_S1x4096_S256x4096_S1x256_1_1_0_0_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S512x512_S2048x512_0_1_1_0_n_n : DotDims S512x2048 S512x512 S2048x512 where
  lhsContracting := [0]
  rhsContracting := [1]
  lhsNonContracting := [1]
  rhsNonContracting := [0]
  lhsBatch := []
  rhsBatch := []
  wf := dot_S512x2048_S512x512_S2048x512_0_1_1_0_n_n_wf

abbrev win0_0 : Pipeline.Window sig grid0 :=
  Pipeline.Window.ofSpec (Memref.whole main_arg0) S1x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S1x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S1x256.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S1x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1_0) S1x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg2) S512x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0_1) S1x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg1) S512x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v4) S512x2048.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_arg3) S512x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S512x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v3) S512x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v5) S2048x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

class Facts : Prop extends Facts₀ where

variable [Facts]
-- ==== ReferenceIdeal.lean ====
abbrev S1x2048 : Shape := ⟨2, ![1, 2048]⟩
abbrev S4096x2048 : Shape := ⟨2, ![4096, 2048]⟩
abbrev S4096x4096 : Shape := ⟨2, ![4096, 4096]⟩
abbrev S2048x4096 : Shape := ⟨2, ![2048, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩
abbrev S2048x2048 : Shape := ⟨2, ![2048, 2048]⟩

abbrev nBuf : Space → Nat
  | .hbm => 63
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S4096x2048, .f32⟩
  | .hbm, ⟨2, _⟩ => ⟨S4096x4096, .f32⟩
  | .hbm, ⟨3, _⟩ => ⟨S2048x4096, .f32⟩
  | .hbm, ⟨4, _⟩ => ⟨S2048x4096, .f32⟩
  | .hbm, ⟨5, _⟩ => ⟨S1x4096, .f32⟩
  | .hbm, ⟨6, _⟩ => ⟨S2048x4096, .f32⟩
  | .hbm, ⟨7, _⟩ => ⟨S_, .f32⟩
  | .hbm, ⟨8, _⟩ => ⟨S1x4096, .f32⟩
  | .hbm, ⟨9, _⟩ => ⟨S1x4096, .i1⟩
  | .hbm, ⟨10, _⟩ => ⟨S1x4096, .f32⟩
  | .hbm, ⟨11, _⟩ => ⟨S1x4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S4096x1, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S1x4096, .f32⟩
  | .hbm, ⟨28, _⟩ => ⟨S4096x4096, .f32⟩
  | .hbm, ⟨29, _⟩ => ⟨S_, .f32⟩
  | .hbm, ⟨30, _⟩ => ⟨S1x4096, .f32⟩
  | .hbm, ⟨31, _⟩ => ⟨S1x4096, .i1⟩
  | .hbm, ⟨32, _⟩ => ⟨S1x4096, .f32⟩
  | .hbm, ⟨33, _⟩ => ⟨S1x4096, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096x4096, .i32⟩
  | .hbm, ⟨38, _⟩ => ⟨S4096x4096, .i32⟩
  | .hbm, ⟨39, _⟩ => ⟨S_, .i32⟩
  | .hbm, ⟨40, _⟩ => ⟨S4096x4096, .i32⟩
  | .hbm, ⟨41, _⟩ => ⟨S4096x4096, .i32⟩
  | .hbm, ⟨42, _⟩ => ⟨S4096x4096, .i1⟩
  | .hbm, ⟨43, _⟩ => ⟨S4096x1, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x2048, .f32⟩
  | .hbm, ⟨49, _⟩ => ⟨S1x2048, .f32⟩
  | .hbm, ⟨50, _⟩ => ⟨S4096x2048, .f32⟩
  | .hbm, ⟨51, _⟩ => ⟨S2048x2048, .i32⟩
  | .hbm, ⟨52, _⟩ => ⟨S2048x2048, .i32⟩
  | .hbm, ⟨53, _⟩ => ⟨S_, .i32⟩
  | .hbm, ⟨54, _⟩ => ⟨S2048x2048, .i32⟩
  | .hbm, ⟨55, _⟩ => ⟨S2048x2048, .i32⟩
  | .hbm, ⟨56, _⟩ => ⟨S2048x2048, .i1⟩
  | .hbm, ⟨57, _⟩ => ⟨S2048x2048, .f32⟩
  | .hbm, ⟨58, _⟩ => ⟨S2048x4096, .f32⟩
  | .hbm, ⟨59, _⟩ => ⟨S2048x4096, .f32⟩
  | .hbm, ⟨60, _⟩ => ⟨S2048x4096, .f32⟩
  | .hbm, ⟨61, _⟩ => ⟨S2048x2048, .f32⟩
  | .hbm, ⟨62, _⟩ => ⟨S2048x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_c : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_cst_0 : Ref sig .tc := ⟨.hbm, 22, rfl⟩
abbrev main_call0_call0_v0 : Ref sig .tc := ⟨.hbm, 23, rfl⟩
abbrev main_call0_call0_v1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_c : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_cst_0 : Ref sig .tc := ⟨.hbm, 44, rfl⟩
abbrev main_call1_call0_v0 : Ref sig .tc := ⟨.hbm, 45, rfl⟩
abbrev main_call1_call0_v1 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩

abbrev nD : Nat := 1
abbrev τ : Topo := Topo.v7x

variable {F : FTy → Type} [FloatOps F]

class Facts₀ : Prop where
  transposes_S4096x2048_S2048x4096_1_0 : S4096x2048.Transposes [1, 0] S2048x4096
  bcast_S_S1x4096 : S_.BroadcastsInDim S1x4096 (![] : Fin 0 → Fin S1x4096.rank)
  shapeCasts_S1x4096_S4096 : S1x4096.ShapeCasts S4096
  pads_S4096_S4096_000 : S4096.Pads (![0] : Fin 1 → Nat) ![0] ![0] S4096
  h_S_ : 0 < S_.numel
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  transposes_S4096x4096_S4096x4096_1_0 : S4096x4096.Transposes [1, 0] S4096x4096
  transposes_S2048x4096_S4096x2048_1_0 : S2048x4096.Transposes [1, 0] S4096x2048
  bcast_S_S2048x2048 : S_.BroadcastsInDim S2048x2048 (![] : Fin 0 → Fin S2048x2048.rank)
  dot_S1x2048_S2048x4096_S1x4096_1_0_0_1_n_n_wf : DotDims.WF S1x2048 S2048x4096 S1x4096 [1] [0] [0] [1] [] []
  dot_S1x4096_S4096x4096_S1x4096_1_0_0_1_n_n_wf : DotDims.WF S1x4096 S4096x4096 S1x4096 [1] [0] [0] [1] [] []
  dot_S1x4096_S4096x2048_S1x2048_1_0_0_1_n_n_wf : DotDims.WF S1x4096 S4096x2048 S1x2048 [1] [0] [0] [1] [] []
  dot_S2048x4096_S4096x4096_S2048x4096_1_0_0_1_n_n_wf : DotDims.WF S2048x4096 S4096x4096 S2048x4096 [1] [0] [0] [1] [] []
  dot_S2048x4096_S4096x2048_S2048x2048_1_0_0_1_n_n_wf : DotDims.WF S2048x4096 S4096x2048 S2048x2048 [1] [0] [0] [1] [] []
  dot_S2048x2048_S2048x2048_S2048x2048_1_0_0_1_n_n_wf : DotDims.WF S2048x2048 S2048x2048 S2048x2048 [1] [0] [0] [1] [] []

variable [Facts₀]

def dot_S1x2048_S2048x4096_S1x4096_1_0_0_1_n_n : DotDims S1x2048 S2048x4096 S1x4096 where
  lhsContracting := [1]
  rhsContracting := [0]
  lhsNonContracting := [0]
  rhsNonContracting := [1]
  lhsBatch := []
  rhsBatch := []
  wf := dot_S1x2048_S2048x4096_S1x4096_1_0_0_1_n_n_wf
def dot_S1x4096_S4096x4096_S1x4096_1_0_0_1_n_n : DotDims S1x4096 S4096x4096 S1x4096 where
  lhsContracting := [1]
  rhsContracting := [0]
  lhsNonContracting := [0]
  rhsNonContracting := [1]
  lhsBatch := []
  rhsBatch := []
  wf := dot_S1x4096_S4096x4096_S1x4096_1_0_0_1_n_n_wf
def dot_S1x4096_S4096x2048_S1x2048_1_0_0_1_n_n : DotDims S1x4096 S4096x2048 S1x2048 where
  lhsContracting := [1]
  rhsContracting := [0]
  lhsNonContracting := [0]
  rhsNonContracting := [1]
  lhsBatch := []
  rhsBatch := []
  wf := dot_S1x4096_S4096x2048_S1x2048_1_0_0_1_n_n_wf
def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf
def dot_S2048x4096_S4096x2048_S2048x2048_1_0_0_1_n_n : DotDims S2048x4096 S4096x2048 S2048x2048 where
  lhsContracting := [1]
  rhsContracting := [0]
  lhsNonContracting := [0]
  rhsNonContracting := [1]
  lhsBatch := []
  rhsBatch := []
  wf := dot_S2048x4096_S4096x2048_S2048x2048_1_0_0_1_n_n_wf
def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf

class Facts : Prop extends Facts₀ where

variable [Facts]
-- ==== Proof.KernelLayer0.lean ====
/-
  The first dense layer of the network as one grid of sixteen points. At point t the body reads the whole activation
  row x (1 × 2048) and the t-th block of 256 rows of the first weight (256 × 2048), forms the 256 pre-activations
  z q = ∑ k, x k * W q k by one matrix product into a zero accumulator, and leaves in its two output blocks
  (1 × 256 each) the gate of z (one where z is positive, zero elsewhere; output window 3) and the gated value
  z * gate z (output window 2). This file states what the body leaves in each window's buffer as a function of the
  two input blocks, proves the body's triple against those functions, and packages them as the proof data of the
  grid, at any float instance and at any contents of the arrays when the grid is entered.
-/
import proofs.«152103_j17360257810985_2_alg».proof.Proof.Gen.Kernel.Launch
import proofs.«152103_j17360257810985_2_alg».proof.Proof.Gen.Kernel.Skeleton
import proofs.«152103_j17360257810985_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the contents of every array when the grid is entered
variable (V : (c : Dev nD) → (b : Ref sig .tc) → Buf (Elt F) ((c : Thread nD τ).loc b))

/-! ## The windows' blocks -/

/-- Window `w`'s block at point `t`, read off its array as the grid finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row's buffer holds the row at every point (it is fetched once and never moves), for any proof data over
    these arrays whose body leaves the row in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight block's buffer holds the point's block at every point (a new block is fetched at each). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1x2048 := Rect.unit (s := S1x2048) ![0, 0] S1x2048.size inb_S1x2048_S1x2048_0_0
abbrev r0_1 : Rect S256x2048 := Rect.unit (s := S256x2048) ![0, 0] S256x2048.size inb_S256x2048_S256x2048_0_0
abbrev r0_2 : Rect S1x256 := Rect.unit (s := S1x256) ![0, 0] S1x256.size inb_S1x256_S1x256_0_0

/-! ## What the body leaves in each output window's buffer -/

/-- Window 2's buffer after the body: the gated pre-activations `z * gate z` of the row against the block, its one
    store as a piece. -/
def out0_2 (x0 : Vec F S1x2048 .f32) (x1 : Vec F S256x2048 .f32) : Vec F S1x256 .f32 :=
  View.canon [⟨r0_2, k0_pay3 (View.ld x0 r0_0) (View.ld x1 r0_1)⟩]

/-- Window 3's buffer after the body: the gates `gate z`, its one
    store as a piece. -/
def out0_3 (x0 : Vec F S1x2048 .f32) (x1 : Vec F S256x2048 .f32) : Vec F S1x256 .f32 :=
  View.canon [⟨r0_2, k0_pay2 (View.ld x0 r0_0) (View.ld x1 r0_1)⟩]

/-- A store of the whole 1 × 256 buffer covers it. -/
theorem cover0_2 (p0 : Vec F S1x256 .f32) (y : S1x256.Idx) :
    ∃ pc ∈ ([⟨r0_2, p0⟩] : List (View.Piece (Elt F) S1x256 .f32)), y ∈ pc.1.set :=
  View.cover_of_tiled [⟨r0_2, p0⟩] S1x256.size (by rfl) y

/-! ## The body's triple -/

set_option maxHeartbeats 1000000 in
/-- The body on whole buffers, the inputs' at contents `x0`, `x1` and the outputs' at anything, runs to the
    continuation holding the inputs' as they were and each output's at `out0_W x0 x1`. -/
theorem sound_kernel0 (c : Dev nD) (E : Set ℕ) (i : grid0.Coords) (arg1 : Memref sig .tc .vmem S1x2048 .f32) (harg1 : arg1.IsWhole) (arg2 : Memref sig .tc .vmem S256x2048 .f32) (harg2 : arg2.IsWhole) (arg3 : Memref sig .tc .vmem S1x256 .f32) (harg3 : arg3.IsWhole) (arg4 : Memref sig .tc .vmem S1x256 .f32) (harg4 : arg4.IsWhole)
    (x0 : Vec F S1x2048 .f32) (x1 : Vec F S256x2048 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__linear_relu_kernel_f32 i arg1 harg1 arg2 harg2 arg3 harg3 arg4 harg4) K := by
  simp only [cc0__linear_relu_kernel_f32_eq_skeleton]; unfold cc0__linear_relu_kernel_f32_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_2 _)

/-! ## The grid's proof data -/

/-- The proof data of the grid on core `c`: the arrays as the grid finds them; after the body at point `t` each
    input's buffer at its block and each output's at `out0_W` of the two input blocks; the invariant that of a body
    touching only its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The grid's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Layers

end
-- ==== Proof.KernelLayer1.lean ====
/-
  The second dense layer of the network as one grid of sixteen points. At point t the body reads the whole hidden
  row h (1 × 4096) and the t-th block of 256 rows of the second weight (256 × 4096), forms the 256 pre-activations
  z q = ∑ k, h k * W q k by one matrix product into a zero accumulator, and leaves in its two output blocks
  (1 × 256 each) the gate of z (one where z is positive, zero elsewhere; output window 3) and the gated value
  z * gate z (output window 2). This file states what the body leaves in each window's buffer as a function of the
  two input blocks, proves the body's triple against those functions, and packages them as the proof data of the
  grid, at any float instance and at any contents of the arrays when the grid is entered.
-/
import proofs.«152103_j17360257810985_2_alg».proof.Proof.Gen.Kernel.Launch
import proofs.«152103_j17360257810985_2_alg».proof.Proof.Gen.Kernel.Skeleton
import proofs.«152103_j17360257810985_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the contents of every array when the grid is entered
variable (V : (c : Dev nD) → (b : Ref sig .tc) → Buf (Elt F) ((c : Thread nD τ).loc b))

/-! ## The windows' blocks -/

/-- Window `w`'s block at point `t`, read off its array as the grid finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row's buffer holds the row at every point (it is fetched once and never moves), for any proof data over
    these arrays whose body leaves the row in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight block's buffer holds the point's block at every point (a new block is fetched at each). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S1x4096 := Rect.unit (s := S1x4096) ![0, 0] S1x4096.size inb_S1x4096_S1x4096_0_0
abbrev r1_1 : Rect S256x4096 := Rect.unit (s := S256x4096) ![0, 0] S256x4096.size inb_S256x4096_S256x4096_0_0
abbrev r1_2 : Rect S1x256 := Rect.unit (s := S1x256) ![0, 0] S1x256.size inb_S1x256_S1x256_0_0

/-! ## What the body leaves in each output window's buffer -/

/-- Window 2's buffer after the body: the gated pre-activations `z * gate z` of the row against the block, its one
    store as a piece. -/
def out1_2 (x0 : Vec F S1x4096 .f32) (x1 : Vec F S256x4096 .f32) : Vec F S1x256 .f32 :=
  View.canon [⟨r1_2, k1_pay3 (View.ld x0 r1_0) (View.ld x1 r1_1)⟩]

/-- Window 3's buffer after the body: the gates `gate z`, its one
    store as a piece. -/
def out1_3 (x0 : Vec F S1x4096 .f32) (x1 : Vec F S256x4096 .f32) : Vec F S1x256 .f32 :=
  View.canon [⟨r1_2, k1_pay2 (View.ld x0 r1_0) (View.ld x1 r1_1)⟩]

/-- A store of the whole 1 × 256 buffer covers it. -/
theorem cover1_2 (p0 : Vec F S1x256 .f32) (y : S1x256.Idx) :
    ∃ pc ∈ ([⟨r1_2, p0⟩] : List (View.Piece (Elt F) S1x256 .f32)), y ∈ pc.1.set :=
  View.cover_of_tiled [⟨r1_2, p0⟩] S1x256.size (by rfl) y

/-! ## The body's triple -/

set_option maxHeartbeats 1000000 in
/-- The body on whole buffers, the inputs' at contents `x0`, `x1` and the outputs' at anything, runs to the
    continuation holding the inputs' as they were and each output's at `out1_W x0 x1`. -/
theorem sound_kernel1 (c : Dev nD) (E : Set ℕ) (i : grid1.Coords) (arg1 : Memref sig .tc .vmem S1x4096 .f32) (harg1 : arg1.IsWhole) (arg2 : Memref sig .tc .vmem S256x4096 .f32) (harg2 : arg2.IsWhole) (arg3 : Memref sig .tc .vmem S1x256 .f32) (harg3 : arg3.IsWhole) (arg4 : Memref sig .tc .vmem S1x256 .f32) (harg4 : arg4.IsWhole)
    (x0 : Vec F S1x4096 .f32) (x1 : Vec F S256x4096 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1__linear_relu_kernel_f32 i arg1 harg1 arg2 harg2 arg3 harg3 arg4 harg4) K := by
  simp only [cc1__linear_relu_kernel_f32_eq_skeleton]; unfold cc1__linear_relu_kernel_f32_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_2 _)

/-! ## The grid's proof data -/

/-- The proof data of the grid on core `c`: the arrays as the grid finds them; after the body at point `t` each
    input's buffer at its block and each output's at `out1_W` of the two input blocks; the invariant that of a body
    touching only its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

/-- Each input's buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The grid's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Layers

end
-- ==== Proof.KernelLayer2.lean ====
/-
  The third dense layer of the network as one grid of eight points. At point t the body reads the whole hidden
  row h (1 × 4096) and the t-th block of 256 rows of the third weight (256 × 4096), forms the 256 outputs
  y q = ∑ k, h k * W q k by one matrix product into a zero accumulator, and leaves them in its output block
  (1 × 256; output window 2). There is no gate in this layer. This file states what the body leaves in each window's buffer as a function of the
  two input blocks, proves the body's triple against those functions, and packages them as the proof data of the
  grid, at any float instance and at any contents of the arrays when the grid is entered.
-/
import proofs.«152103_j17360257810985_2_alg».proof.Proof.Gen.Kernel.Launch
import proofs.«152103_j17360257810985_2_alg».proof.Proof.Gen.Kernel.Skeleton
import proofs.«152103_j17360257810985_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the contents of every array when the grid is entered
variable (V : (c : Dev nD) → (b : Ref sig .tc) → Buf (Elt F) ((c : Thread nD τ).loc b))

/-! ## The windows' blocks -/

/-- Window `w`'s block at point `t`, read off its array as the grid finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row's buffer holds the row at every point (it is fetched once and never moves), for any proof data over
    these arrays whose body leaves the row in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight block's buffer holds the point's block at every point (a new block is fetched at each). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S1x4096 := Rect.unit (s := S1x4096) ![0, 0] S1x4096.size inb_S1x4096_S1x4096_0_0
abbrev r2_1 : Rect S256x4096 := Rect.unit (s := S256x4096) ![0, 0] S256x4096.size inb_S256x4096_S256x4096_0_0
abbrev r2_2 : Rect S1x256 := Rect.unit (s := S1x256) ![0, 0] S1x256.size inb_S1x256_S1x256_0_0

/-! ## What the body leaves in each output window's buffer -/

/-- Window 2's buffer after the body: the products `∑ k, h k * W q k` of the row against the block, its one
    store as a piece. -/
def out2_2 (x0 : Vec F S1x4096 .f32) (x1 : Vec F S256x4096 .f32) : Vec F S1x256 .f32 :=
  View.canon [⟨r2_2, k2_pay1 (View.ld x0 r2_0) (View.ld x1 r2_1)⟩]

/-- A store of the whole 1 × 256 buffer covers it. -/
theorem cover2_2 (p0 : Vec F S1x256 .f32) (y : S1x256.Idx) :
    ∃ pc ∈ ([⟨r2_2, p0⟩] : List (View.Piece (Elt F) S1x256 .f32)), y ∈ pc.1.set :=
  View.cover_of_tiled [⟨r2_2, p0⟩] S1x256.size (by rfl) y

/-! ## The body's triple -/

set_option maxHeartbeats 1000000 in
/-- The body on whole buffers, the inputs' at contents `x0`, `x1` and the outputs' at anything, runs to the
    continuation holding the inputs' as they were and each output's at `out2_W x0 x1`. -/
theorem sound_kernel2 (c : Dev nD) (E : Set ℕ) (i : grid2.Coords) (arg1 : Memref sig .tc .vmem S1x4096 .f32) (harg1 : arg1.IsWhole) (arg2 : Memref sig .tc .vmem S256x4096 .f32) (harg2 : arg2.IsWhole) (arg3 : Memref sig .tc .vmem S1x256 .f32) (harg3 : arg3.IsWhole)
    (x0 : Vec F S1x4096 .f32) (x1 : Vec F S256x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_kernel_f32 i arg1 harg1 arg2 harg2 arg3 harg3) K := by
  simp only [cc2__linear_kernel_f32_eq_skeleton]; unfold cc2__linear_kernel_f32_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The grid's proof data -/

/-- The proof data of the grid on core `c`: the arrays as the grid finds them; after the body at point `t` each
    input's buffer at its block and each output's at `out2_W` of the two input blocks; the invariant that of a body
    touching only its windows; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and
    what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The grid's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Layers

end
-- ==== Proof.KernelInnerShared.lean ====
/-
  The first chained product, `Ct = (W2 · gate z₁) W1`, is computed block by block: the grid is 8 row blocks of 512 rows
  by 8 blocks of the contracted axis, point `t` being row block `t / 8`, contraction block `t % 8`. A scratch
  accumulator of one row block is zeroed at contraction block 0, receives one partial product at every point, and is
  copied into the output block at contraction block 7; the output block is untouched at the other points and written back
  only after the last one. Here: the two branch conditions in closed form over the 64 points, where each window is idle,
  live or written back, the staging and scratch memrefs as the body is called with them, and the region's invariant with
  the accumulator split from the other scoped buffers.
-/
import proofs.«152103_j17360257810985_2_alg».proof.Proof.Gen.Kernel.Launch
import proofs.«152103_j17360257810985_2_alg».proof.Proof.Gen.Kernel.Skeleton
import proofs.«152103_j17360257810985_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Inner

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (contraction block 0), from the grid coordinates. -/
abbrev isFirst (i : grid3.Coords) : Prop := (Scalar.cmpi .ne (Scalar.extui (Scalar.cmpi .eq (BitVec.ofNat 32 (i 1).val) 0#32)) 0#32) = 1#1
/-- It holds at the points ≡ 0 (mod 8). -/
theorem isFirst_iff : ∀ t : Fin cfg3.N, isFirst (grid3.coords t) ↔ t.val % 8 = 0 :=
  (by decide +kernel : ∀ t : Fin grid3.N, isFirst (grid3.coords t) ↔ t.val % 8 = 0)

/-- The second branch's condition (contraction block 7). -/
abbrev isLast (i : grid3.Coords) : Prop := k3_cond2 i = 1#1
/-- It holds at the points ≡ 7 (mod 8). -/
theorem isLast_iff : ∀ t : Fin cfg3.N, isLast (grid3.coords t) ↔ t.val % 8 = 7 :=
  (by decide +kernel : ∀ t : Fin grid3.N, isLast (grid3.coords t) ↔ t.val % 8 = 7)

/-- The three input windows are never idle. -/
theorem live0 : ∀ t : Fin cfg3.N, cfg3.idle 0 (grid3.coords t) = false := by decide +kernel
theorem live1 : ∀ t : Fin cfg3.N, cfg3.idle 1 (grid3.coords t) = false := by decide +kernel
theorem live2 : ∀ t : Fin cfg3.N, cfg3.idle 2 (grid3.coords t) = false := by decide +kernel
/-- The output window is idle, and not written back, at every point but a row block's last. -/
theorem idle3_of_not_last : ∀ t : Fin cfg3.N, ¬isLast (grid3.coords t) → cfg3.idle 3 (grid3.coords t) = true := by decide +kernel
theorem noFlush3_of_not_last : ∀ t : Fin cfg3.N, ¬isLast (grid3.coords t) → (cfg3.win 3).flush t = false := by decide +kernel
/-- At a row block's last point it is live. -/
theorem live3_of_last : ∀ t : Fin cfg3.N, isLast (grid3.coords t) → cfg3.idle 3 (grid3.coords t) = false := by decide +kernel

/-- Each window's current staging memref at point `t`, as the body is called with it, and its wholeness. -/
abbrev ms0 (t : Fin cfg3.N) : Memref sig .tc .vmem S512x512 .f32 := win3_0.stage (cfg3.slots t 0)
abbrev hs0 (t : Fin cfg3.N) : (ms0 t).IsWhole := hstage3_0 ((cfg3.slots t 0).cast nbuf3_0)
abbrev ms1 (t : Fin cfg3.N) : Memref sig .tc .vmem S1x512 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S512x2048 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S512x2048 .f32 := win3_3.stage (cfg3.slots t 3)
abbrev hs3 (t : Fin cfg3.N) : (ms3 t).IsWhole := hstage3_3 ((cfg3.slots t 3).cast nbuf3_3)
/-- The accumulator: a whole scoped buffer of the kernel's own. -/
abbrev accM : Memref sig .tc .vmem S512x2048 .f32 := Memref.whole cc3_scratch0
/-- The views through which the accumulator's and the output block's contents are stated. -/
abbrev accV : View sig .tc .vmem S512x2048 .f32 := accM.view
abbrev outV : View sig .tc .vmem S512x2048 .f32 := (Memref.whole cc3_stg3_0 : Memref sig .tc .vmem S512x2048 .f32).view

/-- The scoped buffers other than the accumulator, unopened. -/
abbrev others (c : Dev nD) : sProp 𝕄 :=
  Pipeline.scopedRestBut (Ix := Unit) (Name := ℕ) (U := UR sig nD τ) (Lvl := ℕ) (Val := Elt F) spec3 c [cc3_scratch0]

/-- The class invariant with the accumulator split off, owned at some contents. -/
theorem PhiA_split (c : Dev nD) :
    (Pipeline.ΦA spec3 c : sProp 𝕄)
      = iprop(iprop(iprop((∃ d, owns (c : Thread nD τ) accM fullShare d)) ∗ others c) ∗ (∃ r, prngReg c r)) := by
  unfold Pipeline.ΦA; rw [scopedRest3_split]; simp only [accM, owns_whole]; try rfl

end Cert.Kernel.Inner

end
-- ==== Proof.KernelInnerFirst.lean ====
/-
  The body at a row block's FIRST point (contraction block 0): the accumulator, found at anything, is zeroed and then
  receives the first partial product; the output block is not touched and is handed back as it was found.
-/
import proofs.«152103_j17360257810985_2_alg».proof.Proof.KernelInnerShared

set_option maxRecDepth 16384

noncomputable section

namespace Cert.Kernel.Inner

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) in the output block and in the accumulator in this case, with the
    body's triple on whole memrefs: the inputs at their contents and handed back as they were, the accumulator and the
    output block as the case's description above says. -/
noncomputable def runFirst (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : isFirst i) (hc1 : ¬isLast i)
    (x0 : Vec F S512x512 .f32) (x1 : Vec F S1x512 .f32) (x2 : Vec F S512x2048 .f32) :
    Σ' (L3 : List (View.Piece (Elt F) S512x2048 .f32)), { LS : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc3__mm1_kernel i arg2 harg2 arg3 harg3 arg4 harg4 arg5 harg5 arg6 harg6) K } := by
  refine ⟨[], ?_, fun xi3 E K => ?run⟩
  case run =>
    simp only [cc3__mm1_kernel_eq_skeleton]; unfold cc3__mm1_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Inner

end
-- ==== Proof.KernelInnerMid.lean ====
/-
  The body at a point that is neither a row block's first nor its last: the accumulator, found at what the point before
  left (`xs`), receives one more partial product; the output block is not touched and is handed back as it was found.
-/
import proofs.«152103_j17360257810985_2_alg».proof.Proof.KernelInnerShared

set_option maxRecDepth 16384

noncomputable section

namespace Cert.Kernel.Inner

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) in the output block and in the accumulator in this case, with the
    body's triple on whole memrefs: the inputs at their contents and handed back as they were, the accumulator and the
    output block as the case's description above says. -/
noncomputable def runMid (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : ¬isLast i)
    (x0 : Vec F S512x512 .f32) (x1 : Vec F S1x512 .f32) (x2 : Vec F S512x2048 .f32) (xs : Vec F S512x2048 .f32) :
    Σ' (L3 : List (View.Piece (Elt F) S512x2048 .f32)), { LS : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc3__mm1_kernel i arg2 harg2 arg3 harg3 arg4 harg4 arg5 harg5 arg6 harg6) K } := by
  refine ⟨[], ?_, fun xi3 E K => ?run⟩
  case run =>
    simp only [cc3__mm1_kernel_eq_skeleton]; unfold cc3__mm1_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Inner

end
-- ==== Proof.KernelInnerLast.lean ====
/-
  The body at a row block's LAST point (contraction block 7): the accumulator, found at what the point before left
  (`xs`), receives the last partial product and is then copied whole into the output block, found at anything.
-/
import proofs.«152103_j17360257810985_2_alg».proof.Proof.KernelInnerShared

set_option maxRecDepth 16384

noncomputable section

namespace Cert.Kernel.Inner

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) in the output block and in the accumulator in this case, with the
    body's triple on whole memrefs: the inputs at their contents and handed back as they were, the accumulator and the
    output block as the case's description above says. -/
noncomputable def runLast (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : isLast i)
    (x0 : Vec F S512x512 .f32) (x1 : Vec F S1x512 .f32) (x2 : Vec F S512x2048 .f32) (xs : Vec F S512x2048 .f32) :
    Σ' (L3 : List (View.Piece (Elt F) S512x2048 .f32)), { LS : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc3__mm1_kernel i arg2 harg2 arg3 harg3 arg4 harg4 arg5 harg5 arg6 harg6) K } := by
  refine ⟨?_, ?_, fun E K => ?run⟩
  case run =>
    simp only [cc3__mm1_kernel_eq_skeleton]; unfold cc3__mm1_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Inner

end
-- ==== Proof.KernelInner.lean ====
/-
  The first chained product's region: what its accumulator and its output block hold after each of the 64 points, the
  region's proof data at the array contents `V` the region is entered with, and the body's obligation at every point.
  After the body at a row block's first point the accumulator holds what that case's stores leave; at every later point of
  the row block what the case leaves over the accumulator of the point before; the output block holds, after a row
  block's last point, the accumulator copied into it. The invariant carried from point to point is the accumulator at
  these contents beside the other scoped buffers and the generator register, all untouched.
-/
import proofs.«152103_j17360257810985_2_alg».proof.Proof.KernelInnerFirst
import proofs.«152103_j17360257810985_2_alg».proof.Proof.KernelInnerMid
import proofs.«152103_j17360257810985_2_alg».proof.Proof.KernelInnerLast

set_option maxRecDepth 16384

noncomputable section

namespace Cert.Kernel.Inner

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The accumulator after a row block's first point: that case's pieces read back. -/
def accFirst (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : isFirst i) (hc1 : ¬isLast i) (x0 : Vec F S512x512 .f32) (x1 : Vec F S1x512 .f32) (x2 : Vec F S512x2048 .f32) : Vec F S512x2048 .f32 :=
  accV.read (Elt F) (accV.writes (Elt F) accV.junk (runFirst c i arg2 harg2 arg3 harg3 arg4 harg4 arg5 harg5 arg6 harg6 hc0 hc1 x0 x1 x2).2.1)
/-- Those pieces cover the accumulator. -/
theorem coverFirst (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : isFirst i) (hc1 : ¬isLast i) (x0 : Vec F S512x512 .f32) (x1 : Vec F S1x512 .f32) (x2 : Vec F S512x2048 .f32) (y : S512x2048.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S512x2048.size (by sl_kernel_rfl) y

/-- The accumulator after a middle point, over what the point before left (`xs`). -/
def accMid (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : ¬isLast i) (x0 : Vec F S512x512 .f32) (x1 : Vec F S1x512 .f32) (x2 : Vec F S512x2048 .f32) (xs : Vec F S512x2048 .f32) : Vec F S512x2048 .f32 :=
  accV.read (Elt F) (accV.writes (Elt F) accV.junk (runMid c i arg2 harg2 arg3 harg3 arg4 harg4 arg5 harg5 arg6 harg6 hc0 hc1 x0 x1 x2 xs).2.1)
theorem coverMid (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : ¬isLast i) (x0 : Vec F S512x512 .f32) (x1 : Vec F S1x512 .f32) (x2 : Vec F S512x2048 .f32) (xs : Vec F S512x2048 .f32) (y : S512x2048.Idx) :
    ∃ pc ∈ (runMid c i arg2 harg2 arg3 harg3 arg4 harg4 arg5 harg5 arg6 harg6 hc0 hc1 x0 x1 x2 xs).2.1, y ∈ pc.1.set :=
  View.cover_of_tiledL (runMid c i arg2 harg2 arg3 harg3 arg4 harg4 arg5 harg5 arg6 harg6 hc0 hc1 x0 x1 x2 xs).2.1 S512x2048.size (by sl_kernel_rfl) y

/-- The accumulator after a row block's last point, over what the point before left. -/
def accLast (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : isLast i) (x0 : Vec F S512x512 .f32) (x1 : Vec F S1x512 .f32) (x2 : Vec F S512x2048 .f32) (xs : Vec F S512x2048 .f32) : Vec F S512x2048 .f32 :=
  accV.read (Elt F) (accV.writes (Elt F) accV.junk (runLast c i arg2 harg2 arg3 harg3 arg4 harg4 arg5 harg5 arg6 harg6 hc0 hc1 x0 x1 x2 xs).2.1)
theorem coverLast (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : isLast i) (x0 : Vec F S512x512 .f32) (x1 : Vec F S1x512 .f32) (x2 : Vec F S512x2048 .f32) (xs : Vec F S512x2048 .f32) (y : S512x2048.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S512x2048.size (by sl_kernel_rfl) y

/-- The output block after a row block's last point. -/
def outLast (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : isLast i) (x0 : Vec F S512x512 .f32) (x1 : Vec F S1x512 .f32) (x2 : Vec F S512x2048 .f32) (xs : Vec F S512x2048 .f32) : Vec F S512x2048 .f32 :=
  outV.read (Elt F) (outV.writes (Elt F) outV.junk (runLast c i arg2 harg2 arg3 harg3 arg4 harg4 arg5 harg5 arg6 harg6 hc0 hc1 x0 x1 x2 xs).1)
theorem coverOutLast (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : isLast i) (x0 : Vec F S512x512 .f32) (x1 : Vec F S1x512 .f32) (x2 : Vec F S512x2048 .f32) (xs : Vec F S512x2048 .f32) (y : S512x2048.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S512x2048.size (by sl_kernel_rfl) y

/-- At a point where the output block is idle its `after` is never consulted: any fixed contents. -/
def idleOut : Vec F S512x2048 .f32 := outV.read (Elt F) outV.junk

section AtV

variable (V : (c : Dev nD) → (b : Ref sig .tc) → Buf (Elt F) ((c : Thread nD τ).loc b))

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, for any proof data over these arrays whose
    body leaves the block in place. -/
theorem before0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The accumulator and the output block, point by point -/

/-- THE ACCUMULATION: the accumulator after the body at point `n`. -/
def accAt (c : Dev nD) : (n : ℕ) → n < cfg3.N → Vec F S512x2048 .f32
  | 0, hn => accFirst c (grid3.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩)
  | n + 1, hn =>
    if h0 : (n + 1) % 8 = 0 then
      accFirst c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((isFirst_iff ⟨n + 1, hn⟩).mpr h0) (fun h => (fun h => by (try dsimp only at h); omega) ((isLast_iff ⟨n + 1, hn⟩).mp h)) (iblk V c 0 ⟨n + 1, hn⟩) (iblk V c 1 ⟨n + 1, hn⟩) (iblk V c 2 ⟨n + 1, hn⟩)
    else if h1 : (n + 1) % 8 = 7 then
      accLast c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (accAt c n (Nat.lt_of_succ_lt hn))
    else
      accMid c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (accAt c n (Nat.lt_of_succ_lt hn))

/-- `accAt` at a row block's first point. -/
theorem accAt_first (c : Dev nD) (t : Fin cfg3.N) (h0 : t.val % 8 = 0) (h1 : ¬t.val % 8 = 7) :
    accAt V c t.val t.isLt = accFirst c (grid3.coords t) (ms0 t) (hs0 t) (ms1 t) (hs1 t) (ms2 t) (hs2 t) (ms3 t) (hs3 t) accM (Memref.isWhole_whole _) ((isFirst_iff t).mpr h0) (fun h => h1 ((isLast_iff t).mp h)) (iblk V c 0 t) (iblk V c 1 t) (iblk V c 2 t) := by
  obtain ⟨n, hn⟩ := t
  cases n with
  | zero => exact rfl
  | succ n => exact (dif_pos h0).trans rfl

/-- `accAt` at a middle point, over what the point before left. -/
theorem accAt_mid (c : Dev nD) (t : Fin cfg3.N) (h0 : ¬t.val % 8 = 0) (h1 : ¬t.val % 8 = 7) :
    accAt V c t.val t.isLt = accMid c (grid3.coords t) (ms0 t) (hs0 t) (ms1 t) (hs1 t) (ms2 t) (hs2 t) (ms3 t) (hs3 t) accM (Memref.isWhole_whole _) (fun h => h0 ((isFirst_iff t).mp h)) (fun h => h1 ((isLast_iff t).mp h)) (iblk V c 0 t) (iblk V c 1 t) (iblk V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `accAt` at a row block's last point, over what the point before left. -/
theorem accAt_last (c : Dev nD) (t : Fin cfg3.N) (h0 : ¬t.val % 8 = 0) (h1 : t.val % 8 = 7) :
    accAt V c t.val t.isLt = accLast c (grid3.coords t) (ms0 t) (hs0 t) (ms1 t) (hs1 t) (ms2 t) (hs2 t) (ms3 t) (hs3 t) accM (Memref.isWhole_whole _) (fun h => h0 ((isFirst_iff t).mp h)) ((isLast_iff t).mpr h1) (iblk V c 0 t) (iblk V c 1 t) (iblk V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block after the body at point `n`: at a row block's last point the accumulator copied into it. -/
def outAt (c : Dev nD) (n : ℕ) (hn : n < cfg3.N) : Vec F S512x2048 .f32 :=
  if h1 : n % 8 = 7 then
    outLast c (grid3.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) accM (Memref.isWhole_whole _) (fun h => (fun h => by (try dsimp only at h); omega) ((isFirst_iff ⟨n, hn⟩).mp h)) ((isLast_iff ⟨n, hn⟩).mpr h1) (iblk V c 0 ⟨n, hn⟩) (iblk V c 1 ⟨n, hn⟩) (iblk V c 2 ⟨n, hn⟩) (accAt V c (n - 1) (Nat.lt_of_le_of_lt (Nat.sub_le _ _) hn))
  else idleOut

theorem outAt_last (c : Dev nD) (t : Fin cfg3.N) (h0 : ¬t.val % 8 = 0) (h1 : t.val % 8 = 7) :
    outAt V c t.val t.isLt = outLast c (grid3.coords t) (ms0 t) (hs0 t) (ms1 t) (hs1 t) (ms2 t) (hs2 t) (ms3 t) (hs3 t) accM (Memref.isWhole_whole _) (fun h => h0 ((isFirst_iff t).mp h)) ((isLast_iff t).mpr h1) (iblk V c 0 t) (iblk V c 1 t) (iblk V c 2 t) (accAt V c (t.val - 1) (Nat.lt_of_le_of_lt (Nat.sub_le _ _) t.isLt)) := by
  unfold outAt; exact (dif_pos h1).trans rfl

/-! ## The invariant and the proof data -/

/-- The region's invariant before position `n`: before the first point the class's; afterwards the accumulator at what
    the point before left, the other scoped buffers and the generator register. -/
def PhiS (c : Dev nD) : (n : ℕ) → n ≤ cfg3.N → sProp 𝕄
  | 0, _ => Pipeline.ΦA spec3 c
  | n + 1, hn => iprop(iprop(owns (c : Thread nD τ) accM fullShare (accAt V c n hn) ∗ others c) ∗ (∃ r, prngReg c r))

theorem PhiS_zero (c : Dev nD) (n : ℕ) (h : n ≤ cfg3.N) (hz : n = 0) : PhiS V c n h = Pipeline.ΦA spec3 c := by
  subst hz; rfl
theorem PhiS_succ (c : Dev nD) (n : ℕ) (hn : n < cfg3.N) :
    PhiS V c (n + 1) hn = iprop(iprop(owns (c : Thread nD τ) accM fullShare (accAt V c n hn) ∗ others c) ∗ (∃ r, prngReg c r)) := rfl
theorem PhiS_pos (c : Dev nD) (n : ℕ) (h : n ≤ cfg3.N) (hz : n ≠ 0) :
    PhiS V c n h = iprop(iprop(owns (c : Thread nD τ) accM fullShare (accAt V c (n - 1) (by omega)) ∗ others c) ∗ (∃ r, prngReg c r)) := by
  cases n with
  | zero => exact absurd rfl hz
  | succ n => rfl

/-- The region's proof data on core `c`: its arrays as it finds them; after the body each input's buffer at its block,
    the output's at `outAt`; the invariant `PhiS`; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => outAt V c t.val t.isLt
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]
theorem Phi_castSucc (c : Dev nD) (t : Fin cfg3.N) : (dat V c).Φ t.castSucc = PhiS V c t.val (Nat.le_of_lt t.isLt) := by
  dsimp only [dat]; simp only [Fin.coe_castSucc]
theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) : (dat V c).after 3 t = outAt V c t.val t.isLt := by dsimp only [dat]
theorem before0 (c : Dev nD) (t : Fin cfg3.N) (d) : (dat V c).before 0 t d = iblk V c 0 t := before0_of V (dat V c) (A_eq V c 0) (after0 V c) t d
theorem before1 (c : Dev nD) (t : Fin cfg3.N) (d) : (dat V c).before 1 t d = iblk V c 1 t := before1_of V (dat V c) (A_eq V c 1) (after1 V c) t d
theorem before2 (c : Dev nD) (t : Fin cfg3.N) (d) : (dat V c).before 2 t d = iblk V c 2 t := before2_of V (dat V c) (A_eq V c 2) (after2 V c) t d

end AtV

/-! ## The body obligation, at a generic point -/

section Obligation

variable (V : (c : Dev nD) → (b : Ref sig .tc) → Buf (Elt F) ((c : Thread nD τ).loc b))

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' memrefs hold their blocks; the closed forms say which case the point is in. The
    invariant hands the body the accumulator — inside the class invariant at the very first point, at what the point
    before left afterwards (forgotten at a row block's first point, which zeroes it) — and takes it back at this point's
    contents, the case's pieces covering it. The output block is handed back untouched where it is idle and holds the
    accumulator's copy at a row block's last point. The core owes nothing throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg3.N = 64 from N_3)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  by_cases h0 : t.val % 8 = 0
  · have h1 : ¬t.val % 8 = 7 := by omega
    rw [Dat.leavesExact_idle (dat V c) 3 t (idle3_of_not_last t (fun h => h1 ((isLast_iff t).mp h))) (noFlush3_of_not_last t (fun h => h1 ((isLast_iff t).mp h)))]
    rw [accAt_first V c t h0 h1]
    unfold accFirst; (try dsimp only)
    by_cases hz : t.val = 0
    · rw [Phi_castSucc V c t, PhiS_zero V c _ _ hz, PhiA_split]
      iintro ⟨⟨⟨HS, Hoth⟩, Hg⟩, Ho, ⟨%d0, H0⟩, ⟨%d1, H1⟩, ⟨%d2, H2⟩, ⟨%d3, H3⟩⟩
      iapply ((runFirst c (grid3.coords t) _ _ _ _ _ _ _ _ _ _ ((isFirst_iff t).mpr h0) (fun h => h1 ((isLast_iff t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (coverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [Phi_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runFirst c (grid3.coords t) _ _ _ _ _ _ _ _ _ _ ((isFirst_iff t).mpr h0) (fun h => h1 ((isLast_iff t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (coverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 8 = 7
    · rw [show (dat V c).leavesExact 3 t = owns (c : Thread nD τ) (ms3 t) fullShare ((dat V c).after 3 t) from by
        unfold Dat.leavesExact; rw [live3_of_last t ((isLast_iff t).mpr h1)], after3]
      rw [accAt_last V c t h0 h1, outAt_last V c t h0 h1]
      unfold accLast outLast; (try dsimp only)
      rw [Phi_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runLast c (grid3.coords t) _ _ _ _ _ _ _ _ _ _ (fun h => h0 ((isFirst_iff t).mp h)) ((isLast_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverLast c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverOutLast c _ _ _ _ _ _ _ _ _ _ _ _ _ _ _ _ _)
    · rw [Dat.leavesExact_idle (dat V c) 3 t (idle3_of_not_last t (fun h => h1 ((isLast_iff t).mp h))) (noFlush3_of_not_last t (fun h => h1 ((isLast_iff t).mp h)))]
      rw [accAt_mid V c t h0 h1]
      unfold accMid; (try dsimp only)
      rw [Phi_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runMid c (grid3.coords t) _ _ _ _ _ _ _ _ _ _ (fun h => h0 ((isFirst_iff t).mp h)) (fun h => h1 ((isLast_iff t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (coverMid c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W3, bigSep_W3]
  exact sound_body V c t

/-- What the region is entered with (the class invariant) is the invariant before the first point. -/
theorem Phi_in (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the accumulator's contents are forgotten. -/
theorem Phi_out (c : Dev nD) : (dat V c).Φ (Fin.last cfg3.N) ⊢ Pipeline.ΦA spec3 c := by
  have hne : (Fin.last cfg3.N).val ≠ 0 := by rw [Fin.val_last]; have : cfg3.N = 64 := N_3; omega
  rw [show (dat V c).Φ (Fin.last cfg3.N) = PhiS V c (Fin.last cfg3.N).val (Nat.le_of_lt_succ (Fin.last cfg3.N).isLt) from rfl,
    PhiS_pos V c _ _ hne, PhiA_split]
  iintro ⟨⟨HS, Hoth⟩, Hg⟩
  isplitl [HS Hoth]
  · isplitl [HS]
    · iexists _; iexact HS
    iexact Hoth
  iexact Hg

end Obligation

end Cert.Kernel.Inner

end
-- ==== Proof.KernelOuterShared.lean ====
/-
  The second chained product, `DJM (i, o) = ∑ h2, (Ct (h2, i) · gate z₂ (h2)) · W3 (o, h2)`, is computed block by block: the
  grid is 4 column blocks of 512 output columns by 8 blocks of the contracted axis, point `t` being column block `t / 8`,
  contraction block `t % 8`. A scratch accumulator of one column block is zeroed at contraction block 0, receives one
  partial product at every point, and is copied into the output block at contraction block 7; the output block is
  untouched at the other points and written back only after the last one. Here: the two branch conditions in closed form
  over the 32 points, where each window is idle, live or written back, the staging and scratch memrefs as the body is
  called with them, and the region's invariant with the accumulator split from the other scoped buffers.
-/
import proofs.«152103_j17360257810985_2_alg».proof.Proof.Gen.Kernel.Launch
import proofs.«152103_j17360257810985_2_alg».proof.Proof.Gen.Kernel.Skeleton
import proofs.«152103_j17360257810985_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Outer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (contraction block 0), from the grid coordinates. -/
abbrev isFirst (i : grid4.Coords) : Prop := (Scalar.cmpi .ne (Scalar.extui (Scalar.cmpi .eq (BitVec.ofNat 32 (i 1).val) 0#32)) 0#32) = 1#1
/-- It holds at the points ≡ 0 (mod 8). -/
theorem isFirst_iff : ∀ t : Fin cfg4.N, isFirst (grid4.coords t) ↔ t.val % 8 = 0 :=
  (by decide +kernel : ∀ t : Fin grid4.N, isFirst (grid4.coords t) ↔ t.val % 8 = 0)

/-- The second branch's condition (contraction block 7). -/
abbrev isLast (i : grid4.Coords) : Prop := k4_cond2 i = 1#1
/-- It holds at the points ≡ 7 (mod 8). -/
theorem isLast_iff : ∀ t : Fin cfg4.N, isLast (grid4.coords t) ↔ t.val % 8 = 7 :=
  (by decide +kernel : ∀ t : Fin grid4.N, isLast (grid4.coords t) ↔ t.val % 8 = 7)

/-- The three input windows are never idle. -/
theorem live0 : ∀ t : Fin cfg4.N, cfg4.idle 0 (grid4.coords t) = false := by decide +kernel
theorem live1 : ∀ t : Fin cfg4.N, cfg4.idle 1 (grid4.coords t) = false := by decide +kernel
theorem live2 : ∀ t : Fin cfg4.N, cfg4.idle 2 (grid4.coords t) = false := by decide +kernel
/-- The output window is idle, and not written back, at every point but a column block's last. -/
theorem idleOut_of_not_last : ∀ t : Fin cfg4.N, ¬isLast (grid4.coords t) → cfg4.idle 3 (grid4.coords t) = true := by decide +kernel
theorem noFlushOut_of_not_last : ∀ t : Fin cfg4.N, ¬isLast (grid4.coords t) → (cfg4.win 3).flush t = false := by decide +kernel
/-- At a column block's last point it is live. -/
theorem liveOut_of_last : ∀ t : Fin cfg4.N, isLast (grid4.coords t) → cfg4.idle 3 (grid4.coords t) = false := by decide +kernel

/-- Each window's current staging memref at point `t`, as the body is called with it, and its wholeness. -/
abbrev ms0 (t : Fin cfg4.N) : Memref sig .tc .vmem S512x512 .f32 := win4_0.stage (cfg4.slots t 0)
abbrev hs0 (t : Fin cfg4.N) : (ms0 t).IsWhole := hstage4_0 ((cfg4.slots t 0).cast nbuf4_0)
abbrev ms1 (t : Fin cfg4.N) : Memref sig .tc .vmem S512x2048 .f32 := win4_1.stage (cfg4.slots t 1)
abbrev hs1 (t : Fin cfg4.N) : (ms1 t).IsWhole := hstage4_1 ((cfg4.slots t 1).cast nbuf4_1)
abbrev ms2 (t : Fin cfg4.N) : Memref sig .tc .vmem S512x1 .f32 := win4_2.stage (cfg4.slots t 2)
abbrev hs2 (t : Fin cfg4.N) : (ms2 t).IsWhole := hstage4_2 ((cfg4.slots t 2).cast nbuf4_2)
abbrev ms3 (t : Fin cfg4.N) : Memref sig .tc .vmem S2048x512 .f32 := win4_3.stage (cfg4.slots t 3)
abbrev hs3 (t : Fin cfg4.N) : (ms3 t).IsWhole := hstage4_3 ((cfg4.slots t 3).cast nbuf4_3)
/-- The accumulator: a whole scoped buffer of the kernel's own. -/
abbrev accM : Memref sig .tc .vmem S2048x512 .f32 := Memref.whole cc4_scratch0
/-- The views through which the accumulator's and the output block's contents are stated. -/
abbrev accV : View sig .tc .vmem S2048x512 .f32 := accM.view
abbrev outV : View sig .tc .vmem S2048x512 .f32 := (Memref.whole cc4_stg3_0 : Memref sig .tc .vmem S2048x512 .f32).view

/-- The scoped buffers other than the accumulator, unopened. -/
abbrev others (c : Dev nD) : sProp 𝕄 :=
  Pipeline.scopedRestBut (Ix := Unit) (Name := ℕ) (U := UR sig nD τ) (Lvl := ℕ) (Val := Elt F) spec4 c [cc4_scratch0]

/-- The class invariant with the accumulator split off, owned at some contents. -/
theorem PhiA_split (c : Dev nD) :
    (Pipeline.ΦA spec4 c : sProp 𝕄)
      = iprop(iprop(iprop((∃ d, owns (c : Thread nD τ) accM fullShare d)) ∗ others c) ∗ (∃ r, prngReg c r)) := by
  unfold Pipeline.ΦA; rw [scopedRest4_split]; simp only [accM, owns_whole]; try rfl

end Cert.Kernel.Outer

end
-- ==== Proof.KernelOuterFirst.lean ====
/-
  The body at a column block's FIRST point (contraction block 0): the accumulator, found at anything, is zeroed and then
  receives the first partial product; the output block is not touched and is handed back as it was found.
-/
import proofs.«152103_j17360257810985_2_alg».proof.Proof.KernelOuterShared

set_option maxRecDepth 16384

noncomputable section

namespace Cert.Kernel.Outer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) in the output block and in the accumulator in this case, with the
    body's triple on whole memrefs: the inputs at their contents and handed back as they were, the accumulator and the
    output block as the case's description above says. -/
noncomputable def runFirst (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : isFirst i) (hc1 : ¬isLast i)
    (x0 : Vec F S512x512 .f32) (x1 : Vec F S512x2048 .f32) (x2 : Vec F S512x1 .f32) :
    Σ' (L3 : List (View.Piece (Elt F) S2048x512 .f32)), { LS : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc4__mm2_kernel i arg2 harg2 arg3 harg3 arg4 harg4 arg5 harg5 arg6 harg6) K } := by
  refine ⟨[], ?_, fun xi3 E K => ?run⟩
  case run =>
    simp only [cc4__mm2_kernel_eq_skeleton]; unfold cc4__mm2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Outer

end
-- ==== Proof.KernelOuterMid.lean ====
/-
  The body at a point that is neither a column block's first nor its last: the accumulator, found at what the point before
  left (`xs`), receives one more partial product; the output block is not touched and is handed back as it was found.
-/
import proofs.«152103_j17360257810985_2_alg».proof.Proof.KernelOuterShared

set_option maxRecDepth 16384

noncomputable section

namespace Cert.Kernel.Outer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) in the output block and in the accumulator in this case, with the
    body's triple on whole memrefs: the inputs at their contents and handed back as they were, the accumulator and the
    output block as the case's description above says. -/
noncomputable def runMid (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : ¬isFirst i) (hc1 : ¬isLast i)
    (x0 : Vec F S512x512 .f32) (x1 : Vec F S512x2048 .f32) (x2 : Vec F S512x1 .f32) (xs : Vec F S2048x512 .f32) :
    Σ' (L3 : List (View.Piece (Elt F) S2048x512 .f32)), { LS : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc4__mm2_kernel i arg2 harg2 arg3 harg3 arg4 harg4 arg5 harg5 arg6 harg6) K } := by
  refine ⟨[], ?_, fun xi3 E K => ?run⟩
  case run =>
    simp only [cc4__mm2_kernel_eq_skeleton]; unfold cc4__mm2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Outer

end
-- ==== Proof.KernelOuterLast.lean ====
/-
  The body at a column block's LAST point (contraction block 7): the accumulator, found at what the point before left
  (`xs`), receives the last partial product and is then copied whole into the output block, found at anything.
-/
import proofs.«152103_j17360257810985_2_alg».proof.Proof.KernelOuterShared

set_option maxRecDepth 16384

noncomputable section

namespace Cert.Kernel.Outer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) in the output block and in the accumulator in this case, with the
    body's triple on whole memrefs: the inputs at their contents and handed back as they were, the accumulator and the
    output block as the case's description above says. -/
noncomputable def runLast (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : ¬isFirst i) (hc1 : isLast i)
    (x0 : Vec F S512x512 .f32) (x1 : Vec F S512x2048 .f32) (x2 : Vec F S512x1 .f32) (xs : Vec F S2048x512 .f32) :
    Σ' (L3 : List (View.Piece (Elt F) S2048x512 .f32)), { LS : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc4__mm2_kernel i arg2 harg2 arg3 harg3 arg4 harg4 arg5 harg5 arg6 harg6) K } := by
  refine ⟨?_, ?_, fun E K => ?run⟩
  case run =>
    simp only [cc4__mm2_kernel_eq_skeleton]; unfold cc4__mm2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Outer

end
-- ==== Proof.KernelOuter.lean ====
/-
  The second chained product's region: what its accumulator and its output block hold after each of the 32 points, the
  region's proof data at the array contents `V` the region is entered with, and the body's obligation at every point.
  After the body at a column block's first point the accumulator holds what that case's stores leave; at every later point
  of the column block what the case leaves over the accumulator of the point before; the output block holds, after a
  column block's last point, the accumulator copied into it. The invariant carried from point to point is the accumulator
  at these contents beside the other scoped buffers and the generator register, all untouched.
-/
import proofs.«152103_j17360257810985_2_alg».proof.Proof.KernelOuterFirst
import proofs.«152103_j17360257810985_2_alg».proof.Proof.KernelOuterMid
import proofs.«152103_j17360257810985_2_alg».proof.Proof.KernelOuterLast

set_option maxRecDepth 16384

noncomputable section

namespace Cert.Kernel.Outer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The accumulator after a column block's first point: that case's pieces read back. -/
def accFirst (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : isFirst i) (hc1 : ¬isLast i) (x0 : Vec F S512x512 .f32) (x1 : Vec F S512x2048 .f32) (x2 : Vec F S512x1 .f32) : Vec F S2048x512 .f32 :=
  accV.read (Elt F) (accV.writes (Elt F) accV.junk (runFirst c i arg2 harg2 arg3 harg3 arg4 harg4 arg5 harg5 arg6 harg6 hc0 hc1 x0 x1 x2).2.1)
/-- Those pieces cover the accumulator. -/
theorem coverFirst (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : isFirst i) (hc1 : ¬isLast i) (x0 : Vec F S512x512 .f32) (x1 : Vec F S512x2048 .f32) (x2 : Vec F S512x1 .f32) (y : S2048x512.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S2048x512.size (by sl_kernel_rfl) y

/-- The accumulator after a middle point, over what the point before left (`xs`). -/
def accMid (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : ¬isFirst i) (hc1 : ¬isLast i) (x0 : Vec F S512x512 .f32) (x1 : Vec F S512x2048 .f32) (x2 : Vec F S512x1 .f32) (xs : Vec F S2048x512 .f32) : Vec F S2048x512 .f32 :=
  accV.read (Elt F) (accV.writes (Elt F) accV.junk (runMid c i arg2 harg2 arg3 harg3 arg4 harg4 arg5 harg5 arg6 harg6 hc0 hc1 x0 x1 x2 xs).2.1)
theorem coverMid (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : ¬isFirst i) (hc1 : ¬isLast i) (x0 : Vec F S512x512 .f32) (x1 : Vec F S512x2048 .f32) (x2 : Vec F S512x1 .f32) (xs : Vec F S2048x512 .f32) (y : S2048x512.Idx) :
    ∃ pc ∈ (runMid c i arg2 harg2 arg3 harg3 arg4 harg4 arg5 harg5 arg6 harg6 hc0 hc1 x0 x1 x2 xs).2.1, y ∈ pc.1.set :=
  View.cover_of_tiledL (runMid c i arg2 harg2 arg3 harg3 arg4 harg4 arg5 harg5 arg6 harg6 hc0 hc1 x0 x1 x2 xs).2.1 S2048x512.size (by sl_kernel_rfl) y

/-- The accumulator after a column block's last point, over what the point before left. -/
def accLast (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : ¬isFirst i) (hc1 : isLast i) (x0 : Vec F S512x512 .f32) (x1 : Vec F S512x2048 .f32) (x2 : Vec F S512x1 .f32) (xs : Vec F S2048x512 .f32) : Vec F S2048x512 .f32 :=
  accV.read (Elt F) (accV.writes (Elt F) accV.junk (runLast c i arg2 harg2 arg3 harg3 arg4 harg4 arg5 harg5 arg6 harg6 hc0 hc1 x0 x1 x2 xs).2.1)
theorem coverLast (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : ¬isFirst i) (hc1 : isLast i) (x0 : Vec F S512x512 .f32) (x1 : Vec F S512x2048 .f32) (x2 : Vec F S512x1 .f32) (xs : Vec F S2048x512 .f32) (y : S2048x512.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S2048x512.size (by sl_kernel_rfl) y

/-- The output block after a column block's last point. -/
def outLast (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : ¬isFirst i) (hc1 : isLast i) (x0 : Vec F S512x512 .f32) (x1 : Vec F S512x2048 .f32) (x2 : Vec F S512x1 .f32) (xs : Vec F S2048x512 .f32) : Vec F S2048x512 .f32 :=
  outV.read (Elt F) (outV.writes (Elt F) outV.junk (runLast c i arg2 harg2 arg3 harg3 arg4 harg4 arg5 harg5 arg6 harg6 hc0 hc1 x0 x1 x2 xs).1)
theorem coverOutLast (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : ¬isFirst i) (hc1 : isLast i) (x0 : Vec F S512x512 .f32) (x1 : Vec F S512x2048 .f32) (x2 : Vec F S512x1 .f32) (xs : Vec F S2048x512 .f32) (y : S2048x512.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S2048x512.size (by sl_kernel_rfl) y

/-- At a point where the output block is idle its `after` is never consulted: any fixed contents. -/
def idleOut : Vec F S2048x512 .f32 := outV.read (Elt F) outV.junk

section AtV

variable (V : (c : Dev nD) → (b : Ref sig .tc) → Buf (Elt F) ((c : Thread nD τ).loc b))

/-! ## The windows' blocks -/

/-- Window `w`'s block at point `t`, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, for any proof data over these arrays whose
    body leaves the block in place. -/
theorem before0_of {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The accumulator and the output block, point by point -/

/-- THE ACCUMULATION: the accumulator after the body at point `n`. -/
def accAt (c : Dev nD) : (n : ℕ) → n < cfg4.N → Vec F S2048x512 .f32
  | 0, hn => accFirst c (grid4.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩)
  | n + 1, hn =>
    if h0 : (n + 1) % 8 = 0 then
      accFirst c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((isFirst_iff ⟨n + 1, hn⟩).mpr h0) (fun h => (fun h => by (try dsimp only at h); omega) ((isLast_iff ⟨n + 1, hn⟩).mp h)) (iblk V c 0 ⟨n + 1, hn⟩) (iblk V c 1 ⟨n + 1, hn⟩) (iblk V c 2 ⟨n + 1, hn⟩)
    else if h1 : (n + 1) % 8 = 7 then
      accLast c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (accAt c n (Nat.lt_of_succ_lt hn))
    else
      accMid c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (accAt c n (Nat.lt_of_succ_lt hn))

/-- `accAt` at a column block's first point. -/
theorem accAt_first (c : Dev nD) (t : Fin cfg4.N) (h0 : t.val % 8 = 0) (h1 : ¬t.val % 8 = 7) :
    accAt V c t.val t.isLt = accFirst c (grid4.coords t) (ms0 t) (hs0 t) (ms1 t) (hs1 t) (ms2 t) (hs2 t) (ms3 t) (hs3 t) accM (Memref.isWhole_whole _) ((isFirst_iff t).mpr h0) (fun h => h1 ((isLast_iff t).mp h)) (iblk V c 0 t) (iblk V c 1 t) (iblk V c 2 t) := by
  obtain ⟨n, hn⟩ := t
  cases n with
  | zero => exact rfl
  | succ n => exact (dif_pos h0).trans rfl

/-- `accAt` at a middle point, over what the point before left. -/
theorem accAt_mid (c : Dev nD) (t : Fin cfg4.N) (h0 : ¬t.val % 8 = 0) (h1 : ¬t.val % 8 = 7) :
    accAt V c t.val t.isLt = accMid c (grid4.coords t) (ms0 t) (hs0 t) (ms1 t) (hs1 t) (ms2 t) (hs2 t) (ms3 t) (hs3 t) accM (Memref.isWhole_whole _) (fun h => h0 ((isFirst_iff t).mp h)) (fun h => h1 ((isLast_iff t).mp h)) (iblk V c 0 t) (iblk V c 1 t) (iblk V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `accAt` at a column block's last point, over what the point before left. -/
theorem accAt_last (c : Dev nD) (t : Fin cfg4.N) (h0 : ¬t.val % 8 = 0) (h1 : t.val % 8 = 7) :
    accAt V c t.val t.isLt = accLast c (grid4.coords t) (ms0 t) (hs0 t) (ms1 t) (hs1 t) (ms2 t) (hs2 t) (ms3 t) (hs3 t) accM (Memref.isWhole_whole _) (fun h => h0 ((isFirst_iff t).mp h)) ((isLast_iff t).mpr h1) (iblk V c 0 t) (iblk V c 1 t) (iblk V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block after the body at point `n`: at a column block's last point the accumulator copied into it. -/
def outAt (c : Dev nD) (n : ℕ) (hn : n < cfg4.N) : Vec F S2048x512 .f32 :=
  if h1 : n % 8 = 7 then
    outLast c (grid4.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) accM (Memref.isWhole_whole _) (fun h => (fun h => by (try dsimp only at h); omega) ((isFirst_iff ⟨n, hn⟩).mp h)) ((isLast_iff ⟨n, hn⟩).mpr h1) (iblk V c 0 ⟨n, hn⟩) (iblk V c 1 ⟨n, hn⟩) (iblk V c 2 ⟨n, hn⟩) (accAt V c (n - 1) (Nat.lt_of_le_of_lt (Nat.sub_le _ _) hn))
  else idleOut

theorem outAt_last (c : Dev nD) (t : Fin cfg4.N) (h0 : ¬t.val % 8 = 0) (h1 : t.val % 8 = 7) :
    outAt V c t.val t.isLt = outLast c (grid4.coords t) (ms0 t) (hs0 t) (ms1 t) (hs1 t) (ms2 t) (hs2 t) (ms3 t) (hs3 t) accM (Memref.isWhole_whole _) (fun h => h0 ((isFirst_iff t).mp h)) ((isLast_iff t).mpr h1) (iblk V c 0 t) (iblk V c 1 t) (iblk V c 2 t) (accAt V c (t.val - 1) (Nat.lt_of_le_of_lt (Nat.sub_le _ _) t.isLt)) := by
  unfold outAt; exact (dif_pos h1).trans rfl

/-! ## The invariant and the proof data -/

/-- The region's invariant before position `n`: before the first point the class's; afterwards the accumulator at what
    the point before left, the other scoped buffers and the generator register. -/
def PhiS (c : Dev nD) : (n : ℕ) → n ≤ cfg4.N → sProp 𝕄
  | 0, _ => Pipeline.ΦA spec4 c
  | n + 1, hn => iprop(iprop(owns (c : Thread nD τ) accM fullShare (accAt V c n hn) ∗ others c) ∗ (∃ r, prngReg c r))

theorem PhiS_zero (c : Dev nD) (n : ℕ) (h : n ≤ cfg4.N) (hz : n = 0) : PhiS V c n h = Pipeline.ΦA spec4 c := by
  subst hz; rfl
theorem PhiS_succ (c : Dev nD) (n : ℕ) (hn : n < cfg4.N) :
    PhiS V c (n + 1) hn = iprop(iprop(owns (c : Thread nD τ) accM fullShare (accAt V c n hn) ∗ others c) ∗ (∃ r, prngReg c r)) := rfl
theorem PhiS_pos (c : Dev nD) (n : ℕ) (h : n ≤ cfg4.N) (hz : n ≠ 0) :
    PhiS V c n h = iprop(iprop(owns (c : Thread nD τ) accM fullShare (accAt V c (n - 1) (by omega)) ∗ others c) ∗ (∃ r, prngReg c r)) := by
  cases n with
  | zero => exact absurd rfl hz
  | succ n => rfl

/-- The region's proof data on core `c`: its arrays as it finds them; after the body each input's buffer at its block,
    the output's at `outAt`; the invariant `PhiS`; nothing owed; full shares. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => outAt V c t.val t.isLt
  Φ t := PhiS V c t.val (Nat.le_of_lt_succ t.isLt)
  q _ := fullShare
  owed _ := 0

theorem A_eq (c : Dev nD) (w : Fin cfg4.W) : (dat V c).A w = V c (Pipeline.arrRef spec4 w) := by
  dsimp only [dat]
theorem Phi_castSucc (c : Dev nD) (t : Fin cfg4.N) : (dat V c).Φ t.castSucc = PhiS V c t.val (Nat.le_of_lt t.isLt) := by
  dsimp only [dat]; simp only [Fin.coe_castSucc]
theorem after0 (c : Dev nD) (t : Fin cfg4.N) : (dat V c).after 0 t = iblk V c 0 t := by dsimp only [dat]
theorem after1 (c : Dev nD) (t : Fin cfg4.N) : (dat V c).after 1 t = iblk V c 1 t := by dsimp only [dat]
theorem after2 (c : Dev nD) (t : Fin cfg4.N) : (dat V c).after 2 t = iblk V c 2 t := by dsimp only [dat]
theorem after3 (c : Dev nD) (t : Fin cfg4.N) : (dat V c).after 3 t = outAt V c t.val t.isLt := by dsimp only [dat]
theorem before0 (c : Dev nD) (t : Fin cfg4.N) (d) : (dat V c).before 0 t d = iblk V c 0 t := before0_of V (dat V c) (A_eq V c 0) (after0 V c) t d
theorem before1 (c : Dev nD) (t : Fin cfg4.N) (d) : (dat V c).before 1 t d = iblk V c 1 t := before1_of V (dat V c) (A_eq V c 1) (after1 V c) t d
theorem before2 (c : Dev nD) (t : Fin cfg4.N) (d) : (dat V c).before 2 t d = iblk V c 2 t := before2_of V (dat V c) (A_eq V c 2) (after2 V c) t d

end AtV

/-! ## The body obligation, at a generic point -/

section Obligation

variable (V : (c : Dev nD) → (b : Ref sig .tc) → Buf (Elt F) ((c : Thread nD τ).loc b))

/-- What the body is called with at point `t`, the windows one by one, -/
def bodyPre (c : Dev nD) (t : Fin cfg4.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' memrefs hold their blocks; the closed forms say which case the point is in. The
    invariant hands the body the accumulator — inside the class invariant at the very first point, at what the point
    before left afterwards (forgotten at a column block's first point, which zeroes it) — and takes it back at this point's
    contents, the case's pieces covering it. The output block is handed back untouched where it is idle and holds the
    accumulator's copy at a column block's last point. The core owes nothing throughout. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before0, before1, before2]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg4.N = 32 from N_4)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  by_cases h0 : t.val % 8 = 0
  · have h1 : ¬t.val % 8 = 7 := by omega
    rw [Dat.leavesExact_idle (dat V c) 3 t (idleOut_of_not_last t (fun h => h1 ((isLast_iff t).mp h))) (noFlushOut_of_not_last t (fun h => h1 ((isLast_iff t).mp h)))]
    rw [accAt_first V c t h0 h1]
    unfold accFirst; (try dsimp only)
    by_cases hz : t.val = 0
    · rw [Phi_castSucc V c t, PhiS_zero V c _ _ hz, PhiA_split]
      iintro ⟨⟨⟨HS, Hoth⟩, Hg⟩, Ho, ⟨%d0, H0⟩, ⟨%d1, H1⟩, ⟨%d2, H2⟩, ⟨%d3, H3⟩⟩
      iapply ((runFirst c (grid4.coords t) _ _ _ _ _ _ _ _ _ _ ((isFirst_iff t).mpr h0) (fun h => h1 ((isLast_iff t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (coverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [Phi_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runFirst c (grid4.coords t) _ _ _ _ _ _ _ _ _ _ ((isFirst_iff t).mpr h0) (fun h => h1 ((isLast_iff t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (coverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 8 = 7
    · rw [show (dat V c).leavesExact 3 t = owns (c : Thread nD τ) (ms3 t) fullShare ((dat V c).after 3 t) from by
        unfold Dat.leavesExact; rw [liveOut_of_last t ((isLast_iff t).mpr h1)], after3]
      rw [accAt_last V c t h0 h1, outAt_last V c t h0 h1]
      unfold accLast outLast; (try dsimp only)
      rw [Phi_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runLast c (grid4.coords t) _ _ _ _ _ _ _ _ _ _ (fun h => h0 ((isFirst_iff t).mp h)) ((isLast_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverLast c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverOutLast c _ _ _ _ _ _ _ _ _ _ _ _ _ _ _ _ _)
    · rw [Dat.leavesExact_idle (dat V c) 3 t (idleOut_of_not_last t (fun h => h1 ((isLast_iff t).mp h))) (noFlushOut_of_not_last t (fun h => h1 ((isLast_iff t).mp h)))]
      rw [accAt_mid V c t h0 h1]
      unfold accMid; (try dsimp only)
      rw [Phi_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runMid c (grid4.coords t) _ _ _ _ _ _ _ _ _ _ (fun h => h0 ((isFirst_iff t).mp h)) (fun h => h1 ((isLast_iff t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (coverMid c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W4, bigSep_W4]
  exact sound_body V c t

/-- What the region is entered with (the class invariant) is the invariant before the first point. -/
theorem Phi_in (c : Dev nD) : Pipeline.ΦA spec4 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the accumulator's contents are forgotten. -/
theorem Phi_out (c : Dev nD) : (dat V c).Φ (Fin.last cfg4.N) ⊢ Pipeline.ΦA spec4 c := by
  have hne : (Fin.last cfg4.N).val ≠ 0 := by rw [Fin.val_last]; have : cfg4.N = 32 := N_4; omega
  rw [show (dat V c).Φ (Fin.last cfg4.N) = PhiS V c (Fin.last cfg4.N).val (Nat.le_of_lt_succ (Fin.last cfg4.N).isLt) from rfl,
    PhiS_pos V c _ _ hne, PhiA_split]
  iintro ⟨⟨HS, Hoth⟩, Hg⟩
  isplitl [HS Hoth]
  · isplitl [HS]
    · iexists _; iexact HS
    iexact Hoth
  iexact Hg

end Obligation

end Cert.Kernel.Outer

end
-- ==== Proof.KernelWhole.lean ====
/-
  The whole run of the program: five kernel regions among stretches of host operations. The buffer contents at every
  boundary between two segments are a fold from the launch memory — a host stretch applies its operations, a region
  leaves its arrays at what its proof data's write-backs give and every other buffer as it found it —; each region is a
  segment over the thread state "every unscoped buffer at the boundary's contents, the generator register at some state,
  nothing owed"; and every weakly fair execution of the program ends with every unscoped buffer at the last boundary's
  contents. The frame (the four arguments end as launched) and the values of the eight results are read off that.
-/
import proofs.«152103_j17360257810985_2_alg».proof.Proof.KernelLayer0
import proofs.«152103_j17360257810985_2_alg».proof.Proof.KernelLayer1
import proofs.«152103_j17360257810985_2_alg».proof.Proof.KernelLayer2
import proofs.«152103_j17360257810985_2_alg».proof.Proof.KernelInner
import proofs.«152103_j17360257810985_2_alg».proof.Proof.KernelOuter
import proofs.«152103_j17360257810985_2_alg».proof.Proof.Gen.Kernel.Regions
import Idealize.ShloMosaic.Lib.Pipeline.RegionsLoop

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- The same read at the TensorCore's references: what region 0's proof data take. -/
abbrev En0 : (c : Dev nD) → (b : Ref sig .tc) → Buf (Elt F) ((c : Thread nD τ).loc b) := fun c b => W0 m ρ c b

/-- At region 0's exit: its arrays at what the pipeline leaves (an input as entered, an output's write-backs folded in),
    every other buffer as entered. -/
def W1 (c : Dev nD) : Valuation τ sig (Elt F) :=
  Pipeline.withArrays spec0 c (W0 m ρ c) fun w => (Layers.dat0 (En0 m ρ) c).arrAt w cfg0.N
theorem W1_arr (c : Dev nD) (w : Fin cfg0.W) :
    W1 m ρ c (Proc.devRef .tc (Pipeline.arrRef spec0 w)) = (Layers.dat0 (En0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem hF0 (c : Dev nD) (w : Fin cfg0.W) : (Layers.dat0 (En0 m ρ) c).arrAt w cfg0.N = W1 m ρ c (Pipeline.arrRef spec0 w) :=
  (W1_arr m ρ c w).symm
theorem hrest0 (c : Dev nD) : ∀ b, b ∉ Finset.univ.image (Pipeline.arrRef spec0) → W1 m ρ c (Proc.devRef .tc b) = En0 m ρ c b :=
  fun b hb => W1_of_ne m ρ c b fun w e => hb (Finset.mem_image.mpr ⟨w, Finset.mem_univ _, e⟩)

abbrev En1 : (c : Dev nD) → (b : Ref sig .tc) → Buf (Elt F) ((c : Thread nD τ).loc b) := fun c b => W1 m ρ c b

/-- At region 1's exit: its arrays at what the pipeline leaves (an input as entered, an output's write-backs folded in),
    every other buffer as entered. -/
def W2 (c : Dev nD) : Valuation τ sig (Elt F) :=
  Pipeline.withArrays spec1 c (W1 m ρ c) fun w => (Layers.dat1 (En1 m ρ) c).arrAt w cfg1.N
theorem W2_arr (c : Dev nD) (w : Fin cfg1.W) :
    W2 m ρ c (Proc.devRef .tc (Pipeline.arrRef spec1 w)) = (Layers.dat1 (En1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
theorem hF1 (c : Dev nD) (w : Fin cfg1.W) : (Layers.dat1 (En1 m ρ) c).arrAt w cfg1.N = W2 m ρ c (Pipeline.arrRef spec1 w) :=
  (W2_arr m ρ c w).symm
theorem hrest1 (c : Dev nD) : ∀ b, b ∉ Finset.univ.image (Pipeline.arrRef spec1) → W2 m ρ c (Proc.devRef .tc b) = En1 m ρ c b :=
  fun b hb => W2_of_ne m ρ c b fun w e => hb (Finset.mem_image.mpr ⟨w, Finset.mem_univ _, e⟩)

abbrev En2 : (c : Dev nD) → (b : Ref sig .tc) → Buf (Elt F) ((c : Thread nD τ).loc b) := fun c b => W2 m ρ c b

/-- At region 2's exit: its arrays at what the pipeline leaves (an input as entered, an output's write-backs folded in),
    every other buffer as entered. -/
def W3 (c : Dev nD) : Valuation τ sig (Elt F) :=
  Pipeline.withArrays spec2 c (W2 m ρ c) fun w => (Layers.dat2 (En2 m ρ) c).arrAt w cfg2.N
theorem W3_arr (c : Dev nD) (w : Fin cfg2.W) :
    W3 m ρ c (Proc.devRef .tc (Pipeline.arrRef spec2 w)) = (Layers.dat2 (En2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
theorem hF2 (c : Dev nD) (w : Fin cfg2.W) : (Layers.dat2 (En2 m ρ) c).arrAt w cfg2.N = W3 m ρ c (Pipeline.arrRef spec2 w) :=
  (W3_arr m ρ c w).symm
theorem hrest2 (c : Dev nD) : ∀ b, b ∉ Finset.univ.image (Pipeline.arrRef spec2) → W3 m ρ c (Proc.devRef .tc b) = En2 m ρ c b :=
  fun b hb => W3_of_ne m ρ c b fun w e => hb (Finset.mem_image.mpr ⟨w, Finset.mem_univ _, e⟩)

/-- After the host stretch between the third and the fourth region (the second mask as a column). -/
abbrev W4 : Dev nD → Valuation τ sig (Elt F) := fun c => StableHlo.after hostOps3 (W3 m ρ c)
abbrev En3 : (c : Dev nD) → (b : Ref sig .tc) → Buf (Elt F) ((c : Thread nD τ).loc b) := fun c b => W4 m ρ c b

/-- At region 3's exit: its arrays at what the pipeline leaves (an input as entered, an output's write-backs folded in),
    every other buffer as entered. -/
def W5 (c : Dev nD) : Valuation τ sig (Elt F) :=
  Pipeline.withArrays spec3 c (W4 m ρ c) fun w => (Inner.dat (En3 m ρ) c).arrAt w cfg3.N
theorem W5_arr (c : Dev nD) (w : Fin cfg3.W) :
    W5 m ρ c (Proc.devRef .tc (Pipeline.arrRef spec3 w)) = (Inner.dat (En3 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
theorem hF3 (c : Dev nD) (w : Fin cfg3.W) : (Inner.dat (En3 m ρ) c).arrAt w cfg3.N = W5 m ρ c (Pipeline.arrRef spec3 w) :=
  (W5_arr m ρ c w).symm
theorem hrest3 (c : Dev nD) : ∀ b, b ∉ Finset.univ.image (Pipeline.arrRef spec3) → W5 m ρ c (Proc.devRef .tc b) = En3 m ρ c b :=
  fun b hb => W5_of_ne m ρ c b fun w e => hb (Finset.mem_image.mpr ⟨w, Finset.mem_univ _, e⟩)

abbrev En4 : (c : Dev nD) → (b : Ref sig .tc) → Buf (Elt F) ((c : Thread nD τ).loc b) := fun c b => W5 m ρ c b

/-- At region 4's exit: its arrays at what the pipeline leaves (an input as entered, an output's write-backs folded in),
    every other buffer as entered. -/
def W6 (c : Dev nD) : Valuation τ sig (Elt F) :=
  Pipeline.withArrays spec4 c (W5 m ρ c) fun w => (Outer.dat (En4 m ρ) c).arrAt w cfg4.N
theorem W6_arr (c : Dev nD) (w : Fin cfg4.W) :
    W6 m ρ c (Proc.devRef .tc (Pipeline.arrRef spec4 w)) = (Outer.dat (En4 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
theorem hF4 (c : Dev nD) (w : Fin cfg4.W) : (Outer.dat (En4 m ρ) c).arrAt w cfg4.N = W6 m ρ c (Pipeline.arrRef spec4 w) :=
  (W6_arr m ρ c w).symm
theorem hrest4 (c : Dev nD) : ∀ b, b ∉ Finset.univ.image (Pipeline.arrRef spec4) → W6 m ρ c (Proc.devRef .tc b) = En4 m ρ c b :=
  fun b hb => W6_of_ne m ρ c b fun w e => hb (Finset.mem_image.mpr ⟨w, Finset.mem_univ _, e⟩)

/-- After each of the five trailing host stretches. -/
abbrev W7 : Dev nD → Valuation τ sig (Elt F) := fun c => StableHlo.after hostOps5 (W6 m ρ c)
abbrev W8 : Dev nD → Valuation τ sig (Elt F) := fun c => StableHlo.after hostOps5_1 (W7 m ρ c)
abbrev W9 : Dev nD → Valuation τ sig (Elt F) := fun c => StableHlo.after hostOps5_2 (W8 m ρ c)
abbrev W10 : Dev nD → Valuation τ sig (Elt F) := fun c => StableHlo.after hostOps5_3 (W9 m ρ c)
abbrev W11 : Dev nD → Valuation τ sig (Elt F) := fun c => StableHlo.after hostOps5_4 (W10 m ρ c)

/-! ## The proof data family and the thread state -/

/-- No region has a prefetched table. -/
abbrev admAll : (p : Fin 5) → (pcfgs (F := F) p).Adm := fun p => (cfgs p).toPCfg_adm
/-- Every region's proof data, each at its region's entry contents (a literal match on the region). -/
def pdats : (p : Fin 5) → (c : Dev nD) → Dat τ (Elt F) Unit ℕ (UR sig nD τ) ℕ (Pipeline.pin (pcfgs (F := F)) admAll p) c
  | ⟨0, _⟩ => fun c => Layers.dat0 (En0 m ρ) c
  | ⟨1, _⟩ => fun c => Layers.dat1 (En1 m ρ) c
  | ⟨2, _⟩ => fun c => Layers.dat2 (En2 m ρ) c
  | ⟨3, _⟩ => fun c => Inner.dat (En3 m ρ) c
  | ⟨4, _⟩ => fun c => Outer.dat (En4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may unfold
-- plain definitions in a metavariable's type
set_option backward.isDefEq.respectTransparency.types false in
/-- Region 0 over the thread state: entered with every unscoped buffer at `W0`, left with them at `W1`. Its
    arrays are split out of the unscoped buffers at entry and put back, at what the proof data's write-backs leave, at the
    exit; the generator register goes into the region's invariant and comes back; nothing is owed; the kernel has no
    semaphore of its own. -/
def reg0 : Pipeline.RegionSeg (pcfgs (F := F)) admAll (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Layers.body_obligation0 (En0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (En0 m ρ c)
  hentry c := by
    rw [Pipeline.ownSems0_none]
    have hsplit := Pipeline.arrays_of_unscopedBufs (p := 0) (pcfgs (F := F)) admAll (pdats m ρ) launch0.win launch0.arr_whole c
      ((pdats m ρ 0 c).share_full fun _ => rfl) (En0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]
    unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admAll (Ix := Unit) (Name := ℕ) (U := UR sig nD τ) (Lvl := ℕ)
      launch0.win launch0.arr_whole c (pdats m ρ) ((pdats m ρ 0 c).share_full fun _ => rfl)
      (En0 m ρ c) (fun b => W1 m ρ c b) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W1`, left with them at `W2`. Its
    arrays are split out of the unscoped buffers at entry and put back, at what the proof data's write-backs leave, at the
    exit; the generator register goes into the region's invariant and comes back; nothing is owed; the kernel has no
    semaphore of its own. -/
def reg1 : Pipeline.RegionSeg (pcfgs (F := F)) admAll (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Layers.body_obligation1 (En1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (En1 m ρ c)
  hentry c := by
    rw [Pipeline.ownSems0_none]
    have hsplit := Pipeline.arrays_of_unscopedBufs (p := 1) (pcfgs (F := F)) admAll (pdats m ρ) launch1.win launch1.arr_whole c
      ((pdats m ρ 1 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admAll (Ix := Unit) (Name := ℕ) (U := UR sig nD τ) (Lvl := ℕ)
      launch1.win launch1.arr_whole c (pdats m ρ) ((pdats m ρ 1 c).share_full fun _ => rfl)
      (En1 m ρ c) (fun b => W2 m ρ c b) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W2`, left with them at `W3`. Its
    arrays are split out of the unscoped buffers at entry and put back, at what the proof data's write-backs leave, at the
    exit; the generator register goes into the region's invariant and comes back; nothing is owed; the kernel has no
    semaphore of its own. -/
def reg2 : Pipeline.RegionSeg (pcfgs (F := F)) admAll (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Layers.body_obligation2 (En2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (En2 m ρ c)
  hentry c := by
    rw [Pipeline.ownSems0_none]
    have hsplit := Pipeline.arrays_of_unscopedBufs (p := 2) (pcfgs (F := F)) admAll (pdats m ρ) launch2.win launch2.arr_whole c
      ((pdats m ρ 2 c).share_full fun _ => rfl) (En2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]
    unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admAll (Ix := Unit) (Name := ℕ) (U := UR sig nD τ) (Lvl := ℕ)
      launch2.win launch2.arr_whole c (pdats m ρ) ((pdats m ρ 2 c).share_full fun _ => rfl)
      (En2 m ρ c) (fun b => W3 m ρ c b) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered with every unscoped buffer at `W4`, left with them at `W5`. Its
    arrays are split out of the unscoped buffers at entry and put back, at what the proof data's write-backs leave, at the
    exit; the generator register goes into the region's invariant and comes back; nothing is owed; the kernel has no
    semaphore of its own. -/
def reg3 : Pipeline.RegionSeg (pcfgs (F := F)) admAll (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Inner.body_obligation (En3 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (En3 m ρ c)
  hentry c := by
    rw [Pipeline.ownSems0_none]
    have hsplit := Pipeline.arrays_of_unscopedBufs (p := 3) (pcfgs (F := F)) admAll (pdats m ρ) launch3.win launch3.arr_whole c
      ((pdats m ρ 3 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]
    unfold Pipeline.ΦA
    iintro ⟨Hp, -, Hr⟩
    isplitl [Hr]; · iexact Hr
    iexact Hp
  hout c := by
    rw [Pipeline.ownSems0_none, show (pdats m ρ 3 c).Φ (Fin.last _) = (Inner.dat (En3 m ρ) c).Φ (Fin.last cfg3.N) from rfl]
    have hback := Inner.Phi_out (En3 m ρ) c
    unfold Pipeline.ΦA at hback
    iintro H
    ihave H' := hback $$ H
    icases H' with ⟨Hr, Hp⟩
    isplitl [Hp]; · iexact Hp
    isplitr; · iempintro
    iexact Hr
  hexit c := by
    have hjoin := Pipeline.unscopedBufs_of_arrays (p := 3) (pcfgs (F := F)) admAll (Ix := Unit) (Name := ℕ) (U := UR sig nD τ) (Lvl := ℕ)
      launch3.win launch3.arr_whole c (pdats m ρ) ((pdats m ρ 3 c).share_full fun _ => rfl)
      (En3 m ρ c) (fun b => W5 m ρ c b) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 4 over the thread state: entered with every unscoped buffer at `W5`, left with them at `W6`. Its
    arrays are split out of the unscoped buffers at entry and put back, at what the proof data's write-backs leave, at the
    exit; the generator register goes into the region's invariant and comes back; nothing is owed; the kernel has no
    semaphore of its own. -/
def reg4 : Pipeline.RegionSeg (pcfgs (F := F)) admAll (pdats m ρ) () defs₀ 𝒱₀ L lv 4 where
  win := launch4.win.to₀
  block_pos := launch4.block_pos
  stage_whole := launch4.stage_whole
  K := PEmpty
  osem k := k.elim
  ho := Pipeline.OwnSemFacts.none _
  hbody c := (Outer.body_obligation (En4 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (En4 m ρ c)
  hentry c := by
    rw [Pipeline.ownSems0_none]
    have hsplit := Pipeline.arrays_of_unscopedBufs (p := 4) (pcfgs (F := F)) admAll (pdats m ρ) launch4.win launch4.arr_whole c
      ((pdats m ρ 4 c).share_full fun _ => rfl) (En4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]
    unfold Pipeline.ΦA
    iintro ⟨Hp, -, Hr⟩
    isplitl [Hr]; · iexact Hr
    iexact Hp
  hout c := by
    rw [Pipeline.ownSems0_none, show (pdats m ρ 4 c).Φ (Fin.last _) = (Outer.dat (En4 m ρ) c).Φ (Fin.last cfg4.N) from rfl]
    have hback := Outer.Phi_out (En4 m ρ) c
    unfold Pipeline.ΦA at hback
    iintro H
    ihave H' := hback $$ H
    icases H' with ⟨Hr, Hp⟩
    isplitl [Hp]; · iexact Hp
    isplitr; · iempintro
    iexact Hr
  hexit c := by
    have hjoin := Pipeline.unscopedBufs_of_arrays (p := 4) (pcfgs (F := F)) admAll (Ix := Unit) (Name := ℕ) (U := UR sig nD τ) (Lvl := ℕ)
      launch4.win launch4.arr_whole c (pdats m ρ) ((pdats m ρ 4 c).share_full fun _ => rfl)
      (En4 m ρ c) (fun b => W6 m ρ c b) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

/-- The program's eleven segments in order. -/
abbrev segs : List (Pipeline.Seg (pcfgs (F := F)) admAll (pdats m ρ) () defs₀ 𝒱₀ L lv) :=
  [ .region (reg0 m ρ), .region (reg1 m ρ), .region (reg2 m ρ),
    .host (hseg hostOps3 hostOps3_sub hostOps3_fresh (W3 m ρ)),
    .region (reg3 m ρ), .region (reg4 m ρ),
    .host (hseg hostOps5 hostOps5_sub hostOps5_fresh (W6 m ρ)),
    .host (hseg hostOps5_1 hostOps5_1_sub hostOps5_1_fresh (W7 m ρ)),
    .host (hseg hostOps5_2 hostOps5_2_sub hostOps5_2_fresh (W8 m ρ)),
    .host (hseg hostOps5_3 hostOps5_3_sub hostOps5_3_fresh (W9 m ρ)),
    .host (hseg hostOps5_4 hostOps5_4_sub hostOps5_4_fresh (W10 m ρ)) ]
/-- The program is the run of its segments. -/
theorem main_run (c : Dev nD) : main (F := F) c = Pipeline.Seg.run (segs m ρ) := (main_chain c).trans (by chain_rfl)

set_option backward.isDefEq.respectTransparency.types false in
/-- THE RUN. From any memory with zero counters every weakly fair execution of the program on the TensorCores terminates,
    nothing faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) admAll (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W11 m ρ c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => (show iprop(StableHlo.held (c : Thread nD τ) (Pipeline.ucRefs τ sig) (W11 m ρ c) ∗ R c)
          ⊢ (iprop(iprop(StableHlo.held (c : Thread nD τ) (Pipeline.ucRefs τ sig) (W11 m ρ c) ∗ ∃ r, prngReg c r)
            ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.Kernel.Whole

end
-- ==== Proof.KernelEnds.lean ====
/-
  The run's last boundary read back. Every segment leaves a buffer it does not write as it found it — a region every
  buffer that is not one of its output arrays, a host stretch every buffer none of its operations writes —, so each of the
  four argument arrays, which no segment writes, holds at the end what it held at launch: the frame.
-/
import proofs.«152103_j17360257810985_2_alg».proof.Proof.KernelWhole

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 0 leaves every buffer that is not one of its output arrays as it found it: an input array is handed back
    as entered, and a buffer no window stages bypasses the region. -/
theorem W1_keep (c : Dev nD) (b : Ref sig .tc) (h : ∀ w, (cfg0.win w).isOut = true → Pipeline.arrRef spec0 w ≠ b) :
    W1 m ρ c (Proc.devRef .tc b) = W0 m ρ c (Proc.devRef .tc b) := by
  by_cases hb : ∃ w, Pipeline.arrRef spec0 w = b
  · obtain ⟨w, rfl⟩ := hb
    have hw : (cfg0.win w).isOut = false := by
      cases hi : (cfg0.win w).isOut with
      | false => rfl
      | true => exact absurd rfl (h w hi)
    exact (W1_arr m ρ c w).trans (((Layers.dat0 (En0 m ρ) c).arrAt_in w hw _).trans (Layers.A_eq0 (En0 m ρ) c w))
  · exact W1_of_ne m ρ c b fun w e => hb ⟨w, e⟩

/-- Region 1 leaves every buffer that is not one of its output arrays as it found it: an input array is handed back
    as entered, and a buffer no window stages bypasses the region. -/
theorem W2_keep (c : Dev nD) (b : Ref sig .tc) (h : ∀ w, (cfg1.win w).isOut = true → Pipeline.arrRef spec1 w ≠ b) :
    W2 m ρ c (Proc.devRef .tc b) = W1 m ρ c (Proc.devRef .tc b) := by
  by_cases hb : ∃ w, Pipeline.arrRef spec1 w = b
  · obtain ⟨w, rfl⟩ := hb
    have hw : (cfg1.win w).isOut = false := by
      cases hi : (cfg1.win w).isOut with
      | false => rfl
      | true => exact absurd rfl (h w hi)
    exact (W2_arr m ρ c w).trans (((Layers.dat1 (En1 m ρ) c).arrAt_in w hw _).trans (Layers.A_eq1 (En1 m ρ) c w))
  · exact W2_of_ne m ρ c b fun w e => hb ⟨w, e⟩

/-- Region 2 leaves every buffer that is not one of its output arrays as it found it: an input array is handed back
    as entered, and a buffer no window stages bypasses the region. -/
theorem W3_keep (c : Dev nD) (b : Ref sig .tc) (h : ∀ w, (cfg2.win w).isOut = true → Pipeline.arrRef spec2 w ≠ b) :
    W3 m ρ c (Proc.devRef .tc b) = W2 m ρ c (Proc.devRef .tc b) := by
  by_cases hb : ∃ w, Pipeline.arrRef spec2 w = b
  · obtain ⟨w, rfl⟩ := hb
    have hw : (cfg2.win w).isOut = false := by
      cases hi : (cfg2.win w).isOut with
      | false => rfl
      | true => exact absurd rfl (h w hi)
    exact (W3_arr m ρ c w).trans (((Layers.dat2 (En2 m ρ) c).arrAt_in w hw _).trans (Layers.A_eq2 (En2 m ρ) c w))
  · exact W3_of_ne m ρ c b fun w e => hb ⟨w, e⟩

/-- The host stretch `hostOps3` leaves every buffer it does not write as it found it. -/
theorem W4_keep (c : Dev nD) (r : Ref sig .tc) (h : r ∉ hostOps3_W) : W4 m ρ c r = W3 m ρ c r :=
  StableHlo.after_of_writes_sub hostOps3 _ hostOps3_writes h

/-- Region 3 leaves every buffer that is not one of its output arrays as it found it: an input array is handed back
    as entered, and a buffer no window stages bypasses the region. -/
theorem W5_keep (c : Dev nD) (b : Ref sig .tc) (h : ∀ w, (cfg3.win w).isOut = true → Pipeline.arrRef spec3 w ≠ b) :
    W5 m ρ c (Proc.devRef .tc b) = W4 m ρ c (Proc.devRef .tc b) := by
  by_cases hb : ∃ w, Pipeline.arrRef spec3 w = b
  · obtain ⟨w, rfl⟩ := hb
    have hw : (cfg3.win w).isOut = false := by
      cases hi : (cfg3.win w).isOut with
      | false => rfl
      | true => exact absurd rfl (h w hi)
    exact (W5_arr m ρ c w).trans (((Inner.dat (En3 m ρ) c).arrAt_in w hw _).trans (Inner.A_eq (En3 m ρ) c w))
  · exact W5_of_ne m ρ c b fun w e => hb ⟨w, e⟩

/-- Region 4 leaves every buffer that is not one of its output arrays as it found it: an input array is handed back
    as entered, and a buffer no window stages bypasses the region. -/
theorem W6_keep (c : Dev nD) (b : Ref sig .tc) (h : ∀ w, (cfg4.win w).isOut = true → Pipeline.arrRef spec4 w ≠ b) :
    W6 m ρ c (Proc.devRef .tc b) = W5 m ρ c (Proc.devRef .tc b) := by
  by_cases hb : ∃ w, Pipeline.arrRef spec4 w = b
  · obtain ⟨w, rfl⟩ := hb
    have hw : (cfg4.win w).isOut = false := by
      cases hi : (cfg4.win w).isOut with
      | false => rfl
      | true => exact absurd rfl (h w hi)
    exact (W6_arr m ρ c w).trans (((Outer.dat (En4 m ρ) c).arrAt_in w hw _).trans (Outer.A_eq (En4 m ρ) c w))
  · exact W6_of_ne m ρ c b fun w e => hb ⟨w, e⟩

/-- The host stretch `hostOps5` leaves every buffer it does not write as it found it. -/
theorem W7_keep (c : Dev nD) (r : Ref sig .tc) (h : r ∉ hostOps5_W) : W7 m ρ c r = W6 m ρ c r :=
  StableHlo.after_of_writes_sub hostOps5 _ hostOps5_writes h

/-- The host stretch `hostOps5_1` leaves every buffer it does not write as it found it. -/
theorem W8_keep (c : Dev nD) (r : Ref sig .tc) (h : r ∉ hostOps5_1_W) : W8 m ρ c r = W7 m ρ c r :=
  StableHlo.after_of_writes_sub hostOps5_1 _ hostOps5_1_writes h

/-- The host stretch `hostOps5_2` leaves every buffer it does not write as it found it. -/
theorem W9_keep (c : Dev nD) (r : Ref sig .tc) (h : r ∉ hostOps5_2_W) : W9 m ρ c r = W8 m ρ c r :=
  StableHlo.after_of_writes_sub hostOps5_2 _ hostOps5_2_writes h

/-- The host stretch `hostOps5_3` leaves every buffer it does not write as it found it. -/
theorem W10_keep (c : Dev nD) (r : Ref sig .tc) (h : r ∉ hostOps5_3_W) : W10 m ρ c r = W9 m ρ c r :=
  StableHlo.after_of_writes_sub hostOps5_3 _ hostOps5_3_writes h

/-- The host stretch `hostOps5_4` leaves every buffer it does not write as it found it. -/
theorem W11_keep (c : Dev nD) (r : Ref sig .tc) (h : r ∉ hostOps5_4_W) : W11 m ρ c r = W10 m ρ c r :=
  StableHlo.after_of_writes_sub hostOps5_4 _ hostOps5_4_writes h

/-! ## The arguments end as launched -/

/-- `main_arg0` ends as launched: no segment writes it. -/
theorem W11_main_arg0 (c : Dev nD) : W11 m ρ c main_arg0 = m ((c : Thread nD τ).loc main_arg0) :=
  (W11_keep m ρ c main_arg0 (by decide)).trans <| (W10_keep m ρ c main_arg0 (by decide)).trans <| (W9_keep m ρ c main_arg0 (by decide)).trans <|
  (W8_keep m ρ c main_arg0 (by decide)).trans <| (W7_keep m ρ c main_arg0 (by decide)).trans <| (W6_keep m ρ c main_arg0 (by decide)).trans <|
  (W5_keep m ρ c main_arg0 (by decide)).trans <| (W4_keep m ρ c main_arg0 (by decide)).trans <| (W3_keep m ρ c main_arg0 (by decide)).trans <|
  (W2_keep m ρ c main_arg0 (by decide)).trans <| (W1_keep m ρ c main_arg0 (by decide)).trans rfl

/-- `main_arg1` ends as launched: no segment writes it. -/
theorem W11_main_arg1 (c : Dev nD) : W11 m ρ c main_arg1 = m ((c : Thread nD τ).loc main_arg1) :=
  (W11_keep m ρ c main_arg1 (by decide)).trans <| (W10_keep m ρ c main_arg1 (by decide)).trans <| (W9_keep m ρ c main_arg1 (by decide)).trans <|
  (W8_keep m ρ c main_arg1 (by decide)).trans <| (W7_keep m ρ c main_arg1 (by decide)).trans <| (W6_keep m ρ c main_arg1 (by decide)).trans <|
  (W5_keep m ρ c main_arg1 (by decide)).trans <| (W4_keep m ρ c main_arg1 (by decide)).trans <| (W3_keep m ρ c main_arg1 (by decide)).trans <|
  (W2_keep m ρ c main_arg1 (by decide)).trans <| (W1_keep m ρ c main_arg1 (by decide)).trans rfl

/-- `main_arg2` ends as launched: no segment writes it. -/
theorem W11_main_arg2 (c : Dev nD) : W11 m ρ c main_arg2 = m ((c : Thread nD τ).loc main_arg2) :=
  (W11_keep m ρ c main_arg2 (by decide)).trans <| (W10_keep m ρ c main_arg2 (by decide)).trans <| (W9_keep m ρ c main_arg2 (by decide)).trans <|
  (W8_keep m ρ c main_arg2 (by decide)).trans <| (W7_keep m ρ c main_arg2 (by decide)).trans <| (W6_keep m ρ c main_arg2 (by decide)).trans <|
  (W5_keep m ρ c main_arg2 (by decide)).trans <| (W4_keep m ρ c main_arg2 (by decide)).trans <| (W3_keep m ρ c main_arg2 (by decide)).trans <|
  (W2_keep m ρ c main_arg2 (by decide)).trans <| (W1_keep m ρ c main_arg2 (by decide)).trans rfl

/-- `main_arg3` ends as launched: no segment writes it. -/
theorem W11_main_arg3 (c : Dev nD) : W11 m ρ c main_arg3 = m ((c : Thread nD τ).loc main_arg3) :=
  (W11_keep m ρ c main_arg3 (by decide)).trans <| (W10_keep m ρ c main_arg3 (by decide)).trans <| (W9_keep m ρ c main_arg3 (by decide)).trans <|
  (W8_keep m ρ c main_arg3 (by decide)).trans <| (W7_keep m ρ c main_arg3 (by decide)).trans <| (W6_keep m ρ c main_arg3 (by decide)).trans <|
  (W5_keep m ρ c main_arg3 (by decide)).trans <| (W4_keep m ρ c main_arg3 (by decide)).trans <| (W3_keep m ρ c main_arg3 (by decide)).trans <|
  (W2_keep m ρ c main_arg3 (by decide)).trans <| (W1_keep m ρ c main_arg3 (by decide)).trans rfl

/-- THE FRAME: every weakly fair execution terminates, nothing faulting, with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c)⟩) (run_all m ρ)

end Cert.Kernel.Whole

end
-- ==== Proof.KernelIdealLayer0.lean ====
/-
  The first dense layer of the network as one grid of sixteen points. At point t the body reads the whole activation
  row x (1 × 2048) and the t-th block of 256 rows of the first weight (256 × 2048), forms the 256 pre-activations
  z q = ∑ k, x k * W q k by one matrix product into a zero accumulator, and leaves in its two output blocks
  (1 × 256 each) the gate of z (one where z is positive, zero elsewhere; output window 3) and the gated value
  z * gate z (output window 2). This file states what the body leaves in each window's buffer as a function of the
  two input blocks, proves the body's triple against those functions, and packages them as the proof data of the
  grid, at any float instance and at any contents of the arrays when the grid is entered.
-/
import proofs.«152103_j17360257810985_2_alg».proof.Proof.Gen.KernelIdeal.Launch
import proofs.«152103_j17360257810985_2_alg».proof.Proof.Gen.KernelIdeal.Skeleton
import proofs.«152103_j17360257810985_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the contents of every array when the grid is entered
variable (V : (c : Dev nD) → (b : Ref sig .tc) → Buf (Elt F) ((c : Thread nD τ).loc b))

/-! ## The windows' blocks -/

/-- Window `w`'s block at point `t`, read off its array as the grid finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row's buffer holds the row at every point (it is fetched once and never moves), for any proof data over
    these arrays whose body leaves the row in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight block's buffer holds the point's block at every point (a new block is fetched at each). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1x2048 := Rect.unit (s := S1x2048) ![0, 0] S1x2048.size inb_S1x2048_S1x2048_0_0
abbrev r0_1 : Rect S256x2048 := Rect.unit (s := S256x2048) ![0, 0] S256x2048.size inb_S256x2048_S256x2048_0_0
abbrev r0_2 : Rect S1x256 := Rect.unit (s := S1x256) ![0, 0] S1x256.size inb_S1x256_S1x256_0_0

/-! ## What the body leaves in each output window's buffer -/

/-- Window 2's buffer after the body: the gated pre-activations `z * gate z` of the row against the block, its one
    store as a piece. -/
def out0_2 (x0 : Vec F S1x2048 .f32) (x1 : Vec F S256x2048 .f32) : Vec F S1x256 .f32 :=
  View.canon [⟨r0_2, k0_pay3 (View.ld x0 r0_0) (View.ld x1 r0_1)⟩]

/-- Window 3's buffer after the body: the gates `gate z`, its one
    store as a piece. -/
def out0_3 (x0 : Vec F S1x2048 .f32) (x1 : Vec F S256x2048 .f32) : Vec F S1x256 .f32 :=
  View.canon [⟨r0_2, k0_pay2 (View.ld x0 r0_0) (View.ld x1 r0_1)⟩]

/-- A store of the whole 1 × 256 buffer covers it. -/
theorem cover0_2 (p0 : Vec F S1x256 .f32) (y : S1x256.Idx) :
    ∃ pc ∈ ([⟨r0_2, p0⟩] : List (View.Piece (Elt F) S1x256 .f32)), y ∈ pc.1.set :=
  View.cover_of_tiled [⟨r0_2, p0⟩] S1x256.size (by rfl) y

/-! ## The body's triple -/

set_option maxHeartbeats 1000000 in
/-- The body on whole buffers, the inputs' at contents `x0`, `x1` and the outputs' at anything, runs to the
    continuation holding the inputs' as they were and each output's at `out0_W x0 x1`. -/
theorem sound_kernel0 (c : Dev nD) (E : Set ℕ) (i : grid0.Coords) (arg1 : Memref sig .tc .vmem S1x2048 .f32) (harg1 : arg1.IsWhole) (arg2 : Memref sig .tc .vmem S256x2048 .f32) (harg2 : arg2.IsWhole) (arg3 : Memref sig .tc .vmem S1x256 .f32) (harg3 : arg3.IsWhole) (arg4 : Memref sig .tc .vmem S1x256 .f32) (harg4 : arg4.IsWhole)
    (x0 : Vec F S1x2048 .f32) (x1 : Vec F S256x2048 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__linear_relu_kernel_f32 i arg1 harg1 arg2 harg2 arg3 harg3 arg4 harg4) K := by
  simp only [cc0__linear_relu_kernel_f32_eq_skeleton]; unfold cc0__linear_relu_kernel_f32_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_2 _)

/-! ## The grid's proof data -/

/-- The proof data of the grid on core `c`: the arrays as the grid finds them; after the body at point `t` each
    input's buffer at its block and each output's at `out0_W` of the two input blocks; the invariant that of a body
    touching only its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The grid's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Layers

end
-- ==== Proof.KernelIdealLayer1.lean ====
/-
  The second dense layer of the network as one grid of sixteen points. At point t the body reads the whole hidden
  row h (1 × 4096) and the t-th block of 256 rows of the second weight (256 × 4096), forms the 256 pre-activations
  z q = ∑ k, h k * W q k by one matrix product into a zero accumulator, and leaves in its two output blocks
  (1 × 256 each) the gate of z (one where z is positive, zero elsewhere; output window 3) and the gated value
  z * gate z (output window 2). This file states what the body leaves in each window's buffer as a function of the
  two input blocks, proves the body's triple against those functions, and packages them as the proof data of the
  grid, at any float instance and at any contents of the arrays when the grid is entered.
-/
import proofs.«152103_j17360257810985_2_alg».proof.Proof.Gen.KernelIdeal.Launch
import proofs.«152103_j17360257810985_2_alg».proof.Proof.Gen.KernelIdeal.Skeleton
import proofs.«152103_j17360257810985_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the contents of every array when the grid is entered
variable (V : (c : Dev nD) → (b : Ref sig .tc) → Buf (Elt F) ((c : Thread nD τ).loc b))

/-! ## The windows' blocks -/

/-- Window `w`'s block at point `t`, read off its array as the grid finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row's buffer holds the row at every point (it is fetched once and never moves), for any proof data over
    these arrays whose body leaves the row in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The weight block's buffer holds the point's block at every point (a new block is fetched at each). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S1x4096 := Rect.unit (s := S1x4096) ![0, 0] S1x4096.size inb_S1x4096_S1x4096_0_0
abbrev r1_1 : Rect S256x4096 := Rect.unit (s := S256x4096) ![0, 0] S256x4096.size inb_S256x4096_S256x4096_0_0
abbrev r1_2 : Rect S1x256 := Rect.unit (s := S1x256) ![0, 0] S1x256.size inb_S1x256_S1x256_0_0

/-! ## What the body leaves in each output window's buffer -/

/-- Window 2's buffer after the body: the gated pre-activations `z * gate z` of the row against the block, its one
    store as a piece. -/
def out1_2 (x0 : Vec F S1x4096 .f32) (x1 : Vec F S256x4096 .f32) : Vec F S1x256 .f32 :=
  View.canon [⟨r1_2, k1_pay3 (View.ld x0 r1_0) (View.ld x1 r1_1)⟩]

/-- Window 3's buffer after the body: the gates `gate z`, its one
    store as a piece. -/
def out1_3 (x0 : Vec F S1x4096 .f32) (x1 : Vec F S256x4096 .f32) : Vec F S1x256 .f32 :=
  View.canon [⟨r1_2, k1_pay2 (View.ld x0 r1_0) (View.ld x1 r1_1)⟩]

/-- A store of the whole 1 × 256 buffer covers it. -/
theorem cover1_2 (p0 : Vec F S1x256 .f32) (y : S1x256.Idx) :
    ∃ pc ∈ ([⟨r1_2, p0⟩] : List (View.Piece (Elt F) S1x256 .f32)), y ∈ pc.1.set :=
  View.cover_of_tiled [⟨r1_2, p0⟩] S1x256.size (by rfl) y

/-! ## The body's triple -/

set_option maxHeartbeats 1000000 in
/-- The body on whole buffers, the inputs' at contents `x0`, `x1` and the outputs' at anything, runs to the
    continuation holding the inputs' as they were and each output's at `out1_W x0 x1`. -/
theorem sound_kernel1 (c : Dev nD) (E : Set ℕ) (i : grid1.Coords) (arg1 : Memref sig .tc .vmem S1x4096 .f32) (harg1 : arg1.IsWhole) (arg2 : Memref sig .tc .vmem S256x4096 .f32) (harg2 : arg2.IsWhole) (arg3 : Memref sig .tc .vmem S1x256 .f32) (harg3 : arg3.IsWhole) (arg4 : Memref sig .tc .vmem S1x256 .f32) (harg4 : arg4.IsWhole)
    (x0 : Vec F S1x4096 .f32) (x1 : Vec F S256x4096 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1__linear_relu_kernel_f32 i arg1 harg1 arg2 harg2 arg3 harg3 arg4 harg4) K := by
  simp only [cc1__linear_relu_kernel_f32_eq_skeleton]; unfold cc1__linear_relu_kernel_f32_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_2 _)

/-! ## The grid's proof data -/

/-- The proof data of the grid on core `c`: the arrays as the grid finds them; after the body at point `t` each
    input's buffer at its block and each output's at `out1_W` of the two input blocks; the invariant that of a body
    touching only its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

/-- Each input's buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The grid's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Layers

end
-- ==== Proof.KernelIdealLayer2.lean ====
/-
  The third dense layer of the network as one grid of eight points. At point t the body reads the whole hidden
  row h (1 × 4096) and the t-th block of 256 rows of the third weight (256 × 4096), forms the 256 outputs
  y q = ∑ k, h k * W q k by one matrix product into a zero accumulator, and leaves them in its output block
  (1 × 256; output window 2). There is no gate in this layer. This file states what the body leaves in each window's buffer as a function of the
  two input blocks, proves the body's triple against those functions, and packages them as the proof data of the
  grid, at any float instance and at any contents of the arrays when the grid is entered.
-/
import proofs.«152103_j17360257810985_2_alg».proof.Proof.Gen.KernelIdeal.Launch
import proofs.«152103_j17360257810985_2_alg».proof.Proof.Gen.KernelIdeal.Skeleton
import proofs.«152103_j17360257810985_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the contents of every array when the grid is entered
variable (V : (c : Dev nD) → (b : Ref sig .tc) → Buf (Elt F) ((c : Thread nD τ).loc b))

/-! ## The windows' blocks -/

/-- Window `w`'s block at point `t`, read off its array as the grid finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row's buffer holds the row at every point (it is fetched once and never moves), for any proof data over
    these arrays whose body leaves the row in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The weight block's buffer holds the point's block at every point (a new block is fetched at each). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S1x4096 := Rect.unit (s := S1x4096) ![0, 0] S1x4096.size inb_S1x4096_S1x4096_0_0
abbrev r2_1 : Rect S256x4096 := Rect.unit (s := S256x4096) ![0, 0] S256x4096.size inb_S256x4096_S256x4096_0_0
abbrev r2_2 : Rect S1x256 := Rect.unit (s := S1x256) ![0, 0] S1x256.size inb_S1x256_S1x256_0_0

/-! ## What the body leaves in each output window's buffer -/

/-- Window 2's buffer after the body: the products `∑ k, h k * W q k` of the row against the block, its one
    store as a piece. -/
def out2_2 (x0 : Vec F S1x4096 .f32) (x1 : Vec F S256x4096 .f32) : Vec F S1x256 .f32 :=
  View.canon [⟨r2_2, k2_pay1 (View.ld x0 r2_0) (View.ld x1 r2_1)⟩]

/-- A store of the whole 1 × 256 buffer covers it. -/
theorem cover2_2 (p0 : Vec F S1x256 .f32) (y : S1x256.Idx) :
    ∃ pc ∈ ([⟨r2_2, p0⟩] : List (View.Piece (Elt F) S1x256 .f32)), y ∈ pc.1.set :=
  View.cover_of_tiled [⟨r2_2, p0⟩] S1x256.size (by rfl) y

/-! ## The body's triple -/

set_option maxHeartbeats 1000000 in
/-- The body on whole buffers, the inputs' at contents `x0`, `x1` and the outputs' at anything, runs to the
    continuation holding the inputs' as they were and each output's at `out2_W x0 x1`. -/
theorem sound_kernel2 (c : Dev nD) (E : Set ℕ) (i : grid2.Coords) (arg1 : Memref sig .tc .vmem S1x4096 .f32) (harg1 : arg1.IsWhole) (arg2 : Memref sig .tc .vmem S256x4096 .f32) (harg2 : arg2.IsWhole) (arg3 : Memref sig .tc .vmem S1x256 .f32) (harg3 : arg3.IsWhole)
    (x0 : Vec F S1x4096 .f32) (x1 : Vec F S256x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_kernel_f32 i arg1 harg1 arg2 harg2 arg3 harg3) K := by
  simp only [cc2__linear_kernel_f32_eq_skeleton]; unfold cc2__linear_kernel_f32_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The grid's proof data -/

/-- The proof data of the grid on core `c`: the arrays as the grid finds them; after the body at point `t` each
    input's buffer at its block and each output's at `out2_W` of the two input blocks; the invariant that of a body
    touching only its windows; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and
    what is owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The grid's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Layers

end
-- ==== Proof.KernelIdealInnerShared.lean ====
/-
  The first chained product, `Ct = (W2 · gate z₁) W1`, is computed block by block: the grid is 8 row blocks of 512 rows
  by 8 blocks of the contracted axis, point `t` being row block `t / 8`, contraction block `t % 8`. A scratch
  accumulator of one row block is zeroed at contraction block 0, receives one partial product at every point, and is
  copied into the output block at contraction block 7; the output block is untouched at the other points and written back
  only after the last one. Here: the two branch conditions in closed form over the 64 points, where each window is idle,
  live or written back, the staging and scratch memrefs as the body is called with them, and the region's invariant with
  the accumulator split from the other scoped buffers.
-/
import proofs.«152103_j17360257810985_2_alg».proof.Proof.Gen.KernelIdeal.Launch
import proofs.«152103_j17360257810985_2_alg».proof.Proof.Gen.KernelIdeal.Skeleton
import proofs.«152103_j17360257810985_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Inner

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (contraction block 0), from the grid coordinates. -/
abbrev isFirst (i : grid3.Coords) : Prop := (Scalar.cmpi .ne (Scalar.extui (Scalar.cmpi .eq (BitVec.ofNat 32 (i 1).val) 0#32)) 0#32) = 1#1
/-- It holds at the points ≡ 0 (mod 8). -/
theorem isFirst_iff : ∀ t : Fin cfg3.N, isFirst (grid3.coords t) ↔ t.val % 8 = 0 :=
  (by decide +kernel : ∀ t : Fin grid3.N, isFirst (grid3.coords t) ↔ t.val % 8 = 0)

/-- The second branch's condition (contraction block 7). -/
abbrev isLast (i : grid3.Coords) : Prop := k3_cond2 i = 1#1
/-- It holds at the points ≡ 7 (mod 8). -/
theorem isLast_iff : ∀ t : Fin cfg3.N, isLast (grid3.coords t) ↔ t.val % 8 = 7 :=
  (by decide +kernel : ∀ t : Fin grid3.N, isLast (grid3.coords t) ↔ t.val % 8 = 7)

/-- The three input windows are never idle. -/
theorem live0 : ∀ t : Fin cfg3.N, cfg3.idle 0 (grid3.coords t) = false := by decide +kernel
theorem live1 : ∀ t : Fin cfg3.N, cfg3.idle 1 (grid3.coords t) = false := by decide +kernel
theorem live2 : ∀ t : Fin cfg3.N, cfg3.idle 2 (grid3.coords t) = false := by decide +kernel
/-- The output window is idle, and not written back, at every point but a row block's last. -/
theorem idle3_of_not_last : ∀ t : Fin cfg3.N, ¬isLast (grid3.coords t) → cfg3.idle 3 (grid3.coords t) = true := by decide +kernel
theorem noFlush3_of_not_last : ∀ t : Fin cfg3.N, ¬isLast (grid3.coords t) → (cfg3.win 3).flush t = false := by decide +kernel
/-- At a row block's last point it is live. -/
theorem live3_of_last : ∀ t : Fin cfg3.N, isLast (grid3.coords t) → cfg3.idle 3 (grid3.coords t) = false := by decide +kernel

/-- Each window's current staging memref at point `t`, as the body is called with it, and its wholeness. -/
abbrev ms0 (t : Fin cfg3.N) : Memref sig .tc .vmem S512x512 .f32 := win3_0.stage (cfg3.slots t 0)
abbrev hs0 (t : Fin cfg3.N) : (ms0 t).IsWhole := hstage3_0 ((cfg3.slots t 0).cast nbuf3_0)
abbrev ms1 (t : Fin cfg3.N) : Memref sig .tc .vmem S1x512 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S512x2048 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S512x2048 .f32 := win3_3.stage (cfg3.slots t 3)
abbrev hs3 (t : Fin cfg3.N) : (ms3 t).IsWhole := hstage3_3 ((cfg3.slots t 3).cast nbuf3_3)
/-- The accumulator: a whole scoped buffer of the kernel's own. -/
abbrev accM : Memref sig .tc .vmem S512x2048 .f32 := Memref.whole cc3_scratch0
/-- The views through which the accumulator's and the output block's contents are stated. -/
abbrev accV : View sig .tc .vmem S512x2048 .f32 := accM.view
abbrev outV : View sig .tc .vmem S512x2048 .f32 := (Memref.whole cc3_stg3_0 : Memref sig .tc .vmem S512x2048 .f32).view

/-- The scoped buffers other than the accumulator, unopened. -/
abbrev others (c : Dev nD) : sProp 𝕄 :=
  Pipeline.scopedRestBut (Ix := Unit) (Name := ℕ) (U := UR sig nD τ) (Lvl := ℕ) (Val := Elt F) spec3 c [cc3_scratch0]

/-- The class invariant with the accumulator split off, owned at some contents. -/
theorem PhiA_split (c : Dev nD) :
    (Pipeline.ΦA spec3 c : sProp 𝕄)
      = iprop(iprop(iprop((∃ d, owns (c : Thread nD τ) accM fullShare d)) ∗ others c) ∗ (∃ r, prngReg c r)) := by
  unfold Pipeline.ΦA; rw [scopedRest3_split]; simp only [accM, owns_whole]; try rfl

end Cert.KernelIdeal.Inner

end
-- ==== Proof.KernelIdealInnerFirst.lean ====
/-
  The body at a row block's FIRST point (contraction block 0): the accumulator, found at anything, is zeroed and then
  receives the first partial product; the output block is not touched and is handed back as it was found.
-/
import proofs.«152103_j17360257810985_2_alg».proof.Proof.KernelIdealInnerShared

set_option maxRecDepth 16384

noncomputable section

namespace Cert.KernelIdeal.Inner

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) in the output block and in the accumulator in this case, with the
    body's triple on whole memrefs: the inputs at their contents and handed back as they were, the accumulator and the
    output block as the case's description above says. -/
noncomputable def runFirst (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : isFirst i) (hc1 : ¬isLast i)
    (x0 : Vec F S512x512 .f32) (x1 : Vec F S1x512 .f32) (x2 : Vec F S512x2048 .f32) :
    Σ' (L3 : List (View.Piece (Elt F) S512x2048 .f32)), { LS : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc3__mm1_kernel i arg2 harg2 arg3 harg3 arg4 harg4 arg5 harg5 arg6 harg6) K } := by
  refine ⟨[], ?_, fun xi3 E K => ?run⟩
  case run =>
    simp only [cc3__mm1_kernel_eq_skeleton]; unfold cc3__mm1_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Inner

end
-- ==== Proof.KernelIdealInnerMid.lean ====
/-
  The body at a point that is neither a row block's first nor its last: the accumulator, found at what the point before
  left (`xs`), receives one more partial product; the output block is not touched and is handed back as it was found.
-/
import proofs.«152103_j17360257810985_2_alg».proof.Proof.KernelIdealInnerShared

set_option maxRecDepth 16384

noncomputable section

namespace Cert.KernelIdeal.Inner

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) in the output block and in the accumulator in this case, with the
    body's triple on whole memrefs: the inputs at their contents and handed back as they were, the accumulator and the
    output block as the case's description above says. -/
noncomputable def runMid (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : ¬isLast i)
    (x0 : Vec F S512x512 .f32) (x1 : Vec F S1x512 .f32) (x2 : Vec F S512x2048 .f32) (xs : Vec F S512x2048 .f32) :
    Σ' (L3 : List (View.Piece (Elt F) S512x2048 .f32)), { LS : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc3__mm1_kernel i arg2 harg2 arg3 harg3 arg4 harg4 arg5 harg5 arg6 harg6) K } := by
  refine ⟨[], ?_, fun xi3 E K => ?run⟩
  case run =>
    simp only [cc3__mm1_kernel_eq_skeleton]; unfold cc3__mm1_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Inner

end
-- ==== Proof.KernelIdealInnerLast.lean ====
/-
  The body at a row block's LAST point (contraction block 7): the accumulator, found at what the point before left
  (`xs`), receives the last partial product and is then copied whole into the output block, found at anything.
-/
import proofs.«152103_j17360257810985_2_alg».proof.Proof.KernelIdealInnerShared

set_option maxRecDepth 16384

noncomputable section

namespace Cert.KernelIdeal.Inner

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) in the output block and in the accumulator in this case, with the
    body's triple on whole memrefs: the inputs at their contents and handed back as they were, the accumulator and the
    output block as the case's description above says. -/
noncomputable def runLast (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : isLast i)
    (x0 : Vec F S512x512 .f32) (x1 : Vec F S1x512 .f32) (x2 : Vec F S512x2048 .f32) (xs : Vec F S512x2048 .f32) :
    Σ' (L3 : List (View.Piece (Elt F) S512x2048 .f32)), { LS : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc3__mm1_kernel i arg2 harg2 arg3 harg3 arg4 harg4 arg5 harg5 arg6 harg6) K } := by
  refine ⟨?_, ?_, fun E K => ?run⟩
  case run =>
    simp only [cc3__mm1_kernel_eq_skeleton]; unfold cc3__mm1_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Inner

end
-- ==== Proof.KernelIdealInner.lean ====
/-
  The first chained product's region: what its accumulator and its output block hold after each of the 64 points, the
  region's proof data at the array contents `V` the region is entered with, and the body's obligation at every point.
  After the body at a row block's first point the accumulator holds what that case's stores leave; at every later point of
  the row block what the case leaves over the accumulator of the point before; the output block holds, after a row
  block's last point, the accumulator copied into it. The invariant carried from point to point is the accumulator at
  these contents beside the other scoped buffers and the generator register, all untouched.
-/
import proofs.«152103_j17360257810985_2_alg».proof.Proof.KernelIdealInnerFirst
import proofs.«152103_j17360257810985_2_alg».proof.Proof.KernelIdealInnerMid
import proofs.«152103_j17360257810985_2_alg».proof.Proof.KernelIdealInnerLast

set_option maxRecDepth 16384

noncomputable section

namespace Cert.KernelIdeal.Inner

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The accumulator after a row block's first point: that case's pieces read back. -/
def accFirst (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : isFirst i) (hc1 : ¬isLast i) (x0 : Vec F S512x512 .f32) (x1 : Vec F S1x512 .f32) (x2 : Vec F S512x2048 .f32) : Vec F S512x2048 .f32 :=
  accV.read (Elt F) (accV.writes (Elt F) accV.junk (runFirst c i arg2 harg2 arg3 harg3 arg4 harg4 arg5 harg5 arg6 harg6 hc0 hc1 x0 x1 x2).2.1)
/-- Those pieces cover the accumulator. -/
theorem coverFirst (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : isFirst i) (hc1 : ¬isLast i) (x0 : Vec F S512x512 .f32) (x1 : Vec F S1x512 .f32) (x2 : Vec F S512x2048 .f32) (y : S512x2048.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S512x2048.size (by sl_kernel_rfl) y

/-- The accumulator after a middle point, over what the point before left (`xs`). -/
def accMid (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : ¬isLast i) (x0 : Vec F S512x512 .f32) (x1 : Vec F S1x512 .f32) (x2 : Vec F S512x2048 .f32) (xs : Vec F S512x2048 .f32) : Vec F S512x2048 .f32 :=
  accV.read (Elt F) (accV.writes (Elt F) accV.junk (runMid c i arg2 harg2 arg3 harg3 arg4 harg4 arg5 harg5 arg6 harg6 hc0 hc1 x0 x1 x2 xs).2.1)
theorem coverMid (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : ¬isLast i) (x0 : Vec F S512x512 .f32) (x1 : Vec F S1x512 .f32) (x2 : Vec F S512x2048 .f32) (xs : Vec F S512x2048 .f32) (y : S512x2048.Idx) :
    ∃ pc ∈ (runMid c i arg2 harg2 arg3 harg3 arg4 harg4 arg5 harg5 arg6 harg6 hc0 hc1 x0 x1 x2 xs).2.1, y ∈ pc.1.set :=
  View.cover_of_tiledL (runMid c i arg2 harg2 arg3 harg3 arg4 harg4 arg5 harg5 arg6 harg6 hc0 hc1 x0 x1 x2 xs).2.1 S512x2048.size (by sl_kernel_rfl) y

/-- The accumulator after a row block's last point, over what the point before left. -/
def accLast (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : isLast i) (x0 : Vec F S512x512 .f32) (x1 : Vec F S1x512 .f32) (x2 : Vec F S512x2048 .f32) (xs : Vec F S512x2048 .f32) : Vec F S512x2048 .f32 :=
  accV.read (Elt F) (accV.writes (Elt F) accV.junk (runLast c i arg2 harg2 arg3 harg3 arg4 harg4 arg5 harg5 arg6 harg6 hc0 hc1 x0 x1 x2 xs).2.1)
theorem coverLast (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : isLast i) (x0 : Vec F S512x512 .f32) (x1 : Vec F S1x512 .f32) (x2 : Vec F S512x2048 .f32) (xs : Vec F S512x2048 .f32) (y : S512x2048.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S512x2048.size (by sl_kernel_rfl) y

/-- The output block after a row block's last point. -/
def outLast (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : isLast i) (x0 : Vec F S512x512 .f32) (x1 : Vec F S1x512 .f32) (x2 : Vec F S512x2048 .f32) (xs : Vec F S512x2048 .f32) : Vec F S512x2048 .f32 :=
  outV.read (Elt F) (outV.writes (Elt F) outV.junk (runLast c i arg2 harg2 arg3 harg3 arg4 harg4 arg5 harg5 arg6 harg6 hc0 hc1 x0 x1 x2 xs).1)
theorem coverOutLast (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : isLast i) (x0 : Vec F S512x512 .f32) (x1 : Vec F S1x512 .f32) (x2 : Vec F S512x2048 .f32) (xs : Vec F S512x2048 .f32) (y : S512x2048.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S512x2048.size (by sl_kernel_rfl) y

/-- At a point where the output block is idle its `after` is never consulted: any fixed contents. -/
def idleOut : Vec F S512x2048 .f32 := outV.read (Elt F) outV.junk

section AtV

variable (V : (c : Dev nD) → (b : Ref sig .tc) → Buf (Elt F) ((c : Thread nD τ).loc b))

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, for any proof data over these arrays whose
    body leaves the block in place. -/
theorem before0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The accumulator and the output block, point by point -/

/-- THE ACCUMULATION: the accumulator after the body at point `n`. -/
def accAt (c : Dev nD) : (n : ℕ) → n < cfg3.N → Vec F S512x2048 .f32
  | 0, hn => accFirst c (grid3.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩)
  | n + 1, hn =>
    if h0 : (n + 1) % 8 = 0 then
      accFirst c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((isFirst_iff ⟨n + 1, hn⟩).mpr h0) (fun h => (fun h => by (try dsimp only at h); omega) ((isLast_iff ⟨n + 1, hn⟩).mp h)) (iblk V c 0 ⟨n + 1, hn⟩) (iblk V c 1 ⟨n + 1, hn⟩) (iblk V c 2 ⟨n + 1, hn⟩)
    else if h1 : (n + 1) % 8 = 7 then
      accLast c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (accAt c n (Nat.lt_of_succ_lt hn))
    else
      accMid c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (accAt c n (Nat.lt_of_succ_lt hn))

/-- `accAt` at a row block's first point. -/
theorem accAt_first (c : Dev nD) (t : Fin cfg3.N) (h0 : t.val % 8 = 0) (h1 : ¬t.val % 8 = 7) :
    accAt V c t.val t.isLt = accFirst c (grid3.coords t) (ms0 t) (hs0 t) (ms1 t) (hs1 t) (ms2 t) (hs2 t) (ms3 t) (hs3 t) accM (Memref.isWhole_whole _) ((isFirst_iff t).mpr h0) (fun h => h1 ((isLast_iff t).mp h)) (iblk V c 0 t) (iblk V c 1 t) (iblk V c 2 t) := by
  obtain ⟨n, hn⟩ := t
  cases n with
  | zero => exact rfl
  | succ n => exact (dif_pos h0).trans rfl

/-- `accAt` at a middle point, over what the point before left. -/
theorem accAt_mid (c : Dev nD) (t : Fin cfg3.N) (h0 : ¬t.val % 8 = 0) (h1 : ¬t.val % 8 = 7) :
    accAt V c t.val t.isLt = accMid c (grid3.coords t) (ms0 t) (hs0 t) (ms1 t) (hs1 t) (ms2 t) (hs2 t) (ms3 t) (hs3 t) accM (Memref.isWhole_whole _) (fun h => h0 ((isFirst_iff t).mp h)) (fun h => h1 ((isLast_iff t).mp h)) (iblk V c 0 t) (iblk V c 1 t) (iblk V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `accAt` at a row block's last point, over what the point before left. -/
theorem accAt_last (c : Dev nD) (t : Fin cfg3.N) (h0 : ¬t.val % 8 = 0) (h1 : t.val % 8 = 7) :
    accAt V c t.val t.isLt = accLast c (grid3.coords t) (ms0 t) (hs0 t) (ms1 t) (hs1 t) (ms2 t) (hs2 t) (ms3 t) (hs3 t) accM (Memref.isWhole_whole _) (fun h => h0 ((isFirst_iff t).mp h)) ((isLast_iff t).mpr h1) (iblk V c 0 t) (iblk V c 1 t) (iblk V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block after the body at point `n`: at a row block's last point the accumulator copied into it. -/
def outAt (c : Dev nD) (n : ℕ) (hn : n < cfg3.N) : Vec F S512x2048 .f32 :=
  if h1 : n % 8 = 7 then
    outLast c (grid3.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) accM (Memref.isWhole_whole _) (fun h => (fun h => by (try dsimp only at h); omega) ((isFirst_iff ⟨n, hn⟩).mp h)) ((isLast_iff ⟨n, hn⟩).mpr h1) (iblk V c 0 ⟨n, hn⟩) (iblk V c 1 ⟨n, hn⟩) (iblk V c 2 ⟨n, hn⟩) (accAt V c (n - 1) (Nat.lt_of_le_of_lt (Nat.sub_le _ _) hn))
  else idleOut

theorem outAt_last (c : Dev nD) (t : Fin cfg3.N) (h0 : ¬t.val % 8 = 0) (h1 : t.val % 8 = 7) :
    outAt V c t.val t.isLt = outLast c (grid3.coords t) (ms0 t) (hs0 t) (ms1 t) (hs1 t) (ms2 t) (hs2 t) (ms3 t) (hs3 t) accM (Memref.isWhole_whole _) (fun h => h0 ((isFirst_iff t).mp h)) ((isLast_iff t).mpr h1) (iblk V c 0 t) (iblk V c 1 t) (iblk V c 2 t) (accAt V c (t.val - 1) (Nat.lt_of_le_of_lt (Nat.sub_le _ _) t.isLt)) := by
  unfold outAt; exact (dif_pos h1).trans rfl

/-! ## The invariant and the proof data -/

/-- The region's invariant before position `n`: before the first point the class's; afterwards the accumulator at what
    the point before left, the other scoped buffers and the generator register. -/
def PhiS (c : Dev nD) : (n : ℕ) → n ≤ cfg3.N → sProp 𝕄
  | 0, _ => Pipeline.ΦA spec3 c
  | n + 1, hn => iprop(iprop(owns (c : Thread nD τ) accM fullShare (accAt V c n hn) ∗ others c) ∗ (∃ r, prngReg c r))

theorem PhiS_zero (c : Dev nD) (n : ℕ) (h : n ≤ cfg3.N) (hz : n = 0) : PhiS V c n h = Pipeline.ΦA spec3 c := by
  subst hz; rfl
theorem PhiS_succ (c : Dev nD) (n : ℕ) (hn : n < cfg3.N) :
    PhiS V c (n + 1) hn = iprop(iprop(owns (c : Thread nD τ) accM fullShare (accAt V c n hn) ∗ others c) ∗ (∃ r, prngReg c r)) := rfl
theorem PhiS_pos (c : Dev nD) (n : ℕ) (h : n ≤ cfg3.N) (hz : n ≠ 0) :
    PhiS V c n h = iprop(iprop(owns (c : Thread nD τ) accM fullShare (accAt V c (n - 1) (by omega)) ∗ others c) ∗ (∃ r, prngReg c r)) := by
  cases n with
  | zero => exact absurd rfl hz
  | succ n => rfl

/-- The region's proof data on core `c`: its arrays as it finds them; after the body each input's buffer at its block,
    the output's at `outAt`; the invariant `PhiS`; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => outAt V c t.val t.isLt
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]
theorem Phi_castSucc (c : Dev nD) (t : Fin cfg3.N) : (dat V c).Φ t.castSucc = PhiS V c t.val (Nat.le_of_lt t.isLt) := by
  dsimp only [dat]; simp only [Fin.coe_castSucc]
theorem after0 (c : Dev nD) (t : Fin cfg3.N) : (dat V c).after 0 t = iblk V c 0 t := by dsimp only [dat]
theorem after1 (c : Dev nD) (t : Fin cfg3.N) : (dat V c).after 1 t = iblk V c 1 t := by dsimp only [dat]
theorem after2 (c : Dev nD) (t : Fin cfg3.N) : (dat V c).after 2 t = iblk V c 2 t := by dsimp only [dat]
theorem after3 (c : Dev nD) (t : Fin cfg3.N) : (dat V c).after 3 t = outAt V c t.val t.isLt := by dsimp only [dat]
theorem before0 (c : Dev nD) (t : Fin cfg3.N) (d) : (dat V c).before 0 t d = iblk V c 0 t := before0_of V (dat V c) (A_eq V c 0) (after0 V c) t d
theorem before1 (c : Dev nD) (t : Fin cfg3.N) (d) : (dat V c).before 1 t d = iblk V c 1 t := before1_of V (dat V c) (A_eq V c 1) (after1 V c) t d
theorem before2 (c : Dev nD) (t : Fin cfg3.N) (d) : (dat V c).before 2 t d = iblk V c 2 t := before2_of V (dat V c) (A_eq V c 2) (after2 V c) t d

end AtV

/-! ## The body obligation, at a generic point -/

section Obligation

variable (V : (c : Dev nD) → (b : Ref sig .tc) → Buf (Elt F) ((c : Thread nD τ).loc b))

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' memrefs hold their blocks; the closed forms say which case the point is in. The
    invariant hands the body the accumulator — inside the class invariant at the very first point, at what the point
    before left afterwards (forgotten at a row block's first point, which zeroes it) — and takes it back at this point's
    contents, the case's pieces covering it. The output block is handed back untouched where it is idle and holds the
    accumulator's copy at a row block's last point. The core owes nothing throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg3.N = 64 from N_3)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  by_cases h0 : t.val % 8 = 0
  · have h1 : ¬t.val % 8 = 7 := by omega
    rw [Dat.leavesExact_idle (dat V c) 3 t (idle3_of_not_last t (fun h => h1 ((isLast_iff t).mp h))) (noFlush3_of_not_last t (fun h => h1 ((isLast_iff t).mp h)))]
    rw [accAt_first V c t h0 h1]
    unfold accFirst; (try dsimp only)
    by_cases hz : t.val = 0
    · rw [Phi_castSucc V c t, PhiS_zero V c _ _ hz, PhiA_split]
      iintro ⟨⟨⟨HS, Hoth⟩, Hg⟩, Ho, ⟨%d0, H0⟩, ⟨%d1, H1⟩, ⟨%d2, H2⟩, ⟨%d3, H3⟩⟩
      iapply ((runFirst c (grid3.coords t) _ _ _ _ _ _ _ _ _ _ ((isFirst_iff t).mpr h0) (fun h => h1 ((isLast_iff t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (coverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [Phi_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runFirst c (grid3.coords t) _ _ _ _ _ _ _ _ _ _ ((isFirst_iff t).mpr h0) (fun h => h1 ((isLast_iff t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (coverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 8 = 7
    · rw [show (dat V c).leavesExact 3 t = owns (c : Thread nD τ) (ms3 t) fullShare ((dat V c).after 3 t) from by
        unfold Dat.leavesExact; rw [live3_of_last t ((isLast_iff t).mpr h1)], after3]
      rw [accAt_last V c t h0 h1, outAt_last V c t h0 h1]
      unfold accLast outLast; (try dsimp only)
      rw [Phi_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runLast c (grid3.coords t) _ _ _ _ _ _ _ _ _ _ (fun h => h0 ((isFirst_iff t).mp h)) ((isLast_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverLast c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverOutLast c _ _ _ _ _ _ _ _ _ _ _ _ _ _ _ _ _)
    · rw [Dat.leavesExact_idle (dat V c) 3 t (idle3_of_not_last t (fun h => h1 ((isLast_iff t).mp h))) (noFlush3_of_not_last t (fun h => h1 ((isLast_iff t).mp h)))]
      rw [accAt_mid V c t h0 h1]
      unfold accMid; (try dsimp only)
      rw [Phi_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runMid c (grid3.coords t) _ _ _ _ _ _ _ _ _ _ (fun h => h0 ((isFirst_iff t).mp h)) (fun h => h1 ((isLast_iff t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (coverMid c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W3, bigSep_W3]
  exact sound_body V c t

/-- What the region is entered with (the class invariant) is the invariant before the first point. -/
theorem Phi_in (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the accumulator's contents are forgotten. -/
theorem Phi_out (c : Dev nD) : (dat V c).Φ (Fin.last cfg3.N) ⊢ Pipeline.ΦA spec3 c := by
  have hne : (Fin.last cfg3.N).val ≠ 0 := by rw [Fin.val_last]; have : cfg3.N = 64 := N_3; omega
  rw [show (dat V c).Φ (Fin.last cfg3.N) = PhiS V c (Fin.last cfg3.N).val (Nat.le_of_lt_succ (Fin.last cfg3.N).isLt) from rfl,
    PhiS_pos V c _ _ hne, PhiA_split]
  iintro ⟨⟨HS, Hoth⟩, Hg⟩
  isplitl [HS Hoth]
  · isplitl [HS]
    · iexists _; iexact HS
    iexact Hoth
  iexact Hg

end Obligation

end Cert.KernelIdeal.Inner

end
-- ==== Proof.KernelIdealOuterShared.lean ====
/-
  The second chained product, `DJM (i, o) = ∑ h2, (Ct (h2, i) · gate z₂ (h2)) · W3 (o, h2)`, is computed block by block: the
  grid is 4 column blocks of 512 output columns by 8 blocks of the contracted axis, point `t` being column block `t / 8`,
  contraction block `t % 8`. A scratch accumulator of one column block is zeroed at contraction block 0, receives one
  partial product at every point, and is copied into the output block at contraction block 7; the output block is
  untouched at the other points and written back only after the last one. Here: the two branch conditions in closed form
  over the 32 points, where each window is idle, live or written back, the staging and scratch memrefs as the body is
  called with them, and the region's invariant with the accumulator split from the other scoped buffers.
-/
import proofs.«152103_j17360257810985_2_alg».proof.Proof.Gen.KernelIdeal.Launch
import proofs.«152103_j17360257810985_2_alg».proof.Proof.Gen.KernelIdeal.Skeleton
import proofs.«152103_j17360257810985_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Outer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (contraction block 0), from the grid coordinates. -/
abbrev isFirst (i : grid4.Coords) : Prop := (Scalar.cmpi .ne (Scalar.extui (Scalar.cmpi .eq (BitVec.ofNat 32 (i 1).val) 0#32)) 0#32) = 1#1
/-- It holds at the points ≡ 0 (mod 8). -/
theorem isFirst_iff : ∀ t : Fin cfg4.N, isFirst (grid4.coords t) ↔ t.val % 8 = 0 :=
  (by decide +kernel : ∀ t : Fin grid4.N, isFirst (grid4.coords t) ↔ t.val % 8 = 0)

/-- The second branch's condition (contraction block 7). -/
abbrev isLast (i : grid4.Coords) : Prop := k4_cond2 i = 1#1
/-- It holds at the points ≡ 7 (mod 8). -/
theorem isLast_iff : ∀ t : Fin cfg4.N, isLast (grid4.coords t) ↔ t.val % 8 = 7 :=
  (by decide +kernel : ∀ t : Fin grid4.N, isLast (grid4.coords t) ↔ t.val % 8 = 7)

/-- The three input windows are never idle. -/
theorem live0 : ∀ t : Fin cfg4.N, cfg4.idle 0 (grid4.coords t) = false := by decide +kernel
theorem live1 : ∀ t : Fin cfg4.N, cfg4.idle 1 (grid4.coords t) = false := by decide +kernel
theorem live2 : ∀ t : Fin cfg4.N, cfg4.idle 2 (grid4.coords t) = false := by decide +kernel
/-- The output window is idle, and not written back, at every point but a column block's last. -/
theorem idleOut_of_not_last : ∀ t : Fin cfg4.N, ¬isLast (grid4.coords t) → cfg4.idle 3 (grid4.coords t) = true := by decide +kernel
theorem noFlushOut_of_not_last : ∀ t : Fin cfg4.N, ¬isLast (grid4.coords t) → (cfg4.win 3).flush t = false := by decide +kernel
/-- At a column block's last point it is live. -/
theorem liveOut_of_last : ∀ t : Fin cfg4.N, isLast (grid4.coords t) → cfg4.idle 3 (grid4.coords t) = false := by decide +kernel

/-- Each window's current staging memref at point `t`, as the body is called with it, and its wholeness. -/
abbrev ms0 (t : Fin cfg4.N) : Memref sig .tc .vmem S512x512 .f32 := win4_0.stage (cfg4.slots t 0)
abbrev hs0 (t : Fin cfg4.N) : (ms0 t).IsWhole := hstage4_0 ((cfg4.slots t 0).cast nbuf4_0)
abbrev ms1 (t : Fin cfg4.N) : Memref sig .tc .vmem S512x2048 .f32 := win4_1.stage (cfg4.slots t 1)
abbrev hs1 (t : Fin cfg4.N) : (ms1 t).IsWhole := hstage4_1 ((cfg4.slots t 1).cast nbuf4_1)
abbrev ms2 (t : Fin cfg4.N) : Memref sig .tc .vmem S512x1 .f32 := win4_2.stage (cfg4.slots t 2)
abbrev hs2 (t : Fin cfg4.N) : (ms2 t).IsWhole := hstage4_2 ((cfg4.slots t 2).cast nbuf4_2)
abbrev ms3 (t : Fin cfg4.N) : Memref sig .tc .vmem S2048x512 .f32 := win4_3.stage (cfg4.slots t 3)
abbrev hs3 (t : Fin cfg4.N) : (ms3 t).IsWhole := hstage4_3 ((cfg4.slots t 3).cast nbuf4_3)
/-- The accumulator: a whole scoped buffer of the kernel's own. -/
abbrev accM : Memref sig .tc .vmem S2048x512 .f32 := Memref.whole cc4_scratch0
/-- The views through which the accumulator's and the output block's contents are stated. -/
abbrev accV : View sig .tc .vmem S2048x512 .f32 := accM.view
abbrev outV : View sig .tc .vmem S2048x512 .f32 := (Memref.whole cc4_stg3_0 : Memref sig .tc .vmem S2048x512 .f32).view

/-- The scoped buffers other than the accumulator, unopened. -/
abbrev others (c : Dev nD) : sProp 𝕄 :=
  Pipeline.scopedRestBut (Ix := Unit) (Name := ℕ) (U := UR sig nD τ) (Lvl := ℕ) (Val := Elt F) spec4 c [cc4_scratch0]

/-- The class invariant with the accumulator split off, owned at some contents. -/
theorem PhiA_split (c : Dev nD) :
    (Pipeline.ΦA spec4 c : sProp 𝕄)
      = iprop(iprop(iprop((∃ d, owns (c : Thread nD τ) accM fullShare d)) ∗ others c) ∗ (∃ r, prngReg c r)) := by
  unfold Pipeline.ΦA; rw [scopedRest4_split]; simp only [accM, owns_whole]; try rfl

end Cert.KernelIdeal.Outer

end
-- ==== Proof.KernelIdealOuterFirst.lean ====
/-
  The body at a column block's FIRST point (contraction block 0): the accumulator, found at anything, is zeroed and then
  receives the first partial product; the output block is not touched and is handed back as it was found.
-/
import proofs.«152103_j17360257810985_2_alg».proof.Proof.KernelIdealOuterShared

set_option maxRecDepth 16384

noncomputable section

namespace Cert.KernelIdeal.Outer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) in the output block and in the accumulator in this case, with the
    body's triple on whole memrefs: the inputs at their contents and handed back as they were, the accumulator and the
    output block as the case's description above says. -/
noncomputable def runFirst (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : isFirst i) (hc1 : ¬isLast i)
    (x0 : Vec F S512x512 .f32) (x1 : Vec F S512x2048 .f32) (x2 : Vec F S512x1 .f32) :
    Σ' (L3 : List (View.Piece (Elt F) S2048x512 .f32)), { LS : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc4__mm2_kernel i arg2 harg2 arg3 harg3 arg4 harg4 arg5 harg5 arg6 harg6) K } := by
  refine ⟨[], ?_, fun xi3 E K => ?run⟩
  case run =>
    simp only [cc4__mm2_kernel_eq_skeleton]; unfold cc4__mm2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Outer

end
-- ==== Proof.KernelIdealOuterMid.lean ====
/-
  The body at a point that is neither a column block's first nor its last: the accumulator, found at what the point before
  left (`xs`), receives one more partial product; the output block is not touched and is handed back as it was found.
-/
import proofs.«152103_j17360257810985_2_alg».proof.Proof.KernelIdealOuterShared

set_option maxRecDepth 16384

noncomputable section

namespace Cert.KernelIdeal.Outer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) in the output block and in the accumulator in this case, with the
    body's triple on whole memrefs: the inputs at their contents and handed back as they were, the accumulator and the
    output block as the case's description above says. -/
noncomputable def runMid (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : ¬isFirst i) (hc1 : ¬isLast i)
    (x0 : Vec F S512x512 .f32) (x1 : Vec F S512x2048 .f32) (x2 : Vec F S512x1 .f32) (xs : Vec F S2048x512 .f32) :
    Σ' (L3 : List (View.Piece (Elt F) S2048x512 .f32)), { LS : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc4__mm2_kernel i arg2 harg2 arg3 harg3 arg4 harg4 arg5 harg5 arg6 harg6) K } := by
  refine ⟨[], ?_, fun xi3 E K => ?run⟩
  case run =>
    simp only [cc4__mm2_kernel_eq_skeleton]; unfold cc4__mm2_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Outer

end
-- ==== Proof.KernelIdealOuterLast.lean ====
/-
  The body at a column block's LAST point (contraction block 7): the accumulator, found at what the point before left
  (`xs`), receives the last partial product and is then copied whole into the output block, found at anything.
-/
import proofs.«152103_j17360257810985_2_alg».proof.Proof.KernelIdealOuterShared

set_option maxRecDepth 16384

noncomputable section

namespace Cert.KernelIdeal.Outer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first) in the output block and in the accumulator in this case, with the
    body's triple on whole memrefs: the inputs at their contents and handed back as they were, the accumulator and the
    output block as the case's description above says. -/
noncomputable def runLast (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : ¬isFirst i) (hc1 : isLast i)
    (x0 : Vec F S512x512 .f32) (x1 : Vec F S512x2048 .f32) (x2 : Vec F S512x1 .f32) (xs : Vec F S2048x512 .f32) :
    Σ' (L3 : List (View.Piece (Elt F) S2048x512 .f32)), { LS : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc4__mm2_kernel i arg2 harg2 arg3 harg3 arg4 harg4 arg5 harg5 arg6 harg6) K } := by
  refine ⟨?_, ?_, fun E K => ?run⟩
  case run =>
    simp only [cc4__mm2_kernel_eq_skeleton]; unfold cc4__mm2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Outer

end
-- ==== Proof.KernelIdealOuter.lean ====
/-
  The second chained product's region: what its accumulator and its output block hold after each of the 32 points, the
  region's proof data at the array contents `V` the region is entered with, and the body's obligation at every point.
  After the body at a column block's first point the accumulator holds what that case's stores leave; at every later point
  of the column block what the case leaves over the accumulator of the point before; the output block holds, after a
  column block's last point, the accumulator copied into it. The invariant carried from point to point is the accumulator
  at these contents beside the other scoped buffers and the generator register, all untouched.
-/
import proofs.«152103_j17360257810985_2_alg».proof.Proof.KernelIdealOuterFirst
import proofs.«152103_j17360257810985_2_alg».proof.Proof.KernelIdealOuterMid
import proofs.«152103_j17360257810985_2_alg».proof.Proof.KernelIdealOuterLast

set_option maxRecDepth 16384

noncomputable section

namespace Cert.KernelIdeal.Outer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- The accumulator after a column block's first point: that case's pieces read back. -/
def accFirst (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : isFirst i) (hc1 : ¬isLast i) (x0 : Vec F S512x512 .f32) (x1 : Vec F S512x2048 .f32) (x2 : Vec F S512x1 .f32) : Vec F S2048x512 .f32 :=
  accV.read (Elt F) (accV.writes (Elt F) accV.junk (runFirst c i arg2 harg2 arg3 harg3 arg4 harg4 arg5 harg5 arg6 harg6 hc0 hc1 x0 x1 x2).2.1)
/-- Those pieces cover the accumulator. -/
theorem coverFirst (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : isFirst i) (hc1 : ¬isLast i) (x0 : Vec F S512x512 .f32) (x1 : Vec F S512x2048 .f32) (x2 : Vec F S512x1 .f32) (y : S2048x512.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S2048x512.size (by sl_kernel_rfl) y

/-- The accumulator after a middle point, over what the point before left (`xs`). -/
def accMid (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : ¬isFirst i) (hc1 : ¬isLast i) (x0 : Vec F S512x512 .f32) (x1 : Vec F S512x2048 .f32) (x2 : Vec F S512x1 .f32) (xs : Vec F S2048x512 .f32) : Vec F S2048x512 .f32 :=
  accV.read (Elt F) (accV.writes (Elt F) accV.junk (runMid c i arg2 harg2 arg3 harg3 arg4 harg4 arg5 harg5 arg6 harg6 hc0 hc1 x0 x1 x2 xs).2.1)
theorem coverMid (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : ¬isFirst i) (hc1 : ¬isLast i) (x0 : Vec F S512x512 .f32) (x1 : Vec F S512x2048 .f32) (x2 : Vec F S512x1 .f32) (xs : Vec F S2048x512 .f32) (y : S2048x512.Idx) :
    ∃ pc ∈ (runMid c i arg2 harg2 arg3 harg3 arg4 harg4 arg5 harg5 arg6 harg6 hc0 hc1 x0 x1 x2 xs).2.1, y ∈ pc.1.set :=
  View.cover_of_tiledL (runMid c i arg2 harg2 arg3 harg3 arg4 harg4 arg5 harg5 arg6 harg6 hc0 hc1 x0 x1 x2 xs).2.1 S2048x512.size (by sl_kernel_rfl) y

/-- The accumulator after a column block's last point, over what the point before left. -/
def accLast (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : ¬isFirst i) (hc1 : isLast i) (x0 : Vec F S512x512 .f32) (x1 : Vec F S512x2048 .f32) (x2 : Vec F S512x1 .f32) (xs : Vec F S2048x512 .f32) : Vec F S2048x512 .f32 :=
  accV.read (Elt F) (accV.writes (Elt F) accV.junk (runLast c i arg2 harg2 arg3 harg3 arg4 harg4 arg5 harg5 arg6 harg6 hc0 hc1 x0 x1 x2 xs).2.1)
theorem coverLast (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : ¬isFirst i) (hc1 : isLast i) (x0 : Vec F S512x512 .f32) (x1 : Vec F S512x2048 .f32) (x2 : Vec F S512x1 .f32) (xs : Vec F S2048x512 .f32) (y : S2048x512.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S2048x512.size (by sl_kernel_rfl) y

/-- The output block after a column block's last point. -/
def outLast (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : ¬isFirst i) (hc1 : isLast i) (x0 : Vec F S512x512 .f32) (x1 : Vec F S512x2048 .f32) (x2 : Vec F S512x1 .f32) (xs : Vec F S2048x512 .f32) : Vec F S2048x512 .f32 :=
  outV.read (Elt F) (outV.writes (Elt F) outV.junk (runLast c i arg2 harg2 arg3 harg3 arg4 harg4 arg5 harg5 arg6 harg6 hc0 hc1 x0 x1 x2 xs).1)
theorem coverOutLast (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : ¬isFirst i) (hc1 : isLast i) (x0 : Vec F S512x512 .f32) (x1 : Vec F S512x2048 .f32) (x2 : Vec F S512x1 .f32) (xs : Vec F S2048x512 .f32) (y : S2048x512.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S2048x512.size (by sl_kernel_rfl) y

/-- At a point where the output block is idle its `after` is never consulted: any fixed contents. -/
def idleOut : Vec F S2048x512 .f32 := outV.read (Elt F) outV.junk

section AtV

variable (V : (c : Dev nD) → (b : Ref sig .tc) → Buf (Elt F) ((c : Thread nD τ).loc b))

/-! ## The windows' blocks -/

/-- Window `w`'s block at point `t`, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, for any proof data over these arrays whose
    body leaves the block in place. -/
theorem before0_of {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The accumulator and the output block, point by point -/

/-- THE ACCUMULATION: the accumulator after the body at point `n`. -/
def accAt (c : Dev nD) : (n : ℕ) → n < cfg4.N → Vec F S2048x512 .f32
  | 0, hn => accFirst c (grid4.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩)
  | n + 1, hn =>
    if h0 : (n + 1) % 8 = 0 then
      accFirst c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((isFirst_iff ⟨n + 1, hn⟩).mpr h0) (fun h => (fun h => by (try dsimp only at h); omega) ((isLast_iff ⟨n + 1, hn⟩).mp h)) (iblk V c 0 ⟨n + 1, hn⟩) (iblk V c 1 ⟨n + 1, hn⟩) (iblk V c 2 ⟨n + 1, hn⟩)
    else if h1 : (n + 1) % 8 = 7 then
      accLast c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (accAt c n (Nat.lt_of_succ_lt hn))
    else
      accMid c (grid4.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (accAt c n (Nat.lt_of_succ_lt hn))

/-- `accAt` at a column block's first point. -/
theorem accAt_first (c : Dev nD) (t : Fin cfg4.N) (h0 : t.val % 8 = 0) (h1 : ¬t.val % 8 = 7) :
    accAt V c t.val t.isLt = accFirst c (grid4.coords t) (ms0 t) (hs0 t) (ms1 t) (hs1 t) (ms2 t) (hs2 t) (ms3 t) (hs3 t) accM (Memref.isWhole_whole _) ((isFirst_iff t).mpr h0) (fun h => h1 ((isLast_iff t).mp h)) (iblk V c 0 t) (iblk V c 1 t) (iblk V c 2 t) := by
  obtain ⟨n, hn⟩ := t
  cases n with
  | zero => exact rfl
  | succ n => exact (dif_pos h0).trans rfl

/-- `accAt` at a middle point, over what the point before left. -/
theorem accAt_mid (c : Dev nD) (t : Fin cfg4.N) (h0 : ¬t.val % 8 = 0) (h1 : ¬t.val % 8 = 7) :
    accAt V c t.val t.isLt = accMid c (grid4.coords t) (ms0 t) (hs0 t) (ms1 t) (hs1 t) (ms2 t) (hs2 t) (ms3 t) (hs3 t) accM (Memref.isWhole_whole _) (fun h => h0 ((isFirst_iff t).mp h)) (fun h => h1 ((isLast_iff t).mp h)) (iblk V c 0 t) (iblk V c 1 t) (iblk V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `accAt` at a column block's last point, over what the point before left. -/
theorem accAt_last (c : Dev nD) (t : Fin cfg4.N) (h0 : ¬t.val % 8 = 0) (h1 : t.val % 8 = 7) :
    accAt V c t.val t.isLt = accLast c (grid4.coords t) (ms0 t) (hs0 t) (ms1 t) (hs1 t) (ms2 t) (hs2 t) (ms3 t) (hs3 t) accM (Memref.isWhole_whole _) (fun h => h0 ((isFirst_iff t).mp h)) ((isLast_iff t).mpr h1) (iblk V c 0 t) (iblk V c 1 t) (iblk V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block after the body at point `n`: at a column block's last point the accumulator copied into it. -/
def outAt (c : Dev nD) (n : ℕ) (hn : n < cfg4.N) : Vec F S2048x512 .f32 :=
  if h1 : n % 8 = 7 then
    outLast c (grid4.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) accM (Memref.isWhole_whole _) (fun h => (fun h => by (try dsimp only at h); omega) ((isFirst_iff ⟨n, hn⟩).mp h)) ((isLast_iff ⟨n, hn⟩).mpr h1) (iblk V c 0 ⟨n, hn⟩) (iblk V c 1 ⟨n, hn⟩) (iblk V c 2 ⟨n, hn⟩) (accAt V c (n - 1) (Nat.lt_of_le_of_lt (Nat.sub_le _ _) hn))
  else idleOut

theorem outAt_last (c : Dev nD) (t : Fin cfg4.N) (h0 : ¬t.val % 8 = 0) (h1 : t.val % 8 = 7) :
    outAt V c t.val t.isLt = outLast c (grid4.coords t) (ms0 t) (hs0 t) (ms1 t) (hs1 t) (ms2 t) (hs2 t) (ms3 t) (hs3 t) accM (Memref.isWhole_whole _) (fun h => h0 ((isFirst_iff t).mp h)) ((isLast_iff t).mpr h1) (iblk V c 0 t) (iblk V c 1 t) (iblk V c 2 t) (accAt V c (t.val - 1) (Nat.lt_of_le_of_lt (Nat.sub_le _ _) t.isLt)) := by
  unfold outAt; exact (dif_pos h1).trans rfl

/-! ## The invariant and the proof data -/

/-- The region's invariant before position `n`: before the first point the class's; afterwards the accumulator at what
    the point before left, the other scoped buffers and the generator register. -/
def PhiS (c : Dev nD) : (n : ℕ) → n ≤ cfg4.N → sProp 𝕄
  | 0, _ => Pipeline.ΦA spec4 c
  | n + 1, hn => iprop(iprop(owns (c : Thread nD τ) accM fullShare (accAt V c n hn) ∗ others c) ∗ (∃ r, prngReg c r))

theorem PhiS_zero (c : Dev nD) (n : ℕ) (h : n ≤ cfg4.N) (hz : n = 0) : PhiS V c n h = Pipeline.ΦA spec4 c := by
  subst hz; rfl
theorem PhiS_succ (c : Dev nD) (n : ℕ) (hn : n < cfg4.N) :
    PhiS V c (n + 1) hn = iprop(iprop(owns (c : Thread nD τ) accM fullShare (accAt V c n hn) ∗ others c) ∗ (∃ r, prngReg c r)) := rfl
theorem PhiS_pos (c : Dev nD) (n : ℕ) (h : n ≤ cfg4.N) (hz : n ≠ 0) :
    PhiS V c n h = iprop(iprop(owns (c : Thread nD τ) accM fullShare (accAt V c (n - 1) (by omega)) ∗ others c) ∗ (∃ r, prngReg c r)) := by
  cases n with
  | zero => exact absurd rfl hz
  | succ n => rfl

/-- The region's proof data on core `c`: its arrays as it finds them; after the body each input's buffer at its block,
    the output's at `outAt`; the invariant `PhiS`; nothing owed; full shares. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => outAt V c t.val t.isLt
  Φ t := PhiS V c t.val (Nat.le_of_lt_succ t.isLt)
  q _ := fullShare
  owed _ := 0

theorem A_eq (c : Dev nD) (w : Fin cfg4.W) : (dat V c).A w = V c (Pipeline.arrRef spec4 w) := by
  dsimp only [dat]
theorem Phi_castSucc (c : Dev nD) (t : Fin cfg4.N) : (dat V c).Φ t.castSucc = PhiS V c t.val (Nat.le_of_lt t.isLt) := by
  dsimp only [dat]; simp only [Fin.coe_castSucc]
theorem after0 (c : Dev nD) (t : Fin cfg4.N) : (dat V c).after 0 t = iblk V c 0 t := by dsimp only [dat]
theorem after1 (c : Dev nD) (t : Fin cfg4.N) : (dat V c).after 1 t = iblk V c 1 t := by dsimp only [dat]
theorem after2 (c : Dev nD) (t : Fin cfg4.N) : (dat V c).after 2 t = iblk V c 2 t := by dsimp only [dat]
theorem after3 (c : Dev nD) (t : Fin cfg4.N) : (dat V c).after 3 t = outAt V c t.val t.isLt := by dsimp only [dat]
theorem before0 (c : Dev nD) (t : Fin cfg4.N) (d) : (dat V c).before 0 t d = iblk V c 0 t := before0_of V (dat V c) (A_eq V c 0) (after0 V c) t d
theorem before1 (c : Dev nD) (t : Fin cfg4.N) (d) : (dat V c).before 1 t d = iblk V c 1 t := before1_of V (dat V c) (A_eq V c 1) (after1 V c) t d
theorem before2 (c : Dev nD) (t : Fin cfg4.N) (d) : (dat V c).before 2 t d = iblk V c 2 t := before2_of V (dat V c) (A_eq V c 2) (after2 V c) t d

end AtV

/-! ## The body obligation, at a generic point -/

section Obligation

variable (V : (c : Dev nD) → (b : Ref sig .tc) → Buf (Elt F) ((c : Thread nD τ).loc b))

/-- What the body is called with at point `t`, the windows one by one, -/
def bodyPre (c : Dev nD) (t : Fin cfg4.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' memrefs hold their blocks; the closed forms say which case the point is in. The
    invariant hands the body the accumulator — inside the class invariant at the very first point, at what the point
    before left afterwards (forgotten at a column block's first point, which zeroes it) — and takes it back at this point's
    contents, the case's pieces covering it. The output block is handed back untouched where it is idle and holds the
    accumulator's copy at a column block's last point. The core owes nothing throughout. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before0, before1, before2]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg4.N = 32 from N_4)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  by_cases h0 : t.val % 8 = 0
  · have h1 : ¬t.val % 8 = 7 := by omega
    rw [Dat.leavesExact_idle (dat V c) 3 t (idleOut_of_not_last t (fun h => h1 ((isLast_iff t).mp h))) (noFlushOut_of_not_last t (fun h => h1 ((isLast_iff t).mp h)))]
    rw [accAt_first V c t h0 h1]
    unfold accFirst; (try dsimp only)
    by_cases hz : t.val = 0
    · rw [Phi_castSucc V c t, PhiS_zero V c _ _ hz, PhiA_split]
      iintro ⟨⟨⟨HS, Hoth⟩, Hg⟩, Ho, ⟨%d0, H0⟩, ⟨%d1, H1⟩, ⟨%d2, H2⟩, ⟨%d3, H3⟩⟩
      iapply ((runFirst c (grid4.coords t) _ _ _ _ _ _ _ _ _ _ ((isFirst_iff t).mpr h0) (fun h => h1 ((isLast_iff t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (coverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [Phi_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runFirst c (grid4.coords t) _ _ _ _ _ _ _ _ _ _ ((isFirst_iff t).mpr h0) (fun h => h1 ((isLast_iff t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (coverFirst c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 8 = 7
    · rw [show (dat V c).leavesExact 3 t = owns (c : Thread nD τ) (ms3 t) fullShare ((dat V c).after 3 t) from by
        unfold Dat.leavesExact; rw [liveOut_of_last t ((isLast_iff t).mpr h1)], after3]
      rw [accAt_last V c t h0 h1, outAt_last V c t h0 h1]
      unfold accLast outLast; (try dsimp only)
      rw [Phi_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runLast c (grid4.coords t) _ _ _ _ _ _ _ _ _ _ (fun h => h0 ((isFirst_iff t).mp h)) ((isLast_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverLast c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverOutLast c _ _ _ _ _ _ _ _ _ _ _ _ _ _ _ _ _)
    · rw [Dat.leavesExact_idle (dat V c) 3 t (idleOut_of_not_last t (fun h => h1 ((isLast_iff t).mp h))) (noFlushOut_of_not_last t (fun h => h1 ((isLast_iff t).mp h)))]
      rw [accAt_mid V c t h0 h1]
      unfold accMid; (try dsimp only)
      rw [Phi_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((runMid c (grid4.coords t) _ _ _ _ _ _ _ _ _ _ (fun h => h0 ((isFirst_iff t).mp h)) (fun h => h1 ((isLast_iff t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (coverMid c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W4, bigSep_W4]
  exact sound_body V c t

/-- What the region is entered with (the class invariant) is the invariant before the first point. -/
theorem Phi_in (c : Dev nD) : Pipeline.ΦA spec4 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the accumulator's contents are forgotten. -/
theorem Phi_out (c : Dev nD) : (dat V c).Φ (Fin.last cfg4.N) ⊢ Pipeline.ΦA spec4 c := by
  have hne : (Fin.last cfg4.N).val ≠ 0 := by rw [Fin.val_last]; have : cfg4.N = 32 := N_4; omega
  rw [show (dat V c).Φ (Fin.last cfg4.N) = PhiS V c (Fin.last cfg4.N).val (Nat.le_of_lt_succ (Fin.last cfg4.N).isLt) from rfl,
    PhiS_pos V c _ _ hne, PhiA_split]
  iintro ⟨⟨HS, Hoth⟩, Hg⟩
  isplitl [HS Hoth]
  · isplitl [HS]
    · iexists _; iexact HS
    iexact Hoth
  iexact Hg

end Obligation

end Cert.KernelIdeal.Outer

end
-- ==== Proof.KernelIdealWhole.lean ====
/-
  The whole run of the program: five kernel regions among stretches of host operations. The buffer contents at every
  boundary between two segments are a fold from the launch memory — a host stretch applies its operations, a region
  leaves its arrays at what its proof data's write-backs give and every other buffer as it found it —; each region is a
  segment over the thread state "every unscoped buffer at the boundary's contents, the generator register at some state,
  nothing owed"; and every weakly fair execution of the program ends with every unscoped buffer at the last boundary's
  contents. The frame (the four arguments end as launched) and the values of the eight results are read off that.
-/
import proofs.«152103_j17360257810985_2_alg».proof.Proof.KernelIdealLayer0
import proofs.«152103_j17360257810985_2_alg».proof.Proof.KernelIdealLayer1
import proofs.«152103_j17360257810985_2_alg».proof.Proof.KernelIdealLayer2
import proofs.«152103_j17360257810985_2_alg».proof.Proof.KernelIdealInner
import proofs.«152103_j17360257810985_2_alg».proof.Proof.KernelIdealOuter
import proofs.«152103_j17360257810985_2_alg».proof.Proof.Gen.KernelIdeal.Regions
import Idealize.ShloMosaic.Lib.Pipeline.RegionsLoop

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- The same read at the TensorCore's references: what region 0's proof data take. -/
abbrev En0 : (c : Dev nD) → (b : Ref sig .tc) → Buf (Elt F) ((c : Thread nD τ).loc b) := fun c b => W0 m ρ c b

/-- At region 0's exit: its arrays at what the pipeline leaves (an input as entered, an output's write-backs folded in),
    every other buffer as entered. -/
def W1 (c : Dev nD) : Valuation τ sig (Elt F) :=
  Pipeline.withArrays spec0 c (W0 m ρ c) fun w => (Layers.dat0 (En0 m ρ) c).arrAt w cfg0.N
theorem W1_arr (c : Dev nD) (w : Fin cfg0.W) :
    W1 m ρ c (Proc.devRef .tc (Pipeline.arrRef spec0 w)) = (Layers.dat0 (En0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem hF0 (c : Dev nD) (w : Fin cfg0.W) : (Layers.dat0 (En0 m ρ) c).arrAt w cfg0.N = W1 m ρ c (Pipeline.arrRef spec0 w) :=
  (W1_arr m ρ c w).symm
theorem hrest0 (c : Dev nD) : ∀ b, b ∉ Finset.univ.image (Pipeline.arrRef spec0) → W1 m ρ c (Proc.devRef .tc b) = En0 m ρ c b :=
  fun b hb => W1_of_ne m ρ c b fun w e => hb (Finset.mem_image.mpr ⟨w, Finset.mem_univ _, e⟩)

abbrev En1 : (c : Dev nD) → (b : Ref sig .tc) → Buf (Elt F) ((c : Thread nD τ).loc b) := fun c b => W1 m ρ c b

/-- At region 1's exit: its arrays at what the pipeline leaves (an input as entered, an output's write-backs folded in),
    every other buffer as entered. -/
def W2 (c : Dev nD) : Valuation τ sig (Elt F) :=
  Pipeline.withArrays spec1 c (W1 m ρ c) fun w => (Layers.dat1 (En1 m ρ) c).arrAt w cfg1.N
theorem W2_arr (c : Dev nD) (w : Fin cfg1.W) :
    W2 m ρ c (Proc.devRef .tc (Pipeline.arrRef spec1 w)) = (Layers.dat1 (En1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
theorem hF1 (c : Dev nD) (w : Fin cfg1.W) : (Layers.dat1 (En1 m ρ) c).arrAt w cfg1.N = W2 m ρ c (Pipeline.arrRef spec1 w) :=
  (W2_arr m ρ c w).symm
theorem hrest1 (c : Dev nD) : ∀ b, b ∉ Finset.univ.image (Pipeline.arrRef spec1) → W2 m ρ c (Proc.devRef .tc b) = En1 m ρ c b :=
  fun b hb => W2_of_ne m ρ c b fun w e => hb (Finset.mem_image.mpr ⟨w, Finset.mem_univ _, e⟩)

abbrev En2 : (c : Dev nD) → (b : Ref sig .tc) → Buf (Elt F) ((c : Thread nD τ).loc b) := fun c b => W2 m ρ c b

/-- At region 2's exit: its arrays at what the pipeline leaves (an input as entered, an output's write-backs folded in),
    every other buffer as entered. -/
def W3 (c : Dev nD) : Valuation τ sig (Elt F) :=
  Pipeline.withArrays spec2 c (W2 m ρ c) fun w => (Layers.dat2 (En2 m ρ) c).arrAt w cfg2.N
theorem W3_arr (c : Dev nD) (w : Fin cfg2.W) :
    W3 m ρ c (Proc.devRef .tc (Pipeline.arrRef spec2 w)) = (Layers.dat2 (En2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
theorem hF2 (c : Dev nD) (w : Fin cfg2.W) : (Layers.dat2 (En2 m ρ) c).arrAt w cfg2.N = W3 m ρ c (Pipeline.arrRef spec2 w) :=
  (W3_arr m ρ c w).symm
theorem hrest2 (c : Dev nD) : ∀ b, b ∉ Finset.univ.image (Pipeline.arrRef spec2) → W3 m ρ c (Proc.devRef .tc b) = En2 m ρ c b :=
  fun b hb => W3_of_ne m ρ c b fun w e => hb (Finset.mem_image.mpr ⟨w, Finset.mem_univ _, e⟩)

/-- After the host stretch between the third and the fourth region (the second mask as a column). -/
abbrev W4 : Dev nD → Valuation τ sig (Elt F) := fun c => StableHlo.after hostOps3 (W3 m ρ c)
abbrev En3 : (c : Dev nD) → (b : Ref sig .tc) → Buf (Elt F) ((c : Thread nD τ).loc b) := fun c b => W4 m ρ c b

/-- At region 3's exit: its arrays at what the pipeline leaves (an input as entered, an output's write-backs folded in),
    every other buffer as entered. -/
def W5 (c : Dev nD) : Valuation τ sig (Elt F) :=
  Pipeline.withArrays spec3 c (W4 m ρ c) fun w => (Inner.dat (En3 m ρ) c).arrAt w cfg3.N
theorem W5_arr (c : Dev nD) (w : Fin cfg3.W) :
    W5 m ρ c (Proc.devRef .tc (Pipeline.arrRef spec3 w)) = (Inner.dat (En3 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
theorem hF3 (c : Dev nD) (w : Fin cfg3.W) : (Inner.dat (En3 m ρ) c).arrAt w cfg3.N = W5 m ρ c (Pipeline.arrRef spec3 w) :=
  (W5_arr m ρ c w).symm
theorem hrest3 (c : Dev nD) : ∀ b, b ∉ Finset.univ.image (Pipeline.arrRef spec3) → W5 m ρ c (Proc.devRef .tc b) = En3 m ρ c b :=
  fun b hb => W5_of_ne m ρ c b fun w e => hb (Finset.mem_image.mpr ⟨w, Finset.mem_univ _, e⟩)

abbrev En4 : (c : Dev nD) → (b : Ref sig .tc) → Buf (Elt F) ((c : Thread nD τ).loc b) := fun c b => W5 m ρ c b

/-- At region 4's exit: its arrays at what the pipeline leaves (an input as entered, an output's write-backs folded in),
    every other buffer as entered. -/
def W6 (c : Dev nD) : Valuation τ sig (Elt F) :=
  Pipeline.withArrays spec4 c (W5 m ρ c) fun w => (Outer.dat (En4 m ρ) c).arrAt w cfg4.N
theorem W6_arr (c : Dev nD) (w : Fin cfg4.W) :
    W6 m ρ c (Proc.devRef .tc (Pipeline.arrRef spec4 w)) = (Outer.dat (En4 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
theorem hF4 (c : Dev nD) (w : Fin cfg4.W) : (Outer.dat (En4 m ρ) c).arrAt w cfg4.N = W6 m ρ c (Pipeline.arrRef spec4 w) :=
  (W6_arr m ρ c w).symm
theorem hrest4 (c : Dev nD) : ∀ b, b ∉ Finset.univ.image (Pipeline.arrRef spec4) → W6 m ρ c (Proc.devRef .tc b) = En4 m ρ c b :=
  fun b hb => W6_of_ne m ρ c b fun w e => hb (Finset.mem_image.mpr ⟨w, Finset.mem_univ _, e⟩)

/-- After each of the five trailing host stretches. -/
abbrev W7 : Dev nD → Valuation τ sig (Elt F) := fun c => StableHlo.after hostOps5 (W6 m ρ c)
abbrev W8 : Dev nD → Valuation τ sig (Elt F) := fun c => StableHlo.after hostOps5_1 (W7 m ρ c)
abbrev W9 : Dev nD → Valuation τ sig (Elt F) := fun c => StableHlo.after hostOps5_2 (W8 m ρ c)
abbrev W10 : Dev nD → Valuation τ sig (Elt F) := fun c => StableHlo.after hostOps5_3 (W9 m ρ c)
abbrev W11 : Dev nD → Valuation τ sig (Elt F) := fun c => StableHlo.after hostOps5_4 (W10 m ρ c)

/-! ## The proof data family and the thread state -/

/-- No region has a prefetched table. -/
abbrev admAll : (p : Fin 5) → (pcfgs (F := F) p).Adm := fun p => (cfgs p).toPCfg_adm
/-- Every region's proof data, each at its region's entry contents (a literal match on the region). -/
def pdats : (p : Fin 5) → (c : Dev nD) → Dat τ (Elt F) Unit ℕ (UR sig nD τ) ℕ (Pipeline.pin (pcfgs (F := F)) admAll p) c
  | ⟨0, _⟩ => fun c => Layers.dat0 (En0 m ρ) c
  | ⟨1, _⟩ => fun c => Layers.dat1 (En1 m ρ) c
  | ⟨2, _⟩ => fun c => Layers.dat2 (En2 m ρ) c
  | ⟨3, _⟩ => fun c => Inner.dat (En3 m ρ) c
  | ⟨4, _⟩ => fun c => Outer.dat (En4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- a library lemma stated over the pinned configuration unifies with the printed one only when unification may unfold
-- plain definitions in a metavariable's type
set_option backward.isDefEq.respectTransparency.types false in
/-- Region 0 over the thread state: entered with every unscoped buffer at `W0`, left with them at `W1`. Its
    arrays are split out of the unscoped buffers at entry and put back, at what the proof data's write-backs leave, at the
    exit; the generator register goes into the region's invariant and comes back; nothing is owed; the kernel has no
    semaphore of its own. -/
def reg0 : Pipeline.RegionSeg (pcfgs (F := F)) admAll (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Layers.body_obligation0 (En0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (En0 m ρ c)
  hentry c := by
    rw [Pipeline.ownSems0_none]
    have hsplit := Pipeline.arrays_of_unscopedBufs (p := 0) (pcfgs (F := F)) admAll (pdats m ρ) launch0.win launch0.arr_whole c
      ((pdats m ρ 0 c).share_full fun _ => rfl) (En0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]
    unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admAll (Ix := Unit) (Name := ℕ) (U := UR sig nD τ) (Lvl := ℕ)
      launch0.win launch0.arr_whole c (pdats m ρ) ((pdats m ρ 0 c).share_full fun _ => rfl)
      (En0 m ρ c) (fun b => W1 m ρ c b) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W1`, left with them at `W2`. Its
    arrays are split out of the unscoped buffers at entry and put back, at what the proof data's write-backs leave, at the
    exit; the generator register goes into the region's invariant and comes back; nothing is owed; the kernel has no
    semaphore of its own. -/
def reg1 : Pipeline.RegionSeg (pcfgs (F := F)) admAll (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Layers.body_obligation1 (En1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (En1 m ρ c)
  hentry c := by
    rw [Pipeline.ownSems0_none]
    have hsplit := Pipeline.arrays_of_unscopedBufs (p := 1) (pcfgs (F := F)) admAll (pdats m ρ) launch1.win launch1.arr_whole c
      ((pdats m ρ 1 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admAll (Ix := Unit) (Name := ℕ) (U := UR sig nD τ) (Lvl := ℕ)
      launch1.win launch1.arr_whole c (pdats m ρ) ((pdats m ρ 1 c).share_full fun _ => rfl)
      (En1 m ρ c) (fun b => W2 m ρ c b) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W2`, left with them at `W3`. Its
    arrays are split out of the unscoped buffers at entry and put back, at what the proof data's write-backs leave, at the
    exit; the generator register goes into the region's invariant and comes back; nothing is owed; the kernel has no
    semaphore of its own. -/
def reg2 : Pipeline.RegionSeg (pcfgs (F := F)) admAll (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Layers.body_obligation2 (En2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (En2 m ρ c)
  hentry c := by
    rw [Pipeline.ownSems0_none]
    have hsplit := Pipeline.arrays_of_unscopedBufs (p := 2) (pcfgs (F := F)) admAll (pdats m ρ) launch2.win launch2.arr_whole c
      ((pdats m ρ 2 c).share_full fun _ => rfl) (En2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]
    unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admAll (Ix := Unit) (Name := ℕ) (U := UR sig nD τ) (Lvl := ℕ)
      launch2.win launch2.arr_whole c (pdats m ρ) ((pdats m ρ 2 c).share_full fun _ => rfl)
      (En2 m ρ c) (fun b => W3 m ρ c b) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered with every unscoped buffer at `W4`, left with them at `W5`. Its
    arrays are split out of the unscoped buffers at entry and put back, at what the proof data's write-backs leave, at the
    exit; the generator register goes into the region's invariant and comes back; nothing is owed; the kernel has no
    semaphore of its own. -/
def reg3 : Pipeline.RegionSeg (pcfgs (F := F)) admAll (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Inner.body_obligation (En3 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (En3 m ρ c)
  hentry c := by
    rw [Pipeline.ownSems0_none]
    have hsplit := Pipeline.arrays_of_unscopedBufs (p := 3) (pcfgs (F := F)) admAll (pdats m ρ) launch3.win launch3.arr_whole c
      ((pdats m ρ 3 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]
    unfold Pipeline.ΦA
    iintro ⟨Hp, -, Hr⟩
    isplitl [Hr]; · iexact Hr
    iexact Hp
  hout c := by
    rw [Pipeline.ownSems0_none, show (pdats m ρ 3 c).Φ (Fin.last _) = (Inner.dat (En3 m ρ) c).Φ (Fin.last cfg3.N) from rfl]
    have hback := Inner.Phi_out (En3 m ρ) c
    unfold Pipeline.ΦA at hback
    iintro H
    ihave H' := hback $$ H
    icases H' with ⟨Hr, Hp⟩
    isplitl [Hp]; · iexact Hp
    isplitr; · iempintro
    iexact Hr
  hexit c := by
    have hjoin := Pipeline.unscopedBufs_of_arrays (p := 3) (pcfgs (F := F)) admAll (Ix := Unit) (Name := ℕ) (U := UR sig nD τ) (Lvl := ℕ)
      launch3.win launch3.arr_whole c (pdats m ρ) ((pdats m ρ 3 c).share_full fun _ => rfl)
      (En3 m ρ c) (fun b => W5 m ρ c b) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 4 over the thread state: entered with every unscoped buffer at `W5`, left with them at `W6`. Its
    arrays are split out of the unscoped buffers at entry and put back, at what the proof data's write-backs leave, at the
    exit; the generator register goes into the region's invariant and comes back; nothing is owed; the kernel has no
    semaphore of its own. -/
def reg4 : Pipeline.RegionSeg (pcfgs (F := F)) admAll (pdats m ρ) () defs₀ 𝒱₀ L lv 4 where
  win := launch4.win.to₀
  block_pos := launch4.block_pos
  stage_whole := launch4.stage_whole
  K := PEmpty
  osem k := k.elim
  ho := Pipeline.OwnSemFacts.none _
  hbody c := (Outer.body_obligation (En4 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (En4 m ρ c)
  hentry c := by
    rw [Pipeline.ownSems0_none]
    have hsplit := Pipeline.arrays_of_unscopedBufs (p := 4) (pcfgs (F := F)) admAll (pdats m ρ) launch4.win launch4.arr_whole c
      ((pdats m ρ 4 c).share_full fun _ => rfl) (En4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]
    unfold Pipeline.ΦA
    iintro ⟨Hp, -, Hr⟩
    isplitl [Hr]; · iexact Hr
    iexact Hp
  hout c := by
    rw [Pipeline.ownSems0_none, show (pdats m ρ 4 c).Φ (Fin.last _) = (Outer.dat (En4 m ρ) c).Φ (Fin.last cfg4.N) from rfl]
    have hback := Outer.Phi_out (En4 m ρ) c
    unfold Pipeline.ΦA at hback
    iintro H
    ihave H' := hback $$ H
    icases H' with ⟨Hr, Hp⟩
    isplitl [Hp]; · iexact Hp
    isplitr; · iempintro
    iexact Hr
  hexit c := by
    have hjoin := Pipeline.unscopedBufs_of_arrays (p := 4) (pcfgs (F := F)) admAll (Ix := Unit) (Name := ℕ) (U := UR sig nD τ) (Lvl := ℕ)
      launch4.win launch4.arr_whole c (pdats m ρ) ((pdats m ρ 4 c).share_full fun _ => rfl)
      (En4 m ρ c) (fun b => W6 m ρ c b) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

/-- The program's eleven segments in order. -/
abbrev segs : List (Pipeline.Seg (pcfgs (F := F)) admAll (pdats m ρ) () defs₀ 𝒱₀ L lv) :=
  [ .region (reg0 m ρ), .region (reg1 m ρ), .region (reg2 m ρ),
    .host (hseg hostOps3 hostOps3_sub hostOps3_fresh (W3 m ρ)),
    .region (reg3 m ρ), .region (reg4 m ρ),
    .host (hseg hostOps5 hostOps5_sub hostOps5_fresh (W6 m ρ)),
    .host (hseg hostOps5_1 hostOps5_1_sub hostOps5_1_fresh (W7 m ρ)),
    .host (hseg hostOps5_2 hostOps5_2_sub hostOps5_2_fresh (W8 m ρ)),
    .host (hseg hostOps5_3 hostOps5_3_sub hostOps5_3_fresh (W9 m ρ)),
    .host (hseg hostOps5_4 hostOps5_4_sub hostOps5_4_fresh (W10 m ρ)) ]
/-- The program is the run of its segments. -/
theorem main_run (c : Dev nD) : main (F := F) c = Pipeline.Seg.run (segs m ρ) := (main_chain c).trans (by chain_rfl)

set_option backward.isDefEq.respectTransparency.types false in
/-- THE RUN. From any memory with zero counters every weakly fair execution of the program on the TensorCores terminates,
    nothing faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) admAll (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W11 m ρ c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => (show iprop(StableHlo.held (c : Thread nD τ) (Pipeline.ucRefs τ sig) (W11 m ρ c) ∗ R c)
          ⊢ (iprop(iprop(StableHlo.held (c : Thread nD τ) (Pipeline.ucRefs τ sig) (W11 m ρ c) ∗ ∃ r, prngReg c r)
            ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.KernelIdeal.Whole

end
-- ==== Proof.KernelIdealEnds.lean ====
/-
  The run's last boundary read back. Every segment leaves a buffer it does not write as it found it — a region every
  buffer that is not one of its output arrays, a host stretch every buffer none of its operations writes —, so each of the
  four argument arrays, which no segment writes, holds at the end what it held at launch: the frame.
-/
import proofs.«152103_j17360257810985_2_alg».proof.Proof.KernelIdealWhole

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 0 leaves every buffer that is not one of its output arrays as it found it: an input array is handed back
    as entered, and a buffer no window stages bypasses the region. -/
theorem W1_keep (c : Dev nD) (b : Ref sig .tc) (h : ∀ w, (cfg0.win w).isOut = true → Pipeline.arrRef spec0 w ≠ b) :
    W1 m ρ c (Proc.devRef .tc b) = W0 m ρ c (Proc.devRef .tc b) := by
  by_cases hb : ∃ w, Pipeline.arrRef spec0 w = b
  · obtain ⟨w, rfl⟩ := hb
    have hw : (cfg0.win w).isOut = false := by
      cases hi : (cfg0.win w).isOut with
      | false => rfl
      | true => exact absurd rfl (h w hi)
    exact (W1_arr m ρ c w).trans (((Layers.dat0 (En0 m ρ) c).arrAt_in w hw _).trans (Layers.A_eq0 (En0 m ρ) c w))
  · exact W1_of_ne m ρ c b fun w e => hb ⟨w, e⟩

/-- Region 1 leaves every buffer that is not one of its output arrays as it found it: an input array is handed back
    as entered, and a buffer no window stages bypasses the region. -/
theorem W2_keep (c : Dev nD) (b : Ref sig .tc) (h : ∀ w, (cfg1.win w).isOut = true → Pipeline.arrRef spec1 w ≠ b) :
    W2 m ρ c (Proc.devRef .tc b) = W1 m ρ c (Proc.devRef .tc b) := by
  by_cases hb : ∃ w, Pipeline.arrRef spec1 w = b
  · obtain ⟨w, rfl⟩ := hb
    have hw : (cfg1.win w).isOut = false := by
      cases hi : (cfg1.win w).isOut with
      | false => rfl
      | true => exact absurd rfl (h w hi)
    exact (W2_arr m ρ c w).trans (((Layers.dat1 (En1 m ρ) c).arrAt_in w hw _).trans (Layers.A_eq1 (En1 m ρ) c w))
  · exact W2_of_ne m ρ c b fun w e => hb ⟨w, e⟩

/-- Region 2 leaves every buffer that is not one of its output arrays as it found it: an input array is handed back
    as entered, and a buffer no window stages bypasses the region. -/
theorem W3_keep (c : Dev nD) (b : Ref sig .tc) (h : ∀ w, (cfg2.win w).isOut = true → Pipeline.arrRef spec2 w ≠ b) :
    W3 m ρ c (Proc.devRef .tc b) = W2 m ρ c (Proc.devRef .tc b) := by
  by_cases hb : ∃ w, Pipeline.arrRef spec2 w = b
  · obtain ⟨w, rfl⟩ := hb
    have hw : (cfg2.win w).isOut = false := by
      cases hi : (cfg2.win w).isOut with
      | false => rfl
      | true => exact absurd rfl (h w hi)
    exact (W3_arr m ρ c w).trans (((Layers.dat2 (En2 m ρ) c).arrAt_in w hw _).trans (Layers.A_eq2 (En2 m ρ) c w))
  · exact W3_of_ne m ρ c b fun w e => hb ⟨w, e⟩

/-- The host stretch `hostOps3` leaves every buffer it does not write as it found it. -/
theorem W4_keep (c : Dev nD) (r : Ref sig .tc) (h : r ∉ hostOps3_W) : W4 m ρ c r = W3 m ρ c r :=
  StableHlo.after_of_writes_sub hostOps3 _ hostOps3_writes h

/-- Region 3 leaves every buffer that is not one of its output arrays as it found it: an input array is handed back
    as entered, and a buffer no window stages bypasses the region. -/
theorem W5_keep (c : Dev nD) (b : Ref sig .tc) (h : ∀ w, (cfg3.win w).isOut = true → Pipeline.arrRef spec3 w ≠ b) :
    W5 m ρ c (Proc.devRef .tc b) = W4 m ρ c (Proc.devRef .tc b) := by
  by_cases hb : ∃ w, Pipeline.arrRef spec3 w = b
  · obtain ⟨w, rfl⟩ := hb
    have hw : (cfg3.win w).isOut = false := by
      cases hi : (cfg3.win w).isOut with
      | false => rfl
      | true => exact absurd rfl (h w hi)
    exact (W5_arr m ρ c w).trans (((Inner.dat (En3 m ρ) c).arrAt_in w hw _).trans (Inner.A_eq (En3 m ρ) c w))
  · exact W5_of_ne m ρ c b fun w e => hb ⟨w, e⟩

/-- Region 4 leaves every buffer that is not one of its output arrays as it found it: an input array is handed back
    as entered, and a buffer no window stages bypasses the region. -/
theorem W6_keep (c : Dev nD) (b : Ref sig .tc) (h : ∀ w, (cfg4.win w).isOut = true → Pipeline.arrRef spec4 w ≠ b) :
    W6 m ρ c (Proc.devRef .tc b) = W5 m ρ c (Proc.devRef .tc b) := by
  by_cases hb : ∃ w, Pipeline.arrRef spec4 w = b
  · obtain ⟨w, rfl⟩ := hb
    have hw : (cfg4.win w).isOut = false := by
      cases hi : (cfg4.win w).isOut with
      | false => rfl
      | true => exact absurd rfl (h w hi)
    exact (W6_arr m ρ c w).trans (((Outer.dat (En4 m ρ) c).arrAt_in w hw _).trans (Outer.A_eq (En4 m ρ) c w))
  · exact W6_of_ne m ρ c b fun w e => hb ⟨w, e⟩

/-- The host stretch `hostOps5` leaves every buffer it does not write as it found it. -/
theorem W7_keep (c : Dev nD) (r : Ref sig .tc) (h : r ∉ hostOps5_W) : W7 m ρ c r = W6 m ρ c r :=
  StableHlo.after_of_writes_sub hostOps5 _ hostOps5_writes h

/-- The host stretch `hostOps5_1` leaves every buffer it does not write as it found it. -/
theorem W8_keep (c : Dev nD) (r : Ref sig .tc) (h : r ∉ hostOps5_1_W) : W8 m ρ c r = W7 m ρ c r :=
  StableHlo.after_of_writes_sub hostOps5_1 _ hostOps5_1_writes h

/-- The host stretch `hostOps5_2` leaves every buffer it does not write as it found it. -/
theorem W9_keep (c : Dev nD) (r : Ref sig .tc) (h : r ∉ hostOps5_2_W) : W9 m ρ c r = W8 m ρ c r :=
  StableHlo.after_of_writes_sub hostOps5_2 _ hostOps5_2_writes h

/-- The host stretch `hostOps5_3` leaves every buffer it does not write as it found it. -/
theorem W10_keep (c : Dev nD) (r : Ref sig .tc) (h : r ∉ hostOps5_3_W) : W10 m ρ c r = W9 m ρ c r :=
  StableHlo.after_of_writes_sub hostOps5_3 _ hostOps5_3_writes h

/-- The host stretch `hostOps5_4` leaves every buffer it does not write as it found it. -/
theorem W11_keep (c : Dev nD) (r : Ref sig .tc) (h : r ∉ hostOps5_4_W) : W11 m ρ c r = W10 m ρ c r :=
  StableHlo.after_of_writes_sub hostOps5_4 _ hostOps5_4_writes h

/-! ## The arguments end as launched -/

/-- `main_arg0` ends as launched: no segment writes it. -/
theorem W11_main_arg0 (c : Dev nD) : W11 m ρ c main_arg0 = m ((c : Thread nD τ).loc main_arg0) :=
  (W11_keep m ρ c main_arg0 (by decide)).trans <| (W10_keep m ρ c main_arg0 (by decide)).trans <| (W9_keep m ρ c main_arg0 (by decide)).trans <|
  (W8_keep m ρ c main_arg0 (by decide)).trans <| (W7_keep m ρ c main_arg0 (by decide)).trans <| (W6_keep m ρ c main_arg0 (by decide)).trans <|
  (W5_keep m ρ c main_arg0 (by decide)).trans <| (W4_keep m ρ c main_arg0 (by decide)).trans <| (W3_keep m ρ c main_arg0 (by decide)).trans <|
  (W2_keep m ρ c main_arg0 (by decide)).trans <| (W1_keep m ρ c main_arg0 (by decide)).trans rfl

/-- `main_arg1` ends as launched: no segment writes it. -/
theorem W11_main_arg1 (c : Dev nD) : W11 m ρ c main_arg1 = m ((c : Thread nD τ).loc main_arg1) :=
  (W11_keep m ρ c main_arg1 (by decide)).trans <| (W10_keep m ρ c main_arg1 (by decide)).trans <| (W9_keep m ρ c main_arg1 (by decide)).trans <|
  (W8_keep m ρ c main_arg1 (by decide)).trans <| (W7_keep m ρ c main_arg1 (by decide)).trans <| (W6_keep m ρ c main_arg1 (by decide)).trans <|
  (W5_keep m ρ c main_arg1 (by decide)).trans <| (W4_keep m ρ c main_arg1 (by decide)).trans <| (W3_keep m ρ c main_arg1 (by decide)).trans <|
  (W2_keep m ρ c main_arg1 (by decide)).trans <| (W1_keep m ρ c main_arg1 (by decide)).trans rfl

/-- `main_arg2` ends as launched: no segment writes it. -/
theorem W11_main_arg2 (c : Dev nD) : W11 m ρ c main_arg2 = m ((c : Thread nD τ).loc main_arg2) :=
  (W11_keep m ρ c main_arg2 (by decide)).trans <| (W10_keep m ρ c main_arg2 (by decide)).trans <| (W9_keep m ρ c main_arg2 (by decide)).trans <|
  (W8_keep m ρ c main_arg2 (by decide)).trans <| (W7_keep m ρ c main_arg2 (by decide)).trans <| (W6_keep m ρ c main_arg2 (by decide)).trans <|
  (W5_keep m ρ c main_arg2 (by decide)).trans <| (W4_keep m ρ c main_arg2 (by decide)).trans <| (W3_keep m ρ c main_arg2 (by decide)).trans <|
  (W2_keep m ρ c main_arg2 (by decide)).trans <| (W1_keep m ρ c main_arg2 (by decide)).trans rfl

/-- `main_arg3` ends as launched: no segment writes it. -/
theorem W11_main_arg3 (c : Dev nD) : W11 m ρ c main_arg3 = m ((c : Thread nD τ).loc main_arg3) :=
  (W11_keep m ρ c main_arg3 (by decide)).trans <| (W10_keep m ρ c main_arg3 (by decide)).trans <| (W9_keep m ρ c main_arg3 (by decide)).trans <|
  (W8_keep m ρ c main_arg3 (by decide)).trans <| (W7_keep m ρ c main_arg3 (by decide)).trans <| (W6_keep m ρ c main_arg3 (by decide)).trans <|
  (W5_keep m ρ c main_arg3 (by decide)).trans <| (W4_keep m ρ c main_arg3 (by decide)).trans <| (W3_keep m ρ c main_arg3 (by decide)).trans <|
  (W2_keep m ρ c main_arg3 (by decide)).trans <| (W1_keep m ρ c main_arg3 (by decide)).trans rfl

/-- THE FRAME: every weakly fair execution terminates, nothing faulting, with the four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c)⟩) (run_all m ρ)

end Cert.KernelIdeal.Whole

end
-- ==== Proof.RefRun.lean ====
/-
  The reference program's run, read back.

  The reference is a straight line of host operations once its two calls of the diagonal-matrix function (which
  itself calls a selection function) are unfolded at their call sites: fifty-nine operations, each writing one
  buffer. From any memory with zero counters every weakly fair execution terminates, and each of the eight result
  buffers then holds the composition of the operations' functions applied to the four argument arrays, the
  arguments unchanged. The compositions are named: the pre-activations, gates and activations of the two hidden
  layers, the three transposes, the two diagonal matrices, the identity matrix, and the left-nested chain of five
  matrix products.
-/
import proofs.«152103_j17360257810985_2_alg».proof.Defs
import proofs.«152103_j17360257810985_2_alg».proof.Proof.Gen.ReferenceIdeal
import proofs.«152103_j17360257810985_2_alg».proof.Proof.Gen.Pre_finite_inputs
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

section Line

variable {F : FTy → Type} [FloatOps F]

/-- The program's fifty-nine operations in order, the two calls unfolded: three for the first layer's transposes and
    product; six for its gate (the zero, its broadcast, the comparison, the conversion, the gated product, the
    flattening); thirteen for the diagonal matrix of the gate (ten of the diagonal function, three of the selection
    it calls); the same twenty-two for the second layer; then the third layer's transposes and product, the
    identity matrix (seven), and the five products of the chain. -/
abbrev ops : List (HloOp τ sig (Elt F)) :=
  [ unary main_arg1 main_v0 ((transpose S2048x4096 [1, 0] · transposes_S4096x2048_S2048x4096_1_0) : (⟨S4096x2048, .f32⟩ : BufTy).Contents (Elt F) → (⟨S2048x4096, .f32⟩ : BufTy).Contents (Elt F)),
    binary main_arg0 main_v0 main_v1 (fun l r => Host.dotGeneral dot_S1x2048_S2048x4096_S1x4096_1_0_0_1_n_n none l r : (⟨S1x2048, .f32⟩ : BufTy).Contents (Elt F) → (⟨S2048x4096, .f32⟩ : BufTy).Contents (Elt F) → (⟨S1x4096, .f32⟩ : BufTy).Contents (Elt F)),
    unary main_arg1 main_v2 ((transpose S2048x4096 [1, 0] · transposes_S4096x2048_S2048x4096_1_0) : (⟨S4096x2048, .f32⟩ : BufTy).Contents (Elt F) → (⟨S2048x4096, .f32⟩ : BufTy).Contents (Elt F)),
    nullary main_cst (constant S_ .f32 0x00000000#32 : (⟨S_, .f32⟩ : BufTy).Contents (Elt F)),
    unary main_cst main_v3 (broadcastInDim S1x4096 ![] bcast_S_S1x4096 : (⟨S_, .f32⟩ : BufTy).Contents (Elt F) → (⟨S1x4096, .f32⟩ : BufTy).Contents (Elt F)),
    binary main_v1 main_v3 main_v4 (cmpf .ogt : (⟨S1x4096, .f32⟩ : BufTy).Contents (Elt F) → (⟨S1x4096, .f32⟩ : BufTy).Contents (Elt F) → (⟨S1x4096, .i1⟩ : BufTy).Contents (Elt F)),
    unary main_v4 main_v5 (uitofp .f32 : (⟨S1x4096, .i1⟩ : BufTy).Contents (Elt F) → (⟨S1x4096, .f32⟩ : BufTy).Contents (Elt F)),
    binary main_v1 main_v5 main_v6 (mulf : (⟨S1x4096, .f32⟩ : BufTy).Contents (Elt F) → (⟨S1x4096, .f32⟩ : BufTy).Contents (Elt F) → (⟨S1x4096, .f32⟩ : BufTy).Contents (Elt F)),
    reshape main_v5 main_v7 rfl shapeCasts_S1x4096_S4096,
    nullary main_call0_cst (constant S_ .f32 0x00000000#32 : (⟨S_, .f32⟩ : BufTy).Contents (Elt F)),
    binary main_v7 main_call0_cst main_call0_v0 (fun x v => pad S4096 ![0] ![0] ![0] x v pads_S4096_S4096_000 h_S_ : (⟨S4096, .f32⟩ : BufTy).Contents (Elt F) → (⟨S_, .f32⟩ : BufTy).Contents (Elt F) → (⟨S4096, .f32⟩ : BufTy).Contents (Elt F)),
    nullary main_call0_v1 (iotaInDim S4096x4096 32 0 : (⟨S4096x4096, .i32⟩ : BufTy).Contents (Elt F)),
    nullary main_call0_v2 (iotaInDim S4096x4096 32 1 : (⟨S4096x4096, .i32⟩ : BufTy).Contents (Elt F)),
    nullary main_call0_c (constantI S_ 32 0#32 : (⟨S_, .i32⟩ : BufTy).Contents (Elt F)),
    unary main_call0_c main_call0_v3 (broadcastInDim S4096x4096 ![] bcast_S_S4096x4096 : (⟨S_, .i32⟩ : BufTy).Contents (Elt F) → (⟨S4096x4096, .i32⟩ : BufTy).Contents (Elt F)),
    binary main_call0_v1 main_call0_v3 main_call0_v4 (addi : (⟨S4096x4096, .i32⟩ : BufTy).Contents (Elt F) → (⟨S4096x4096, .i32⟩ : BufTy).Contents (Elt F) → (⟨S4096x4096, .i32⟩ : BufTy).Contents (Elt F)),
    binary main_call0_v4 main_call0_v2 main_call0_v5 (cmpi .eq : (⟨S4096x4096, .i32⟩ : BufTy).Contents (Elt F) → (⟨S4096x4096, .i32⟩ : BufTy).Contents (Elt F) → (⟨S4096x4096, .i1⟩ : BufTy).Contents (Elt F)),
    unary main_call0_v0 main_call0_v6 (broadcastInDim S4096x1 ![0] bcast_S4096_S4096x1_0 : (⟨S4096, .f32⟩ : BufTy).Contents (Elt F) → (⟨S4096x1, .f32⟩ : BufTy).Contents (Elt F)),
    nullary main_call0_cst_0 (constant S_ .f32 0x00000000#32 : (⟨S_, .f32⟩ : BufTy).Contents (Elt F)),
    unary main_call0_v6 main_call0_call0_v0 (broadcastInDim S4096x4096 ![0, 1] bcast_S4096x1_S4096x4096_0_1 : (⟨S4096x1, .f32⟩ : BufTy).Contents (Elt F) → (⟨S4096x4096, .f32⟩ : BufTy).Contents (Elt F)),
    unary main_call0_cst_0 main_call0_call0_v1 (broadcastInDim S4096x4096 ![] bcast_S_S4096x4096 : (⟨S_, .f32⟩ : BufTy).Contents (Elt F) → (⟨S4096x4096, .f32⟩ : BufTy).Contents (Elt F)),
    ternary main_call0_v5 main_call0_call0_v0 main_call0_call0_v1 main_v8 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    unary main_arg2 main_v9 ((transpose S4096x4096 [1, 0] · transposes_S4096x4096_S4096x4096_1_0) : (⟨S4096x4096, .f32⟩ : BufTy).Contents (Elt F) → (⟨S4096x4096, .f32⟩ : BufTy).Contents (Elt F)),
    binary main_v6 main_v9 main_v10 (fun l r => Host.dotGeneral dot_S1x4096_S4096x4096_S1x4096_1_0_0_1_n_n none l r : (⟨S1x4096, .f32⟩ : BufTy).Contents (Elt F) → (⟨S4096x4096, .f32⟩ : BufTy).Contents (Elt F) → (⟨S1x4096, .f32⟩ : BufTy).Contents (Elt F)),
    unary main_arg2 main_v11 ((transpose S4096x4096 [1, 0] · transposes_S4096x4096_S4096x4096_1_0) : (⟨S4096x4096, .f32⟩ : BufTy).Contents (Elt F) → (⟨S4096x4096, .f32⟩ : BufTy).Contents (Elt F)),
    nullary main_cst_0 (constant S_ .f32 0x00000000#32 : (⟨S_, .f32⟩ : BufTy).Contents (Elt F)),
    unary main_cst_0 main_v12 (broadcastInDim S1x4096 ![] bcast_S_S1x4096 : (⟨S_, .f32⟩ : BufTy).Contents (Elt F) → (⟨S1x4096, .f32⟩ : BufTy).Contents (Elt F)),
    binary main_v10 main_v12 main_v13 (cmpf .ogt : (⟨S1x4096, .f32⟩ : BufTy).Contents (Elt F) → (⟨S1x4096, .f32⟩ : BufTy).Contents (Elt F) → (⟨S1x4096, .i1⟩ : BufTy).Contents (Elt F)),
    unary main_v13 main_v14 (uitofp .f32 : (⟨S1x4096, .i1⟩ : BufTy).Contents (Elt F) → (⟨S1x4096, .f32⟩ : BufTy).Contents (Elt F)),
    binary main_v10 main_v14 main_v15 (mulf : (⟨S1x4096, .f32⟩ : BufTy).Contents (Elt F) → (⟨S1x4096, .f32⟩ : BufTy).Contents (Elt F) → (⟨S1x4096, .f32⟩ : BufTy).Contents (Elt F)),
    reshape main_v14 main_v16 rfl shapeCasts_S1x4096_S4096,
    nullary main_call1_cst (constant S_ .f32 0x00000000#32 : (⟨S_, .f32⟩ : BufTy).Contents (Elt F)),
    binary main_v16 main_call1_cst main_call1_v0 (fun x v => pad S4096 ![0] ![0] ![0] x v pads_S4096_S4096_000 h_S_ : (⟨S4096, .f32⟩ : BufTy).Contents (Elt F) → (⟨S_, .f32⟩ : BufTy).Contents (Elt F) → (⟨S4096, .f32⟩ : BufTy).Contents (Elt F)),
    nullary main_call1_v1 (iotaInDim S4096x4096 32 0 : (⟨S4096x4096, .i32⟩ : BufTy).Contents (Elt F)),
    nullary main_call1_v2 (iotaInDim S4096x4096 32 1 : (⟨S4096x4096, .i32⟩ : BufTy).Contents (Elt F)),
    nullary main_call1_c (constantI S_ 32 0#32 : (⟨S_, .i32⟩ : BufTy).Contents (Elt F)),
    unary main_call1_c main_call1_v3 (broadcastInDim S4096x4096 ![] bcast_S_S4096x4096 : (⟨S_, .i32⟩ : BufTy).Contents (Elt F) → (⟨S4096x4096, .i32⟩ : BufTy).Contents (Elt F)),
    binary main_call1_v1 main_call1_v3 main_call1_v4 (addi : (⟨S4096x4096, .i32⟩ : BufTy).Contents (Elt F) → (⟨S4096x4096, .i32⟩ : BufTy).Contents (Elt F) → (⟨S4096x4096, .i32⟩ : BufTy).Contents (Elt F)),
    binary main_call1_v4 main_call1_v2 main_call1_v5 (cmpi .eq : (⟨S4096x4096, .i32⟩ : BufTy).Contents (Elt F) → (⟨S4096x4096, .i32⟩ : BufTy).Contents (Elt F) → (⟨S4096x4096, .i1⟩ : BufTy).Contents (Elt F)),
    unary main_call1_v0 main_call1_v6 (broadcastInDim S4096x1 ![0] bcast_S4096_S4096x1_0 : (⟨S4096, .f32⟩ : BufTy).Contents (Elt F) → (⟨S4096x1, .f32⟩ : BufTy).Contents (Elt F)),
    nullary main_call1_cst_0 (constant S_ .f32 0x00000000#32 : (⟨S_, .f32⟩ : BufTy).Contents (Elt F)),
    unary main_call1_v6 main_call1_call0_v0 (broadcastInDim S4096x4096 ![0, 1] bcast_S4096x1_S4096x4096_0_1 : (⟨S4096x1, .f32⟩ : BufTy).Contents (Elt F) → (⟨S4096x4096, .f32⟩ : BufTy).Contents (Elt F)),
    unary main_call1_cst_0 main_call1_call0_v1 (broadcastInDim S4096x4096 ![] bcast_S_S4096x4096 : (⟨S_, .f32⟩ : BufTy).Contents (Elt F) → (⟨S4096x4096, .f32⟩ : BufTy).Contents (Elt F)),
    ternary main_call1_v5 main_call1_call0_v0 main_call1_call0_v1 main_v17 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    unary main_arg3 main_v18 ((transpose S4096x2048 [1, 0] · transposes_S2048x4096_S4096x2048_1_0) : (⟨S2048x4096, .f32⟩ : BufTy).Contents (Elt F) → (⟨S4096x2048, .f32⟩ : BufTy).Contents (Elt F)),
    binary main_v15 main_v18 main_v19 (fun l r => Host.dotGeneral dot_S1x4096_S4096x2048_S1x2048_1_0_0_1_n_n none l r : (⟨S1x4096, .f32⟩ : BufTy).Contents (Elt F) → (⟨S4096x2048, .f32⟩ : BufTy).Contents (Elt F) → (⟨S1x2048, .f32⟩ : BufTy).Contents (Elt F)),
    unary main_arg3 main_v20 ((transpose S4096x2048 [1, 0] · transposes_S2048x4096_S4096x2048_1_0) : (⟨S2048x4096, .f32⟩ : BufTy).Contents (Elt F) → (⟨S4096x2048, .f32⟩ : BufTy).Contents (Elt F)),
    nullary main_v21 (iotaInDim S2048x2048 32 0 : (⟨S2048x2048, .i32⟩ : BufTy).Contents (Elt F)),
    nullary main_v22 (iotaInDim S2048x2048 32 1 : (⟨S2048x2048, .i32⟩ : BufTy).Contents (Elt F)),
    nullary main_c (constantI S_ 32 0#32 : (⟨S_, .i32⟩ : BufTy).Contents (Elt F)),
    unary main_c main_v23 (broadcastInDim S2048x2048 ![] bcast_S_S2048x2048 : (⟨S_, .i32⟩ : BufTy).Contents (Elt F) → (⟨S2048x2048, .i32⟩ : BufTy).Contents (Elt F)),
    binary main_v21 main_v23 main_v24 (addi : (⟨S2048x2048, .i32⟩ : BufTy).Contents (Elt F) → (⟨S2048x2048, .i32⟩ : BufTy).Contents (Elt F) → (⟨S2048x2048, .i32⟩ : BufTy).Contents (Elt F)),
    binary main_v24 main_v22 main_v25 (cmpi .eq : (⟨S2048x2048, .i32⟩ : BufTy).Contents (Elt F) → (⟨S2048x2048, .i32⟩ : BufTy).Contents (Elt F) → (⟨S2048x2048, .i1⟩ : BufTy).Contents (Elt F)),
    unary main_v25 main_v26 (uitofp .f32 : (⟨S2048x2048, .i1⟩ : BufTy).Contents (Elt F) → (⟨S2048x2048, .f32⟩ : BufTy).Contents (Elt F)),
    binary main_v2 main_v8 main_v27 (fun l r => Host.dotGeneral dot_S2048x4096_S4096x4096_S2048x4096_1_0_0_1_n_n none l r : (⟨S2048x4096, .f32⟩ : BufTy).Contents (Elt F) → (⟨S4096x4096, .f32⟩ : BufTy).Contents (Elt F) → (⟨S2048x4096, .f32⟩ : BufTy).Contents (Elt F)),
    binary main_v27 main_v11 main_v28 (fun l r => Host.dotGeneral dot_S2048x4096_S4096x4096_S2048x4096_1_0_0_1_n_n none l r : (⟨S2048x4096, .f32⟩ : BufTy).Contents (Elt F) → (⟨S4096x4096, .f32⟩ : BufTy).Contents (Elt F) → (⟨S2048x4096, .f32⟩ : BufTy).Contents (Elt F)),
    binary main_v28 main_v17 main_v29 (fun l r => Host.dotGeneral dot_S2048x4096_S4096x4096_S2048x4096_1_0_0_1_n_n none l r : (⟨S2048x4096, .f32⟩ : BufTy).Contents (Elt F) → (⟨S4096x4096, .f32⟩ : BufTy).Contents (Elt F) → (⟨S2048x4096, .f32⟩ : BufTy).Contents (Elt F)),
    binary main_v29 main_v20 main_v30 (fun l r => Host.dotGeneral dot_S2048x4096_S4096x2048_S2048x2048_1_0_0_1_n_n none l r : (⟨S2048x4096, .f32⟩ : BufTy).Contents (Elt F) → (⟨S4096x2048, .f32⟩ : BufTy).Contents (Elt F) → (⟨S2048x2048, .f32⟩ : BufTy).Contents (Elt F)),
    binary main_v30 main_v26 main_v31 (fun l r => Host.dotGeneral dot_S2048x2048_S2048x2048_S2048x2048_1_0_0_1_n_n none l r : (⟨S2048x2048, .f32⟩ : BufTy).Contents (Elt F) → (⟨S2048x2048, .f32⟩ : BufTy).Contents (Elt F) → (⟨S2048x2048, .f32⟩ : BufTy).Contents (Elt F)) ]

-- fifty-nine binds re-associated: the rewrite under the chain recurses once per statement
set_option maxRecDepth 2048 in
/-- The program is that straight line: the two functions' definitions unfolded at their calls and the records at
    their fields, both sides are one chain of steps once sequencing is re-associated. -/
theorem main_eq (c : Dev nD) : main (F := F) c = seq ops := by
  simp only [main, fn_diag.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., nullary_bufs_sub .., unary_bufs_sub .., binary_bufs_sub .., unary_bufs_sub .., binary_bufs_sub .., reshape_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., unary_bufs_sub .., binary_bufs_sub .., unary_bufs_sub .., nullary_bufs_sub .., unary_bufs_sub .., binary_bufs_sub .., unary_bufs_sub .., binary_bufs_sub .., reshape_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., unary_bufs_sub .., binary_bufs_sub .., unary_bufs_sub .., nullary_bufs_sub .., nullary_bufs_sub .., nullary_bufs_sub .., unary_bufs_sub .., binary_bufs_sub .., binary_bufs_sub .., unary_bufs_sub .., binary_bufs_sub .., binary_bufs_sub .., binary_bufs_sub .., binary_bufs_sub .., binary_bufs_sub ..⟩

/-- From any memory with zero counters every weakly fair execution of the program terminates, and every final state
    has each buffer at the fold of the operations' results over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Line

/-! ## The composed terms

Each result as a function of the four argument arrays, at the exact values. -/

section Terms

/-- The four arguments' array types: the input row, and the three weight matrices. -/
abbrev A0 : Type := FVec Ideal S1x2048 .f32
abbrev A1 : Type := FVec Ideal S4096x2048 .f32
abbrev A2 : Type := FVec Ideal S4096x4096 .f32
abbrev A3 : Type := FVec Ideal S2048x4096 .f32

/-- The transpose of the first weight matrix. -/
def T1 (a1 : A1) : FVec Ideal S2048x4096 .f32 := transpose S2048x4096 [1, 0] a1 transposes_S4096x2048_S2048x4096_1_0
/-- The transpose of the second weight matrix. -/
def T2 (a2 : A2) : FVec Ideal S4096x4096 .f32 := transpose S4096x4096 [1, 0] a2 transposes_S4096x4096_S4096x4096_1_0
/-- The transpose of the third weight matrix. -/
def T3 (a3 : A3) : FVec Ideal S4096x2048 .f32 := transpose S4096x2048 [1, 0] a3 transposes_S2048x4096_S4096x2048_1_0

/-- The row of zeros a pre-activation is compared with. -/
def zeroRow : FVec Ideal S1x4096 .f32 := broadcastInDim S1x4096 ![] bcast_S_S1x4096 (constant S_ .f32 0x00000000#32)
/-- The gate of a row of pre-activations: the comparison with zero, its bit read as a number. -/
def gateRow (z : FVec Ideal S1x4096 .f32) : FVec Ideal S1x4096 .f32 := uitofp .f32 (cmpf .ogt z zeroRow)
/-- A row flattened to a vector. -/
def flat (g : FVec Ideal S1x4096 .f32) : FVec Ideal S4096 .f32 := shapeCast S4096 g shapeCasts_S1x4096_S4096
/-- The square matrix with a vector on its diagonal: where the row index equals the column index the vector's entry
    at the row, elsewhere zero. -/
def diagOf (v : FVec Ideal S4096 .f32) : FVec Ideal S4096x4096 .f32 :=
  select
    (cmpi .eq (addi (iotaInDim S4096x4096 32 0) (broadcastInDim S4096x4096 ![] bcast_S_S4096x4096 (constantI S_ 32 0#32)))
      (iotaInDim S4096x4096 32 1))
    (broadcastInDim S4096x4096 ![0, 1] bcast_S4096x1_S4096x4096_0_1
      (broadcastInDim S4096x1 ![0] bcast_S4096_S4096x1_0
        (pad S4096 ![0] ![0] ![0] v (constant S_ .f32 0x00000000#32 : FVec Ideal S_ .f32) pads_S4096_S4096_000 h_S_)))
    (broadcastInDim S4096x4096 ![] bcast_S_S4096x4096 (constant S_ .f32 0x00000000#32 : FVec Ideal S_ .f32))

/-- The first layer's pre-activation row. -/
def Z1 (a0 : A0) (a1 : A1) : FVec Ideal S1x4096 .f32 := Host.dotGeneral dot_S1x2048_S2048x4096_S1x4096_1_0_0_1_n_n none a0 (T1 a1)
/-- Its gate. -/
def G1 (a0 : A0) (a1 : A1) : FVec Ideal S1x4096 .f32 := gateRow (Z1 a0 a1)
/-- The first layer's activation row. -/
def H1 (a0 : A0) (a1 : A1) : FVec Ideal S1x4096 .f32 := mulf (Z1 a0 a1) (G1 a0 a1)
/-- The second layer's pre-activation row. -/
def Z2 (a0 : A0) (a1 : A1) (a2 : A2) : FVec Ideal S1x4096 .f32 := Host.dotGeneral dot_S1x4096_S4096x4096_S1x4096_1_0_0_1_n_n none (H1 a0 a1) (T2 a2)
/-- Its gate. -/
def G2 (a0 : A0) (a1 : A1) (a2 : A2) : FVec Ideal S1x4096 .f32 := gateRow (Z2 a0 a1 a2)
/-- The second layer's activation row. -/
def H2 (a0 : A0) (a1 : A1) (a2 : A2) : FVec Ideal S1x4096 .f32 := mulf (Z2 a0 a1 a2) (G2 a0 a1 a2)

/-- The network's output row. -/
def R19 (a0 : A0) (a1 : A1) (a2 : A2) (a3 : A3) : FVec Ideal S1x2048 .f32 :=
  Host.dotGeneral dot_S1x4096_S4096x2048_S1x2048_1_0_0_1_n_n none (H2 a0 a1 a2) (T3 a3)
/-- The first Jacobian: the first weight matrix transposed. -/
def R2 (_a0 : A0) (a1 : A1) (_a2 : A2) (_a3 : A3) : FVec Ideal S2048x4096 .f32 := T1 a1
/-- The second: the diagonal matrix of the first gate. -/
def R8 (a0 : A0) (a1 : A1) (_a2 : A2) (_a3 : A3) : FVec Ideal S4096x4096 .f32 := diagOf (flat (G1 a0 a1))
/-- The third: the second weight matrix transposed. -/
def R11 (_a0 : A0) (_a1 : A1) (a2 : A2) (_a3 : A3) : FVec Ideal S4096x4096 .f32 := T2 a2
/-- The fourth: the diagonal matrix of the second gate. -/
def R17 (a0 : A0) (a1 : A1) (a2 : A2) (_a3 : A3) : FVec Ideal S4096x4096 .f32 := diagOf (flat (G2 a0 a1 a2))
/-- The fifth: the third weight matrix transposed. -/
def R20 (_a0 : A0) (_a1 : A1) (_a2 : A2) (a3 : A3) : FVec Ideal S4096x2048 .f32 := T3 a3
/-- The sixth: the identity matrix (the bit of "row index equals column index" read as a number). -/
def R26 (_a0 : A0) (_a1 : A1) (_a2 : A2) (_a3 : A3) : FVec Ideal S2048x2048 .f32 :=
  uitofp .f32
    (cmpi .eq (addi (iotaInDim S2048x2048 32 0) (broadcastInDim S2048x2048 ![] bcast_S_S2048x2048 (constantI S_ 32 0#32)))
      (iotaInDim S2048x2048 32 1))
/-- The product of the six, left-nested. -/
def R31 (a0 : A0) (a1 : A1) (a2 : A2) (a3 : A3) : FVec Ideal S2048x2048 .f32 :=
  Host.dotGeneral dot_S2048x2048_S2048x2048_S2048x2048_1_0_0_1_n_n none
    (Host.dotGeneral dot_S2048x4096_S4096x2048_S2048x2048_1_0_0_1_n_n none
      (Host.dotGeneral dot_S2048x4096_S4096x4096_S2048x4096_1_0_0_1_n_n none
        (Host.dotGeneral dot_S2048x4096_S4096x4096_S2048x4096_1_0_0_1_n_n none
          (Host.dotGeneral dot_S2048x4096_S4096x4096_S2048x4096_1_0_0_1_n_n none (R2 a0 a1 a2 a3) (R8 a0 a1 a2 a3))
          (R11 a0 a1 a2 a3))
        (R17 a0 a1 a2 a3))
      (R20 a0 a1 a2 a3))
    (R26 a0 a1 a2 a3)

end Terms

/-! ## Each result buffer after the line -/

section Results

variable (V : Valuation τ sig (Elt Ideal))

theorem res_v2 : after (ops (F := Ideal)) V (Proc.devRef .tc main_v2) = R2 (V (Proc.devRef .tc main_arg0)) (V (Proc.devRef .tc main_arg1)) (V (Proc.devRef .tc main_arg2)) (V (Proc.devRef .tc main_arg3)) := by
  after_results_simp
  rfl
theorem res_v11 : after (ops (F := Ideal)) V (Proc.devRef .tc main_v11) = R11 (V (Proc.devRef .tc main_arg0)) (V (Proc.devRef .tc main_arg1)) (V (Proc.devRef .tc main_arg2)) (V (Proc.devRef .tc main_arg3)) := by
  after_results_simp
  rfl
theorem res_v20 : after (ops (F := Ideal)) V (Proc.devRef .tc main_v20) = R20 (V (Proc.devRef .tc main_arg0)) (V (Proc.devRef .tc main_arg1)) (V (Proc.devRef .tc main_arg2)) (V (Proc.devRef .tc main_arg3)) := by
  after_results_simp
  rfl
theorem res_v26 : after (ops (F := Ideal)) V (Proc.devRef .tc main_v26) = R26 (V (Proc.devRef .tc main_arg0)) (V (Proc.devRef .tc main_arg1)) (V (Proc.devRef .tc main_arg2)) (V (Proc.devRef .tc main_arg3)) := by
  after_results_simp
  rfl
theorem res_v8 : after (ops (F := Ideal)) V (Proc.devRef .tc main_v8) = R8 (V (Proc.devRef .tc main_arg0)) (V (Proc.devRef .tc main_arg1)) (V (Proc.devRef .tc main_arg2)) (V (Proc.devRef .tc main_arg3)) := by
  after_results_simp
  rfl
theorem res_v17 : after (ops (F := Ideal)) V (Proc.devRef .tc main_v17) = R17 (V (Proc.devRef .tc main_arg0)) (V (Proc.devRef .tc main_arg1)) (V (Proc.devRef .tc main_arg2)) (V (Proc.devRef .tc main_arg3)) := by
  after_results_simp
  rfl
theorem res_v19 : after (ops (F := Ideal)) V (Proc.devRef .tc main_v19) = R19 (V (Proc.devRef .tc main_arg0)) (V (Proc.devRef .tc main_arg1)) (V (Proc.devRef .tc main_arg2)) (V (Proc.devRef .tc main_arg3)) := by
  after_results_simp
  rfl
theorem res_v31 : after (ops (F := Ideal)) V (Proc.devRef .tc main_v31) = R31 (V (Proc.devRef .tc main_arg0)) (V (Proc.devRef .tc main_arg1)) (V (Proc.devRef .tc main_arg2)) (V (Proc.devRef .tc main_arg3)) := by
  after_results_simp
  rfl
theorem res_arg0 : after (ops (F := Ideal)) V (Proc.devRef .tc main_arg0) = V (Proc.devRef .tc main_arg0) := by after_results_simp
theorem res_arg1 : after (ops (F := Ideal)) V (Proc.devRef .tc main_arg1) = V (Proc.devRef .tc main_arg1) := by after_results_simp
theorem res_arg2 : after (ops (F := Ideal)) V (Proc.devRef .tc main_arg2) = V (Proc.devRef .tc main_arg2) := by after_results_simp
theorem res_arg3 : after (ops (F := Ideal)) V (Proc.devRef .tc main_arg3) = V (Proc.devRef .tc main_arg3) := by after_results_simp

end Results

/-! ## The run -/

/-- From any memory with zero counters, every weakly fair execution of the reference terminates with each of its
    eight results at the composed term of the arguments' launch contents, and the four arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev nD,
        (r.2.mem ((c.tc : Thread nD τ).loc main_v19) = R19 (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v31) = R31 (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v2) = R2 (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v8) = R8 (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v11) = R11 (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v17) = R17 (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v20) = R20 (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v26) = R26 (m ((c.tc : Thread nD τ).loc main_arg0)) (m ((c.tc : Thread nD τ).loc main_arg1)) (m ((c.tc : Thread nD τ).loc main_arg2)) (m ((c.tc : Thread nD τ).loc main_arg3)))
        ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))) :=
  (θ_run _ _ _).mono (fun _ h c => ⟨⟨(h c main_v19).trans (res_v19 _),
      (h c main_v31).trans (res_v31 _),
      (h c main_v2).trans (res_v2 _),
      (h c main_v8).trans (res_v8 _),
      (h c main_v11).trans (res_v11 _),
      (h c main_v17).trans (res_v17 _),
      (h c main_v20).trans (res_v20 _),
      (h c main_v26).trans (res_v26 _)⟩,
      ⟨(h c main_arg0).trans (res_arg0 _),
      (h c main_arg1).trans (res_arg1 _),
      (h c main_arg2).trans (res_arg2 _),
      (h c main_arg3).trans (res_arg3 _)⟩⟩)
    (run_fold m ρ)

/-- The reference runs to its end, faults nowhere and leaves its arguments unchanged. -/
theorem frame_ri : Cert.frame_ReferenceIdeal := fun m g _ =>
  (θ_run _ _ _).mono (fun _ h c => (h c).2) (run m g)

end Cert.ReferenceIdeal.RefValue

end
-- ==== Proof.KernelIdealResults.lean ====
/-
  Where each quantity of the computation sits in the run's fold, at the exact instance. The first layer's gated row and
  gate are region 0's two output arrays; they reach region 1 (the row) and region 3 and the trailing host stretches (the
  gate) untouched. The second layer's are region 1's output arrays; the gate also reaches region 4 as a column, through
  the one reshape between regions 2 and 3. The network's output is region 2's output array, the first chained product
  region 3's, the whole chained product region 4's. No later segment writes any of them.
-/
import proofs.«152103_j17360257810985_2_alg».proof.Proof.KernelIdealEnds
import Idealize.ShloMosaic.Lib.Pipeline.Value
import Idealize.ShloMosaic.Lib.ValueIdx
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg) (c : Dev nD)

/-! ## What each region is entered with -/

/-- Region 1's activation row is region 0's first output array. -/
theorem En1_row : En1 m ρ c main_v0_0 = (Layers.dat0 (En0 m ρ) c).arrAt 2 cfg0.N := W1_arr m ρ c 2
/-- Its weights are the launch's. -/
theorem En1_w : En1 m ρ c main_arg2 = m ((c : Thread nD τ).loc main_arg2) :=
  (W1_keep m ρ c main_arg2 (by decide)).trans rfl
/-- Region 0's gate array after region 0. -/
theorem W1_gate : W1 m ρ c (Proc.devRef .tc main_v0_1) = (Layers.dat0 (En0 m ρ) c).arrAt 3 cfg0.N := W1_arr m ρ c 3

/-- Region 2's activation row is region 1's first output array; its weights the launch's. -/
theorem En2_row : En2 m ρ c main_v1_0 = (Layers.dat1 (En1 m ρ) c).arrAt 2 cfg1.N := W2_arr m ρ c 2
theorem En2_w : En2 m ρ c main_arg3 = m ((c : Thread nD τ).loc main_arg3) :=
  (W2_keep m ρ c main_arg3 (by decide)).trans <| (W1_keep m ρ c main_arg3 (by decide)).trans rfl
/-- Region 1's gate array after region 1. -/
theorem W2_gate : W2 m ρ c (Proc.devRef .tc main_v1_1) = (Layers.dat1 (En1 m ρ) c).arrAt 3 cfg1.N := W2_arr m ρ c 3

/-- Region 3 is entered with the launch's two weight arrays and the first gate. -/
theorem En3_w2 : En3 m ρ c main_arg2 = m ((c : Thread nD τ).loc main_arg2) :=
  (W4_keep m ρ c main_arg2 (by decide)).trans <| (W3_keep m ρ c main_arg2 (by decide)).trans <|
  (W2_keep m ρ c main_arg2 (by decide)).trans <| (W1_keep m ρ c main_arg2 (by decide)).trans rfl
theorem En3_w1 : En3 m ρ c main_arg1 = m ((c : Thread nD τ).loc main_arg1) :=
  (W4_keep m ρ c main_arg1 (by decide)).trans <| (W3_keep m ρ c main_arg1 (by decide)).trans <|
  (W2_keep m ρ c main_arg1 (by decide)).trans <| (W1_keep m ρ c main_arg1 (by decide)).trans rfl
theorem En3_gate : En3 m ρ c main_v0_1 = (Layers.dat0 (En0 m ρ) c).arrAt 3 cfg0.N :=
  (W4_keep m ρ c main_v0_1 (by decide)).trans <| (W3_keep m ρ c main_v0_1 (by decide)).trans <|
  (W2_keep m ρ c main_v0_1 (by decide)).trans (W1_gate m ρ c)

/-- Region 4 is entered with the launch's last weight array, region 3's output array, -/
theorem En4_w3 : En4 m ρ c main_arg3 = m ((c : Thread nD τ).loc main_arg3) :=
  (W5_keep m ρ c main_arg3 (by decide)).trans <| (W4_keep m ρ c main_arg3 (by decide)).trans <| (W3_keep m ρ c main_arg3 (by decide)).trans <|
  (W2_keep m ρ c main_arg3 (by decide)).trans <| (W1_keep m ρ c main_arg3 (by decide)).trans rfl
theorem En4_ct : En4 m ρ c main_v4 = (Inner.dat (En3 m ρ) c).arrAt 3 cfg3.N := W5_arr m ρ c 3
/-- and the second gate as a column: the reshape of region 1's gate row, read at row `n`. -/
theorem En4_col (n : Fin 4096) : En4 m ρ c main_v3 (ix2 n (0 : Fin 1)) = (Layers.dat1 (En1 m ρ) c).arrAt 3 cfg1.N (ix2 (0 : Fin 1) n) := by
  have h5 : En4 m ρ c main_v3 = W4 m ρ c (Proc.devRef .tc main_v3) := W5_keep m ρ c main_v3 (by decide)
  have h4 : W4 m ρ c (Proc.devRef .tc main_v3)
      = shapeCast S4096x1 (W3 m ρ c (Proc.devRef .tc main_v1_1) : S1x4096.Idx → EReal) shapeCasts_S1x4096_S4096x1 := by
    show StableHlo.after hostOps3 (W3 m ρ c) (Proc.devRef .tc main_v3) = _
    after_results; rfl
  have h3 : W3 m ρ c (Proc.devRef .tc main_v1_1) = (Layers.dat1 (En1 m ρ) c).arrAt 3 cfg1.N :=
    (W3_keep m ρ c main_v1_1 (by decide)).trans (W2_gate m ρ c)
  rw [h5, h4, h3]
  refine (shapeCast_apply _ shapeCasts_S1x4096_S4096x1 (ix2 n (0 : Fin 1)) (ix2 (0 : Fin 1) n) ?_)
  rw [Shape.rowMajor_val_two, Shape.rowMajor_val_two]
  show (0 : ℕ) * 4096 + n.val = n.val * 1 + 0
  omega

/-! ## Where the results are -/

/-- The network's output is region 2's output array: no later segment writes it. -/
theorem W11_out : W11 m ρ c main_v2 = (Layers.dat2 (En2 m ρ) c).arrAt 2 cfg2.N :=
  (W11_keep m ρ c main_v2 (by decide)).trans <| (W10_keep m ρ c main_v2 (by decide)).trans <| (W9_keep m ρ c main_v2 (by decide)).trans <|
  (W8_keep m ρ c main_v2 (by decide)).trans <| (W7_keep m ρ c main_v2 (by decide)).trans <| (W6_keep m ρ c main_v2 (by decide)).trans <|
  (W5_keep m ρ c main_v2 (by decide)).trans <| (W4_keep m ρ c main_v2 (by decide)).trans (W3_arr m ρ c 2)
/-- The chained product is region 4's output array. -/
theorem W11_djm : W11 m ρ c main_v5 = (Outer.dat (En4 m ρ) c).arrAt 3 cfg4.N :=
  (W11_keep m ρ c main_v5 (by decide)).trans <| (W10_keep m ρ c main_v5 (by decide)).trans <| (W9_keep m ρ c main_v5 (by decide)).trans <|
  (W8_keep m ρ c main_v5 (by decide)).trans <| (W7_keep m ρ c main_v5 (by decide)).trans (W6_arr m ρ c 3)
/-- What the trailing host stretches are entered with: the launch's weights and the two gate rows. -/
theorem W6_arg (b : Ref sig .tc) (hb : b = main_arg1 ∨ b = main_arg2 ∨ b = main_arg3) : W6 m ρ c (Proc.devRef .tc b) = m ((c : Thread nD τ).loc b) := by
  rcases hb with rfl | rfl | rfl
  all_goals exact (W6_keep m ρ c _ (by decide)).trans <| (W5_keep m ρ c _ (by decide)).trans <| (W4_keep m ρ c _ (by decide)).trans <|
    (W3_keep m ρ c _ (by decide)).trans <| (W2_keep m ρ c _ (by decide)).trans <| (W1_keep m ρ c _ (by decide)).trans rfl
theorem W6_gate1 : W6 m ρ c (Proc.devRef .tc main_v0_1) = (Layers.dat0 (En0 m ρ) c).arrAt 3 cfg0.N :=
  (W6_keep m ρ c main_v0_1 (by decide)).trans <| (W5_keep m ρ c main_v0_1 (by decide)).trans (En3_gate m ρ c)
theorem W6_gate2 : W6 m ρ c (Proc.devRef .tc main_v1_1) = (Layers.dat1 (En1 m ρ) c).arrAt 3 cfg1.N :=
  (W6_keep m ρ c main_v1_1 (by decide)).trans <| (W5_keep m ρ c main_v1_1 (by decide)).trans <| (W4_keep m ρ c main_v1_1 (by decide)).trans <|
  (W3_keep m ρ c main_v1_1 (by decide)).trans (W2_gate m ρ c)

end Cert.KernelIdeal.Whole

end
-- ==== Proof.LibERealSums.lean ====
/-
  Finite sums and maxima of real numbers inside the extended reals.

  The coercion of the reals into the extended reals carries a finite sum to the sum and a maximum to the maximum;
  and folding `max` from `-∞` over a nonempty finite family of reals gives a real. These are what turns a row
  statistic of finite inputs (a sum, a maximum, a log-sum-exp) into a real number, where the extended reals'
  failures of distributivity and cancellation at the infinities cannot occur.
-/
import Mathlib.Data.EReal.Basic
import Mathlib.Algebra.BigOperators.Group.Finset.Basic
import Mathlib.Data.Finset.Fold

noncomputable section

open scoped BigOperators

namespace Cert.Lib.ERealSums

/-- A finite sum of coerced reals is the coercion of the real sum. -/
theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of two coerced reals is the coercion of their maximum. -/
theorem coe_max_real (a b : ℝ) : max (a : EReal) (b : EReal) = ((max a b : ℝ) : EReal) :=
  (EReal.coe_strictMono.monotone.map_max).symm

/-- Folding `max` from `-∞` over a nonempty family of reals gives a real. -/
theorem fold_max_real {ι : Type*} (s : Finset ι) (hs : s.Nonempty) (a : ι → ℝ) :
    ∃ M : ℝ, s.fold max ⊥ (fun i => ((a i : ℝ) : EReal)) = (M : EReal) := by
  induction hs using Finset.Nonempty.cons_induction with
  | singleton i => exact ⟨a i, by rw [Finset.fold_singleton, max_bot_right]⟩
  | cons i s hi hs ih =>
    obtain ⟨M, hM⟩ := ih
    exact ⟨max (a i) M, by rw [Finset.fold_cons, hM, coe_max_real]⟩

end Cert.Lib.ERealSums

end
-- ==== Proof.LibChainLaw.lean ====
/-
  Finite matrix products on the extended reals, a diagonal matrix and the identity matrix, as plain functions
  of two indices, and the law that a left-nested chain of products through two diagonal factors and a final
  identity factor equals the two-stage form that folds each diagonal into its neighbour:

      ((((W1ᵀ · diag a) · W2ᵀ) · diag b) · W3ᵀ) · 1  =  (i, o) ↦ ∑ h2, ((∑ h1, (W2 h2 h1 · a h1) · W1 h1 i) · b h2) · W3 o h2 .

  A diagonal or identity factor on the right collapses the contracted sum to one term (a product with zero is zero
  on the extended reals, at the infinities too), and what is left differs from the folded form only by regrouping
  and reordering the factors of each term; multiplication on the extended reals is associative and commutative, so
  the law holds for all entries. It is also stated for families of real numbers (every entry the coercion of a
  real), the case in which every intermediate entry is again real; the lemmas for that are here too.
-/
import Mathlib.Data.EReal.Basic
import Mathlib.Data.EReal.Inv
import Mathlib.Data.Matrix.Basic
import Mathlib.Algebra.BigOperators.Group.Finset.Basic
import proofs.«152103_j17360257810985_2_alg».proof.Proof.LibERealSums

noncomputable section

namespace Cert.Lib.ChainLaw

open Finset

/-- The product of an `a × b` and a `b × c` array of extended reals: entry `(p, q)` is `∑ k, A p k * B k q`. -/
def mm {a b c : ℕ} (A : Fin a → Fin b → EReal) (B : Fin b → Fin c → EReal) (p : Fin a) (q : Fin c) : EReal :=
  ∑ k : Fin b, A p k * B k q

/-- The square array with `v` on its diagonal and zero elsewhere. -/
def diagM {n : ℕ} (v : Fin n → EReal) (p q : Fin n) : EReal := if p = q then v p else 0

/-- The identity array: one on the diagonal, zero elsewhere. -/
def eyeM {n : ℕ} (p q : Fin n) : EReal := if p = q then 1 else 0

/-- The transpose of an array. -/
def tr {a b : ℕ} (A : Fin a → Fin b → EReal) (q : Fin b) (p : Fin a) : EReal := A p q

/-- The chain as the left-nested product of the six factors `W1ᵀ, diag a, W2ᵀ, diag b, W3ᵀ, 1`. -/
def chainNested {I H1 H2 O : ℕ} (W1 : Fin H1 → Fin I → EReal) (a : Fin H1 → EReal) (W2 : Fin H2 → Fin H1 → EReal)
    (b : Fin H2 → EReal) (W3 : Fin O → Fin H2 → EReal) : Fin I → Fin O → EReal :=
  mm (mm (mm (mm (mm (tr W1) (diagM a)) (tr W2)) (diagM b)) (tr W3)) eyeM

/-- The inner stage of the folded form: `(h2, i) ↦ ∑ h1, (W2 h2 h1 * a h1) * W1 h1 i`. -/
def innerStage {I H1 H2 : ℕ} (W1 : Fin H1 → Fin I → EReal) (a : Fin H1 → EReal) (W2 : Fin H2 → Fin H1 → EReal)
    (h2 : Fin H2) (i : Fin I) : EReal :=
  ∑ h1 : Fin H1, (W2 h2 h1 * a h1) * W1 h1 i

/-- The chain in its folded two-stage form: `(i, o) ↦ ∑ h2, (innerStage h2 i * b h2) * W3 o h2`. -/
def chainFolded {I H1 H2 O : ℕ} (W1 : Fin H1 → Fin I → EReal) (a : Fin H1 → EReal) (W2 : Fin H2 → Fin H1 → EReal)
    (b : Fin H2 → EReal) (W3 : Fin O → Fin H2 → EReal) (i : Fin I) (o : Fin O) : EReal :=
  ∑ h2 : Fin H2, (innerStage W1 a W2 h2 i * b h2) * W3 o h2

/-- The coercion of the reals into the extended reals carries a finite sum to the sum. -/
theorem coe_finset_sum {ι : Type*} (s : Finset ι) (f : ι → ℝ) :
    ((∑ i ∈ s, f i : ℝ) : EReal) = ∑ i ∈ s, ((f i : ℝ) : EReal) :=
  (Cert.Lib.ERealSums.coe_sum_real s f).symm

/-- A finite sum of products of real numbers, taken in the extended reals, is a real number. -/
theorem sum_mul_real {ι : Type*} (s : Finset ι) (f g : ι → EReal)
    (hf : ∀ i, ∃ r : ℝ, f i = (r : EReal)) (hg : ∀ i, ∃ r : ℝ, g i = (r : EReal)) :
    ∃ r : ℝ, ∑ i ∈ s, f i * g i = (r : EReal) := by
  choose f' hf' using hf
  choose g' hg' using hg
  refine ⟨∑ i ∈ s, f' i * g' i, ?_⟩
  rw [coe_finset_sum]
  exact Finset.sum_congr rfl fun i _ => by rw [hf', hg', EReal.coe_mul]

/-- Every entry of a product of two arrays of real numbers is a real number. -/
theorem mm_real {a b c : ℕ} (A : Fin a → Fin b → EReal) (B : Fin b → Fin c → EReal)
    (hA : ∀ p k, ∃ r : ℝ, A p k = (r : EReal)) (hB : ∀ k q, ∃ r : ℝ, B k q = (r : EReal)) (p : Fin a) (q : Fin c) :
    ∃ r : ℝ, mm A B p q = (r : EReal) :=
  sum_mul_real Finset.univ (fun k => A p k) (fun k => B k q) (hA p) (fun k => hB k q)

/-- A diagonal factor on the right scales the columns: the sum over the contracted index collapses to its one
    nonzero term. (A product with zero is zero on the extended reals, at the infinities too, so no finiteness
    is needed.) -/
theorem mm_diagM_right {a n : ℕ} (A : Fin a → Fin n → EReal) (v : Fin n → EReal) (p : Fin a) (q : Fin n) :
    mm A (diagM v) p q = A p q * v q := by
  simp only [mm, diagM, mul_ite, mul_zero]
  rw [Finset.sum_ite_eq' Finset.univ q (fun k => A p k * v k)]
  simp

/-- The identity factor on the right changes nothing. -/
theorem mm_eyeM_right {a n : ℕ} (A : Fin a → Fin n → EReal) : mm A eyeM = A := by
  funext p q
  simp only [mm, eyeM, mul_ite, mul_zero, mul_one]
  rw [Finset.sum_ite_eq' Finset.univ q (fun k => A p k)]
  simp

/-- The left-nested chain, entry by entry, once the two diagonal factors and the identity factor are absorbed. -/
theorem chainNested_apply {I H1 H2 O : ℕ} (W1 : Fin H1 → Fin I → EReal) (a : Fin H1 → EReal)
    (W2 : Fin H2 → Fin H1 → EReal) (b : Fin H2 → EReal) (W3 : Fin O → Fin H2 → EReal) (i : Fin I) (o : Fin O) :
    chainNested W1 a W2 b W3 i o = ∑ h2 : Fin H2, ((∑ h1 : Fin H1, (W1 h1 i * a h1) * W2 h2 h1) * b h2) * W3 o h2 := by
  unfold chainNested
  rw [mm_eyeM_right]
  simp only [mm, tr]
  refine Finset.sum_congr rfl fun h2 _ => ?_
  have h := mm_diagM_right (mm (mm (tr W1) (diagM a)) (tr W2)) b i h2
  simp only [mm, tr] at h
  rw [h]
  congr 2
  refine Finset.sum_congr rfl fun h1 _ => ?_
  have h' := mm_diagM_right (tr W1) a i h1
  simp only [mm, tr] at h'
  rw [h']

/-- The chain law with no side condition: folding the diagonal factors into their neighbours only regroups and
    reorders the factors of each term, and multiplication on the extended reals is associative and commutative. -/
theorem chainNested_eq_chainFolded_of_any {I H1 H2 O : ℕ} (W1 : Fin H1 → Fin I → EReal) (a : Fin H1 → EReal)
    (W2 : Fin H2 → Fin H1 → EReal) (b : Fin H2 → EReal) (W3 : Fin O → Fin H2 → EReal) :
    chainNested W1 a W2 b W3 = chainFolded W1 a W2 b W3 := by
  funext i o
  rw [chainNested_apply]
  simp only [chainFolded, innerStage]
  refine Finset.sum_congr rfl fun h2 _ => ?_
  congr 2
  refine Finset.sum_congr rfl fun h1 _ => ?_
  rw [mul_comm (W1 h1 i) (a h1), mul_comm (a h1 * W1 h1 i) (W2 h2 h1), mul_assoc]

/-- The chain law for families of real numbers: the left-nested product of the six factors equals the folded
    two-stage form. -/
theorem chainNested_eq_chainFolded {I H1 H2 O : ℕ} (W1 : Fin H1 → Fin I → EReal) (a : Fin H1 → EReal)
    (W2 : Fin H2 → Fin H1 → EReal) (b : Fin H2 → EReal) (W3 : Fin O → Fin H2 → EReal)
    (hW1 : ∀ h i, ∃ r : ℝ, W1 h i = (r : EReal)) (ha : ∀ h, ∃ r : ℝ, a h = (r : EReal))
    (hW2 : ∀ p q, ∃ r : ℝ, W2 p q = (r : EReal)) (hb : ∀ h, ∃ r : ℝ, b h = (r : EReal))
    (hW3 : ∀ o h, ∃ r : ℝ, W3 o h = (r : EReal)) :
    chainNested W1 a W2 b W3 = chainFolded W1 a W2 b W3 :=
  chainNested_eq_chainFolded_of_any W1 a W2 b W3

end Cert.Lib.ChainLaw

end
-- ==== Proof.JacSpec.lean ====
/-
  What the program computes, as functions of its four argument arrays read as families of extended reals:
  a three-layer network at batch one, `z₁ = x W1ᵀ`, `h₁ = z₁ · gate z₁`, `z₂ = h₁ W2ᵀ`, `h₂ = z₂ · gate z₂`,
  `out = h₂ W3ᵀ` (the gate of a pre-activation is one where it is positive and zero elsewhere), the six
  per-layer Jacobians `W1ᵀ, diag (gate z₁), W2ᵀ, diag (gate z₂), W3ᵀ, 1`, and their product in two arrangements
  (left-nested, and folded into two stages).
-/
import Idealize.ShloMosaic.PureOps.Ideal
import proofs.«152103_j17360257810985_2_alg».proof.Proof.LibChainLaw

noncomputable section

namespace Cert.Jac

open Idealize.ShloMosaic Cert.Lib.ChainLaw

/-- The gate of a pre-activation: one where it is positive, zero elsewhere (a comparison's bit read as a number). -/
def gate (z : EReal) : EReal := (((Ideal.cmp .ogt z 0).toNat : ℝ) : EReal)

/-- A dense layer at batch one: `n ↦ ∑ k, h k * W n k`. -/
def lin {a b : ℕ} (h : Fin a → EReal) (W : Fin b → Fin a → EReal) (n : Fin b) : EReal := ∑ k : Fin a, h k * W n k

variable {I H O : ℕ} (x : Fin I → EReal) (W1 : Fin H → Fin I → EReal) (W2 : Fin H → Fin H → EReal) (W3 : Fin O → Fin H → EReal)

def z1 : Fin H → EReal := lin x W1
def g1 : Fin H → EReal := fun n => gate (z1 x W1 n)
def h1 : Fin H → EReal := fun n => z1 x W1 n * g1 x W1 n
def z2 : Fin H → EReal := lin (h1 x W1) W2
def g2 : Fin H → EReal := fun n => gate (z2 x W1 W2 n)
def h2 : Fin H → EReal := fun n => z2 x W1 W2 n * g2 x W1 W2 n
/-- The network's output. -/
def out : Fin O → EReal := lin (h2 x W1 W2) W3

/-- The product of the six Jacobians, left-nested. -/
def djmNested : Fin I → Fin O → EReal := chainNested W1 (g1 x W1) W2 (g2 x W1 W2) W3
/-- The same product folded into two stages. -/
def djmFolded : Fin I → Fin O → EReal := chainFolded W1 (g1 x W1) W2 (g2 x W1 W2) W3

end Cert.Jac

end
-- ==== Proof.LibRowDot.lean ====
/-
  A matrix product against a row-major weight, read at an index.

  The dimension numbers of an [a, c] × [b, c] → [a, b] product contract axis 1 of BOTH operands and have no batch
  axis: the right operand is a stack of b rows of length c, and result entry (p, q) is the inner product of the left
  operand's row p with the right operand's row q. At result index (p, q) and contraction position k the left operand
  is read at (p, k) and the right operand at (q, k), so the sum over the contraction shape's one-axis index set is
  the sum over k : Fin c of lhs (p, k) * rhs (q, k) — in any commutative additive monoid with a product, the
  extended reals included. The statement is over variable extents; a printed record with these six lists is this
  one by reflexivity.
-/
import Idealize.ShloMosaic.Lib.ValueIdx
import Idealize.ShloMosaic.PureOps.Ideal.Laws

noncomputable section

namespace Cert.Lib.RowDot

open Idealize.ShloMosaic Idealize.ShloMosaic.ValueIdx
open scoped BigOperators

variable {a c b : Nat}

/-- The dimension numbers of the product [a, c] × [b, c] → [a, b] that contracts the second axis of both. -/
abbrev dims (wf : DotDims.WF ⟨2, ![a, c]⟩ ⟨2, ![b, c]⟩ ⟨2, ![a, b]⟩ [1] [1] [0] [0] [] []) :
    DotDims ⟨2, ![a, c]⟩ ⟨2, ![b, c]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, c]⟩ ⟨2, ![b, c]⟩ ⟨2, ![a, b]⟩ [1] [1] [0] [0] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the result's column. -/
theorem rhs_row (i : (⟨2, ![a, b]⟩ : Shape).Idx) (k : (dims wf).contr.Idx) :
    ((dims wf).rhsIdx i k 0).val = (i 1).val := by
  unfold DotDims.rhsIdx
  rw [dif_neg (show ¬(0 : Fin 2) ∈ (dims wf).rhsBatch from List.not_mem_nil),
    dif_pos (show (0 : Fin 2) ∈ (dims wf).rhsNonContracting from List.mem_singleton.mpr rfl)]
  rfl

/-- The right operand's column is the contraction position. -/
theorem rhs_col (i : (⟨2, ![a, b]⟩ : Shape).Idx) (k : (dims wf).contr.Idx) :
    ((dims wf).rhsIdx i k 1).val = (k ⟨0, Nat.one_pos⟩).val :=
  (dims wf).rhsIdx_val_of_single rfl i k

/-- The product's sum at (p, q): over k, the left operand at (p, k) times the right operand at (q, k). -/
theorem sum_apply {M : Type*} [AddCommMonoid M] [Mul M] (lhs : (⟨2, ![a, c]⟩ : Shape).Idx → M)
    (rhs : (⟨2, ![b, c]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 q k) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 q k :=
    funext fun ax => Fin.ext (by
      match ax with
      | ⟨0, _⟩ => exact rhs_row wf _ _
      | ⟨1, _⟩ => exact (rhs_col wf _ _).trans hk)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![b, c]⟩ φ₂) (p : Fin a) (q : Fin b) :
    matmul (dims wf) prec lhs rhs (constant ⟨2, ![a, b]⟩ .f32 0x00000000#32) (ix2 p q)
      = ∑ k : Fin c, lhs (ix2 p k) * rhs (ix2 q k) :=
  (Ideal.matmul_constant_zero_apply (dims wf) prec lhs rhs (ix2 p q)).trans (sum_apply wf lhs rhs p q)

end Cert.Lib.RowDot

end
-- ==== Proof.LayerValues.lean ====
/-
  What the three dense layers' bodies leave in their output blocks, entry by entry, at the exact values
  (extended reals). A layer's body forms, from the activation row x (1 × K) and a block W of 256 weight rows
  (256 × K), the 256 inner products z q = ∑ k, x k * W q k by one matrix product into a zero accumulator that
  contracts the second axis of both operands. The first two layers then compare z with zero, widen the
  comparison's bit to an integer and convert it to a number (the gate of z: one where z is positive, zero
  elsewhere), and leave the gate in one output block and the product z * gate z in the other; the third layer
  leaves z itself. Each output block, read at the entry (0, q), is stated here in those terms.
-/
import Idealize.ShloMosaic.Lib.ValueIdx
import Idealize.ShloMosaic.Lib.Pipeline.Value
import proofs.«152103_j17360257810985_2_alg».proof.Proof.LibRowDot
import proofs.«152103_j17360257810985_2_alg».proof.Proof.JacSpec
import proofs.«152103_j17360257810985_2_alg».proof.Proof.KernelIdealLayer0
import proofs.«152103_j17360257810985_2_alg».proof.Proof.KernelIdealLayer1
import proofs.«152103_j17360257810985_2_alg».proof.Proof.KernelIdealLayer2

set_option maxRecDepth 16384

noncomputable section

namespace Cert.KernelIdeal.LayerValues

open Idealize.ShloMosaic Idealize.ShloMosaic.ValueIdx
open Cert.KernelIdeal Cert.KernelIdeal.Gen Cert.KernelIdeal.Layers
open scoped BigOperators

/-- The offset of an access to a whole buffer. -/
theorem off_zero : (![0, 0] : Fin 2 → Nat) = fun _ => 0 := funext fun a => by fin_cases a <;> rfl

/-- A one-bit value widened to 32 bits and read as a signed integer is the bit. -/
theorem bit_toInt : ∀ b : BitVec 1, (b.setWidth 32).toInt = (b.toNat : ℤ) := by decide

/-- The comparison with zero, widened and converted, is the gate, entry by entry. -/
theorem gate_apply (z : FVec Ideal S1x256 .f32) (j : S1x256.Idx) :
    (sitofp .f32 (extui 32 (cmpf .ogt z (broadcast S1x256 (Scalar.ofBits .f32 0x00000000#32))) natLt_1_32) : FVec Ideal S1x256 .f32) j
      = Cert.Jac.gate (z j) := by
  rw [sitofp_apply, extui_apply, cmpf_apply, broadcast_apply]
  show ((((Ideal.cmp .ogt (z j) (Ideal.ofBits .f32 0x00000000#32)).setWidth 32).toInt : ℝ) : EReal) = _
  rw [Ideal.ofBits_zero_f32, bit_toInt, Int.cast_natCast]
  rfl

/-! ## The first layer -/

/-- The pre-activations: the row against each weight row. -/
theorem pre0_apply (v0 : FVec Ideal S1x2048 .f32) (v1 : FVec Ideal S256x2048 .f32) (q : Fin 256) :
    k0_pay1 (F := Ideal) v0 v1 (ix2 0 q) = ∑ k : Fin 2048, v0 (ix2 0 k) * v1 (ix2 q k) :=
  Cert.Lib.RowDot.matmul_zero_apply dot_S1x2048_S256x2048_S1x256_1_1_0_0_n_n_wf (some .fp32) v0 v1 0 q

/-- The gates of the pre-activations. -/
theorem mask0_apply (v0 : FVec Ideal S1x2048 .f32) (v1 : FVec Ideal S256x2048 .f32) (q : Fin 256) :
    k0_pay2 (F := Ideal) v0 v1 (ix2 0 q) = Cert.Jac.gate (∑ k : Fin 2048, v0 (ix2 0 k) * v1 (ix2 q k)) := by
  unfold k0_pay2
  refine (gate_apply _ _).trans ?_
  rw [pre0_apply]

/-- The gated pre-activations. -/
theorem gated0_apply (v0 : FVec Ideal S1x2048 .f32) (v1 : FVec Ideal S256x2048 .f32) (q : Fin 256) :
    k0_pay3 (F := Ideal) v0 v1 (ix2 0 q) = (∑ k : Fin 2048, v0 (ix2 0 k) * v1 (ix2 q k)) * Cert.Jac.gate (∑ k : Fin 2048, v0 (ix2 0 k) * v1 (ix2 q k)) := by
  unfold k0_pay3
  show k0_pay1 (F := Ideal) v0 v1 (ix2 0 q) * k0_pay2 (F := Ideal) v0 v1 (ix2 0 q) = _
  rw [pre0_apply, mask0_apply]

/-- Output window 3 of the first layer holds the gates. -/
theorem out0_3_apply (x0 : Vec Ideal S1x2048 .f32) (x1 : Vec Ideal S256x2048 .f32) (q : Fin 256) :
    out0_3 (F := Ideal) x0 x1 (ix2 0 q) = Cert.Jac.gate (∑ k : Fin 2048, x0 (ix2 0 k) * x1 (ix2 q k)) := by
  unfold out0_3
  rw [View.canon_unit_zero off_zero]
  simp only [View.ld_unit_zero (S := S1x2048) off_zero, View.ld_unit_zero (S := S256x2048) off_zero]
  exact mask0_apply x0 x1 q

/-- Output window 2 of the first layer holds the gated pre-activations. -/
theorem out0_2_apply (x0 : Vec Ideal S1x2048 .f32) (x1 : Vec Ideal S256x2048 .f32) (q : Fin 256) :
    out0_2 (F := Ideal) x0 x1 (ix2 0 q) = (∑ k : Fin 2048, x0 (ix2 0 k) * x1 (ix2 q k)) * Cert.Jac.gate (∑ k : Fin 2048, x0 (ix2 0 k) * x1 (ix2 q k)) := by
  unfold out0_2
  rw [View.canon_unit_zero off_zero]
  simp only [View.ld_unit_zero (S := S1x2048) off_zero, View.ld_unit_zero (S := S256x2048) off_zero]
  exact gated0_apply x0 x1 q

/-! ## The second layer -/

/-- The pre-activations: the row against each weight row (the row passes through a reshaping to its own shape). -/
theorem pre1_apply (v0 : FVec Ideal S1x4096 .f32) (v2 : FVec Ideal S256x4096 .f32) (q : Fin 256) :
    k1_pay1 (F := Ideal) v0 v2 (ix2 0 q) = ∑ k : Fin 4096, v0 (ix2 0 k) * v2 (ix2 q k) := by
  unfold k1_pay1
  rw [shapeCast_self]
  exact Cert.Lib.RowDot.matmul_zero_apply dot_S1x4096_S256x4096_S1x256_1_1_0_0_n_n_wf (some .fp32) v0 v2 0 q

/-- The gates of the pre-activations. -/
theorem mask1_apply (v0 : FVec Ideal S1x4096 .f32) (v2 : FVec Ideal S256x4096 .f32) (q : Fin 256) :
    k1_pay2 (F := Ideal) v0 v2 (ix2 0 q) = Cert.Jac.gate (∑ k : Fin 4096, v0 (ix2 0 k) * v2 (ix2 q k)) := by
  unfold k1_pay2
  refine (gate_apply _ _).trans ?_
  rw [pre1_apply]

/-- The gated pre-activations. -/
theorem gated1_apply (v0 : FVec Ideal S1x4096 .f32) (v2 : FVec Ideal S256x4096 .f32) (q : Fin 256) :
    k1_pay3 (F := Ideal) v0 v2 (ix2 0 q) = (∑ k : Fin 4096, v0 (ix2 0 k) * v2 (ix2 q k)) * Cert.Jac.gate (∑ k : Fin 4096, v0 (ix2 0 k) * v2 (ix2 q k)) := by
  unfold k1_pay3
  show k1_pay1 (F := Ideal) v0 v2 (ix2 0 q) * k1_pay2 (F := Ideal) v0 v2 (ix2 0 q) = _
  rw [pre1_apply, mask1_apply]

/-- Output window 3 of the second layer holds the gates. -/
theorem out1_3_apply (x0 : Vec Ideal S1x4096 .f32) (x1 : Vec Ideal S256x4096 .f32) (q : Fin 256) :
    out1_3 (F := Ideal) x0 x1 (ix2 0 q) = Cert.Jac.gate (∑ k : Fin 4096, x0 (ix2 0 k) * x1 (ix2 q k)) := by
  unfold out1_3
  rw [View.canon_unit_zero off_zero]
  simp only [View.ld_unit_zero (S := S1x4096) off_zero, View.ld_unit_zero (S := S256x4096) off_zero]
  exact mask1_apply x0 x1 q

/-- Output window 2 of the second layer holds the gated pre-activations. -/
theorem out1_2_apply (x0 : Vec Ideal S1x4096 .f32) (x1 : Vec Ideal S256x4096 .f32) (q : Fin 256) :
    out1_2 (F := Ideal) x0 x1 (ix2 0 q) = (∑ k : Fin 4096, x0 (ix2 0 k) * x1 (ix2 q k)) * Cert.Jac.gate (∑ k : Fin 4096, x0 (ix2 0 k) * x1 (ix2 q k)) := by
  unfold out1_2
  rw [View.canon_unit_zero off_zero]
  simp only [View.ld_unit_zero (S := S1x4096) off_zero, View.ld_unit_zero (S := S256x4096) off_zero]
  exact gated1_apply x0 x1 q

/-! ## The third layer -/

/-- The outputs: the row against each weight row (the row passes through a reshaping to its own shape). -/
theorem pre2_apply (v0 : FVec Ideal S1x4096 .f32) (v2 : FVec Ideal S256x4096 .f32) (q : Fin 256) :
    k2_pay1 (F := Ideal) v0 v2 (ix2 0 q) = ∑ k : Fin 4096, v0 (ix2 0 k) * v2 (ix2 q k) := by
  unfold k2_pay1
  rw [shapeCast_self]
  exact Cert.Lib.RowDot.matmul_zero_apply dot_S1x4096_S256x4096_S1x256_1_1_0_0_n_n_wf (some .fp32) v0 v2 0 q

/-- Output window 2 of the third layer holds the products of the row with the weight rows. -/
theorem out2_2_apply (x0 : Vec Ideal S1x4096 .f32) (x1 : Vec Ideal S256x4096 .f32) (q : Fin 256) :
    out2_2 (F := Ideal) x0 x1 (ix2 0 q) = ∑ k : Fin 4096, x0 (ix2 0 k) * x1 (ix2 q k) := by
  unfold out2_2
  rw [View.canon_unit_zero off_zero]
  simp only [View.ld_unit_zero (S := S1x4096) off_zero, View.ld_unit_zero (S := S256x4096) off_zero]
  exact pre2_apply x0 x1 q

end Cert.KernelIdeal.LayerValues

end
-- ==== Proof.LayerArrays.lean ====
/-
  From blocks to arrays, for the three dense layers at the exact values (extended reals). A layer's grid walks the
  blocks of 256 rows of its weight W; at the point whose weight block is number b the body reads the whole input row
  x and rows 256 b … 256 b + 255 of W and writes columns 256 b … 256 b + 255 of each output row. The blocks of an
  output row tile it, and what a point writes to column n = 256 b + q depends only on x and on row n of W, so each
  output array, after the grid, is one function of the arrays as the grid found them, entry by entry:
  lin x W n = ∑ k, x k * W n k for the third layer; gate (lin x W n) and lin x W n * gate (lin x W n) for the two
  outputs of the first and second layers.
-/
import Idealize.ShloMosaic.Lib.ValueIdx
import Idealize.ShloMosaic.Lib.Pipeline.Value
import proofs.«152103_j17360257810985_2_alg».proof.Proof.JacSpec
import proofs.«152103_j17360257810985_2_alg».proof.Proof.KernelIdealLayer0
import proofs.«152103_j17360257810985_2_alg».proof.Proof.KernelIdealLayer1
import proofs.«152103_j17360257810985_2_alg».proof.Proof.KernelIdealLayer2
import proofs.«152103_j17360257810985_2_alg».proof.Proof.LayerValues

set_option maxRecDepth 16384

noncomputable section

namespace Cert.KernelIdeal.LayerArrays

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Layers Cert.KernelIdeal.LayerValues
open scoped BigOperators

-- the contents of every array when a layer's grid is entered, and the core
variable (V : (c : Dev nD) → (b : Ref sig .tc) → Buf (Elt Ideal) ((c : Thread nD τ).loc b)) (c : Dev nD)

/-! ## The first layer -/

/-- The activation row on entry. -/
abbrev row0 : Fin 2048 → EReal := fun k => (V c main_arg0 : S1x2048.Idx → EReal) (ix2 0 k)
/-- The first weight on entry. -/
abbrev mat0 : Fin 4096 → Fin 2048 → EReal := fun p q => (V c main_arg1 : S4096x2048.Idx → EReal) (ix2 p q)

/-- The printed index maps of the two input windows, decided over the grid: the row's block is always block (0, 0);
    the weight's block is a block of whole rows. -/
theorem idx_in0 : ∀ t : Fin cfg0.N, win0_0.index t (0 : Fin 2) = 0 ∧ win0_0.index t (1 : Fin 2) = 0
    ∧ win0_1.index t (1 : Fin 2) = 0 ∧ win0_1.index t (0 : Fin 2) ≤ 15 :=
  (by decide +kernel : ∀ t : Fin grid0.N, _)

/-- The row's block at any point is the whole row. -/
theorem iblk0_row (t : Fin cfg0.N) (k : Fin 2048) :
    (iblk0 V c 0 t : Vec Ideal S1x2048 .f32) (ix2 0 k) = row0 V c k := by
  obtain ⟨e0, e1, -⟩ := idx_in0 t
  unfold iblk0
  rw [View.read_apply]
  show (V c main_arg0 : S1x2048.Idx → EReal) _ = (V c main_arg0 : S1x2048.Idx → EReal) _
  congr 1
  funext a
  apply Fin.ext
  match a with
  | ⟨0, _⟩ => show win0_0.index t (0 : Fin 2) * 1 + 1 * 0 = 0; omega
  | ⟨1, _⟩ => show win0_0.index t (1 : Fin 2) * 2048 + 1 * k.val = k.val; omega

/-- The weight's block at point `t` is rows `256 b … 256 b + 255` of the weight, `b` the block's number. -/
theorem iblk0_mat (t : Fin cfg0.N) (q : Fin 256) (k : Fin 2048) (n : Fin 4096) (hn : n.val = win0_1.index t (0 : Fin 2) * 256 + q.val) :
    (iblk0 V c 1 t : Vec Ideal S256x2048 .f32) (ix2 q k) = mat0 V c n k := by
  obtain ⟨-, -, e2, -⟩ := idx_in0 t
  unfold iblk0
  rw [View.read_apply]
  show (V c main_arg1 : S4096x2048.Idx → EReal) _ = (V c main_arg1 : S4096x2048.Idx → EReal) _
  congr 1
  funext a
  apply Fin.ext
  match a with
  | ⟨0, _⟩ => show win0_1.index t (0 : Fin 2) * 256 + 1 * q.val = n.val; omega
  | ⟨1, _⟩ => show win0_1.index t (1 : Fin 2) * 2048 + 1 * k.val = k.val; omega

/-! ### Output window 2 -/

/-- The output's block sits in row block 0 and in the column block whose number is the weight's row block. -/
theorem idx_out0_2 : ∀ t : Fin cfg0.N, win0_2.index t (0 : Fin 2) = 0 ∧ win0_2.index t (1 : Fin 2) = win0_1.index t (0 : Fin 2) :=
  (by decide +kernel : ∀ t : Fin grid0.N, _)

/-- Every column block is some point's. -/
theorem idx_onto0_2 : ∀ q : Fin 16, ∃ t : Fin cfg0.N, win0_2.index t = ![0, q.val] :=
  (by decide +kernel : ∀ q : Fin 16, ∃ t : Fin grid0.N, win0_2.index t = ![0, q.val])

/-- The hidden row the first layer leaves: entry `n` is the gated pre-activation of the row against weight row `n`. -/
def hid0 (n : Fin 4096) : EReal := Cert.Jac.lin (row0 V c) (mat0 V c) n * Cert.Jac.gate (Cert.Jac.lin (row0 V c) (mat0 V c) n)

/-- The same as an array of one row. -/
def G0_2 : S1x4096.Idx → EReal := fun i => hid0 V c ⟨(i 1).val, idx2_lt1 i⟩

/-- The body's output at column `q` of its block, from blocks that are the row and 256 rows of the weight. -/
theorem out0_2_of_blocks (x0 : Vec Ideal S1x2048 .f32) (x1 : Vec Ideal S256x2048 .f32) (q : Fin 256) (n : Fin 4096)
    (h0 : ∀ k, x0 (ix2 0 k) = row0 V c k) (h1 : ∀ k, x1 (ix2 q k) = mat0 V c n k) :
    out0_2 (F := Ideal) x0 x1 (ix2 0 q) = hid0 V c n := by
  rw [out0_2_apply, show (∑ k : Fin 2048, x0 (ix2 0 k) * x1 (ix2 q k)) = Cert.Jac.lin (row0 V c) (mat0 V c) n from
    Finset.sum_congr rfl fun k _ => by rw [h0, h1]]
  rfl

/-- What point `t` writes back to the window's array is its block of `G0_2`. -/
theorem flushed0_2_eq (t : Fin cfg0.N) :
    (dat0 V c).flushed 2 t = ((cfg0.win 2).blk t).view.read (Elt Ideal) (G0_2 V c) := by
  show (cfg0.win 2).cut (grid0.coords t) ((dat0 V c).after 2 t) = _
  rw [after0_2]
  obtain ⟨-, -, -, e3⟩ := idx_in0 t
  obtain ⟨-, e5⟩ := idx_out0_2 t
  funext j
  obtain ⟨p, q, rfl⟩ : ∃ (p : Fin 1) (q : Fin 256), j = ix2 p q := ⟨j 0, j 1, eq_ix2 j⟩
  obtain rfl : p = 0 := Subsingleton.elim _ _
  have hq : q.val < 256 := q.isLt
  show out0_2 (F := Ideal) (iblk0 V c 0 t) (iblk0 V c 1 t) (ix2 0 q) = G0_2 V c (((cfg0.win 2).blk t).view.emb (ix2 0 q))
  refine (out0_2_of_blocks V c (iblk0 V c 0 t) (iblk0 V c 1 t) q ⟨win0_1.index t (0 : Fin 2) * 256 + q.val, by omega⟩
    (iblk0_row V c t) (fun k => iblk0_mat V c t q k _ rfl)).trans ?_
  unfold G0_2
  exact congrArg (hid0 V c) (Fin.ext (show win0_1.index t (0 : Fin 2) * 256 + q.val = win0_2.index t (1 : Fin 2) * 256 + 1 * q.val by omega))

/-- An index of the array is in point `t`'s block iff each coordinate is in the block's range on its axis. -/
theorem mem_blk0_2 (t : Fin cfg0.N) (i : S1x4096.Idx) :
    i ∈ ((cfg0.win 2).blk t).view.set ↔ ∀ a : Fin 2, win0_2.index t a * S1x256.size a ≤ (i a).val ∧ (i a).val < win0_2.index t a * S1x256.size a + S1x256.size a := by
  show i ∈ ((View.whole main_v0_0).slice (win0_2.rect t)).set ↔ _
  rw [View.set_slice_whole, Rect.mem_set_unit]
  exact Iff.rfl

/-- Every index of the array is in some point's block: column `n` in that of the point whose column block is `n / 256`. -/
theorem covered0_2 (i : S1x4096.Idx) : ∃ t : Fin cfg0.N, (cfg0.win 2).flush t = true ∧ i ∈ ((cfg0.win 2).blk t).view.set := by
  have hi0 : (i 0).val < 1 := (i 0).isLt
  have hi1 : (i 1).val < 4096 := (i 1).isLt
  obtain ⟨t, ht⟩ := idx_onto0_2 ⟨(i 1).val / 256, by omega⟩
  have q0 : win0_2.index t (0 : Fin 2) = 0 := congrFun ht 0
  have q1 : win0_2.index t (1 : Fin 2) = (i 1).val / 256 := congrFun ht 1
  refine ⟨t, flush0_2 t, ?_⟩
  rw [mem_blk0_2]
  intro a
  match a with
  | ⟨0, _⟩ => show win0_2.index t (0 : Fin 2) * 1 ≤ (i 0).val ∧ (i 0).val < win0_2.index t (0 : Fin 2) * 1 + 1; omega
  | ⟨1, _⟩ => show win0_2.index t (1 : Fin 2) * 256 ≤ (i 1).val ∧ (i 1).val < win0_2.index t (1 : Fin 2) * 256 + 256; omega

/-- The window's array after the first layer's grid, whole. -/
theorem arr0_2 : (dat0 V c).arrAt 2 cfg0.N = G0_2 V c :=
  (dat0 V c).arrAt_eq_of_cover 2 (G0_2 V c) (fun t _ => flushed0_2_eq V c t) (covered0_2)

/-- and entry by entry. -/
theorem final0_h (n : Fin 4096) :
    ((dat0 V c).arrAt 2 cfg0.N : S1x4096.Idx → EReal) (ix2 0 n) = Cert.Jac.lin (row0 V c) (mat0 V c) n * Cert.Jac.gate (Cert.Jac.lin (row0 V c) (mat0 V c) n) := by
  rw [arr0_2]
  rfl

/-! ### Output window 3 -/

/-- The output's block sits in row block 0 and in the column block whose number is the weight's row block. -/
theorem idx_out0_3 : ∀ t : Fin cfg0.N, win0_3.index t (0 : Fin 2) = 0 ∧ win0_3.index t (1 : Fin 2) = win0_1.index t (0 : Fin 2) :=
  (by decide +kernel : ∀ t : Fin grid0.N, _)

/-- Every column block is some point's. -/
theorem idx_onto0_3 : ∀ q : Fin 16, ∃ t : Fin cfg0.N, win0_3.index t = ![0, q.val] :=
  (by decide +kernel : ∀ q : Fin 16, ∃ t : Fin grid0.N, win0_3.index t = ![0, q.val])

/-- The gates the first layer leaves: entry `n` is the gate of the pre-activation of the row against weight row `n`. -/
def gates0 (n : Fin 4096) : EReal := Cert.Jac.gate (Cert.Jac.lin (row0 V c) (mat0 V c) n)

/-- The same as an array of one row. -/
def G0_3 : S1x4096.Idx → EReal := fun i => gates0 V c ⟨(i 1).val, idx2_lt1 i⟩

/-- The body's output at column `q` of its block, from blocks that are the row and 256 rows of the weight. -/
theorem out0_3_of_blocks (x0 : Vec Ideal S1x2048 .f32) (x1 : Vec Ideal S256x2048 .f32) (q : Fin 256) (n : Fin 4096)
    (h0 : ∀ k, x0 (ix2 0 k) = row0 V c k) (h1 : ∀ k, x1 (ix2 q k) = mat0 V c n k) :
    out0_3 (F := Ideal) x0 x1 (ix2 0 q) = gates0 V c n := by
  rw [out0_3_apply, show (∑ k : Fin 2048, x0 (ix2 0 k) * x1 (ix2 q k)) = Cert.Jac.lin (row0 V c) (mat0 V c) n from
    Finset.sum_congr rfl fun k _ => by rw [h0, h1]]
  rfl

/-- What point `t` writes back to the window's array is its block of `G0_3`. -/
theorem flushed0_3_eq (t : Fin cfg0.N) :
    (dat0 V c).flushed 3 t = ((cfg0.win 3).blk t).view.read (Elt Ideal) (G0_3 V c) := by
  show (cfg0.win 3).cut (grid0.coords t) ((dat0 V c).after 3 t) = _
  rw [after0_3]
  obtain ⟨-, -, -, e3⟩ := idx_in0 t
  obtain ⟨-, e5⟩ := idx_out0_3 t
  funext j
  obtain ⟨p, q, rfl⟩ : ∃ (p : Fin 1) (q : Fin 256), j = ix2 p q := ⟨j 0, j 1, eq_ix2 j⟩
  obtain rfl : p = 0 := Subsingleton.elim _ _
  have hq : q.val < 256 := q.isLt
  show out0_3 (F := Ideal) (iblk0 V c 0 t) (iblk0 V c 1 t) (ix2 0 q) = G0_3 V c (((cfg0.win 3).blk t).view.emb (ix2 0 q))
  refine (out0_3_of_blocks V c (iblk0 V c 0 t) (iblk0 V c 1 t) q ⟨win0_1.index t (0 : Fin 2) * 256 + q.val, by omega⟩
    (iblk0_row V c t) (fun k => iblk0_mat V c t q k _ rfl)).trans ?_
  unfold G0_3
  exact congrArg (gates0 V c) (Fin.ext (show win0_1.index t (0 : Fin 2) * 256 + q.val = win0_3.index t (1 : Fin 2) * 256 + 1 * q.val by omega))

/-- An index of the array is in point `t`'s block iff each coordinate is in the block's range on its axis. -/
theorem mem_blk0_3 (t : Fin cfg0.N) (i : S1x4096.Idx) :
    i ∈ ((cfg0.win 3).blk t).view.set ↔ ∀ a : Fin 2, win0_3.index t a * S1x256.size a ≤ (i a).val ∧ (i a).val < win0_3.index t a * S1x256.size a + S1x256.size a := by
  show i ∈ ((View.whole main_v0_1).slice (win0_3.rect t)).set ↔ _
  rw [View.set_slice_whole, Rect.mem_set_unit]
  exact Iff.rfl

/-- Every index of the array is in some point's block: column `n` in that of the point whose column block is `n / 256`. -/
theorem covered0_3 (i : S1x4096.Idx) : ∃ t : Fin cfg0.N, (cfg0.win 3).flush t = true ∧ i ∈ ((cfg0.win 3).blk t).view.set := by
  have hi0 : (i 0).val < 1 := (i 0).isLt
  have hi1 : (i 1).val < 4096 := (i 1).isLt
  obtain ⟨t, ht⟩ := idx_onto0_3 ⟨(i 1).val / 256, by omega⟩
  have q0 : win0_3.index t (0 : Fin 2) = 0 := congrFun ht 0
  have q1 : win0_3.index t (1 : Fin 2) = (i 1).val / 256 := congrFun ht 1
  refine ⟨t, flush0_3 t, ?_⟩
  rw [mem_blk0_3]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 256 ≤ (i 1).val ∧ (i 1).val < win0_3.index t (1 : Fin 2) * 256 + 256; omega

/-- The window's array after the first layer's grid, whole. -/
theorem arr0_3 : (dat0 V c).arrAt 3 cfg0.N = G0_3 V c :=
  (dat0 V c).arrAt_eq_of_cover 3 (G0_3 V c) (fun t _ => flushed0_3_eq V c t) (covered0_3)

/-- and entry by entry. -/
theorem final0_mask (n : Fin 4096) :
    ((dat0 V c).arrAt 3 cfg0.N : S1x4096.Idx → EReal) (ix2 0 n) = Cert.Jac.gate (Cert.Jac.lin (row0 V c) (mat0 V c) n) := by
  rw [arr0_3]
  rfl

/-! ## The second layer -/

/-- The first hidden row on entry. -/
abbrev row1 : Fin 4096 → EReal := fun k => (V c main_v0_0 : S1x4096.Idx → EReal) (ix2 0 k)
/-- The second weight on entry. -/
abbrev mat1 : Fin 4096 → Fin 4096 → EReal := fun p q => (V c main_arg2 : S4096x4096.Idx → EReal) (ix2 p q)

/-- The printed index maps of the two input windows, decided over the grid: the row's block is always block (0, 0);
    the weight's block is a block of whole rows. -/
theorem idx_in1 : ∀ t : Fin cfg1.N, win1_0.index t (0 : Fin 2) = 0 ∧ win1_0.index t (1 : Fin 2) = 0
    ∧ win1_1.index t (1 : Fin 2) = 0 ∧ win1_1.index t (0 : Fin 2) ≤ 15 :=
  (by decide +kernel : ∀ t : Fin grid1.N, _)

/-- The row's block at any point is the whole row. -/
theorem iblk1_row (t : Fin cfg1.N) (k : Fin 4096) :
    (iblk1 V c 0 t : Vec Ideal S1x4096 .f32) (ix2 0 k) = row1 V c k := by
  obtain ⟨e0, e1, -⟩ := idx_in1 t
  unfold iblk1
  rw [View.read_apply]
  show (V c main_v0_0 : S1x4096.Idx → EReal) _ = (V c main_v0_0 : S1x4096.Idx → EReal) _
  congr 1
  funext a
  apply Fin.ext
  match a with
  | ⟨0, _⟩ => show win1_0.index t (0 : Fin 2) * 1 + 1 * 0 = 0; omega
  | ⟨1, _⟩ => show win1_0.index t (1 : Fin 2) * 4096 + 1 * k.val = k.val; omega

/-- The weight's block at point `t` is rows `256 b … 256 b + 255` of the weight, `b` the block's number. -/
theorem iblk1_mat (t : Fin cfg1.N) (q : Fin 256) (k : Fin 4096) (n : Fin 4096) (hn : n.val = win1_1.index t (0 : Fin 2) * 256 + q.val) :
    (iblk1 V c 1 t : Vec Ideal S256x4096 .f32) (ix2 q k) = mat1 V c n k := by
  obtain ⟨-, -, e2, -⟩ := idx_in1 t
  unfold iblk1
  rw [View.read_apply]
  show (V c main_arg2 : S4096x4096.Idx → EReal) _ = (V c main_arg2 : S4096x4096.Idx → EReal) _
  congr 1
  funext a
  apply Fin.ext
  match a with
  | ⟨0, _⟩ => show win1_1.index t (0 : Fin 2) * 256 + 1 * q.val = n.val; omega
  | ⟨1, _⟩ => show win1_1.index t (1 : Fin 2) * 4096 + 1 * k.val = k.val; omega

/-! ### Output window 2 -/

/-- The output's block sits in row block 0 and in the column block whose number is the weight's row block. -/
theorem idx_out1_2 : ∀ t : Fin cfg1.N, win1_2.index t (0 : Fin 2) = 0 ∧ win1_2.index t (1 : Fin 2) = win1_1.index t (0 : Fin 2) :=
  (by decide +kernel : ∀ t : Fin grid1.N, _)

/-- Every column block is some point's. -/
theorem idx_onto1_2 : ∀ q : Fin 16, ∃ t : Fin cfg1.N, win1_2.index t = ![0, q.val] :=
  (by decide +kernel : ∀ q : Fin 16, ∃ t : Fin grid1.N, win1_2.index t = ![0, q.val])

/-- The hidden row the second layer leaves: entry `n` is the gated pre-activation of the row against weight row `n`. -/
def hid1 (n : Fin 4096) : EReal := Cert.Jac.lin (row1 V c) (mat1 V c) n * Cert.Jac.gate (Cert.Jac.lin (row1 V c) (mat1 V c) n)

/-- The same as an array of one row. -/
def G1_2 : S1x4096.Idx → EReal := fun i => hid1 V c ⟨(i 1).val, idx2_lt1 i⟩

/-- The body's output at column `q` of its block, from blocks that are the row and 256 rows of the weight. -/
theorem out1_2_of_blocks (x0 : Vec Ideal S1x4096 .f32) (x1 : Vec Ideal S256x4096 .f32) (q : Fin 256) (n : Fin 4096)
    (h0 : ∀ k, x0 (ix2 0 k) = row1 V c k) (h1 : ∀ k, x1 (ix2 q k) = mat1 V c n k) :
    out1_2 (F := Ideal) x0 x1 (ix2 0 q) = hid1 V c n := by
  rw [out1_2_apply, show (∑ k : Fin 4096, x0 (ix2 0 k) * x1 (ix2 q k)) = Cert.Jac.lin (row1 V c) (mat1 V c) n from
    Finset.sum_congr rfl fun k _ => by rw [h0, h1]]
  rfl

/-- What point `t` writes back to the window's array is its block of `G1_2`. -/
theorem flushed1_2_eq (t : Fin cfg1.N) :
    (dat1 V c).flushed 2 t = ((cfg1.win 2).blk t).view.read (Elt Ideal) (G1_2 V c) := by
  show (cfg1.win 2).cut (grid1.coords t) ((dat1 V c).after 2 t) = _
  rw [after1_2]
  obtain ⟨-, -, -, e3⟩ := idx_in1 t
  obtain ⟨-, e5⟩ := idx_out1_2 t
  funext j
  obtain ⟨p, q, rfl⟩ : ∃ (p : Fin 1) (q : Fin 256), j = ix2 p q := ⟨j 0, j 1, eq_ix2 j⟩
  obtain rfl : p = 0 := Subsingleton.elim _ _
  have hq : q.val < 256 := q.isLt
  show out1_2 (F := Ideal) (iblk1 V c 0 t) (iblk1 V c 1 t) (ix2 0 q) = G1_2 V c (((cfg1.win 2).blk t).view.emb (ix2 0 q))
  refine (out1_2_of_blocks V c (iblk1 V c 0 t) (iblk1 V c 1 t) q ⟨win1_1.index t (0 : Fin 2) * 256 + q.val, by omega⟩
    (iblk1_row V c t) (fun k => iblk1_mat V c t q k _ rfl)).trans ?_
  unfold G1_2
  exact congrArg (hid1 V c) (Fin.ext (show win1_1.index t (0 : Fin 2) * 256 + q.val = win1_2.index t (1 : Fin 2) * 256 + 1 * q.val by omega))

/-- An index of the array is in point `t`'s block iff each coordinate is in the block's range on its axis. -/
theorem mem_blk1_2 (t : Fin cfg1.N) (i : S1x4096.Idx) :
    i ∈ ((cfg1.win 2).blk t).view.set ↔ ∀ a : Fin 2, win1_2.index t a * S1x256.size a ≤ (i a).val ∧ (i a).val < win1_2.index t a * S1x256.size a + S1x256.size a := by
  show i ∈ ((View.whole main_v1_0).slice (win1_2.rect t)).set ↔ _
  rw [View.set_slice_whole, Rect.mem_set_unit]
  exact Iff.rfl

/-- Every index of the array is in some point's block: column `n` in that of the point whose column block is `n / 256`. -/
theorem covered1_2 (i : S1x4096.Idx) : ∃ t : Fin cfg1.N, (cfg1.win 2).flush t = true ∧ i ∈ ((cfg1.win 2).blk t).view.set := by
  have hi0 : (i 0).val < 1 := (i 0).isLt
  have hi1 : (i 1).val < 4096 := (i 1).isLt
  obtain ⟨t, ht⟩ := idx_onto1_2 ⟨(i 1).val / 256, by omega⟩
  have q0 : win1_2.index t (0 : Fin 2) = 0 := congrFun ht 0
  have q1 : win1_2.index t (1 : Fin 2) = (i 1).val / 256 := congrFun ht 1
  refine ⟨t, flush1_2 t, ?_⟩
  rw [mem_blk1_2]
  intro a
  match a with
  | ⟨0, _⟩ => show win1_2.index t (0 : Fin 2) * 1 ≤ (i 0).val ∧ (i 0).val < win1_2.index t (0 : Fin 2) * 1 + 1; omega
  | ⟨1, _⟩ => show win1_2.index t (1 : Fin 2) * 256 ≤ (i 1).val ∧ (i 1).val < win1_2.index t (1 : Fin 2) * 256 + 256; omega

/-- The window's array after the second layer's grid, whole. -/
theorem arr1_2 : (dat1 V c).arrAt 2 cfg1.N = G1_2 V c :=
  (dat1 V c).arrAt_eq_of_cover 2 (G1_2 V c) (fun t _ => flushed1_2_eq V c t) (covered1_2)

/-- and entry by entry. -/
theorem final1_h (n : Fin 4096) :
    ((dat1 V c).arrAt 2 cfg1.N : S1x4096.Idx → EReal) (ix2 0 n) = Cert.Jac.lin (row1 V c) (mat1 V c) n * Cert.Jac.gate (Cert.Jac.lin (row1 V c) (mat1 V c) n) := by
  rw [arr1_2]
  rfl

/-! ### Output window 3 -/

/-- The output's block sits in row block 0 and in the column block whose number is the weight's row block. -/
theorem idx_out1_3 : ∀ t : Fin cfg1.N, win1_3.index t (0 : Fin 2) = 0 ∧ win1_3.index t (1 : Fin 2) = win1_1.index t (0 : Fin 2) :=
  (by decide +kernel : ∀ t : Fin grid1.N, _)

/-- Every column block is some point's. -/
theorem idx_onto1_3 : ∀ q : Fin 16, ∃ t : Fin cfg1.N, win1_3.index t = ![0, q.val] :=
  (by decide +kernel : ∀ q : Fin 16, ∃ t : Fin grid1.N, win1_3.index t = ![0, q.val])

/-- The gates the second layer leaves: entry `n` is the gate of the pre-activation of the row against weight row `n`. -/
def gates1 (n : Fin 4096) : EReal := Cert.Jac.gate (Cert.Jac.lin (row1 V c) (mat1 V c) n)

/-- The same as an array of one row. -/
def G1_3 : S1x4096.Idx → EReal := fun i => gates1 V c ⟨(i 1).val, idx2_lt1 i⟩

/-- The body's output at column `q` of its block, from blocks that are the row and 256 rows of the weight. -/
theorem out1_3_of_blocks (x0 : Vec Ideal S1x4096 .f32) (x1 : Vec Ideal S256x4096 .f32) (q : Fin 256) (n : Fin 4096)
    (h0 : ∀ k, x0 (ix2 0 k) = row1 V c k) (h1 : ∀ k, x1 (ix2 q k) = mat1 V c n k) :
    out1_3 (F := Ideal) x0 x1 (ix2 0 q) = gates1 V c n := by
  rw [out1_3_apply, show (∑ k : Fin 4096, x0 (ix2 0 k) * x1 (ix2 q k)) = Cert.Jac.lin (row1 V c) (mat1 V c) n from
    Finset.sum_congr rfl fun k _ => by rw [h0, h1]]
  rfl

/-- What point `t` writes back to the window's array is its block of `G1_3`. -/
theorem flushed1_3_eq (t : Fin cfg1.N) :
    (dat1 V c).flushed 3 t = ((cfg1.win 3).blk t).view.read (Elt Ideal) (G1_3 V c) := by
  show (cfg1.win 3).cut (grid1.coords t) ((dat1 V c).after 3 t) = _
  rw [after1_3]
  obtain ⟨-, -, -, e3⟩ := idx_in1 t
  obtain ⟨-, e5⟩ := idx_out1_3 t
  funext j
  obtain ⟨p, q, rfl⟩ : ∃ (p : Fin 1) (q : Fin 256), j = ix2 p q := ⟨j 0, j 1, eq_ix2 j⟩
  obtain rfl : p = 0 := Subsingleton.elim _ _
  have hq : q.val < 256 := q.isLt
  show out1_3 (F := Ideal) (iblk1 V c 0 t) (iblk1 V c 1 t) (ix2 0 q) = G1_3 V c (((cfg1.win 3).blk t).view.emb (ix2 0 q))
  refine (out1_3_of_blocks V c (iblk1 V c 0 t) (iblk1 V c 1 t) q ⟨win1_1.index t (0 : Fin 2) * 256 + q.val, by omega⟩
    (iblk1_row V c t) (fun k => iblk1_mat V c t q k _ rfl)).trans ?_
  unfold G1_3
  exact congrArg (gates1 V c) (Fin.ext (show win1_1.index t (0 : Fin 2) * 256 + q.val = win1_3.index t (1 : Fin 2) * 256 + 1 * q.val by omega))

/-- An index of the array is in point `t`'s block iff each coordinate is in the block's range on its axis. -/
theorem mem_blk1_3 (t : Fin cfg1.N) (i : S1x4096.Idx) :
    i ∈ ((cfg1.win 3).blk t).view.set ↔ ∀ a : Fin 2, win1_3.index t a * S1x256.size a ≤ (i a).val ∧ (i a).val < win1_3.index t a * S1x256.size a + S1x256.size a := by
  show i ∈ ((View.whole main_v1_1).slice (win1_3.rect t)).set ↔ _
  rw [View.set_slice_whole, Rect.mem_set_unit]
  exact Iff.rfl

/-- Every index of the array is in some point's block: column `n` in that of the point whose column block is `n / 256`. -/
theorem covered1_3 (i : S1x4096.Idx) : ∃ t : Fin cfg1.N, (cfg1.win 3).flush t = true ∧ i ∈ ((cfg1.win 3).blk t).view.set := by
  have hi0 : (i 0).val < 1 := (i 0).isLt
  have hi1 : (i 1).val < 4096 := (i 1).isLt
  obtain ⟨t, ht⟩ := idx_onto1_3 ⟨(i 1).val / 256, by omega⟩
  have q0 : win1_3.index t (0 : Fin 2) = 0 := congrFun ht 0
  have q1 : win1_3.index t (1 : Fin 2) = (i 1).val / 256 := congrFun ht 1
  refine ⟨t, flush1_3 t, ?_⟩
  rw [mem_blk1_3]
  intro a
  match a with
  | ⟨0, _⟩ => show win1_3.index t (0 : Fin 2) * 1 ≤ (i 0).val ∧ (i 0).val < win1_3.index t (0 : Fin 2) * 1 + 1; omega
  | ⟨1, _⟩ => show win1_3.index t (1 : Fin 2) * 256 ≤ (i 1).val ∧ (i 1).val < win1_3.index t (1 : Fin 2) * 256 + 256; omega

/-- The window's array after the second layer's grid, whole. -/
theorem arr1_3 : (dat1 V c).arrAt 3 cfg1.N = G1_3 V c :=
  (dat1 V c).arrAt_eq_of_cover 3 (G1_3 V c) (fun t _ => flushed1_3_eq V c t) (covered1_3)

/-- and entry by entry. -/
theorem final1_mask (n : Fin 4096) :
    ((dat1 V c).arrAt 3 cfg1.N : S1x4096.Idx → EReal) (ix2 0 n) = Cert.Jac.gate (Cert.Jac.lin (row1 V c) (mat1 V c) n) := by
  rw [arr1_3]
  rfl

/-! ## The third layer -/

/-- The second hidden row on entry. -/
abbrev row2 : Fin 4096 → EReal := fun k => (V c main_v1_0 : S1x4096.Idx → EReal) (ix2 0 k)
/-- The third weight on entry. -/
abbrev mat2 : Fin 2048 → Fin 4096 → EReal := fun p q => (V c main_arg3 : S2048x4096.Idx → EReal) (ix2 p q)

/-- The printed index maps of the two input windows, decided over the grid: the row's block is always block (0, 0);
    the weight's block is a block of whole rows. -/
theorem idx_in2 : ∀ t : Fin cfg2.N, win2_0.index t (0 : Fin 2) = 0 ∧ win2_0.index t (1 : Fin 2) = 0
    ∧ win2_1.index t (1 : Fin 2) = 0 ∧ win2_1.index t (0 : Fin 2) ≤ 7 :=
  (by decide +kernel : ∀ t : Fin grid2.N, _)

/-- The row's block at any point is the whole row. -/
theorem iblk2_row (t : Fin cfg2.N) (k : Fin 4096) :
    (iblk2 V c 0 t : Vec Ideal S1x4096 .f32) (ix2 0 k) = row2 V c k := by
  obtain ⟨e0, e1, -⟩ := idx_in2 t
  unfold iblk2
  rw [View.read_apply]
  show (V c main_v1_0 : S1x4096.Idx → EReal) _ = (V c main_v1_0 : S1x4096.Idx → EReal) _
  congr 1
  funext a
  apply Fin.ext
  match a with
  | ⟨0, _⟩ => show win2_0.index t (0 : Fin 2) * 1 + 1 * 0 = 0; omega
  | ⟨1, _⟩ => show win2_0.index t (1 : Fin 2) * 4096 + 1 * k.val = k.val; omega

/-- The weight's block at point `t` is rows `256 b … 256 b + 255` of the weight, `b` the block's number. -/
theorem iblk2_mat (t : Fin cfg2.N) (q : Fin 256) (k : Fin 4096) (n : Fin 2048) (hn : n.val = win2_1.index t (0 : Fin 2) * 256 + q.val) :
    (iblk2 V c 1 t : Vec Ideal S256x4096 .f32) (ix2 q k) = mat2 V c n k := by
  obtain ⟨-, -, e2, -⟩ := idx_in2 t
  unfold iblk2
  rw [View.read_apply]
  show (V c main_arg3 : S2048x4096.Idx → EReal) _ = (V c main_arg3 : S2048x4096.Idx → EReal) _
  congr 1
  funext a
  apply Fin.ext
  match a with
  | ⟨0, _⟩ => show win2_1.index t (0 : Fin 2) * 256 + 1 * q.val = n.val; omega
  | ⟨1, _⟩ => show win2_1.index t (1 : Fin 2) * 4096 + 1 * k.val = k.val; omega

/-! ### Output window 2 -/

/-- The output's block sits in row block 0 and in the column block whose number is the weight's row block. -/
theorem idx_out2_2 : ∀ t : Fin cfg2.N, win2_2.index t (0 : Fin 2) = 0 ∧ win2_2.index t (1 : Fin 2) = win2_1.index t (0 : Fin 2) :=
  (by decide +kernel : ∀ t : Fin grid2.N, _)

/-- Every column block is some point's. -/
theorem idx_onto2_2 : ∀ q : Fin 8, ∃ t : Fin cfg2.N, win2_2.index t = ![0, q.val] :=
  (by decide +kernel : ∀ q : Fin 8, ∃ t : Fin grid2.N, win2_2.index t = ![0, q.val])

/-- The output row the third layer leaves: entry `n` is the product of the row with weight row `n`. -/
def outs2 (n : Fin 2048) : EReal := Cert.Jac.lin (row2 V c) (mat2 V c) n

/-- The same as an array of one row. -/
def G2_2 : S1x2048.Idx → EReal := fun i => outs2 V c ⟨(i 1).val, idx2_lt1 i⟩

/-- The body's output at column `q` of its block, from blocks that are the row and 256 rows of the weight. -/
theorem out2_2_of_blocks (x0 : Vec Ideal S1x4096 .f32) (x1 : Vec Ideal S256x4096 .f32) (q : Fin 256) (n : Fin 2048)
    (h0 : ∀ k, x0 (ix2 0 k) = row2 V c k) (h1 : ∀ k, x1 (ix2 q k) = mat2 V c n k) :
    out2_2 (F := Ideal) x0 x1 (ix2 0 q) = outs2 V c n := by
  rw [out2_2_apply, show (∑ k : Fin 4096, x0 (ix2 0 k) * x1 (ix2 q k)) = Cert.Jac.lin (row2 V c) (mat2 V c) n from
    Finset.sum_congr rfl fun k _ => by rw [h0, h1]]
  rfl

/-- What point `t` writes back to the window's array is its block of `G2_2`. -/
theorem flushed2_2_eq (t : Fin cfg2.N) :
    (dat2 V c).flushed 2 t = ((cfg2.win 2).blk t).view.read (Elt Ideal) (G2_2 V c) := by
  show (cfg2.win 2).cut (grid2.coords t) ((dat2 V c).after 2 t) = _
  rw [after2_2]
  obtain ⟨-, -, -, e3⟩ := idx_in2 t
  obtain ⟨-, e5⟩ := idx_out2_2 t
  funext j
  obtain ⟨p, q, rfl⟩ : ∃ (p : Fin 1) (q : Fin 256), j = ix2 p q := ⟨j 0, j 1, eq_ix2 j⟩
  obtain rfl : p = 0 := Subsingleton.elim _ _
  have hq : q.val < 256 := q.isLt
  show out2_2 (F := Ideal) (iblk2 V c 0 t) (iblk2 V c 1 t) (ix2 0 q) = G2_2 V c (((cfg2.win 2).blk t).view.emb (ix2 0 q))
  refine (out2_2_of_blocks V c (iblk2 V c 0 t) (iblk2 V c 1 t) q ⟨win2_1.index t (0 : Fin 2) * 256 + q.val, by omega⟩
    (iblk2_row V c t) (fun k => iblk2_mat V c t q k _ rfl)).trans ?_
  unfold G2_2
  exact congrArg (outs2 V c) (Fin.ext (show win2_1.index t (0 : Fin 2) * 256 + q.val = win2_2.index t (1 : Fin 2) * 256 + 1 * q.val by omega))

/-- An index of the array is in point `t`'s block iff each coordinate is in the block's range on its axis. -/
theorem mem_blk2_2 (t : Fin cfg2.N) (i : S1x2048.Idx) :
    i ∈ ((cfg2.win 2).blk t).view.set ↔ ∀ a : Fin 2, win2_2.index t a * S1x256.size a ≤ (i a).val ∧ (i a).val < win2_2.index t a * S1x256.size a + S1x256.size a := by
  show i ∈ ((View.whole main_v2).slice (win2_2.rect t)).set ↔ _
  rw [View.set_slice_whole, Rect.mem_set_unit]
  exact Iff.rfl

/-- Every index of the array is in some point's block: column `n` in that of the point whose column block is `n / 256`. -/
theorem covered2_2 (i : S1x2048.Idx) : ∃ t : Fin cfg2.N, (cfg2.win 2).flush t = true ∧ i ∈ ((cfg2.win 2).blk t).view.set := by
  have hi0 : (i 0).val < 1 := (i 0).isLt
  have hi1 : (i 1).val < 2048 := (i 1).isLt
  obtain ⟨t, ht⟩ := idx_onto2_2 ⟨(i 1).val / 256, by omega⟩
  have q0 : win2_2.index t (0 : Fin 2) = 0 := congrFun ht 0
  have q1 : win2_2.index t (1 : Fin 2) = (i 1).val / 256 := congrFun ht 1
  refine ⟨t, flush2_2 t, ?_⟩
  rw [mem_blk2_2]
  intro a
  match a with
  | ⟨0, _⟩ => show win2_2.index t (0 : Fin 2) * 1 ≤ (i 0).val ∧ (i 0).val < win2_2.index t (0 : Fin 2) * 1 + 1; omega
  | ⟨1, _⟩ => show win2_2.index t (1 : Fin 2) * 256 ≤ (i 1).val ∧ (i 1).val < win2_2.index t (1 : Fin 2) * 256 + 256; omega

/-- The window's array after the third layer's grid, whole. -/
theorem arr2_2 : (dat2 V c).arrAt 2 cfg2.N = G2_2 V c :=
  (dat2 V c).arrAt_eq_of_cover 2 (G2_2 V c) (fun t _ => flushed2_2_eq V c t) (covered2_2)

/-- and entry by entry. -/
theorem final2_out (n : Fin 2048) :
    ((dat2 V c).arrAt 2 cfg2.N : S1x2048.Idx → EReal) (ix2 0 n) = Cert.Jac.lin (row2 V c) (mat2 V c) n := by
  rw [arr2_2]
  rfl

end Cert.KernelIdeal.LayerArrays

end
-- ==== Proof.KernelIdealBridge.lean ====
/-
  The kernel program's quantities in the specification's terms, layer by layer, at the exact instance. Region 0 is entered
  with the launch's input row and first weight array, so its output arrays are the first layer's gated row and gate;
  region 1 is entered with that row and the second weight array, so its output arrays are the second layer's; region 2's
  output array is the network's output.
-/
import proofs.«152103_j17360257810985_2_alg».proof.Proof.KernelIdealResults
import proofs.«152103_j17360257810985_2_alg».proof.Proof.LayerArrays
import proofs.«152103_j17360257810985_2_alg».proof.Proof.JacSpec

set_option maxRecDepth 16384

noncomputable section

namespace Cert.KernelIdeal.Bridge

open Cert.KernelIdeal Cert.KernelIdeal.Gen Cert.KernelIdeal.Whole Cert.KernelIdeal.LayerArrays
open Cert.Jac Cert.Lib.ChainLaw
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg) (c : Dev nD)

/-- The four arguments as families of extended reals. -/
abbrev xs : Fin 2048 → EReal := fun k => (m ((c : Thread nD τ).loc main_arg0) : S1x2048.Idx → EReal) (ix2 (0 : Fin 1) k)
abbrev w1s : Fin 4096 → Fin 2048 → EReal := fun p q => (m ((c : Thread nD τ).loc main_arg1) : S4096x2048.Idx → EReal) (ix2 p q)
abbrev w2s : Fin 4096 → Fin 4096 → EReal := fun p q => (m ((c : Thread nD τ).loc main_arg2) : S4096x4096.Idx → EReal) (ix2 p q)
abbrev w3s : Fin 2048 → Fin 4096 → EReal := fun p q => (m ((c : Thread nD τ).loc main_arg3) : S2048x4096.Idx → EReal) (ix2 p q)

/-! ## The first layer -/

theorem row0_eq : row0 (En0 m ρ) c = xs m c := rfl
theorem mat0_eq : mat0 (En0 m ρ) c = w1s m c := rfl

/-- Region 0's gate array is the first gate. -/
theorem gate1_eq (n : Fin 4096) :
    ((Layers.dat0 (En0 m ρ) c).arrAt 3 cfg0.N : S1x4096.Idx → EReal) (ix2 (0 : Fin 1) n) = g1 (xs m c) (w1s m c) n := by
  rw [final0_mask, row0_eq, mat0_eq]; rfl

/-- Region 1's activation row is the first layer's gated row. -/
theorem row1_eq : row1 (En1 m ρ) c = h1 (xs m c) (w1s m c) := by
  funext k
  show (En1 m ρ c main_v0_0 : S1x4096.Idx → EReal) (ix2 (0 : Fin 1) k) = _
  rw [En1_row, final0_h, row0_eq, mat0_eq]; rfl
theorem mat1_eq : mat1 (En1 m ρ) c = w2s m c := by
  funext p q
  show (En1 m ρ c main_arg2 : S4096x4096.Idx → EReal) (ix2 p q) = _
  rw [En1_w]

/-! ## The second layer -/

/-- Region 1's gate array is the second gate. -/
theorem gate2_eq (n : Fin 4096) :
    ((Layers.dat1 (En1 m ρ) c).arrAt 3 cfg1.N : S1x4096.Idx → EReal) (ix2 (0 : Fin 1) n) = g2 (xs m c) (w1s m c) (w2s m c) n := by
  rw [final1_mask, row1_eq, mat1_eq]; rfl

/-- Region 2's activation row is the second layer's gated row. -/
theorem row2_eq : row2 (En2 m ρ) c = h2 (xs m c) (w1s m c) (w2s m c) := by
  funext k
  show (En2 m ρ c main_v1_0 : S1x4096.Idx → EReal) (ix2 (0 : Fin 1) k) = _
  rw [En2_row, final1_h, row1_eq, mat1_eq]; rfl
theorem mat2_eq : mat2 (En2 m ρ) c = w3s m c := by
  funext p q
  show (En2 m ρ c main_arg3 : S2048x4096.Idx → EReal) (ix2 p q) = _
  rw [En2_w]

/-! ## The output -/

/-- The program's first result is the network's output. -/
theorem out_eq (q : Fin 2048) :
    (W11 m ρ c main_v2 : S1x2048.Idx → EReal) (ix2 (0 : Fin 1) q) = out (xs m c) (w1s m c) (w2s m c) (w3s m c) q := by
  rw [W11_out, final2_out, row2_eq, mat2_eq]; rfl

end Cert.KernelIdeal.Bridge

end
-- ==== Proof.LibWholeStores.lean ====
/-
  Whole-buffer loads and stores. A kernel body that keeps an accumulator in a buffer reads and writes it through
  the rectangle at zero offsets of the buffer's own extents. Through that rectangle a load reads the contents, a
  store leaves its payload whatever was stored before, and a load after such a store reads the payload. The
  statements are over any view, any value type and any earlier list of stores.
-/
import Idealize.ShloMosaic.Lib.Pipeline.Value
import Idealize.ShloMosaic.Lib.Pipeline.Frame
import Idealize.ShloMosaic.Lib.Pipeline.FrameBody

noncomputable section

namespace Idealize.ShloMosaic.WholeStores

open Idealize.ShloMosaic

variable {Val : EltTy → Type} {S : Shape} {e : EltTy}

/-- After a list of stores whose LAST one goes through the whole rectangle, the buffer reads as that store's
    payload: earlier stores and earlier contents are overwritten. -/
theorem read_writes_whole_last [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A load through the whole rectangle, after stores the last of which went through the whole rectangle, reads
    that store's payload. -/
theorem readCov_whole_last [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.mem_cons_self, View.mem_set_unit_zero h inb y⟩),
    View.canon_cons_unit_zero h inb, View.ld_unit_zero h inb]

/-- A load through the whole rectangle of a whole buffer whose contents read as X reads X. -/
theorem readAt_whole_unread {sig : RefSig} {κ : Kind} {sp : Space} {m : Memref sig κ sp S e} (hm : m.IsWhole)
    {off : Fin S.rank → Nat} (h : off = fun _ => 0) (inb : ∀ a, off a + S.size a ≤ S.size a) (X : S.Idx → Val e) :
    m.view.readAt Val (Rect.unit off S.size inb).toLoadRect (hm.unread X) = X := by
  rw [View.readAt_eq_ld, hm.read_unread, View.ld_unit_zero h inb]

end Idealize.ShloMosaic.WholeStores

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.LibBlockedSum.lean ====
/-
  A sum of a·b terms taken b at a time.

  In any commutative additive monoid — the extended reals included, where no cancellation or distributivity is
  available but addition is still associative and commutative — the sum of `f 0, …, f (a·b − 1)` equals the sum over
  the a consecutive stretches of length b of each stretch's own sum. This is the whole algebra behind a matrix product
  whose contraction axis is cut into blocks that are accumulated one after the other.
-/
import Idealize.ShloMosaic.Lib.ValueIdx

namespace Cert.Lib.BlockedSum

open scoped BigOperators

/-- Over ranges: the stretches `b·s, …, b·s + b − 1` for `s < a` exhaust `0, …, a·b − 1`. -/
theorem sum_range_blocks {M : Type*} [AddCommMonoid M] (f : ℕ → M) (b : ℕ) :
    ∀ a : ℕ, ∑ s ∈ Finset.range a, ∑ k ∈ Finset.range b, f (b * s + k) = ∑ k ∈ Finset.range (a * b), f k
  | 0 => by simp
  | a + 1 => by
    rw [Finset.sum_range_succ, sum_range_blocks f b a, Nat.succ_mul, Finset.sum_range_add, Nat.mul_comm b a]

/-- The same with the inner and the total sum over `Fin`: the form in which a block's inner product and the whole
    inner product are read off the two programs. -/
theorem sum_fin_blocks {M : Type*} [AddCommMonoid M] (f : ℕ → M) (a b : ℕ) :
    ∑ s ∈ Finset.range a, ∑ k : Fin b, f (b * s + k.val) = ∑ k : Fin (a * b), f k.val := by
  rw [Fin.sum_univ_eq_sum_range f (a * b), ← sum_range_blocks f b a]
  exact Finset.sum_congr rfl fun s _ => Fin.sum_univ_eq_sum_range (fun k => f (b * s + k)) b

end Cert.Lib.BlockedSum
-- ==== Proof.InnerValues.lean ====
/-
  The first chained product's result array.

  The region computes `Ct = (W2 · gate) W1` block by block: row block `mb` of the result is accumulated over the eight
  blocks of the contracted axis, each point adding one partial product to the accumulator, which starts at zero at the
  row block's first point and is copied into the output block at its last. Here the cases' stored pieces are read back
  as the body's arithmetic of the blocks; that arithmetic is read at an index (a plain matrix product of the first
  operand scaled column by column with the second, added to the accumulator); the three input blocks are read where
  the windows' rectangles put them in their arrays; the accumulator after contraction block `kb` is the sum over the
  first `kb + 1` blocks of 512 terms; eight such blocks are the whole sum over the contracted axis; and the output
  blocks, one per row block, cover the result array.
-/
import proofs.«152103_j17360257810985_2_alg».proof.Proof.KernelIdealInner
import proofs.«152103_j17360257810985_2_alg».proof.Proof.LibWholeStores
import proofs.«152103_j17360257810985_2_alg».proof.Proof.LibPlainDot
import proofs.«152103_j17360257810985_2_alg».proof.Proof.LibRowBroadcasts
import proofs.«152103_j17360257810985_2_alg».proof.Proof.LibBlockedSum
import proofs.«152103_j17360257810985_2_alg».proof.Proof.LibChainLaw
import Idealize.ShloMosaic.Lib.ValueIdx
import Idealize.ShloMosaic.Lib.Pipeline.Value
import Idealize.ShloMosaic.Lib.Tactic
import Idealize.ShloMosaic.PureOps.Ideal.Laws

set_option maxRecDepth 16384

noncomputable section

namespace Cert.KernelIdeal.InnerValues

open Cert.KernelIdeal Cert.KernelIdeal.Gen Cert.KernelIdeal.Inner
open Idealize.ShloMosaic Idealize.ShloMosaic.TcCoe Idealize.ShloMosaic.Tactic Idealize.ShloMosaic.ValueIdx
open Idealize.SL Idealize.SL.Sem
open Idealize.ShloMosaic.Pipeline (Dat)
open scoped BigOperators

theorem hz : (![0, 0] : Fin 2 → Nat) = fun _ => 0 := funext fun a => by fin_cases a <;> rfl

section Pieces

variable {F : FTy → Type} [FloatOps F]

/-! ## What each case's stores leave, as the body's arithmetic of the blocks -/

/-- A row block's first point leaves the first partial product added to the zero block. -/
theorem accFirst_eq (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : isFirst i) (hc1 : ¬isLast i) (x0 : Vec F S512x512 .f32) (x1 : Vec F S1x512 .f32) (x2 : Vec F S512x2048 .f32) :
    accFirst c i arg2 harg2 arg3 harg3 arg4 harg4 arg5 harg5 arg6 harg6 hc0 hc1 x0 x1 x2 = k3_pay2 x0 x1 x2 k3_pay1 := by
  unfold accFirst
  rw [View.read_writes_eq_canon _ _ _ (coverFirst c i arg2 harg2 arg3 harg3 arg4 harg4 arg5 harg5 arg6 harg6 hc0 hc1 x0 x1 x2)]
  unfold runFirst
  dsimp only
  sl_unfold_words
  rw [View.canon_cons_unit_zero (S := S512x2048) hz, View.readCov_unit_zero (S := S512x2048) _ hz]
  simp only [View.readAt_eq_ld, harg2.read_unread, harg3.read_unread, harg4.read_unread, harg6.read_unread,
    View.ld_unit_zero (S := S512x512) hz, View.ld_unit_zero (S := S1x512) hz, View.ld_unit_zero (S := S512x2048) hz]

/-- A middle point leaves its partial product added to what the point before left. -/
theorem accMid_eq (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : ¬isLast i) (x0 : Vec F S512x512 .f32) (x1 : Vec F S1x512 .f32) (x2 : Vec F S512x2048 .f32) (xs : Vec F S512x2048 .f32) :
    accMid c i arg2 harg2 arg3 harg3 arg4 harg4 arg5 harg5 arg6 harg6 hc0 hc1 x0 x1 x2 xs = k3_pay2 x0 x1 x2 xs := by
  unfold accMid
  rw [View.read_writes_eq_canon _ _ _ (coverMid c i arg2 harg2 arg3 harg3 arg4 harg4 arg5 harg5 arg6 harg6 hc0 hc1 x0 x1 x2 xs)]
  unfold runMid
  dsimp only
  rw [View.canon_unit_zero hz]
  simp only [View.readAt_eq_ld, harg2.read_unread, harg3.read_unread, harg4.read_unread, harg6.read_unread,
    View.ld_unit_zero (S := S512x512) hz, View.ld_unit_zero (S := S1x512) hz, View.ld_unit_zero (S := S512x2048) hz]

/-- So does a row block's last point, in the accumulator … -/
theorem accLast_eq (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : isLast i) (x0 : Vec F S512x512 .f32) (x1 : Vec F S1x512 .f32) (x2 : Vec F S512x2048 .f32) (xs : Vec F S512x2048 .f32) :
    accLast c i arg2 harg2 arg3 harg3 arg4 harg4 arg5 harg5 arg6 harg6 hc0 hc1 x0 x1 x2 xs = k3_pay2 x0 x1 x2 xs := by
  unfold accLast
  rw [View.read_writes_eq_canon _ _ _ (coverLast c i arg2 harg2 arg3 harg3 arg4 harg4 arg5 harg5 arg6 harg6 hc0 hc1 x0 x1 x2 xs)]
  unfold runLast
  dsimp only
  sl_unfold_words
  rw [View.canon_unit_zero hz]
  simp only [View.readAt_eq_ld, harg2.read_unread, harg3.read_unread, harg4.read_unread, harg6.read_unread,
    View.ld_unit_zero (S := S512x512) hz, View.ld_unit_zero (S := S1x512) hz, View.ld_unit_zero (S := S512x2048) hz]

/-- … and in the output block, which receives the accumulator's copy. -/
theorem outLast_eq (c : Dev nD) (i : grid3.Coords) (arg2 : Memref sig .tc .vmem S512x512 .f32) (harg2 : arg2.IsWhole) (arg3 : Memref sig .tc .vmem S1x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (hc0 : ¬isFirst i) (hc1 : isLast i) (x0 : Vec F S512x512 .f32) (x1 : Vec F S1x512 .f32) (x2 : Vec F S512x2048 .f32) (xs : Vec F S512x2048 .f32) :
    outLast c i arg2 harg2 arg3 harg3 arg4 harg4 arg5 harg5 arg6 harg6 hc0 hc1 x0 x1 x2 xs = k3_pay2 x0 x1 x2 xs := by
  unfold outLast
  rw [View.read_writes_eq_canon _ _ _ (coverOutLast c i arg2 harg2 arg3 harg3 arg4 harg4 arg5 harg5 arg6 harg6 hc0 hc1 x0 x1 x2 xs)]
  unfold runLast
  dsimp only
  sl_unfold_words
  rw [View.canon_unit_zero hz, View.readCov_unit_zero (S := S512x2048) _ hz]
  simp only [View.readAt_eq_ld, harg2.read_unread, harg3.read_unread, harg4.read_unread, harg6.read_unread,
    View.ld_unit_zero (S := S512x512) hz, View.ld_unit_zero (S := S1x512) hz, View.ld_unit_zero (S := S512x2048) hz]

end Pieces

/-! ## The body's arithmetic at an index, at the exact values -/

/-- The zero block reads zero. -/
theorem pay1_apply (p : Fin 512) (q : Fin 2048) : k3_pay1 (F := Ideal) (ix2 p q) = 0 := by
  unfold k3_pay1
  refine (congrFun (shapeCast_self _ _) (ix2 p q)).trans ?_
  exact Ideal.ofBits_zero_f32

/-- The accumulated block at `(p, q)`: the accumulator there plus the product's sum over the block of the contracted axis,
    the first operand's entry scaled by the row's entry at the contracted coordinate. -/
theorem pay2_apply (v3 : Vec Ideal S512x512 .f32) (v4 : Vec Ideal S1x512 .f32) (v9 v11 : Vec Ideal S512x2048 .f32) (p : Fin 512) (q : Fin 2048) :
    k3_pay2 (F := Ideal) v3 v4 v9 v11 (ix2 p q)
      = v11 (ix2 p q) + ∑ k : Fin 512, (v3 (ix2 p k) * v4 (ix2 (0 : Fin 1) k)) * v9 (ix2 k q) := by
  unfold k3_pay2
  refine (congrFun (shapeCast_self _ _) (ix2 p q)).trans ?_
  refine congrArg (fun z => v11 (ix2 p q) + z) ?_
  refine (Cert.Lib.PlainDot.matmul_zero_apply dot_S512x512_S512x2048_S512x2048_1_0_0_1_n_n_wf none _ _ p q).trans ?_
  refine Finset.sum_congr rfl fun k _ => ?_
  show (v3 (ix2 p k) * broadcastTo S512x512 (shapeCast S1x512 v4 shapeCasts_S1x512_S1x512) broadcasts_S1x512_S512x512 (ix2 p k)) * v9 (ix2 k q) = _
  rw [Cert.Lib.Rows.bcastRow_apply, shapeCast_self]

/-! ## The blocks, the accumulation and the array -/

section Values

-- the contents of every array when the region is entered, and the core
variable (V : (c : Dev nD) → (b : Ref sig .tc) → Buf (Elt Ideal) ((c : Thread nD τ).loc b)) (c : Dev nD)

/-- The first weight matrix, the first gate row and the second weight matrix on entry, as families. -/
abbrev W1 : Fin 4096 → Fin 2048 → EReal := fun p q => (V c main_arg1 : S4096x2048.Idx → EReal) (ix2 p q)
abbrev gate1 : Fin 4096 → EReal := fun n => (V c main_v0_1 : S1x4096.Idx → EReal) (ix2 (0 : Fin 1) n)
abbrev W2 : Fin 4096 → Fin 4096 → EReal := fun p q => (V c main_arg2 : S4096x4096.Idx → EReal) (ix2 p q)

/-- Term `n` of entry `(r, q)` of the result, over the natural numbers (zero past the contracted axis's extent). -/
def term (r : Fin 4096) (q : Fin 2048) (n : ℕ) : EReal :=
  if h : n < 4096 then (W2 V c r ⟨n, h⟩ * gate1 V c ⟨n, h⟩) * W1 V c ⟨n, h⟩ q else 0

/-- The printed index maps, decided over the grid: point `t` is row block `t / 8`, contraction block `t % 8`. -/
theorem idx_in3 : ∀ t : Fin cfg3.N, win3_0.index t (0 : Fin 2) = t.val / 8 ∧ win3_0.index t (1 : Fin 2) = t.val % 8
    ∧ win3_1.index t (0 : Fin 2) = 0 ∧ win3_1.index t (1 : Fin 2) = t.val % 8
    ∧ win3_2.index t (0 : Fin 2) = t.val % 8 ∧ win3_2.index t (1 : Fin 2) = 0
    ∧ win3_3.index t (0 : Fin 2) = t.val / 8 ∧ win3_3.index t (1 : Fin 2) = 0 :=
  (by decide +kernel : ∀ t : Fin grid3.N, _)

/-- The second weight's block at point `t`: rows `512 (t / 8) + p`, columns `512 (t % 8) + k`. -/
theorem iblk_W2 (t : Fin cfg3.N) (p k : Fin 512) (r n : Fin 4096) (hr : r.val = 512 * (t.val / 8) + p.val)
    (hn : n.val = 512 * (t.val % 8) + k.val) :
    (iblk V c 0 t : Vec Ideal S512x512 .f32) (ix2 p k) = W2 V c r n := by
  obtain ⟨e0, e1, -⟩ := idx_in3 t
  unfold iblk
  rw [View.read_apply]
  show (V c main_arg2 : S4096x4096.Idx → EReal) _ = (V c main_arg2 : S4096x4096.Idx → EReal) _
  congr 1
  funext a
  apply Fin.ext
  match a with
  | ⟨0, _⟩ => show win3_0.index t (0 : Fin 2) * 512 + 1 * p.val = r.val; omega
  | ⟨1, _⟩ => show win3_0.index t (1 : Fin 2) * 512 + 1 * k.val = n.val; omega

/-- The gate row's block: columns `512 (t % 8) + k`. -/
theorem iblk_gate (t : Fin cfg3.N) (k : Fin 512) (n : Fin 4096) (hn : n.val = 512 * (t.val % 8) + k.val) :
    (iblk V c 1 t : Vec Ideal S1x512 .f32) (ix2 (0 : Fin 1) k) = gate1 V c n := by
  obtain ⟨-, -, e2, e3, -⟩ := idx_in3 t
  unfold iblk
  rw [View.read_apply]
  show (V c main_v0_1 : S1x4096.Idx → EReal) _ = (V c main_v0_1 : S1x4096.Idx → EReal) _
  congr 1
  funext a
  apply Fin.ext
  match a with
  | ⟨0, _⟩ => show win3_1.index t (0 : Fin 2) * 1 + 1 * 0 = 0; omega
  | ⟨1, _⟩ => show win3_1.index t (1 : Fin 2) * 512 + 1 * k.val = n.val; omega

/-- The first weight's block: rows `512 (t % 8) + k`, all columns. -/
theorem iblk_W1 (t : Fin cfg3.N) (k : Fin 512) (q : Fin 2048) (n : Fin 4096) (hn : n.val = 512 * (t.val % 8) + k.val) :
    (iblk V c 2 t : Vec Ideal S512x2048 .f32) (ix2 k q) = W1 V c n q := by
  obtain ⟨-, -, -, -, e4, e5, -⟩ := idx_in3 t
  unfold iblk
  rw [View.read_apply]
  show (V c main_arg1 : S4096x2048.Idx → EReal) _ = (V c main_arg1 : S4096x2048.Idx → EReal) _
  congr 1
  funext a
  apply Fin.ext
  match a with
  | ⟨0, _⟩ => show win3_2.index t (0 : Fin 2) * 512 + 1 * k.val = n.val; omega
  | ⟨1, _⟩ => show win3_2.index t (1 : Fin 2) * 2048 + 1 * q.val = q.val; omega

/-- One point's step at `(p, q)`, from blocks that are the three arrays' blocks of contraction block `s`: the
    accumulator there plus the 512 terms of that block. -/
theorem step_of_blocks (x0 : Vec Ideal S512x512 .f32) (x1 : Vec Ideal S1x512 .f32) (x2 xs : Vec Ideal S512x2048 .f32)
    (p : Fin 512) (q : Fin 2048) (r : Fin 4096) (s : ℕ) (hs : s < 8)
    (h0 : ∀ (k : Fin 512) (n : Fin 4096), n.val = 512 * s + k.val → x0 (ix2 p k) = W2 V c r n)
    (h1 : ∀ (k : Fin 512) (n : Fin 4096), n.val = 512 * s + k.val → x1 (ix2 (0 : Fin 1) k) = gate1 V c n)
    (h2 : ∀ (k : Fin 512) (n : Fin 4096), n.val = 512 * s + k.val → x2 (ix2 k q) = W1 V c n q) :
    k3_pay2 (F := Ideal) x0 x1 x2 xs (ix2 p q) = xs (ix2 p q) + ∑ k : Fin 512, term V c r q (512 * s + k.val) := by
  rw [pay2_apply]
  refine congrArg (fun z => xs (ix2 p q) + z) (Finset.sum_congr rfl fun k _ => ?_)
  have hk : 512 * s + k.val < 4096 := by have := k.isLt; omega
  unfold term
  rw [dif_pos hk, h0 k ⟨512 * s + k.val, hk⟩ rfl, h1 k ⟨512 * s + k.val, hk⟩ rfl, h2 k ⟨512 * s + k.val, hk⟩ rfl]

/-- THE ACCUMULATION: after point `n` (row block `n / 8`, contraction block `n % 8`) the accumulator at `(p, q)` is
    the sum of the terms of the first `n % 8 + 1` contraction blocks of entry `(512 (n / 8) + p, q)`. -/
theorem acc_inv : ∀ (n : ℕ) (hn : n < cfg3.N) (p : Fin 512) (q : Fin 2048) (r : Fin 4096), r.val = 512 * (n / 8) + p.val →
    (accAt V c n hn : Vec Ideal S512x2048 .f32) (ix2 p q)
      = ∑ s ∈ Finset.range (n % 8 + 1), ∑ k : Fin 512, term V c r q (512 * s + k.val) := by
  intro n
  induction n using Nat.strong_induction_on with
  | _ n ih =>
    intro hn p q r hr
    have hN : n < 64 := lt_of_lt_of_eq hn (show cfg3.N = 64 from N_3)
    have hs : n % 8 < 8 := Nat.mod_lt _ (by norm_num)
    have hb0 := fun (k : Fin 512) (m : Fin 4096) (hm : m.val = 512 * (n % 8) + k.val) => iblk_W2 V c ⟨n, hn⟩ p k r m hr hm
    have hb1 := fun (k : Fin 512) (m : Fin 4096) (hm : m.val = 512 * (n % 8) + k.val) => iblk_gate V c ⟨n, hn⟩ k m hm
    have hb2 := fun (k : Fin 512) (m : Fin 4096) (hm : m.val = 512 * (n % 8) + k.val) => iblk_W1 V c ⟨n, hn⟩ k q m hm
    by_cases h0 : n % 8 = 0
    · have h1 : ¬n % 8 = 7 := by omega
      rw [accAt_first V c ⟨n, hn⟩ h0 h1,
        accFirst_eq c (grid3.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) accM (Memref.isWhole_whole _) _ _ (iblk V c 0 ⟨n, hn⟩) (iblk V c 1 ⟨n, hn⟩) (iblk V c 2 ⟨n, hn⟩)]
      refine (step_of_blocks V c (iblk V c 0 ⟨n, hn⟩) (iblk V c 1 ⟨n, hn⟩) (iblk V c 2 ⟨n, hn⟩) (k3_pay1 (F := Ideal)) p q r (n % 8) hs hb0 hb1 hb2).trans ?_
      rw [pay1_apply, zero_add, h0, Finset.sum_range_one]
    · have hpos : 0 < n := Nat.pos_of_ne_zero fun hz' => h0 (by rw [hz'])
      have hprev : (n - 1) % 8 + 1 = n % 8 := by omega
      have hrow : r.val = 512 * ((n - 1) / 8) + p.val := by omega
      have hIH := ih (n - 1) (by omega) (Nat.lt_of_le_of_lt (Nat.sub_le _ _) hn) p q r hrow
      by_cases h1 : n % 8 = 7
      · rw [accAt_last V c ⟨n, hn⟩ h0 h1,
          accLast_eq c (grid3.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) accM (Memref.isWhole_whole _) _ _ (iblk V c 0 ⟨n, hn⟩) (iblk V c 1 ⟨n, hn⟩) (iblk V c 2 ⟨n, hn⟩) _]
        refine (step_of_blocks V c (iblk V c 0 ⟨n, hn⟩) (iblk V c 1 ⟨n, hn⟩) (iblk V c 2 ⟨n, hn⟩) _ p q r (n % 8) hs hb0 hb1 hb2).trans ?_
        rw [Finset.sum_range_succ, ← hprev]
        exact congrArg (fun z => z + _) hIH
      · rw [accAt_mid V c ⟨n, hn⟩ h0 h1,
          accMid_eq c (grid3.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) accM (Memref.isWhole_whole _) _ _ (iblk V c 0 ⟨n, hn⟩) (iblk V c 1 ⟨n, hn⟩) (iblk V c 2 ⟨n, hn⟩) _]
        refine (step_of_blocks V c (iblk V c 0 ⟨n, hn⟩) (iblk V c 1 ⟨n, hn⟩) (iblk V c 2 ⟨n, hn⟩) _ p q r (n % 8) hs hb0 hb1 hb2).trans ?_
        rw [Finset.sum_range_succ, ← hprev]
        exact congrArg (fun z => z + _) hIH

/-- The result array: entry `(h2, i)` is the whole sum over the contracted axis. -/
def G : S4096x2048.Idx → EReal := fun j =>
  Cert.Lib.ChainLaw.innerStage (W1 V c) (gate1 V c) (W2 V c) ⟨(j 0).val, idx2_lt0 j⟩ ⟨(j 1).val, idx2_lt1 j⟩

/-- At a row block's last point the output block holds the accumulator, and the eight blocks of 512 terms are the whole
    sum over the contracted axis. -/
theorem out_last (t : Fin cfg3.N) (h7 : t.val % 8 = 7) (p : Fin 512) (q : Fin 2048) (r : Fin 4096)
    (hr : r.val = 512 * (t.val / 8) + p.val) :
    (outAt V c t.val t.isLt : Vec Ideal S512x2048 .f32) (ix2 p q)
      = Cert.Lib.ChainLaw.innerStage (W1 V c) (gate1 V c) (W2 V c) r q := by
  have h0 : ¬t.val % 8 = 0 := by omega
  have e : outAt V c t.val t.isLt = accAt V c t.val t.isLt := by
    rw [outAt_last V c t h0 h7, accAt_last V c t h0 h7, outLast_eq c (grid3.coords t) (ms0 t) (hs0 t) (ms1 t) (hs1 t) (ms2 t) (hs2 t) (ms3 t) (hs3 t) accM (Memref.isWhole_whole _) _ _ (iblk V c 0 t) (iblk V c 1 t) (iblk V c 2 t) _, accLast_eq c (grid3.coords t) (ms0 t) (hs0 t) (ms1 t) (hs1 t) (ms2 t) (hs2 t) (ms3 t) (hs3 t) accM (Memref.isWhole_whole _) _ _ (iblk V c 0 t) (iblk V c 1 t) (iblk V c 2 t) _]
  rw [e, acc_inv V c t.val t.isLt p q r hr, h7, Cert.Lib.BlockedSum.sum_fin_blocks (term V c r q) 8 512]
  unfold Cert.Lib.ChainLaw.innerStage
  show ∑ k : Fin 4096, term V c r q k.val = _
  exact Finset.sum_congr rfl fun k _ => by unfold term; rw [dif_pos k.isLt]

/-- What a row block's last point writes back is its block of the result array. -/
theorem flushed_eq (t : Fin cfg3.N) (hf : (cfg3.win 3).flush t = true) :
    (dat V c).flushed 3 t = ((cfg3.win 3).blk t).view.read (Elt Ideal) (G V c) := by
  have h7 : t.val % 8 = 7 := (flush3_3 t).mp hf
  have hN : t.val < 64 := lt_of_lt_of_eq t.isLt (show cfg3.N = 64 from N_3)
  obtain ⟨-, -, -, -, -, -, e6, e7⟩ := idx_in3 t
  show (cfg3.win 3).cut (grid3.coords t) ((dat V c).after 3 t) = _
  rw [after3]
  funext j
  obtain ⟨p, q, rfl⟩ : ∃ (p : Fin 512) (q : Fin 2048), j = ix2 p q := ⟨j 0, j 1, eq_ix2 j⟩
  have hp : p.val < 512 := p.isLt
  have hq : q.val < 2048 := q.isLt
  show (outAt V c t.val t.isLt : Vec Ideal S512x2048 .f32) (ix2 p q) = G V c (((cfg3.win 3).blk t).view.emb (ix2 p q))
  refine (out_last V c t h7 p q ⟨512 * (t.val / 8) + p.val, by omega⟩ rfl).trans ?_
  unfold G
  congr 1
  · exact Fin.ext (show 512 * (t.val / 8) + p.val = win3_3.index t (0 : Fin 2) * 512 + 1 * p.val by omega)
  · exact Fin.ext (show q.val = win3_3.index t (1 : Fin 2) * 2048 + 1 * q.val by omega)

/-- An index of the array is in point `t`'s block iff each coordinate is in the block's range on its axis. -/
theorem mem_blk (t : Fin cfg3.N) (i : S4096x2048.Idx) :
    i ∈ ((cfg3.win 3).blk t).view.set ↔ ∀ a : Fin 2, win3_3.index t a * S512x2048.size a ≤ (i a).val ∧ (i a).val < win3_3.index t a * S512x2048.size a + S512x2048.size a := by
  show i ∈ ((View.whole main_v4).slice (win3_3.rect t)).set ↔ _
  rw [View.set_slice_whole, Rect.mem_set_unit]
  exact Iff.rfl

/-- Every index of the array is in the block some row block's last point writes back: row `n` in that of row block
    `n / 512`. -/
theorem covered (i : S4096x2048.Idx) : ∃ t : Fin cfg3.N, (cfg3.win 3).flush t = true ∧ i ∈ ((cfg3.win 3).blk t).view.set := by
  have hi0 : (i 0).val < 4096 := (i 0).isLt
  have hi1 : (i 1).val < 2048 := (i 1).isLt
  have hN : cfg3.N = 64 := N_3
  have ht : 8 * ((i 0).val / 512) + 7 < cfg3.N := by rw [hN]; omega
  obtain ⟨-, -, -, -, -, -, e6, e7⟩ := idx_in3 ⟨8 * ((i 0).val / 512) + 7, ht⟩
  refine ⟨⟨8 * ((i 0).val / 512) + 7, ht⟩, (flush3_3 _).mpr (by show (8 * ((i 0).val / 512) + 7) % 8 = 7; omega), ?_⟩
  rw [mem_blk]
  have e6' : win3_3.index ⟨8 * ((i 0).val / 512) + 7, ht⟩ (0 : Fin 2) = (i 0).val / 512 := by
    rw [e6]; show (8 * ((i 0).val / 512) + 7) / 8 = (i 0).val / 512; omega
  intro a
  match a with
  | ⟨0, _⟩ => show win3_3.index _ (0 : Fin 2) * 512 ≤ (i 0).val ∧ (i 0).val < win3_3.index _ (0 : Fin 2) * 512 + 512
              rw [e6']; omega
  | ⟨1, _⟩ => show win3_3.index _ (1 : Fin 2) * 2048 ≤ (i 1).val ∧ (i 1).val < win3_3.index _ (1 : Fin 2) * 2048 + 2048
              rw [e7]; omega

/-- The result array after the region's grid, whole … -/
theorem arr_ct : (dat V c).arrAt 3 cfg3.N = G V c :=
  (dat V c).arrAt_eq_of_cover 3 (G V c) (flushed_eq V c) (fun i => covered i)

/-- … and entry by entry: the inner stage of the folded chain. -/
theorem final_ct (h2 : Fin 4096) (i : Fin 2048) :
    ((Inner.dat V c).arrAt 3 cfg3.N : S4096x2048.Idx → EReal) (ix2 h2 i)
      = Cert.Lib.ChainLaw.innerStage (fun (p : Fin 4096) (q : Fin 2048) => (V c main_arg1 : S4096x2048.Idx → EReal) (ix2 p q))
          (fun n : Fin 4096 => (V c main_v0_1 : S1x4096.Idx → EReal) (ix2 (0 : Fin 1) n))
          (fun (p q : Fin 4096) => (V c main_arg2 : S4096x4096.Idx → EReal) (ix2 p q)) h2 i := by
  rw [arr_ct]
  rfl

end Values

end Cert.KernelIdeal.InnerValues

end
-- ==== Proof.OuterBlocks.lean ====
/-
  The second chained product is computed on a grid of 4 output column blocks by 8 contraction blocks, point t being
  column block t / 8 and contraction block t % 8. This file reads each input window's block at a point as entries of
  its array — a block's entry (a, b) is the array's entry (index₀ · size₀ + a, index₁ · size₁ + b), with the printed
  index maps decided once over the 32 points — and assembles the output array from the blocks written back: the
  output block of column block m is written back once, at the point 8 m + 7, and the four column blocks tile the
  2048 × 2048 array, so if what each of those points leaves in its block is the corresponding columns of one function
  G of the whole array, the array ends holding G.
-/
import Idealize.ShloMosaic.Lib.ValueIdx
import Idealize.ShloMosaic.Lib.Pipeline.Value
import proofs.«152103_j17360257810985_2_alg».proof.Proof.KernelIdealOuter

set_option maxRecDepth 16384

noncomputable section

namespace Cert.KernelIdeal.OuterBlocks

open Idealize.ShloMosaic Idealize.ShloMosaic.TcCoe Idealize.ShloMosaic.ValueIdx Idealize.SL.Sem
open Idealize.ShloMosaic.Pipeline (Dat)
open Cert.KernelIdeal Cert.KernelIdeal.Gen

-- the contents of every array when the grid is entered, and the core
variable (V : (c : Dev nD) → (b : Ref sig .tc) → Buf (Elt Ideal) ((c : Thread nD τ).loc b)) (c : Dev nD)

/-! ## Bounds of the array coordinates a point's blocks reach -/

/-- A coordinate inside block `t / 8` of an axis of 4 blocks of 512. -/
theorem mb_lt (t : Fin cfg4.N) (p : Fin 512) : 512 * (t.val / 8) + p.val < 2048 := by
  have h := t.isLt; have hN : cfg4.N = 32 := N_4; have hp := p.isLt; omega
/-- A coordinate inside block `t % 8` of an axis of 8 blocks of 512. -/
theorem kb_lt (t : Fin cfg4.N) (k : Fin 512) : 512 * (t.val % 8) + k.val < 4096 := by
  have hk := k.isLt; omega

/-! ## The printed index maps, decided over the grid -/

theorem idx_facts : ∀ t : Fin cfg4.N,
    win4_0.index t (0 : Fin 2) = t.val / 8 ∧ win4_0.index t (1 : Fin 2) = t.val % 8
    ∧ win4_1.index t (0 : Fin 2) = t.val % 8 ∧ win4_1.index t (1 : Fin 2) = 0
    ∧ win4_2.index t (0 : Fin 2) = t.val % 8 ∧ win4_2.index t (1 : Fin 2) = 0
    ∧ win4_3.index t (0 : Fin 2) = 0 ∧ win4_3.index t (1 : Fin 2) = t.val / 8 :=
  (by decide +kernel : ∀ t : Fin grid4.N, _)

/-! ## The input blocks as entries of their arrays -/

/-- The third weight's block at point `t`: rows of output block `t / 8`, columns of contraction block `t % 8`. -/
theorem iblk0_apply (t : Fin cfg4.N) (q k : Fin 512) :
    (Outer.iblk V c 0 t : S512x512.Idx → EReal) (ix2 q k) = (V c main_arg3 : S2048x4096.Idx → EReal) (ix2 ⟨512 * (t.val / 8) + q.val, mb_lt t q⟩ ⟨512 * (t.val % 8) + k.val, kb_lt t k⟩) := by
  obtain ⟨e00, e01, e10, e11, e20, e21, e30, e31⟩ := idx_facts t
  unfold Outer.iblk
  rw [View.read_apply]
  show (V c main_arg3 : S2048x4096.Idx → EReal) _ = (V c main_arg3 : S2048x4096.Idx → EReal) _
  congr 1
  funext a
  apply Fin.ext
  match a with
  | ⟨0, _⟩ => show win4_0.index t (0 : Fin 2) * 512 + 1 * q.val = 512 * (t.val / 8) + q.val; omega
  | ⟨1, _⟩ => show win4_0.index t (1 : Fin 2) * 512 + 1 * k.val = 512 * (t.val % 8) + k.val; omega

/-- The first chained product's block at point `t`: the whole rows of contraction block `t % 8`. -/
theorem iblk1_apply (t : Fin cfg4.N) (k : Fin 512) (p : Fin 2048) :
    (Outer.iblk V c 1 t : S512x2048.Idx → EReal) (ix2 k p) = (V c main_v4 : S4096x2048.Idx → EReal) (ix2 ⟨512 * (t.val % 8) + k.val, kb_lt t k⟩ p) := by
  obtain ⟨e00, e01, e10, e11, e20, e21, e30, e31⟩ := idx_facts t
  unfold Outer.iblk
  rw [View.read_apply]
  show (V c main_v4 : S4096x2048.Idx → EReal) _ = (V c main_v4 : S4096x2048.Idx → EReal) _
  congr 1
  funext a
  apply Fin.ext
  match a with
  | ⟨0, _⟩ => show win4_1.index t (0 : Fin 2) * 512 + 1 * k.val = 512 * (t.val % 8) + k.val; omega
  | ⟨1, _⟩ => show win4_1.index t (1 : Fin 2) * 2048 + 1 * p.val = p.val; omega

/-- The second gates' block (a column) at point `t`: the entries of contraction block `t % 8`. -/
theorem iblk2_apply (t : Fin cfg4.N) (k : Fin 512) :
    (Outer.iblk V c 2 t : S512x1.Idx → EReal) (ix2 k (0 : Fin 1)) = (V c main_v3 : S4096x1.Idx → EReal) (ix2 ⟨512 * (t.val % 8) + k.val, kb_lt t k⟩ (0 : Fin 1)) := by
  obtain ⟨e00, e01, e10, e11, e20, e21, e30, e31⟩ := idx_facts t
  unfold Outer.iblk
  rw [View.read_apply]
  show (V c main_v3 : S4096x1.Idx → EReal) _ = (V c main_v3 : S4096x1.Idx → EReal) _
  congr 1
  funext a
  apply Fin.ext
  match a with
  | ⟨0, _⟩ => show win4_2.index t (0 : Fin 2) * 512 + 1 * k.val = 512 * (t.val % 8) + k.val; omega
  | ⟨1, _⟩ => show win4_2.index t (1 : Fin 2) * 1 + 1 * 0 = 0; omega

/-! ## From the blocks written back to the output array -/

/-- An index of the output array is in point `t`'s block iff each coordinate is in the block's range on its axis. -/
theorem mem_blk (t : Fin cfg4.N) (i : S2048x2048.Idx) :
    i ∈ ((cfg4.win 3).blk t).view.set ↔ ∀ a : Fin 2, win4_3.index t a * S2048x512.size a ≤ (i a).val ∧ (i a).val < win4_3.index t a * S2048x512.size a + S2048x512.size a := by
  show i ∈ ((View.whole main_v5).slice (win4_3.rect t)).set ↔ _
  rw [View.set_slice_whole, Rect.mem_set_unit]
  exact Iff.rfl

/-- Every index of the output array is in the block of a point that writes back: column `r` in that of the point
    `8 (r / 512) + 7`. -/
theorem covered (i : S2048x2048.Idx) : ∃ t : Fin cfg4.N, (cfg4.win 3).flush t = true ∧ i ∈ ((cfg4.win 3).blk t).view.set := by
  have hi0 : (i 0).val < 2048 := (i 0).isLt
  have hi1 : (i 1).val < 2048 := (i 1).isLt
  have hN : cfg4.N = 32 := N_4
  have ht : 8 * ((i 1).val / 512) + 7 < cfg4.N := by omega
  obtain ⟨-, -, -, -, -, -, e30, e31⟩ := idx_facts ⟨8 * ((i 1).val / 512) + 7, ht⟩
  refine ⟨⟨8 * ((i 1).val / 512) + 7, ht⟩, (flush4_3 _).mpr (by show (8 * ((i 1).val / 512) + 7) % 8 = 7; omega), ?_⟩
  rw [mem_blk]
  have d0 : (8 * ((i 1).val / 512) + 7) / 8 = (i 1).val / 512 := by omega
  intro a
  match a with
  | ⟨0, _⟩ =>
    show win4_3.index ⟨8 * ((i 1).val / 512) + 7, ht⟩ (0 : Fin 2) * 2048 ≤ (i 0).val ∧ (i 0).val < win4_3.index ⟨8 * ((i 1).val / 512) + 7, ht⟩ (0 : Fin 2) * 2048 + 2048
    rw [e30]; omega
  | ⟨1, _⟩ =>
    show win4_3.index ⟨8 * ((i 1).val / 512) + 7, ht⟩ (1 : Fin 2) * 512 ≤ (i 1).val ∧ (i 1).val < win4_3.index ⟨8 * ((i 1).val / 512) + 7, ht⟩ (1 : Fin 2) * 512 + 512
    rw [e31]; show (8 * ((i 1).val / 512) + 7) / 8 * 512 ≤ (i 1).val ∧ (i 1).val < (8 * ((i 1).val / 512) + 7) / 8 * 512 + 512; rw [d0]; omega

/-- THE OUTPUT ARRAY after the grid: if at every point that writes back (`t % 8 = 7`) the output block holds the
    columns `512 (t / 8) … 512 (t / 8) + 511` of `G`, the array ends holding `G`. -/
theorem final_of_out (G : S2048x2048.Idx → EReal)
    (hout : ∀ t : Fin cfg4.N, t.val % 8 = 7 → ∀ (p : Fin 2048) (q : Fin 512),
      (Outer.outAt V c t.val t.isLt : S2048x512.Idx → EReal) (ix2 p q) = G (ix2 p ⟨512 * (t.val / 8) + q.val, mb_lt t q⟩)) :
    (Outer.dat V c).arrAt 3 cfg4.N = G := by
  refine (Outer.dat V c).arrAt_eq_of_cover 3 G (fun t hf => ?_) covered
  have h7 : t.val % 8 = 7 := (flush4_3 t).mp hf
  obtain ⟨-, -, -, -, -, -, e30, e31⟩ := idx_facts t
  show (cfg4.win 3).cut (grid4.coords t) ((Outer.dat V c).after 3 t) = _
  rw [Outer.after3]
  funext j
  obtain ⟨p, q, rfl⟩ : ∃ (p : Fin 2048) (q : Fin 512), j = ix2 p q := ⟨j 0, j 1, eq_ix2 j⟩
  show (Outer.outAt V c t.val t.isLt : S2048x512.Idx → EReal) (ix2 p q) = G (((cfg4.win 3).blk t).view.emb (ix2 p q))
  refine (hout t h7 p q).trans ?_
  congr 1
  funext a
  apply Fin.ext
  match a with
  | ⟨0, _⟩ => show p.val = win4_3.index t (0 : Fin 2) * 2048 + 1 * p.val; omega
  | ⟨1, _⟩ => show 512 * (t.val / 8) + q.val = win4_3.index t (1 : Fin 2) * 512 + 1 * q.val; omega

end Cert.KernelIdeal.OuterBlocks

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.LibCrossDot.lean ====
/-
  A product that contracts the left operand's rows with the right operand's columns, read at an index.

  The dimension numbers of a [c, a] × [b, c] → [a, b] product contract the left operand's axis 0 with the right
  operand's axis 1 and have no batch axis: the result is (the transpose of the left operand) times (the transpose of
  the right operand). At result index (p, q) and contraction position k the left operand is read at (k, p) and the
  right operand at (q, k), so the sum over the contraction shape's one-axis index set is the sum over k : Fin c of
  lhs (k, p) * rhs (q, k) — in any commutative additive monoid with a product, the extended reals included. The
  statement is over variable extents; a printed record with these six lists is this one by reflexivity.
-/
import Idealize.ShloMosaic.Lib.ValueIdx
import Idealize.ShloMosaic.PureOps.Ideal.Laws

noncomputable section

namespace Cert.Lib.CrossDot

open Idealize.ShloMosaic Idealize.ShloMosaic.ValueIdx
open scoped BigOperators

variable {a c b : Nat}

/-- The dimension numbers of the product [c, a] × [b, c] → [a, b] that contracts axis 0 of the left operand with
    axis 1 of the right operand. -/
abbrev dims (wf : DotDims.WF ⟨2, ![c, a]⟩ ⟨2, ![b, c]⟩ ⟨2, ![a, b]⟩ [0] [1] [1] [0] [] []) :
    DotDims ⟨2, ![c, a]⟩ ⟨2, ![b, c]⟩ ⟨2, ![a, b]⟩ where
  lhsContracting := [0]
  rhsContracting := [1]
  lhsNonContracting := [1]
  rhsNonContracting := [0]
  lhsBatch := []
  rhsBatch := []
  wf := wf

variable (wf : DotDims.WF ⟨2, ![c, a]⟩ ⟨2, ![b, c]⟩ ⟨2, ![a, b]⟩ [0] [1] [1] [0] [] [])

/-- The left operand's row is the contraction position. -/
theorem lhs_row (i : (⟨2, ![a, b]⟩ : Shape).Idx) (k : (dims wf).contr.Idx) :
    ((dims wf).lhsIdx i k 0).val = (k ⟨0, Nat.one_pos⟩).val :=
  (dims wf).lhsIdx_val_of_single rfl i k

/-- The left operand's column is the result's row. -/
theorem lhs_col (i : (⟨2, ![a, b]⟩ : Shape).Idx) (k : (dims wf).contr.Idx) :
    ((dims wf).lhsIdx i k 1).val = (i 0).val := by
  unfold DotDims.lhsIdx
  rw [dif_neg (show ¬(1 : Fin 2) ∈ (dims wf).lhsBatch from List.not_mem_nil),
    dif_pos (show (1 : Fin 2) ∈ (dims wf).lhsNonContracting from List.mem_singleton.mpr rfl)]
  rfl

/-- The right operand's row is the result's column. -/
theorem rhs_row (i : (⟨2, ![a, b]⟩ : Shape).Idx) (k : (dims wf).contr.Idx) :
    ((dims wf).rhsIdx i k 0).val = (i 1).val := by
  unfold DotDims.rhsIdx
  rw [dif_neg (show ¬(0 : Fin 2) ∈ (dims wf).rhsBatch from List.not_mem_nil),
    dif_pos (show (0 : Fin 2) ∈ (dims wf).rhsNonContracting from List.mem_singleton.mpr rfl)]
  rfl

/-- The right operand's column is the contraction position. -/
theorem rhs_col (i : (⟨2, ![a, b]⟩ : Shape).Idx) (k : (dims wf).contr.Idx) :
    ((dims wf).rhsIdx i k 1).val = (k ⟨0, Nat.one_pos⟩).val :=
  (dims wf).rhsIdx_val_of_single rfl i k

/-- The product's sum at (p, q): over k, the left operand at (k, p) times the right operand at (q, k). -/
theorem sum_apply {M : Type*} [AddCommMonoid M] [Mul M] (lhs : (⟨2, ![c, a]⟩ : Shape).Idx → M)
    (rhs : (⟨2, ![b, c]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 k p) * rhs (ix2 q k) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 k p :=
    funext fun ax => Fin.ext (by
      match ax with
      | ⟨0, _⟩ => exact (lhs_row wf _ _).trans hk
      | ⟨1, _⟩ => exact lhs_col wf _ _)
  have er : (dims wf).rhsIdx (ix2 p q) ((contrEquiv1 (dims wf) c rfl rfl).symm k) = ix2 q k :=
    funext fun ax => Fin.ext (by
      match ax with
      | ⟨0, _⟩ => exact rhs_row wf _ _
      | ⟨1, _⟩ => exact (rhs_col wf _ _).trans hk)
  rw [el, er]

/-- A kernel's product into a zero accumulator, at the exact values, read at (p, q). -/
theorem matmul_zero_apply {φ₁ φ₂ : FTy} (prec : Option ContractPrecision) (lhs : FVec Ideal ⟨2, ![c, a]⟩ φ₁)
    (rhs : FVec Ideal ⟨2, ![b, c]⟩ φ₂) (p : Fin a) (q : Fin b) :
    matmul (dims wf) prec lhs rhs (constant ⟨2, ![a, b]⟩ .f32 0x00000000#32) (ix2 p q)
      = ∑ k : Fin c, lhs (ix2 k p) * rhs (ix2 q k) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![c, a]⟩ φ₁)
    (rhs : FVec Ideal ⟨2, ![b, c]⟩ φ₂) (p : Fin a) (q : Fin b) :
    Host.dotGeneral (dims wf) prec lhs rhs (ix2 p q) = ∑ k : Fin c, lhs (ix2 k p) * rhs (ix2 q k) :=
  (Ideal.dotGeneral_apply (dims wf) prec _ lhs rhs (ix2 p q)).trans (sum_apply wf lhs rhs p q)

end Cert.Lib.CrossDot

end
-- ==== Proof.OuterValues.lean ====
/-
  The second chained product's result array.

  The region computes `DJM (i, o) = ∑ h2, (Ct (h2, i) · gate (h2)) · W3 (o, h2)` block by block: column block `mb` of the
  result is accumulated over the eight blocks of the contracted axis, each point adding one partial product to the
  accumulator, which starts at zero at the column block's first point and is copied into the output block at its last.
  Here the cases' stored pieces are read back as the body's arithmetic of the blocks; that arithmetic is read at an
  index (the first operand scaled row by row with the gate column, transposed, times the transpose of the second,
  added to the accumulator); the accumulator after contraction block `kb` is the sum of the first `kb + 1` partial
  products; the three input blocks are read where the windows' rectangles put them in their arrays, which makes each
  partial product 512 consecutive terms of the contracted sum; eight such blocks are the whole sum; and the output
  blocks, one per column block, cover the result array.
-/
import proofs.«152103_j17360257810985_2_alg».proof.Proof.KernelIdealOuter
import proofs.«152103_j17360257810985_2_alg».proof.Proof.OuterBlocks
import proofs.«152103_j17360257810985_2_alg».proof.Proof.LibWholeStores
import proofs.«152103_j17360257810985_2_alg».proof.Proof.LibKeepdims
import proofs.«152103_j17360257810985_2_alg».proof.Proof.LibBlockedSum
import proofs.«152103_j17360257810985_2_alg».proof.Proof.LibCrossDot
import Idealize.ShloMosaic.Lib.ValueIdx
import Idealize.ShloMosaic.Lib.Pipeline.Value

set_option maxRecDepth 16384

noncomputable section

namespace Cert.KernelIdeal.OuterValues

open Idealize.ShloMosaic Idealize.ShloMosaic.TcCoe Idealize.ShloMosaic.ValueIdx Idealize.ShloMosaic.Tactic
open Cert.KernelIdeal Cert.KernelIdeal.Gen Cert.KernelIdeal.Outer
open scoped BigOperators

variable {F : FTy → Type} [FloatOps F]

/-- The offset of an access to a whole buffer. -/
theorem off_zero : (![0, 0] : Fin 2 → Nat) = fun _ => 0 := funext fun a => by fin_cases a <;> rfl

/-! ## What each case's stores leave, as the body's arithmetic -/

/-- At a column block's first point the accumulator is left at the partial product over the zero fill. -/
theorem accFirst_eq (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : isFirst i) (hc1 : ¬isLast i) (x0 : Vec F S512x512 .f32) (x1 : Vec F S512x2048 .f32) (x2 : Vec F S512x1 .f32) :
    accFirst c i arg2 harg2 arg3 harg3 arg4 harg4 arg5 harg5 arg6 harg6 hc0 hc1 x0 x1 x2 = k4_pay2 x1 x2 x0 (k4_pay1 (F := F)) := by
  unfold accFirst
  rw [View.read_writes_eq_canon _ _ _ (coverFirst c i arg2 harg2 arg3 harg3 arg4 harg4 arg5 harg5 arg6 harg6 hc0 hc1 x0 x1 x2)]
  unfold runFirst
  dsimp only
  sl_unfold_words
  rw [View.canon_cons_unit_zero off_zero]
  rw [Idealize.ShloMosaic.WholeStores.readAt_whole_unread harg3 off_zero, Idealize.ShloMosaic.WholeStores.readAt_whole_unread harg4 off_zero,
    Idealize.ShloMosaic.WholeStores.readAt_whole_unread harg2 off_zero, Idealize.ShloMosaic.WholeStores.readCov_whole_last _ off_zero]

/-- At a middle point the accumulator is left at the partial product over what the point before left. -/
theorem accMid_eq (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : ¬isFirst i) (hc1 : ¬isLast i) (x0 : Vec F S512x512 .f32) (x1 : Vec F S512x2048 .f32) (x2 : Vec F S512x1 .f32) (xs : Vec F S2048x512 .f32) :
    accMid c i arg2 harg2 arg3 harg3 arg4 harg4 arg5 harg5 arg6 harg6 hc0 hc1 x0 x1 x2 xs = k4_pay2 x1 x2 x0 xs := by
  unfold accMid
  rw [View.read_writes_eq_canon _ _ _ (coverMid c i arg2 harg2 arg3 harg3 arg4 harg4 arg5 harg5 arg6 harg6 hc0 hc1 x0 x1 x2 xs)]
  unfold runMid
  dsimp only
  sl_unfold_words
  rw [View.canon_unit_zero off_zero]
  rw [Idealize.ShloMosaic.WholeStores.readAt_whole_unread harg3 off_zero, Idealize.ShloMosaic.WholeStores.readAt_whole_unread harg4 off_zero,
    Idealize.ShloMosaic.WholeStores.readAt_whole_unread harg2 off_zero, Idealize.ShloMosaic.WholeStores.readAt_whole_unread harg6 off_zero]

/-- At a column block's last point the accumulator is left the same way, -/
theorem accLast_eq (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : ¬isFirst i) (hc1 : isLast i) (x0 : Vec F S512x512 .f32) (x1 : Vec F S512x2048 .f32) (x2 : Vec F S512x1 .f32) (xs : Vec F S2048x512 .f32) :
    accLast c i arg2 harg2 arg3 harg3 arg4 harg4 arg5 harg5 arg6 harg6 hc0 hc1 x0 x1 x2 xs = k4_pay2 x1 x2 x0 xs := by
  unfold accLast
  rw [View.read_writes_eq_canon _ _ _ (coverLast c i arg2 harg2 arg3 harg3 arg4 harg4 arg5 harg5 arg6 harg6 hc0 hc1 x0 x1 x2 xs)]
  unfold runLast
  dsimp only
  sl_unfold_words
  rw [View.canon_unit_zero off_zero]
  rw [Idealize.ShloMosaic.WholeStores.readAt_whole_unread harg3 off_zero, Idealize.ShloMosaic.WholeStores.readAt_whole_unread harg4 off_zero,
    Idealize.ShloMosaic.WholeStores.readAt_whole_unread harg2 off_zero, Idealize.ShloMosaic.WholeStores.readAt_whole_unread harg6 off_zero]

/-- and the output block receives the accumulator's copy. -/
theorem outLast_eq (c : Dev nD) (i : grid4.Coords) (arg2 : Memref sig .tc .vmem S512x512 .f32) (harg2 : arg2.IsWhole) (arg3 : Memref sig .tc .vmem S512x2048 .f32) (harg3 : arg3.IsWhole) (arg4 : Memref sig .tc .vmem S512x1 .f32) (harg4 : arg4.IsWhole) (arg5 : Memref sig .tc .vmem S2048x512 .f32) (harg5 : arg5.IsWhole) (arg6 : Memref sig .tc .vmem S2048x512 .f32) (harg6 : arg6.IsWhole) (hc0 : ¬isFirst i) (hc1 : isLast i) (x0 : Vec F S512x512 .f32) (x1 : Vec F S512x2048 .f32) (x2 : Vec F S512x1 .f32) (xs : Vec F S2048x512 .f32) :
    outLast c i arg2 harg2 arg3 harg3 arg4 harg4 arg5 harg5 arg6 harg6 hc0 hc1 x0 x1 x2 xs = k4_pay2 x1 x2 x0 xs := by
  unfold outLast
  rw [View.read_writes_eq_canon _ _ _ (coverOutLast c i arg2 harg2 arg3 harg3 arg4 harg4 arg5 harg5 arg6 harg6 hc0 hc1 x0 x1 x2 xs)]
  unfold runLast
  dsimp only
  sl_unfold_words
  rw [View.canon_unit_zero off_zero]
  rw [Idealize.ShloMosaic.WholeStores.readCov_whole_last _ off_zero]
  rw [Idealize.ShloMosaic.WholeStores.readAt_whole_unread harg3 off_zero, Idealize.ShloMosaic.WholeStores.readAt_whole_unread harg4 off_zero,
    Idealize.ShloMosaic.WholeStores.readAt_whole_unread harg2 off_zero, Idealize.ShloMosaic.WholeStores.readAt_whole_unread harg6 off_zero]

/-! ## The body's arithmetic at an index, at the exact values -/

/-- The zero fill. -/
theorem pay1_apply (p : Fin 2048) (q : Fin 512) : k4_pay1 (F := Ideal) (ix2 p q) = 0 := by
  unfold k4_pay1
  rw [shapeCast_self]
  exact Ideal.ofBits_zero_f32

/-- One partial product added to the accumulator: at `(p, q)` the accumulator's entry plus the sum over the block's 512
    contraction positions of (left block entry × gate entry) × right block entry. -/
theorem pay2_apply (v3 : Vec Ideal S512x2048 .f32) (v5 : Vec Ideal S512x1 .f32) (v10 : Vec Ideal S512x512 .f32)
    (v12 : Vec Ideal S2048x512 .f32) (p : Fin 2048) (q : Fin 512) :
    k4_pay2 (F := Ideal) v3 v5 v10 v12 (ix2 p q)
      = v12 (ix2 p q) + ∑ k : Fin 512, (v3 (ix2 k p) * v5 (ix2 k (0 : Fin 1))) * v10 (ix2 q k) := by
  unfold k4_pay2
  rw [shapeCast_self, shapeCast_self, shapeCast_self]
  show v12 (ix2 p q) + (matmul (F := Ideal) dot_S512x2048_S512x512_S2048x512_0_1_1_0_n_n none
      (truncf (F := Ideal) .bf16 (mulf (F := Ideal) v3 (broadcastTo S512x2048 v5 broadcasts_S512x1_S512x2048)) bitsLt_bf16_f32)
      (truncf (F := Ideal) .bf16 v10 bitsLt_bf16_f32) (constant (F := Ideal) S2048x512 .f32 0x00000000#32) : FVec Ideal S2048x512 .f32) (ix2 p q) = _
  refine congrArg (v12 (ix2 p q) + ·) ?_
  refine (Cert.Lib.CrossDot.matmul_zero_apply dot_S512x2048_S512x512_S2048x512_0_1_1_0_n_n_wf none _ _ p q).trans ?_
  refine Finset.sum_congr rfl fun k _ => ?_
  exact congrArg (fun z => (v3 (ix2 k p) * z) * v10 (ix2 q k)) (Cert.Lib.Keepdims.bcastCol_apply v5 broadcasts_S512x1_S512x2048 k p)

/-! ## The accumulation within a column block -/

section Accumulation

variable (V : (c : Dev nD) → (b : Ref sig .tc) → Buf (Elt Ideal) ((c : Thread nD τ).loc b)) (c : Dev nD)

/-- The three input blocks of point `t`, as arrays of extended reals. -/
abbrev blk0 (t : Fin cfg4.N) : S512x512.Idx → EReal := iblk V c 0 t
abbrev blk1 (t : Fin cfg4.N) : S512x2048.Idx → EReal := iblk V c 1 t
abbrev blk2 (t : Fin cfg4.N) : S512x1.Idx → EReal := iblk V c 2 t

/-- The partial product of point `t`'s three blocks at `(p, q)`. -/
def bp (t : Fin cfg4.N) (p : Fin 2048) (q : Fin 512) : EReal :=
  ∑ k : Fin 512, (blk1 V c t (ix2 k p) * blk2 V c t (ix2 k (0 : Fin 1))) * blk0 V c t (ix2 q k)

/-- The same over point numbers, zero past the grid. -/
def bpN (n : ℕ) (p : Fin 2048) (q : Fin 512) : EReal := if h : n < cfg4.N then bp V c ⟨n, h⟩ p q else 0

theorem bpN_of_lt (n : ℕ) (h : n < cfg4.N) (p : Fin 2048) (q : Fin 512) : bpN V c n p q = bp V c ⟨n, h⟩ p q := dif_pos h

theorem accAt_congr {n n' : ℕ} (e : n = n') (h : n < cfg4.N) (h' : n' < cfg4.N) : accAt V c n h = accAt V c n' h' := by
  subst e; rfl

/-- At a column block's first point the accumulator holds that point's partial product. -/
theorem acc_first (t : Fin cfg4.N) (h0 : t.val % 8 = 0) (p : Fin 2048) (q : Fin 512) :
    accAt V c t.val t.isLt (ix2 p q) = bp V c t p q := by
  have h1 : ¬t.val % 8 = 7 := by omega
  refine (congrFun ((accAt_first V c t h0 h1).trans (accFirst_eq (F := Ideal) c (grid4.coords t) (ms0 t) (hs0 t) (ms1 t) (hs1 t) (ms2 t) (hs2 t) (ms3 t) (hs3 t) accM (Memref.isWhole_whole _)
    ((isFirst_iff t).mpr h0) (fun h => h1 ((isLast_iff t).mp h)) (iblk V c 0 t) (iblk V c 1 t) (iblk V c 2 t))) (ix2 p q)).trans ?_
  refine (pay2_apply (iblk V c 1 t) (iblk V c 2 t) (iblk V c 0 t) (k4_pay1 (F := Ideal)) p q).trans ?_
  rw [pay1_apply, zero_add]
  rfl

/-- At every later point of the column block it holds what the point before left plus the point's partial product. -/
theorem acc_later (t : Fin cfg4.N) (h0 : ¬t.val % 8 = 0) (p : Fin 2048) (q : Fin 512) :
    accAt V c t.val t.isLt (ix2 p q)
      = accAt V c (t.val - 1) (Nat.lt_of_le_of_lt (Nat.sub_le _ _) t.isLt) (ix2 p q) + bp V c t p q := by
  by_cases h1 : t.val % 8 = 7
  · refine (congrFun ((accAt_last V c t h0 h1).trans (accLast_eq (F := Ideal) c (grid4.coords t) (ms0 t) (hs0 t) (ms1 t) (hs1 t) (ms2 t) (hs2 t) (ms3 t) (hs3 t) accM (Memref.isWhole_whole _)
      (fun h => h0 ((isFirst_iff t).mp h)) ((isLast_iff t).mpr h1) (iblk V c 0 t) (iblk V c 1 t) (iblk V c 2 t)
      (accAt V c (t.val - 1) (Nat.lt_of_le_of_lt (Nat.sub_le _ _) t.isLt)))) (ix2 p q)).trans ?_
    exact pay2_apply (iblk V c 1 t) (iblk V c 2 t) (iblk V c 0 t) (accAt V c (t.val - 1) (Nat.lt_of_le_of_lt (Nat.sub_le _ _) t.isLt)) p q
  · refine (congrFun ((accAt_mid V c t h0 h1).trans (accMid_eq (F := Ideal) c (grid4.coords t) (ms0 t) (hs0 t) (ms1 t) (hs1 t) (ms2 t) (hs2 t) (ms3 t) (hs3 t) accM (Memref.isWhole_whole _)
      (fun h => h0 ((isFirst_iff t).mp h)) (fun h => h1 ((isLast_iff t).mp h)) (iblk V c 0 t) (iblk V c 1 t) (iblk V c 2 t)
      (accAt V c (t.val - 1) (Nat.lt_of_le_of_lt (Nat.sub_le _ _) t.isLt)))) (ix2 p q)).trans ?_
    exact pay2_apply (iblk V c 1 t) (iblk V c 2 t) (iblk V c 0 t) (accAt V c (t.val - 1) (Nat.lt_of_le_of_lt (Nat.sub_le _ _) t.isLt)) p q

/-- THE INVARIANT: after contraction block `kb` of column block `mb` the accumulator holds the sum of the partial
    products of the column block's points so far. -/
theorem acc_sum (mb : ℕ) (p : Fin 2048) (q : Fin 512) :
    ∀ (kb : ℕ) (hkb : kb < 8) (h : 8 * mb + kb < cfg4.N),
      accAt V c (8 * mb + kb) h (ix2 p q) = ∑ j ∈ Finset.range (kb + 1), bpN V c (8 * mb + j) p q
  | 0, _, h => by
    rw [Finset.sum_range_one, bpN_of_lt V c _ h]
    exact acc_first V c ⟨8 * mb + 0, h⟩ (by show (8 * mb + 0) % 8 = 0; omega) p q
  | kb + 1, hkb, h => by
    have hprev : 8 * mb + kb < cfg4.N := by omega
    rw [Finset.sum_range_succ, ← acc_sum mb p q kb (by omega) hprev, bpN_of_lt V c _ h]
    refine (acc_later V c ⟨8 * mb + (kb + 1), h⟩ (by show ¬(8 * mb + (kb + 1)) % 8 = 0; omega) p q).trans ?_
    refine congrArg (· + bp V c ⟨8 * mb + (kb + 1), h⟩ p q) ?_
    exact congrFun (accAt_congr V c (by show 8 * mb + (kb + 1) - 1 = 8 * mb + kb; omega) _ hprev) (ix2 p q)

/-- The output block after a column block's last point holds the sum of the column block's eight partial products. -/
theorem out_sum (t : Fin cfg4.N) (h1 : t.val % 8 = 7) (p : Fin 2048) (q : Fin 512) :
    outAt V c t.val t.isLt (ix2 p q) = ∑ j ∈ Finset.range 8, bpN V c (8 * (t.val / 8) + j) p q := by
  have h0 : ¬t.val % 8 = 0 := by omega
  have hN : cfg4.N = 32 := N_4
  have ht := t.isLt
  have e7 : 8 * (t.val / 8) + 7 = t.val := by omega
  have h7 : 8 * (t.val / 8) + 7 < cfg4.N := by omega
  rw [← acc_sum V c (t.val / 8) p q 7 (by omega) h7]
  refine (congrFun ((outAt_last V c t h0 h1).trans (outLast_eq (F := Ideal) c (grid4.coords t) (ms0 t) (hs0 t) (ms1 t) (hs1 t) (ms2 t) (hs2 t) (ms3 t) (hs3 t) accM (Memref.isWhole_whole _)
      (fun h => h0 ((isFirst_iff t).mp h)) ((isLast_iff t).mpr h1) (iblk V c 0 t) (iblk V c 1 t) (iblk V c 2 t)
      (accAt V c (t.val - 1) (Nat.lt_of_le_of_lt (Nat.sub_le _ _) t.isLt)))) (ix2 p q)).trans ?_
  refine (pay2_apply (iblk V c 1 t) (iblk V c 2 t) (iblk V c 0 t) (accAt V c (t.val - 1) (Nat.lt_of_le_of_lt (Nat.sub_le _ _) t.isLt)) p q).trans ?_
  refine (acc_later V c t h0 p q).symm.trans ?_
  exact congrFun (accAt_congr V c e7.symm t.isLt h7) (ix2 p q)

end Accumulation

/-! ## The whole sum, and the output array -/

section Final

variable (V : (c : Dev nD) → (b : Ref sig .tc) → Buf (Elt Ideal) ((c : Thread nD τ).loc b)) (c : Dev nD)

/-- The first chained product on entry, the second gates as a column, and the third weight. -/
abbrev ct4 : Fin 4096 → Fin 2048 → EReal := fun p q => (V c main_v4 : S4096x2048.Idx → EReal) (ix2 p q)
abbrev col4 : Fin 4096 → EReal := fun n => (V c main_v3 : S4096x1.Idx → EReal) (ix2 n (0 : Fin 1))
abbrev w34 : Fin 2048 → Fin 4096 → EReal := fun p q => (V c main_arg3 : S2048x4096.Idx → EReal) (ix2 p q)

/-- The term of the contracted sum at position `n` for the result entry `(i, o)`, zero past the axis. -/
def term (i o : Fin 2048) (n : ℕ) : EReal :=
  if h : n < 4096 then (ct4 V c ⟨n, h⟩ i * col4 V c ⟨n, h⟩) * w34 V c o ⟨n, h⟩ else 0

theorem blk1_eq (t : Fin cfg4.N) (k : Fin 512) (p : Fin 2048) :
    blk1 V c t (ix2 k p) = ct4 V c ⟨512 * (t.val % 8) + k.val, OuterBlocks.kb_lt t k⟩ p :=
  OuterBlocks.iblk1_apply V c t k p
theorem blk2_eq (t : Fin cfg4.N) (k : Fin 512) :
    blk2 V c t (ix2 k (0 : Fin 1)) = col4 V c ⟨512 * (t.val % 8) + k.val, OuterBlocks.kb_lt t k⟩ :=
  OuterBlocks.iblk2_apply V c t k
theorem blk0_eq (t : Fin cfg4.N) (q k : Fin 512) :
    blk0 V c t (ix2 q k) = w34 V c ⟨512 * (t.val / 8) + q.val, OuterBlocks.mb_lt t q⟩ ⟨512 * (t.val % 8) + k.val, OuterBlocks.kb_lt t k⟩ :=
  OuterBlocks.iblk0_apply V c t q k

/-- A point's partial product is 512 consecutive terms of the contracted sum. -/
theorem bp_eq (t : Fin cfg4.N) (p : Fin 2048) (q : Fin 512) :
    bp V c t p q = ∑ k : Fin 512, term V c p ⟨512 * (t.val / 8) + q.val, OuterBlocks.mb_lt t q⟩ (512 * (t.val % 8) + k.val) := by
  unfold bp
  refine Finset.sum_congr rfl fun k _ => ?_
  rw [term, dif_pos (OuterBlocks.kb_lt t k), blk1_eq, blk2_eq, blk0_eq]

/-- The output block after a column block's last point, entry by entry: the whole contracted sum. -/
theorem out_apply (t : Fin cfg4.N) (h1 : t.val % 8 = 7) (p : Fin 2048) (q : Fin 512) :
    outAt V c t.val t.isLt (ix2 p q)
      = ∑ h2 : Fin 4096, (ct4 V c h2 p * col4 V c h2) * w34 V c ⟨512 * (t.val / 8) + q.val, OuterBlocks.mb_lt t q⟩ h2 := by
  have hN : cfg4.N = 32 := N_4
  have ht := t.isLt
  rw [out_sum V c t h1 p q]
  have hb : ∀ j ∈ Finset.range 8, bpN V c (8 * (t.val / 8) + j) p q
      = ∑ k : Fin 512, term V c p ⟨512 * (t.val / 8) + q.val, OuterBlocks.mb_lt t q⟩ (512 * j + k.val) := by
    intro j hj
    have hj' : j < 8 := Finset.mem_range.mp hj
    have hlt : 8 * (t.val / 8) + j < cfg4.N := by omega
    have d : (8 * (t.val / 8) + j) / 8 = t.val / 8 := by omega
    have m : (8 * (t.val / 8) + j) % 8 = j := by omega
    rw [bpN_of_lt V c _ hlt, bp_eq]
    refine Finset.sum_congr rfl fun k _ => ?_
    exact congr (congrArg (term V c p) (Fin.ext (by show 512 * ((8 * (t.val / 8) + j) / 8) + q.val = 512 * (t.val / 8) + q.val; rw [d])))
      (by show 512 * ((8 * (t.val / 8) + j) % 8) + k.val = 512 * j + k.val; rw [m])
  rw [Finset.sum_congr rfl hb, Cert.Lib.BlockedSum.sum_fin_blocks (term V c p ⟨512 * (t.val / 8) + q.val, OuterBlocks.mb_lt t q⟩) 8 512]
  show ∑ k : Fin 4096, term V c p ⟨512 * (t.val / 8) + q.val, OuterBlocks.mb_lt t q⟩ k.val = _
  refine Finset.sum_congr rfl fun h2 _ => ?_
  rw [term, dif_pos h2.isLt]

/-- The result array as one function of the arrays the region finds. -/
def G : S2048x2048.Idx → EReal := fun j =>
  ∑ h2 : Fin 4096, (ct4 V c h2 ⟨(j 0).val, idx2_lt0 j⟩ * col4 V c h2) * w34 V c ⟨(j 1).val, idx2_lt1 j⟩ h2

/-- The output array after the grid, whole. -/
theorem arr_djm : (Outer.dat V c).arrAt 3 cfg4.N = G V c :=
  OuterBlocks.final_of_out V c (G V c) fun t h7 p q => (out_apply V c t h7 p q).trans rfl

/-- THE SECOND CHAINED PRODUCT, entry by entry. -/
theorem final_djm (i o : Fin 2048) :
    ((Outer.dat V c).arrAt 3 cfg4.N : S2048x2048.Idx → EReal) (ix2 i o) = ∑ h2 : Fin 4096, (ct4 V c h2 i * col4 V c h2) * w34 V c o h2 := by
  rw [arr_djm]
  rfl

end Final

end Cert.KernelIdeal.OuterValues

end
-- ==== Proof.KernelIdealChainBridge.lean ====
/-
  The two chained products in the specification's terms. The first (region 3) contracts the second weight array, gated
  column by column by the first gate, with the first weight array: the inner stage. The second (region 4) contracts the
  inner stage, gated row by row by the second gate, with the third weight array: the folded form of the product of the six
  per-layer Jacobians.
-/
import proofs.«152103_j17360257810985_2_alg».proof.Proof.KernelIdealBridge
import proofs.«152103_j17360257810985_2_alg».proof.Proof.InnerValues
import proofs.«152103_j17360257810985_2_alg».proof.Proof.OuterValues

set_option maxRecDepth 16384

noncomputable section

namespace Cert.KernelIdeal.Bridge

open Cert.KernelIdeal Cert.KernelIdeal.Gen Cert.KernelIdeal.Whole
open Cert.Jac Cert.Lib.ChainLaw
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg) (c : Dev nD)

/-- Region 3 is entered with the launch's first two weight arrays and the first gate, so its output array — the array
    region 4 stages as its second operand — is the inner stage of the folded chain. -/
theorem ct_eq (h2 : Fin 4096) (i : Fin 2048) :
    (En4 m ρ c main_v4 : S4096x2048.Idx → EReal) (ix2 h2 i) = innerStage (w1s m c) (g1 (xs m c) (w1s m c)) (w2s m c) h2 i := by
  have e1 : (fun (p : Fin 4096) (q : Fin 2048) => (En3 m ρ c main_arg1 : S4096x2048.Idx → EReal) (ix2 p q)) = w1s m c := by
    funext p q; exact congrFun (En3_w1 m ρ c) (ix2 p q)
  have eg : (fun n : Fin 4096 => (En3 m ρ c main_v0_1 : S1x4096.Idx → EReal) (ix2 (0 : Fin 1) n)) = g1 (xs m c) (w1s m c) := by
    funext n; exact (congrFun (En3_gate m ρ c) (ix2 (0 : Fin 1) n)).trans (gate1_eq m ρ c n)
  have e2 : (fun (p q : Fin 4096) => (En3 m ρ c main_arg2 : S4096x4096.Idx → EReal) (ix2 p q)) = w2s m c := by
    funext p q; exact congrFun (En3_w2 m ρ c) (ix2 p q)
  refine (congrFun (En4_ct m ρ c) (ix2 h2 i)).trans ?_
  rw [InnerValues.final_ct (En3 m ρ) c h2 i, e1, eg, e2]

/-- The program's second result is the chain in its folded form: region 4 contracts the inner stage, gated by the second
    gate (which reaches it as a column), with the last weight array. -/
theorem djm_eq (i o : Fin 2048) :
    (W11 m ρ c main_v5 : S2048x2048.Idx → EReal) (ix2 i o) = djmFolded (xs m c) (w1s m c) (w2s m c) (w3s m c) i o := by
  have hsum : (∑ h2 : Fin 4096, (OuterValues.ct4 (En4 m ρ) c h2 i * OuterValues.col4 (En4 m ρ) c h2) * OuterValues.w34 (En4 m ρ) c o h2)
      = djmFolded (xs m c) (w1s m c) (w2s m c) (w3s m c) i o := by
    unfold djmFolded chainFolded
    refine Finset.sum_congr rfl fun h2 _ => ?_
    have e1 : OuterValues.ct4 (En4 m ρ) c h2 i = innerStage (w1s m c) (g1 (xs m c) (w1s m c)) (w2s m c) h2 i := ct_eq m ρ c h2 i
    have e2 : OuterValues.col4 (En4 m ρ) c h2 = g2 (xs m c) (w1s m c) (w2s m c) h2 := (En4_col m ρ c h2).trans (gate2_eq m ρ c h2)
    have e3 : OuterValues.w34 (En4 m ρ) c o h2 = w3s m c o h2 := congrFun (En4_w3 m ρ c) (ix2 o h2)
    rw [e1, e2, e3]
  exact ((congrFun (W11_djm m ρ c) (ix2 i o)).trans (OuterValues.final_djm (En4 m ρ) c i o)).trans hsum

end Cert.KernelIdeal.Bridge

end
-- ==== Proof.KernelTail.lean ====
/-
  The program's trailing host operations, read at an index, over the extended reals.

  After its kernel regions the program computes six of its results by host operations alone, in five stretches: the
  transposes of the three weight matrices, the two diagonal arrays built from the layers' masks (each mask, a
  1 × n row, is reshaped to a vector and handed to an outlined function that broadcasts it along the rows and
  selects it against zero by the comparison of the row number with the column number), and the identity array
  (the same comparison converted to a number). For an arbitrary valuation of the buffers before the stretches,
  each result is read here at an index as an entry of the argument it was computed from — a transposed entry, an
  entry of the diagonal array `diagM`, an entry of the identity array `eyeM` — and every buffer no stretch writes
  is shown to keep its contents.
-/
import proofs.«152103_j17360257810985_2_alg».proof.Proof.Gen.KernelIdeal.Regions
import proofs.«152103_j17360257810985_2_alg».proof.Proof.LibChainLaw
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Cert.KernelIdeal.Tail

open Idealize.ShloMosaic Idealize.ShloMosaic.TcCoe Idealize.ShloMosaic.ValueIdx Idealize.ShloMosaic.StableHlo
open Cert.KernelIdeal Cert.KernelIdeal.Gen Cert.Lib.ChainLaw

/-! ## The comparison of two iotas, the identity array and a diagonal array, at an index -/

/-- Two row or column numbers below `2 ^ 32`, written as 32-bit words (the first with a zero word added), compare
    equal exactly when they are the same number. -/
theorem iota_eq_word (a b : ℕ) (ha : a < 2 ^ 32) (hb : b < 2 ^ 32) :
    IntOp.cmpi .eq (IntOp.addi (BitVec.ofNat 32 a) 0#32) (BitVec.ofNat 32 b) = if a = b then 1#1 else 0#1 := by
  unfold IntOp.cmpi IntOp.addi
  by_cases h : a = b
  · subst h; simp
  · rw [if_neg h]
    have hne : BitVec.ofNat 32 a ≠ BitVec.ofNat 32 b := fun e => h (by
      have := congrArg BitVec.toNat e
      simp only [BitVec.toNat_ofNat] at this
      rwa [Nat.mod_eq_of_lt ha, Nat.mod_eq_of_lt hb] at this)
    have hbf : (BitVec.ofNat 32 a == BitVec.ofNat 32 b) = false := beq_eq_false_iff_ne.mpr hne
    simp [hbf]

section Square
variable {n : ℕ}

/-- The comparison of the row iota (plus a broadcast zero) with the column iota of an `n × n` array, at `(p, q)`:
    the one-bit word of `p = q`. -/
theorem eqMask_apply (hn : n ≤ 2 ^ 32) (hb0 : (⟨0, ![]⟩ : Shape).BroadcastsInDim ⟨2, ![n, n]⟩ ![]) (p q : Fin n) :
    cmpi .eq (addi (iotaInDim ⟨2, ![n, n]⟩ 32 0) (broadcastInDim ⟨2, ![n, n]⟩ ![] hb0 (constantI ⟨0, ![]⟩ 32 0#32)))
      (iotaInDim ⟨2, ![n, n]⟩ 32 1) (ix2 p q) = if p = q then 1#1 else 0#1 := by
  show IntOp.cmpi .eq (IntOp.addi (iotaInDim ⟨2, ![n, n]⟩ 32 0 (ix2 p q))
      (broadcastInDim ⟨2, ![n, n]⟩ ![] hb0 (constantI ⟨0, ![]⟩ 32 0#32) (ix2 p q))) (iotaInDim ⟨2, ![n, n]⟩ 32 1 (ix2 p q)) = _
  rw [iotaInDim_apply, iotaInDim_apply, broadcastInDim_scalar_apply, constantI_apply]
  show IntOp.cmpi .eq (IntOp.addi (BitVec.ofNat 32 p.val) 0#32) (BitVec.ofNat 32 q.val) = _
  rw [iota_eq_word p.val q.val (lt_of_lt_of_le p.isLt hn) (lt_of_lt_of_le q.isLt hn)]
  by_cases h : p = q
  · rw [if_pos h, if_pos (congrArg Fin.val h)]
  · rw [if_neg h, if_neg fun e => h (Fin.ext e)]

/-- The identity array as the program builds it (the equality mask converted to a number), at `(p, q)`. -/
theorem eye_apply (hn : n ≤ 2 ^ 32) (hb0 : (⟨0, ![]⟩ : Shape).BroadcastsInDim ⟨2, ![n, n]⟩ ![]) (p q : Fin n) :
    (uitofp .f32 (cmpi .eq (addi (iotaInDim ⟨2, ![n, n]⟩ 32 0) (broadcastInDim ⟨2, ![n, n]⟩ ![] hb0 (constantI ⟨0, ![]⟩ 32 0#32)))
      (iotaInDim ⟨2, ![n, n]⟩ 32 1)) : FVec Ideal ⟨2, ![n, n]⟩ .f32) (ix2 p q) = if p = q then (1 : EReal) else 0 := by
  show (((cmpi .eq (addi (iotaInDim ⟨2, ![n, n]⟩ 32 0) (broadcastInDim ⟨2, ![n, n]⟩ ![] hb0 (constantI ⟨0, ![]⟩ 32 0#32)))
      (iotaInDim ⟨2, ![n, n]⟩ 32 1) (ix2 p q)).toNat : ℝ) : EReal) = _
  rw [eqMask_apply hn hb0 p q]
  by_cases h : p = q
  · rw [if_pos h, if_pos h]; simp
  · rw [if_neg h, if_neg h]; simp

/-- The diagonal array as the program builds it — the vector (padded by nothing) broadcast along the rows, selected
    against a broadcast zero by the equality mask — at `(p, q)`: the vector's entry `p` on the diagonal, zero off it. -/
theorem diag_apply (hn : n ≤ 2 ^ 32) (v : (⟨1, ![n]⟩ : Shape).Idx → EReal)
    (hp : (⟨1, ![n]⟩ : Shape).Pads (![0] : Fin 1 → Nat) ![0] ![0] ⟨1, ![n]⟩) (hu : 0 < (⟨0, ![]⟩ : Shape).numel)
    (hb0 : (⟨0, ![]⟩ : Shape).BroadcastsInDim ⟨2, ![n, n]⟩ ![])
    (hb1 : (⟨1, ![n]⟩ : Shape).BroadcastsInDim ⟨2, ![n, 1]⟩ (![0] : Fin 1 → Fin 2))
    (hb2 : (⟨2, ![n, 1]⟩ : Shape).BroadcastsInDim ⟨2, ![n, n]⟩ (![0, 1] : Fin 2 → Fin 2)) (p q : Fin n) :
    select (cmpi .eq (addi (iotaInDim ⟨2, ![n, n]⟩ 32 0) (broadcastInDim ⟨2, ![n, n]⟩ ![] hb0 (constantI ⟨0, ![]⟩ 32 0#32)))
        (iotaInDim ⟨2, ![n, n]⟩ 32 1))
      (broadcastInDim ⟨2, ![n, n]⟩ ![0, 1] hb2 (broadcastInDim ⟨2, ![n, 1]⟩ ![0] hb1
        (pad ⟨1, ![n]⟩ ![0] ![0] ![0] v (constant (F := Ideal) ⟨0, ![]⟩ .f32 0x00000000#32) hp hu)))
      (broadcastInDim ⟨2, ![n, n]⟩ ![] hb0 (constant (F := Ideal) ⟨0, ![]⟩ .f32 0x00000000#32)) (ix2 p q)
      = if p = q then v (ix1 p) else 0 := by
  rw [select_apply, eqMask_apply hn hb0 p q]
  by_cases h : p = q
  · rw [if_pos h, if_pos h, select_one]
    rw [broadcastInDim_apply ![0, 1] hb2 _ (ix2 p q) (ix2 p (0 : Fin 1)) (fun a => by
      match a with
      | ⟨0, _⟩ =>
        show p.val = if n = 1 then 0 else p.val
        split
        · have := p.isLt; omega
        · rfl
      | ⟨1, _⟩ => rfl)]
    rw [broadcastInDim_apply ![0] hb1 _ (ix2 p (0 : Fin 1)) (ix1 p) (fun a => by
      match a with
      | ⟨0, _⟩ =>
        show p.val = if n = 1 then 0 else p.val
        split
        · have := p.isLt; omega
        · rfl)]
    exact pad_apply_of_inside ![0] ![0] ![0] v _ hp hu (ix1 p) (ix1 p) (fun a => by
      match a with
      | ⟨0, _⟩ => show p.val = 0 + p.val * (0 + 1); omega)
  · rw [if_neg h, if_neg h, select_zero, broadcastInDim_scalar_apply, constant_apply]
    exact Ideal.ofBits_zero_f32

end Square

/-! ## The five stretches -/

/-- A valuation of the program's buffers over the extended reals. -/
abbrev Vl : Type := Valuation τ sig (Elt Ideal)

/-- The five trailing stretches applied in program order. -/
def T (X : Vl) : Vl :=
  StableHlo.after (hostOps5_4 (F := Ideal)) (StableHlo.after (hostOps5_3 (F := Ideal)) (StableHlo.after (hostOps5_2 (F := Ideal))
    (StableHlo.after (hostOps5_1 (F := Ideal)) (StableHlo.after (hostOps5 (F := Ideal)) X))))

/-! ### Each stretch's results as the operations' terms -/

theorem s5_v6 (X : Vl) : (StableHlo.after (hostOps5 (F := Ideal)) X main_v6 : S2048x4096.Idx → EReal)
    = transpose S2048x4096 [1, 0] (X main_arg1 : S4096x2048.Idx → EReal) transposes_S4096x2048_S2048x4096_1_0 := by
  show StableHlo.after hostOps5 _ (Proc.devRef .tc main_v6) = _
  after_results

theorem s5_v7 (X : Vl) : (StableHlo.after (hostOps5 (F := Ideal)) X main_v7 : S4096.Idx → EReal)
    = shapeCast S4096 (X main_v0_1 : S1x4096.Idx → EReal) shapeCasts_S1x4096_S4096 := by
  show StableHlo.after hostOps5 _ (Proc.devRef .tc main_v7) = _
  after_results
  rfl

theorem s51_v8 (Y : Vl) : (StableHlo.after (hostOps5_1 (F := Ideal)) Y main_v8 : S4096x4096.Idx → EReal)
    = select (cmpi .eq (addi (iotaInDim S4096x4096 32 0) (broadcastInDim S4096x4096 ![] bcast_S_S4096x4096 (constantI S_ 32 0#32)))
        (iotaInDim S4096x4096 32 1))
      (broadcastInDim S4096x4096 ![0, 1] bcast_S4096x1_S4096x4096_0_1 (broadcastInDim S4096x1 ![0] bcast_S4096_S4096x1_0
        (pad S4096 ![0] ![0] ![0] (Y main_v7 : S4096.Idx → EReal) (constant (F := Ideal) S_ .f32 0x00000000#32) pads_S4096_S4096_000 h_S_)))
      (broadcastInDim S4096x4096 ![] bcast_S_S4096x4096 (constant (F := Ideal) S_ .f32 0x00000000#32)) := by
  show StableHlo.after hostOps5_1 _ (Proc.devRef .tc main_v8) = _
  after_results
  rfl

theorem s52_v9 (Y : Vl) : (StableHlo.after (hostOps5_2 (F := Ideal)) Y main_v9 : S4096x4096.Idx → EReal)
    = transpose S4096x4096 [1, 0] (Y main_arg2 : S4096x4096.Idx → EReal) transposes_S4096x4096_S4096x4096_1_0 := by
  show StableHlo.after hostOps5_2 _ (Proc.devRef .tc main_v9) = _
  after_results

theorem s52_v10 (Y : Vl) : (StableHlo.after (hostOps5_2 (F := Ideal)) Y main_v10 : S4096.Idx → EReal)
    = shapeCast S4096 (Y main_v1_1 : S1x4096.Idx → EReal) shapeCasts_S1x4096_S4096 := by
  show StableHlo.after hostOps5_2 _ (Proc.devRef .tc main_v10) = _
  after_results
  rfl

theorem s53_v11 (Y : Vl) : (StableHlo.after (hostOps5_3 (F := Ideal)) Y main_v11 : S4096x4096.Idx → EReal)
    = select (cmpi .eq (addi (iotaInDim S4096x4096 32 0) (broadcastInDim S4096x4096 ![] bcast_S_S4096x4096 (constantI S_ 32 0#32)))
        (iotaInDim S4096x4096 32 1))
      (broadcastInDim S4096x4096 ![0, 1] bcast_S4096x1_S4096x4096_0_1 (broadcastInDim S4096x1 ![0] bcast_S4096_S4096x1_0
        (pad S4096 ![0] ![0] ![0] (Y main_v10 : S4096.Idx → EReal) (constant (F := Ideal) S_ .f32 0x00000000#32) pads_S4096_S4096_000 h_S_)))
      (broadcastInDim S4096x4096 ![] bcast_S_S4096x4096 (constant (F := Ideal) S_ .f32 0x00000000#32)) := by
  show StableHlo.after hostOps5_3 _ (Proc.devRef .tc main_v11) = _
  after_results
  rfl

theorem s54_v12 (Y : Vl) : (StableHlo.after (hostOps5_4 (F := Ideal)) Y main_v12 : S4096x2048.Idx → EReal)
    = transpose S4096x2048 [1, 0] (Y main_arg3 : S2048x4096.Idx → EReal) transposes_S2048x4096_S4096x2048_1_0 := by
  show StableHlo.after hostOps5_4 _ (Proc.devRef .tc main_v12) = _
  after_results

theorem s54_v18 (Y : Vl) : (StableHlo.after (hostOps5_4 (F := Ideal)) Y main_v18 : S2048x2048.Idx → EReal)
    = (uitofp .f32 (cmpi .eq (addi (iotaInDim S2048x2048 32 0) (broadcastInDim S2048x2048 ![] bcast_S_S2048x2048 (constantI S_ 32 0#32)))
        (iotaInDim S2048x2048 32 1)) : FVec Ideal S2048x2048 .f32) := by
  show StableHlo.after hostOps5_4 _ (Proc.devRef .tc main_v18) = _
  after_results

/-! ### A buffer a stretch does not write keeps its contents -/

theorem of5 (X : Vl) (r : Ref sig .tc) (h : r ∉ hostOps5_W) : StableHlo.after (hostOps5 (F := Ideal)) X r = X r :=
  StableHlo.after_of_writes_sub hostOps5 _ hostOps5_writes h
theorem of51 (X : Vl) (r : Ref sig .tc) (h : r ∉ hostOps5_1_W) : StableHlo.after (hostOps5_1 (F := Ideal)) X r = X r :=
  StableHlo.after_of_writes_sub hostOps5_1 _ hostOps5_1_writes h
theorem of52 (X : Vl) (r : Ref sig .tc) (h : r ∉ hostOps5_2_W) : StableHlo.after (hostOps5_2 (F := Ideal)) X r = X r :=
  StableHlo.after_of_writes_sub hostOps5_2 _ hostOps5_2_writes h
theorem of53 (X : Vl) (r : Ref sig .tc) (h : r ∉ hostOps5_3_W) : StableHlo.after (hostOps5_3 (F := Ideal)) X r = X r :=
  StableHlo.after_of_writes_sub hostOps5_3 _ hostOps5_3_writes h
theorem of54 (X : Vl) (r : Ref sig .tc) (h : r ∉ hostOps5_4_W) : StableHlo.after (hostOps5_4 (F := Ideal)) X r = X r :=
  StableHlo.after_of_writes_sub hostOps5_4 _ hostOps5_4_writes h

/-- A buffer none of the five stretches writes is, after them, as it was before. -/
theorem T_of (X : Vl) (r : Ref sig .tc) (h0 : r ∉ hostOps5_W) (h1 : r ∉ hostOps5_1_W) (h2 : r ∉ hostOps5_2_W)
    (h3 : r ∉ hostOps5_3_W) (h4 : r ∉ hostOps5_4_W) : T X r = X r :=
  (of54 _ r h4).trans <| (of53 _ r h3).trans <| (of52 _ r h2).trans <| (of51 _ r h1).trans <| of5 X r h0

theorem T_main_arg0 (X : Vl) : T X main_arg0 = X main_arg0 := T_of X _ (by decide) (by decide) (by decide) (by decide) (by decide)
theorem T_main_arg1 (X : Vl) : T X main_arg1 = X main_arg1 := T_of X _ (by decide) (by decide) (by decide) (by decide) (by decide)
theorem T_main_arg2 (X : Vl) : T X main_arg2 = X main_arg2 := T_of X _ (by decide) (by decide) (by decide) (by decide) (by decide)
theorem T_main_arg3 (X : Vl) : T X main_arg3 = X main_arg3 := T_of X _ (by decide) (by decide) (by decide) (by decide) (by decide)
theorem T_main_v0_1 (X : Vl) : T X main_v0_1 = X main_v0_1 := T_of X _ (by decide) (by decide) (by decide) (by decide) (by decide)
theorem T_main_v1_1 (X : Vl) : T X main_v1_1 = X main_v1_1 := T_of X _ (by decide) (by decide) (by decide) (by decide) (by decide)
theorem T_main_v2 (X : Vl) : T X main_v2 = X main_v2 := T_of X _ (by decide) (by decide) (by decide) (by decide) (by decide)
theorem T_main_v5 (X : Vl) : T X main_v5 = X main_v5 := T_of X _ (by decide) (by decide) (by decide) (by decide) (by decide)

/-! ### The six results at an index -/

/-- The first Jacobian is the first weight matrix transposed. -/
theorem T_main_v6 (X : Vl) (i : Fin 2048) (h : Fin 4096) :
    (T X main_v6 : S2048x4096.Idx → EReal) (ix2 i h) = (X main_arg1 : S4096x2048.Idx → EReal) (ix2 h i) := by
  have e : (T X main_v6 : S2048x4096.Idx → EReal) = StableHlo.after (hostOps5 (F := Ideal)) X main_v6 :=
    (of54 _ main_v6 (by decide)).trans <| (of53 _ main_v6 (by decide)).trans <| (of52 _ main_v6 (by decide)).trans <|
      of51 _ main_v6 (by decide)
  rw [e, s5_v6]
  exact transpose_ix2_apply _ _ i h

/-- The second Jacobian is the diagonal array of the first mask. -/
theorem T_main_v8 (X : Vl) (p q : Fin 4096) :
    (T X main_v8 : S4096x4096.Idx → EReal) (ix2 p q)
      = diagM (fun n : Fin 4096 => (X main_v0_1 : S1x4096.Idx → EReal) (ix2 (0 : Fin 1) n)) p q := by
  have e : (T X main_v8 : S4096x4096.Idx → EReal)
      = StableHlo.after (hostOps5_1 (F := Ideal)) (StableHlo.after (hostOps5 (F := Ideal)) X) main_v8 :=
    (of54 _ main_v8 (by decide)).trans <| (of53 _ main_v8 (by decide)).trans <| of52 _ main_v8 (by decide)
  rw [e, s51_v8, diag_apply (by norm_num) _ _ _ _ _ _ p q, s5_v7, shapeCast_1a_a_apply]
  rfl

/-- The third Jacobian is the second weight matrix transposed. -/
theorem T_main_v9 (X : Vl) (p q : Fin 4096) :
    (T X main_v9 : S4096x4096.Idx → EReal) (ix2 p q) = (X main_arg2 : S4096x4096.Idx → EReal) (ix2 q p) := by
  have e : (T X main_v9 : S4096x4096.Idx → EReal)
      = StableHlo.after (hostOps5_2 (F := Ideal)) (StableHlo.after (hostOps5_1 (F := Ideal)) (StableHlo.after (hostOps5 (F := Ideal)) X)) main_v9 :=
    (of54 _ main_v9 (by decide)).trans <| of53 _ main_v9 (by decide)
  have a : (StableHlo.after (hostOps5_1 (F := Ideal)) (StableHlo.after (hostOps5 (F := Ideal)) X) main_arg2 : S4096x4096.Idx → EReal)
      = X main_arg2 := (of51 _ main_arg2 (by decide)).trans (of5 X main_arg2 (by decide))
  rw [e, s52_v9, a]
  exact transpose_ix2_apply _ _ p q

/-- The fourth Jacobian is the diagonal array of the second mask. -/
theorem T_main_v11 (X : Vl) (p q : Fin 4096) :
    (T X main_v11 : S4096x4096.Idx → EReal) (ix2 p q)
      = diagM (fun n : Fin 4096 => (X main_v1_1 : S1x4096.Idx → EReal) (ix2 (0 : Fin 1) n)) p q := by
  have e : (T X main_v11 : S4096x4096.Idx → EReal)
      = StableHlo.after (hostOps5_3 (F := Ideal)) (StableHlo.after (hostOps5_2 (F := Ideal))
          (StableHlo.after (hostOps5_1 (F := Ideal)) (StableHlo.after (hostOps5 (F := Ideal)) X))) main_v11 :=
    of54 _ main_v11 (by decide)
  have a : (StableHlo.after (hostOps5_1 (F := Ideal)) (StableHlo.after (hostOps5 (F := Ideal)) X) main_v1_1 : S1x4096.Idx → EReal)
      = X main_v1_1 := (of51 _ main_v1_1 (by decide)).trans (of5 X main_v1_1 (by decide))
  rw [e, s53_v11, diag_apply (by norm_num) _ _ _ _ _ _ p q, s52_v10, shapeCast_1a_a_apply, a]
  rfl

/-- The fifth Jacobian is the third weight matrix transposed. -/
theorem T_main_v12 (X : Vl) (h : Fin 4096) (o : Fin 2048) :
    (T X main_v12 : S4096x2048.Idx → EReal) (ix2 h o) = (X main_arg3 : S2048x4096.Idx → EReal) (ix2 o h) := by
  have a : (StableHlo.after (hostOps5_3 (F := Ideal)) (StableHlo.after (hostOps5_2 (F := Ideal))
      (StableHlo.after (hostOps5_1 (F := Ideal)) (StableHlo.after (hostOps5 (F := Ideal)) X))) main_arg3 : S2048x4096.Idx → EReal)
      = X main_arg3 :=
    (of53 _ main_arg3 (by decide)).trans <| (of52 _ main_arg3 (by decide)).trans <| (of51 _ main_arg3 (by decide)).trans <|
      of5 X main_arg3 (by decide)
  show (StableHlo.after (hostOps5_4 (F := Ideal)) _ main_v12 : S4096x2048.Idx → EReal) (ix2 h o) = _
  rw [s54_v12, a]
  exact transpose_ix2_apply _ _ h o

/-- The sixth Jacobian is the identity array. -/
theorem T_main_v18 (X : Vl) (p q : Fin 2048) : (T X main_v18 : S2048x2048.Idx → EReal) (ix2 p q) = eyeM p q := by
  show (StableHlo.after (hostOps5_4 (F := Ideal)) _ main_v18 : S2048x2048.Idx → EReal) (ix2 p q) = _
  rw [s54_v18, eye_apply (by norm_num) _ p q]
  rfl

end Cert.KernelIdeal.Tail

end
-- ==== Proof.KernelIdealTailBridge.lean ====
/-
  The six per-layer Jacobians among the program's results, in the specification's terms: the three transposed weight
  arrays, the two diagonal arrays of the gates, the identity array. The five trailing host stretches compute them from the
  launch's weight arrays and the two gate rows, which reach them untouched.
-/
import proofs.«152103_j17360257810985_2_alg».proof.Proof.KernelIdealBridge
import proofs.«152103_j17360257810985_2_alg».proof.Proof.KernelTail

set_option maxRecDepth 16384

noncomputable section

namespace Cert.KernelIdeal.Bridge

open Cert.KernelIdeal Cert.KernelIdeal.Gen Cert.KernelIdeal.Whole
open Cert.Jac Cert.Lib.ChainLaw
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg) (c : Dev nD)

/-- The last boundary's contents are the five trailing stretches applied to the contents after the last region. -/
theorem W11_eq_T : W11 m ρ c = Tail.T (W6 m ρ c) := rfl

/-- The first Jacobian is the first weight array transposed. -/
theorem j1_eq (i : Fin 2048) (h : Fin 4096) : (W11 m ρ c main_v6 : S2048x4096.Idx → EReal) (ix2 i h) = w1s m c h i := by
  show (Tail.T (W6 m ρ c) main_v6 : S2048x4096.Idx → EReal) (ix2 i h) = _
  rw [Tail.T_main_v6]
  exact congrFun (W6_arg m ρ c main_arg1 (Or.inl rfl)) (ix2 h i)

/-- The second is the diagonal array of the first gate. -/
theorem j2_eq (p q : Fin 4096) : (W11 m ρ c main_v8 : S4096x4096.Idx → EReal) (ix2 p q) = diagM (g1 (xs m c) (w1s m c)) p q := by
  show (Tail.T (W6 m ρ c) main_v8 : S4096x4096.Idx → EReal) (ix2 p q) = _
  rw [Tail.T_main_v8]
  refine congrArg (fun v => diagM v p q) (funext fun n => ?_)
  exact (congrFun (W6_gate1 m ρ c) (ix2 (0 : Fin 1) n)).trans (gate1_eq m ρ c n)

/-- The third is the second weight array transposed. -/
theorem j3_eq (p q : Fin 4096) : (W11 m ρ c main_v9 : S4096x4096.Idx → EReal) (ix2 p q) = w2s m c q p := by
  show (Tail.T (W6 m ρ c) main_v9 : S4096x4096.Idx → EReal) (ix2 p q) = _
  rw [Tail.T_main_v9]
  exact congrFun (W6_arg m ρ c main_arg2 (Or.inr (Or.inl rfl))) (ix2 q p)

/-- The fourth is the diagonal array of the second gate. -/
theorem j4_eq (p q : Fin 4096) : (W11 m ρ c main_v11 : S4096x4096.Idx → EReal) (ix2 p q) = diagM (g2 (xs m c) (w1s m c) (w2s m c)) p q := by
  show (Tail.T (W6 m ρ c) main_v11 : S4096x4096.Idx → EReal) (ix2 p q) = _
  rw [Tail.T_main_v11]
  refine congrArg (fun v => diagM v p q) (funext fun n => ?_)
  exact (congrFun (W6_gate2 m ρ c) (ix2 (0 : Fin 1) n)).trans (gate2_eq m ρ c n)

/-- The fifth is the third weight array transposed. -/
theorem j5_eq (h : Fin 4096) (o : Fin 2048) : (W11 m ρ c main_v12 : S4096x2048.Idx → EReal) (ix2 h o) = w3s m c o h := by
  show (Tail.T (W6 m ρ c) main_v12 : S4096x2048.Idx → EReal) (ix2 h o) = _
  rw [Tail.T_main_v12]
  exact congrFun (W6_arg m ρ c main_arg3 (Or.inr (Or.inr rfl))) (ix2 o h)

/-- The sixth is the identity array. -/
theorem j6_eq (p q : Fin 2048) : (W11 m ρ c main_v18 : S2048x2048.Idx → EReal) (ix2 p q) = eyeM p q := by
  show (Tail.T (W6 m ρ c) main_v18 : S2048x2048.Idx → EReal) (ix2 p q) = _
  exact Tail.T_main_v18 _ p q

end Cert.KernelIdeal.Bridge

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.RefRead.lean ====
/-
  The reference's results read at an index.

  Each of the eight composed terms of the reference's run, read at literal coordinates, in terms of the shared
  specification of the network: the output row is the three-layer forward pass, the transposes read the weight
  matrices with their coordinates exchanged, the two diagonal matrices carry the gates of the two hidden layers, the
  last factor is the identity matrix, and the product of the six is the left-nested chain of matrix products.

  The steps: a transpose with permutation [1, 0] exchanges the coordinates; a plain matrix product read at (p, q) is
  the sum over the contracted coordinate; the gate row is the comparison with a broadcast zero, its bit read as a
  number; flattening a one-row matrix keeps the column coordinate; the diagonal function selects, where the row and
  column coordinates agree as 32-bit words (they do exactly when they are equal, both being below 2 ^ 32), the
  vector's entry at the row — reached through two broadcasts and a padding of width zero — and zero elsewhere.
-/
import proofs.«152103_j17360257810985_2_alg».proof.Proof.RefRun
import proofs.«152103_j17360257810985_2_alg».proof.Proof.JacSpec
import proofs.«152103_j17360257810985_2_alg».proof.Proof.LibPlainDot
import proofs.«152103_j17360257810985_2_alg».proof.Proof.LibMergeRows
import Idealize.ShloMosaic.Lib.KernelVsHost
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx Cert.Lib.ChainLaw
open scoped BigOperators

/-- The input row as a family over its free coordinate. -/
def rowOf (a0 : A0) : Fin 2048 → EReal := fun k => a0 (ix2 (0 : Fin 1) k)
/-- A matrix as a family over its two coordinates. -/
def matOf {r c : ℕ} (a : FVec Ideal ⟨2, ![r, c]⟩ .f32) : Fin r → Fin c → EReal := fun p q => a (ix2 p q)

/-! ## The transposes -/

theorem T1_apply (a1 : A1) (i : Fin 2048) (h : Fin 4096) : T1 a1 (ix2 i h) = a1 (ix2 h i) :=
  Cert.Lib.MergeRows.transpose_apply a1 transposes_S4096x2048_S2048x4096_1_0 i h
theorem T2_apply (a2 : A2) (p q : Fin 4096) : T2 a2 (ix2 p q) = a2 (ix2 q p) :=
  Cert.Lib.MergeRows.transpose_apply a2 transposes_S4096x4096_S4096x4096_1_0 p q
theorem T3_apply (a3 : A3) (h : Fin 4096) (o : Fin 2048) : T3 a3 (ix2 h o) = a3 (ix2 o h) :=
  Cert.Lib.MergeRows.transpose_apply a3 transposes_S2048x4096_S4096x2048_1_0 h o

theorem R2_read (a0 : A0) (a1 : A1) (a2 : A2) (a3 : A3) (i : Fin 2048) (h : Fin 4096) :
    R2 a0 a1 a2 a3 (ix2 i h) = a1 (ix2 h i) := T1_apply a1 i h
theorem R11_read (a0 : A0) (a1 : A1) (a2 : A2) (a3 : A3) (p q : Fin 4096) :
    R11 a0 a1 a2 a3 (ix2 p q) = a2 (ix2 q p) := T2_apply a2 p q
theorem R20_read (a0 : A0) (a1 : A1) (a2 : A2) (a3 : A3) (h : Fin 4096) (o : Fin 2048) :
    R20 a0 a1 a2 a3 (ix2 h o) = a3 (ix2 o h) := T3_apply a3 h o

/-! ## Two coordinates compared as 32-bit words -/

/-- Two coordinates below 2 ^ 32, as 32-bit words (the first with the zero word added), are equal words exactly when
    they are equal. -/
theorem eqBit {n : ℕ} (hn : n ≤ 2 ^ 32) (p q : Fin n) :
    IntOp.cmpi .eq (IntOp.addi (BitVec.ofNat 32 p.val) 0#32) (BitVec.ofNat 32 q.val) = if p = q then 1#1 else 0#1 := by
  have hp : p.val < 2 ^ 32 := lt_of_lt_of_le p.isLt hn
  have hq : q.val < 2 ^ 32 := lt_of_lt_of_le q.isLt hn
  unfold IntOp.cmpi IntOp.addi
  rw [BitVec.add_zero]
  by_cases h : p = q
  · subst h
    simp
  · rw [if_neg h]
    have hne : (BitVec.ofNat 32 p.val == BitVec.ofNat 32 q.val) = false := by
      rw [beq_eq_false_iff_ne]
      intro e
      have e' := congrArg BitVec.toNat e
      rw [BitVec.toNat_ofNat, BitVec.toNat_ofNat, Nat.mod_eq_of_lt hp, Nat.mod_eq_of_lt hq] at e'
      exact h (Fin.ext e')
    simp [hne]

/-- The identity matrix: the bit of "row equals column" read as a number. -/
theorem R26_read (a0 : A0) (a1 : A1) (a2 : A2) (a3 : A3) (p q : Fin 2048) :
    R26 a0 a1 a2 a3 (ix2 p q) = eyeM p q := by
  unfold R26 eyeM
  show (((IntOp.cmpi .eq (IntOp.addi (BitVec.ofNat 32 p.val)
      (broadcastInDim S2048x2048 ![] bcast_S_S2048x2048 (constantI S_ 32 0#32) (ix2 p q))) (BitVec.ofNat 32 q.val)).toNat : ℝ) : EReal) = _
  rw [broadcastInDim_apply ![] bcast_S_S2048x2048 _ (ix2 p q) ix0 (fun a => a.elim0)]
  show (((IntOp.cmpi .eq (IntOp.addi (BitVec.ofNat 32 p.val) 0#32) (BitVec.ofNat 32 q.val)).toNat : ℝ) : EReal) = _
  rw [eqBit (by norm_num) p q]
  by_cases h : p = q
  · rw [if_pos h, if_pos h]; simp
  · rw [if_neg h, if_neg h]; simp

/-! ## The matrix products -/

/-- A plain product of two matrices, as families: the product of the families. -/
theorem dot_matOf {a c b : ℕ} (wf : DotDims.WF ⟨2, ![a, c]⟩ ⟨2, ![c, b]⟩ ⟨2, ![a, b]⟩ [1] [0] [0] [1] [] [])
    (L : FVec Ideal ⟨2, ![a, c]⟩ .f32) (R : FVec Ideal ⟨2, ![c, b]⟩ .f32) :
    matOf (Host.dotGeneral (Cert.Lib.PlainDot.dims wf) none L R) = mm (matOf L) (matOf R) := by
  funext p q
  exact Cert.Lib.PlainDot.dotGeneral_apply wf none L R p q

/-! ## The gate -/

/-- The gate row at a coordinate is the gate of the pre-activation there. -/
theorem gateRow_apply (z : FVec Ideal S1x4096 .f32) (n : Fin 4096) :
    gateRow z (ix2 (0 : Fin 1) n) = Cert.Jac.gate (z (ix2 (0 : Fin 1) n)) := by
  unfold gateRow zeroRow Cert.Jac.gate
  show (((Ideal.cmp .ogt (z (ix2 (0 : Fin 1) n))
      (broadcastInDim S1x4096 ![] bcast_S_S1x4096 (constant (F := Ideal) S_ .f32 0x00000000#32) (ix2 (0 : Fin 1) n))).toNat : ℝ) : EReal) = _
  rw [broadcastInDim_apply ![] bcast_S_S1x4096 _ (ix2 (0 : Fin 1) n) ix0 (fun a => a.elim0), constant_apply, Ideal.ofBits_zero_f32]

/-- A one-row matrix flattened keeps its column coordinate. -/
theorem flat_apply (g : FVec Ideal S1x4096 .f32) (p : Fin 4096) : flat g (ix1 p) = g (ix2 (0 : Fin 1) p) :=
  shapeCast_apply g shapeCasts_S1x4096_S4096 (ix1 p) (ix2 (0 : Fin 1) p) (by
    rw [Shape.rowMajor_val_two, Shape.rowMajor_val_one]
    show (0 : ℕ) * 4096 + p.val = p.val
    omega)

/-! ## The forward pass -/

theorem Z1_apply (a0 : A0) (a1 : A1) (n : Fin 4096) :
    Z1 a0 a1 (ix2 (0 : Fin 1) n) = Cert.Jac.z1 (rowOf a0) (matOf a1) n := by
  unfold Z1
  refine (Cert.Lib.PlainDot.dotGeneral_apply dot_S1x2048_S2048x4096_S1x4096_1_0_0_1_n_n_wf none a0 (T1 a1) (0 : Fin 1) n).trans ?_
  show _ = ∑ k : Fin 2048, rowOf a0 k * matOf a1 n k
  exact Finset.sum_congr rfl fun k _ => by rw [T1_apply]; rfl

theorem G1_apply (a0 : A0) (a1 : A1) (n : Fin 4096) :
    G1 a0 a1 (ix2 (0 : Fin 1) n) = Cert.Jac.g1 (rowOf a0) (matOf a1) n := by
  unfold G1
  rw [gateRow_apply, Z1_apply]
  rfl

theorem H1_apply (a0 : A0) (a1 : A1) (n : Fin 4096) :
    H1 a0 a1 (ix2 (0 : Fin 1) n) = Cert.Jac.h1 (rowOf a0) (matOf a1) n := by
  unfold H1
  rw [mulf_apply, Z1_apply, G1_apply]
  rfl

theorem Z2_apply (a0 : A0) (a1 : A1) (a2 : A2) (n : Fin 4096) :
    Z2 a0 a1 a2 (ix2 (0 : Fin 1) n) = Cert.Jac.z2 (rowOf a0) (matOf a1) (matOf a2) n := by
  unfold Z2
  refine (Cert.Lib.PlainDot.dotGeneral_apply dot_S1x4096_S4096x4096_S1x4096_1_0_0_1_n_n_wf none (H1 a0 a1) (T2 a2) (0 : Fin 1) n).trans ?_
  show _ = ∑ k : Fin 4096, Cert.Jac.h1 (rowOf a0) (matOf a1) k * matOf a2 n k
  exact Finset.sum_congr rfl fun k _ => by rw [T2_apply, H1_apply]; rfl

theorem G2_apply (a0 : A0) (a1 : A1) (a2 : A2) (n : Fin 4096) :
    G2 a0 a1 a2 (ix2 (0 : Fin 1) n) = Cert.Jac.g2 (rowOf a0) (matOf a1) (matOf a2) n := by
  unfold G2
  rw [gateRow_apply, Z2_apply]
  rfl

theorem H2_apply (a0 : A0) (a1 : A1) (a2 : A2) (n : Fin 4096) :
    H2 a0 a1 a2 (ix2 (0 : Fin 1) n) = Cert.Jac.h2 (rowOf a0) (matOf a1) (matOf a2) n := by
  unfold H2
  rw [mulf_apply, Z2_apply, G2_apply]
  rfl

/-- The output row is the network's forward pass. -/
theorem R19_read (a0 : A0) (a1 : A1) (a2 : A2) (a3 : A3) (q : Fin 2048) :
    R19 a0 a1 a2 a3 (ix2 (0 : Fin 1) q) = Cert.Jac.out (rowOf a0) (matOf a1) (matOf a2) (matOf a3) q := by
  unfold R19
  refine (Cert.Lib.PlainDot.dotGeneral_apply dot_S1x4096_S4096x2048_S1x2048_1_0_0_1_n_n_wf none (H2 a0 a1 a2) (T3 a3) (0 : Fin 1) q).trans ?_
  show _ = ∑ k : Fin 4096, Cert.Jac.h2 (rowOf a0) (matOf a1) (matOf a2) k * matOf a3 q k
  exact Finset.sum_congr rfl fun k _ => by rw [T3_apply, H2_apply]; rfl

/-! ## The diagonal matrices -/

/-- The diagonal function's matrix: the vector's entry at the row where the two coordinates agree, zero elsewhere. -/
theorem diagOf_apply (v : FVec Ideal S4096 .f32) (p q : Fin 4096) :
    diagOf v (ix2 p q) = if p = q then v (ix1 p) else 0 := by
  unfold diagOf
  rw [select_apply]
  have hc : cmpi .eq (addi (iotaInDim S4096x4096 32 0) (broadcastInDim S4096x4096 ![] bcast_S_S4096x4096 (constantI S_ 32 0#32)))
      (iotaInDim S4096x4096 32 1) (ix2 p q) = if p = q then 1#1 else 0#1 := by
    show IntOp.cmpi .eq (IntOp.addi (BitVec.ofNat 32 p.val)
      (broadcastInDim S4096x4096 ![] bcast_S_S4096x4096 (constantI S_ 32 0#32) (ix2 p q))) (BitVec.ofNat 32 q.val) = _
    rw [broadcastInDim_apply ![] bcast_S_S4096x4096 _ (ix2 p q) ix0 (fun a => a.elim0)]
    exact eqBit (by norm_num) p q
  have hA : broadcastInDim S4096x4096 ![0, 1] bcast_S4096x1_S4096x4096_0_1
      (broadcastInDim S4096x1 ![0] bcast_S4096_S4096x1_0
        (pad S4096 ![0] ![0] ![0] v (constant S_ .f32 0x00000000#32 : FVec Ideal S_ .f32) pads_S4096_S4096_000 h_S_)) (ix2 p q)
      = v (ix1 p) := by
    rw [broadcastInDim_apply ![0, 1] bcast_S4096x1_S4096x4096_0_1 _ (ix2 p q) (ix2 p (0 : Fin 1)) (fun a => by
      match a with
      | ⟨0, _⟩ => rfl
      | ⟨1, _⟩ => rfl)]
    rw [broadcastInDim_apply ![0] bcast_S4096_S4096x1_0 _ (ix2 p (0 : Fin 1)) (ix1 p) (fun a => by
      match a with
      | ⟨0, _⟩ => rfl)]
    exact pad_apply_of_inside ![0] ![0] ![0] v _ pads_S4096_S4096_000 h_S_ (ix1 p) (ix1 p) (fun a => by
      match a with
      | ⟨0, _⟩ =>
        show p.val = 0 + p.val * (0 + 1)
        omega)
  have hB : broadcastInDim S4096x4096 ![] bcast_S_S4096x4096 (constant S_ .f32 0x00000000#32 : FVec Ideal S_ .f32) (ix2 p q) = 0 := by
    rw [broadcastInDim_apply ![] bcast_S_S4096x4096 _ (ix2 p q) ix0 (fun a => a.elim0), constant_apply, Ideal.ofBits_zero_f32]
  rw [hc, hA, hB]
  by_cases h : p = q
  · rw [if_pos h, if_pos h, select_one]
  · rw [if_neg h, if_neg h, select_zero]

/-- The second Jacobian is the diagonal matrix of the first layer's gate. -/
theorem R8_read (a0 : A0) (a1 : A1) (a2 : A2) (a3 : A3) (p q : Fin 4096) :
    R8 a0 a1 a2 a3 (ix2 p q) = diagM (Cert.Jac.g1 (rowOf a0) (matOf a1)) p q := by
  unfold R8 diagM
  rw [diagOf_apply, flat_apply, G1_apply]

/-- The fourth Jacobian is the diagonal matrix of the second layer's gate. -/
theorem R17_read (a0 : A0) (a1 : A1) (a2 : A2) (a3 : A3) (p q : Fin 4096) :
    R17 a0 a1 a2 a3 (ix2 p q) = diagM (Cert.Jac.g2 (rowOf a0) (matOf a1) (matOf a2)) p q := by
  unfold R17 diagM
  rw [diagOf_apply, flat_apply, G2_apply]

/-! ## The chain -/

theorem R2_matOf (a0 : A0) (a1 : A1) (a2 : A2) (a3 : A3) : matOf (R2 a0 a1 a2 a3) = tr (matOf a1) := by
  funext i h; exact R2_read a0 a1 a2 a3 i h
theorem R8_matOf (a0 : A0) (a1 : A1) (a2 : A2) (a3 : A3) : matOf (R8 a0 a1 a2 a3) = diagM (Cert.Jac.g1 (rowOf a0) (matOf a1)) := by
  funext p q; exact R8_read a0 a1 a2 a3 p q
theorem R11_matOf (a0 : A0) (a1 : A1) (a2 : A2) (a3 : A3) : matOf (R11 a0 a1 a2 a3) = tr (matOf a2) := by
  funext p q; exact R11_read a0 a1 a2 a3 p q
theorem R17_matOf (a0 : A0) (a1 : A1) (a2 : A2) (a3 : A3) :
    matOf (R17 a0 a1 a2 a3) = diagM (Cert.Jac.g2 (rowOf a0) (matOf a1) (matOf a2)) := by
  funext p q; exact R17_read a0 a1 a2 a3 p q
theorem R20_matOf (a0 : A0) (a1 : A1) (a2 : A2) (a3 : A3) : matOf (R20 a0 a1 a2 a3) = tr (matOf a3) := by
  funext h o; exact R20_read a0 a1 a2 a3 h o
theorem R26_matOf (a0 : A0) (a1 : A1) (a2 : A2) (a3 : A3) : matOf (R26 a0 a1 a2 a3) = eyeM := by
  funext p q; exact R26_read a0 a1 a2 a3 p q

/-- The three plain products of the chain's shapes, as families. -/
theorem dotA_matOf (L : FVec Ideal S2048x4096 .f32) (R : FVec Ideal S4096x4096 .f32) :
    matOf (Host.dotGeneral dot_S2048x4096_S4096x4096_S2048x4096_1_0_0_1_n_n none L R) = mm (matOf L) (matOf R) :=
  dot_matOf dot_S2048x4096_S4096x4096_S2048x4096_1_0_0_1_n_n_wf L R
theorem dotB_matOf (L : FVec Ideal S2048x4096 .f32) (R : FVec Ideal S4096x2048 .f32) :
    matOf (Host.dotGeneral dot_S2048x4096_S4096x2048_S2048x2048_1_0_0_1_n_n none L R) = mm (matOf L) (matOf R) :=
  dot_matOf dot_S2048x4096_S4096x2048_S2048x2048_1_0_0_1_n_n_wf L R
theorem dotC_matOf (L : FVec Ideal S2048x2048 .f32) (R : FVec Ideal S2048x2048 .f32) :
    matOf (Host.dotGeneral dot_S2048x2048_S2048x2048_S2048x2048_1_0_0_1_n_n none L R) = mm (matOf L) (matOf R) :=
  dot_matOf dot_S2048x2048_S2048x2048_S2048x2048_1_0_0_1_n_n_wf L R

/-- The product of the six Jacobians is the left-nested chain of the specification. -/
theorem R31_matOf (a0 : A0) (a1 : A1) (a2 : A2) (a3 : A3) :
    matOf (R31 a0 a1 a2 a3) = Cert.Jac.djmNested (rowOf a0) (matOf a1) (matOf a2) (matOf a3) := by
  unfold R31 Cert.Jac.djmNested chainNested
  rw [dotC_matOf, dotB_matOf, dotA_matOf, dotA_matOf, dotA_matOf, R2_matOf, R8_matOf, R11_matOf, R17_matOf, R20_matOf, R26_matOf]

theorem R31_read (a0 : A0) (a1 : A1) (a2 : A2) (a3 : A3) (i o : Fin 2048) :
    R31 a0 a1 a2 a3 (ix2 i o) = Cert.Jac.djmNested (rowOf a0) (matOf a1) (matOf a2) (matOf a3) i o :=
  congrFun (congrFun (R31_matOf a0 a1 a2 a3) i) o

end Cert.ReferenceIdeal.RefValue

end
-- ==== Proof.Pairing.lean ====
/-
  The reference's eight results against the kernel program's, at the exact instance: the network's output; the product of
  the six per-layer Jacobians, which the reference multiplies left to right and the kernel computes in two stages with the
  gates folded in (equal by the chain law, on all extended reals); and the six Jacobians themselves, which both programs
  compute by the same host operations from the same gates and weights.
-/
import proofs.«152103_j17360257810985_2_alg».proof.Proof.KernelIdealChainBridge
import proofs.«152103_j17360257810985_2_alg».proof.Proof.KernelIdealTailBridge
import proofs.«152103_j17360257810985_2_alg».proof.Proof.RefRead
import proofs.«152103_j17360257810985_2_alg».proof.Defs

set_option maxRecDepth 16384

noncomputable section

namespace Cert.Proof.Pairing

open Cert.KernelIdeal Cert.KernelIdeal.Gen Cert.KernelIdeal.Whole Cert.KernelIdeal.Bridge
open Cert.Jac Cert.Lib.ChainLaw
open Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-- The launch's four argument arrays. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)

/-- The product of the six per-layer Jacobians, left-nested, equals its folded two-stage form: collapsing a diagonal or
    identity factor only uses `x * 0 = 0` and a sum of zeros, and the two forms keep their sums in the same places, so the
    law holds on all extended reals. -/
theorem djm_law {I H O : ℕ} (x : Fin I → EReal) (W1 : Fin H → Fin I → EReal) (W2 : Fin H → Fin H → EReal) (W3 : Fin O → Fin H → EReal) :
    djmNested x W1 W2 W3 = djmFolded x W1 W2 W3 := by
  unfold djmNested djmFolded
  exact chainNested_eq_chainFolded_of_any _ _ _ _ _

theorem pair_out : Cert.ReferenceIdeal.RefValue.R19 (a0 m c) (a1 m c) (a2 m c) (a3 m c) = W11 m ρ c main_v2 := by
  funext j
  obtain ⟨p, q, rfl⟩ : ∃ (p : Fin 1) (q : Fin 2048), j = ix2 p q := ⟨j 0, j 1, eq_ix2 j⟩
  obtain rfl : p = 0 := Subsingleton.elim _ _
  rw [Cert.ReferenceIdeal.RefValue.R19_read]
  exact (out_eq m ρ c q).symm

theorem pair_djm : Cert.ReferenceIdeal.RefValue.R31 (a0 m c) (a1 m c) (a2 m c) (a3 m c) = W11 m ρ c main_v5 := by
  funext j
  obtain ⟨i, o, rfl⟩ : ∃ (i o : Fin 2048), j = ix2 i o := ⟨j 0, j 1, eq_ix2 j⟩
  rw [Cert.ReferenceIdeal.RefValue.R31_read, djm_law]
  exact (djm_eq m ρ c i o).symm

theorem pair_j1 : Cert.ReferenceIdeal.RefValue.R2 (a0 m c) (a1 m c) (a2 m c) (a3 m c) = W11 m ρ c main_v6 := by
  funext j
  obtain ⟨i, h, rfl⟩ : ∃ (i : Fin 2048) (h : Fin 4096), j = ix2 i h := ⟨j 0, j 1, eq_ix2 j⟩
  rw [Cert.ReferenceIdeal.RefValue.R2_read]
  exact (j1_eq m ρ c i h).symm

theorem pair_j2 : Cert.ReferenceIdeal.RefValue.R8 (a0 m c) (a1 m c) (a2 m c) (a3 m c) = W11 m ρ c main_v8 := by
  funext j
  obtain ⟨p, q, rfl⟩ : ∃ (p q : Fin 4096), j = ix2 p q := ⟨j 0, j 1, eq_ix2 j⟩
  rw [Cert.ReferenceIdeal.RefValue.R8_read]
  exact (j2_eq m ρ c p q).symm

theorem pair_j3 : Cert.ReferenceIdeal.RefValue.R11 (a0 m c) (a1 m c) (a2 m c) (a3 m c) = W11 m ρ c main_v9 := by
  funext j
  obtain ⟨p, q, rfl⟩ : ∃ (p q : Fin 4096), j = ix2 p q := ⟨j 0, j 1, eq_ix2 j⟩
  rw [Cert.ReferenceIdeal.RefValue.R11_read]
  exact (j3_eq m ρ c p q).symm

theorem pair_j4 : Cert.ReferenceIdeal.RefValue.R17 (a0 m c) (a1 m c) (a2 m c) (a3 m c) = W11 m ρ c main_v11 := by
  funext j
  obtain ⟨p, q, rfl⟩ : ∃ (p q : Fin 4096), j = ix2 p q := ⟨j 0, j 1, eq_ix2 j⟩
  rw [Cert.ReferenceIdeal.RefValue.R17_read]
  exact (j4_eq m ρ c p q).symm

theorem pair_j5 : Cert.ReferenceIdeal.RefValue.R20 (a0 m c) (a1 m c) (a2 m c) (a3 m c) = W11 m ρ c main_v12 := by
  funext j
  obtain ⟨h, o, rfl⟩ : ∃ (h : Fin 4096) (o : Fin 2048), j = ix2 h o := ⟨j 0, j 1, eq_ix2 j⟩
  rw [Cert.ReferenceIdeal.RefValue.R20_read]
  exact (j5_eq m ρ c h o).symm

theorem pair_j6 : Cert.ReferenceIdeal.RefValue.R26 (a0 m c) (a1 m c) (a2 m c) (a3 m c) = W11 m ρ c main_v18 := by
  funext j
  obtain ⟨p, q, rfl⟩ : ∃ (p q : Fin 2048), j = ix2 p q := ⟨j 0, j 1, eq_ix2 j⟩
  rw [Cert.ReferenceIdeal.RefValue.R26_read]
  exact (j6_eq m ρ c p q).symm

/-- At the exact instance the kernel program and the reference, run from memories agreeing on the four arguments, both
    run to the end with equal results: the kernel's eight result arrays are the last boundary's contents of its fold, and
    each of the reference's eight terms is that array, index by index. Nothing here uses the finiteness of the inputs. -/
theorem algebraic : Cert.algebraic_KernelIdeal_ReferenceIdeal := by
  intro m g m' g' _ hagree
  refine ⟨fun c => W11 m g c main_v2, fun c => W11 m g c main_v5, fun c => W11 m g c main_v6, fun c => W11 m g c main_v8,
    fun c => W11 m g c main_v9, fun c => W11 m g c main_v11, fun c => W11 m g c main_v12, fun c => W11 m g c main_v18, ?_, ?_⟩
  · exact (θ_run Cert.KernelIdeal.defs _ _).mono (fun r h c =>
      ⟨h c _ (mem_uc main_v2 (by decide)), h c _ (mem_uc main_v5 (by decide)), h c _ (mem_uc main_v6 (by decide)),
       h c _ (mem_uc main_v8 (by decide)), h c _ (mem_uc main_v9 (by decide)), h c _ (mem_uc main_v11 (by decide)),
       h c _ (mem_uc main_v12 (by decide)), h c _ (mem_uc main_v18 (by decide)),
       (h c _ (mem_uc main_arg0 (by decide))).trans (W11_main_arg0 m g c),
       (h c _ (mem_uc main_arg1 (by decide))).trans (W11_main_arg1 m g c),
       (h c _ (mem_uc main_arg2 (by decide))).trans (W11_main_arg2 m g c),
       (h c _ (mem_uc main_arg3 (by decide))).trans (W11_main_arg3 m g c)⟩) (run_all m g)
  · refine (θ_run Cert.ReferenceIdeal.defs _ _).mono (fun r h c => ?_) (Cert.ReferenceIdeal.RefValue.run m' g')
    obtain ⟨⟨e19, e31, e2, e8, e11, e17, e20, e26⟩, hargs⟩ := h c
    obtain ⟨ha0, ha1, ha2, ha3⟩ := hagree c
    rw [ha0, ha1, ha2, ha3] at e19 e31 e2 e8 e11 e17 e20 e26
    exact ⟨e19.trans (pair_out m g c), e31.trans (pair_djm m g c), e2.trans (pair_j1 m g c), e8.trans (pair_j2 m g c),
      e11.trans (pair_j3 m g c), e17.trans (pair_j4 m g c), e20.trans (pair_j5 m g c), e26.trans (pair_j6 m g c),
      hargs.1, hargs.2.1, hargs.2.2.1, hargs.2.2.2⟩

end Cert.Proof.Pairing

end
-- ==== Proof.lean ====
/-
  The kernel — three forward layers and two chained matrix products in five kernel regions, with host operations between
  and after them — against its reference, a three-layer network at batch one with its per-layer Jacobians and their
  product. Each program runs to the end and leaves its four arguments unchanged: the kernel program's run is the
  composition of its eleven segments, each region's body obligation met point by point (the two product regions carry a
  scratch accumulator from point to point), the reference's the fold of its host operations. The idealization rewrote no
  operation. At the exact instance the eight results agree index by index: the forward pass and the six Jacobians are
  the same sums and the same host operations on both sides, and the product of the Jacobians, nested on one side and
  folded into two gated contractions on the other, is one function by the chain law.
-/
import proofs.«152103_j17360257810985_2_alg».proof.Defs
import proofs.«152103_j17360257810985_2_alg».proof.Proof.Gen.Kernel
import proofs.«152103_j17360257810985_2_alg».proof.Proof.Gen.KernelIdeal
import proofs.«152103_j17360257810985_2_alg».proof.Proof.Gen.ReferenceIdeal
import proofs.«152103_j17360257810985_2_alg».proof.Proof.Gen.Pre_finite_inputs
import proofs.«152103_j17360257810985_2_alg».proof.Proof.KernelEnds
import proofs.«152103_j17360257810985_2_alg».proof.Proof.KernelIdealEnds
import proofs.«152103_j17360257810985_2_alg».proof.Proof.RefRun
import proofs.«152103_j17360257810985_2_alg».proof.Proof.Pairing
import Idealize.ShloMosaic.Adequacy
import Idealize.ShloMosaic.Init

noncomputable section

namespace Cert.Proof

open Idealize.ShloMosaic Idealize.SL.Sem

theorem frame_kernel : Cert.frame_Kernel := fun m ρ _ => Cert.Kernel.Whole.frame m ρ
theorem frame_kernel_ideal : Cert.frame_KernelIdeal := fun m ρ _ => Cert.KernelIdeal.Whole.frame m ρ
theorem frame_reference_ideal : Cert.frame_ReferenceIdeal := Cert.ReferenceIdeal.RefValue.frame_ri
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, Cert.Proof.Pairing.algebraic⟩

end Cert.Proof

end
